-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v127_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S50000x128 .f32) (main_arg1 : IVec S2x1600000 32) (main_arg2 : FVec F S3x128x128 .f32) (main_arg3 : FVec F S3x128 .f32) (main_arg4 : FVec F S3x128x128 .f32) (main_arg5 : FVec F S3x128 .f32) (main_arg6 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S50000x128 : Shape := ⟨2, ![50000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S5000x1 : Shape := ⟨2, ![5000, 1]⟩

abbrev nBuf : Space → Nat
  | .hbm => 173
  | .vmem => 69
  | .smem => 0
  | _ => 0

abbrev hbmTy0_0 (i : Nat) : BufTy := match i % 128 with
  | 0 => ⟨S50000x128, .f32⟩
  | 1 => ⟨S2x1600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S50000, .f32⟩
  | 15 => ⟨S1600000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S50000x1, .f32⟩
  | 31 => ⟨S50000x128, .bf16⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .bf16⟩
  | 41 => ⟨S1600000x128, .f32⟩
  | 42 => ⟨S_, .f32⟩
  | 43 => ⟨S50000x128, .f32⟩
  | 44 => ⟨S1600000x1, .i32⟩
  | 45 => ⟨S50000x128, .f32⟩
  | 46 => ⟨S1x128x128, .f32⟩
  | 47 => ⟨S128x128, .f32⟩
  | 48 => ⟨S1x128, .f32⟩
  | 49 => ⟨S128, .f32⟩
  | 50 => ⟨S1x128x128, .f32⟩
  | 51 => ⟨S128x128, .f32⟩
  | 52 => ⟨S1x128, .f32⟩
  | 53 => ⟨S50000x128, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S1x128, .f32⟩
  | 77 => ⟨S50000x128, .f32⟩
  | 78 => ⟨S50000x128, .bf16⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .bf16⟩
  | 88 => ⟨S1600000x128, .f32⟩
  | 89 => ⟨S_, .f32⟩
  | 90 => ⟨S50000x128, .f32⟩
  | 91 => ⟨S1600000x1, .i32⟩
  | 92 => ⟨S50000x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S1x128, .f32⟩
  | 100 => ⟨S50000x128, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S1x128, .f32⟩
  | 124 => ⟨S50000x128, .f32⟩
  | 125 => ⟨S50000x128, .bf16⟩
  | 126 => ⟨S_, .i32⟩
  | 127 => ⟨S1600000, .i32⟩
  | _ => ⟨S50000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x128, .bf16⟩
  | 7 => ⟨S1600000x128, .f32⟩
  | 8 => ⟨S_, .f32⟩
  | 9 => ⟨S50000x128, .f32⟩
  | 10 => ⟨S1600000x1, .i32⟩
  | 11 => ⟨S50000x128, .f32⟩
  | 12 => ⟨S1x128x128, .f32⟩
  | 13 => ⟨S128x128, .f32⟩
  | 14 => ⟨S1x128, .f32⟩
  | 15 => ⟨S128, .f32⟩
  | 16 => ⟨S1x128x128, .f32⟩
  | 17 => ⟨S128x128, .f32⟩
  | 18 => ⟨S1x128, .f32⟩
  | 19 => ⟨S50000x128, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S_, .f32⟩
  | 34 => ⟨S1x128, .f32⟩
  | 35 => ⟨S1x128, .f32⟩
  | 36 => ⟨S1x128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S1x128, .f32⟩
  | 43 => ⟨S50000x128, .f32⟩
  | 44 => ⟨S50000x128, .bf16⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .bf16⟩
  | .local _ .vmem, ⟨22, _⟩ => ⟨S5000x128, .bf16⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .bf16⟩
  | .local _ .vmem, ⟨45, _⟩ => ⟨S5000x128, .bf16⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x1, .f32⟩
  | .local _ .vmem, ⟨51, _⟩ => ⟨S5000x1, .f32⟩
  | .local _ .vmem, ⟨52, _⟩ => ⟨S128x128, .f32⟩
  | .local _ .vmem, ⟨53, _⟩ => ⟨S1x128, .f32⟩
  | .local _ .vmem, ⟨54, _⟩ => ⟨S128x128, .f32⟩
  | .local _ .vmem, ⟨55, _⟩ => ⟨S5000x128, .f32⟩
  | .local _ .vmem, ⟨56, _⟩ => ⟨S5000x128, .f32⟩
  | .local _ .vmem, ⟨57, _⟩ => ⟨S1x128, .f32⟩
  | .local _ .vmem, ⟨58, _⟩ => ⟨S1x128, .f32⟩
  | .local _ .vmem, ⟨59, _⟩ => ⟨S5000x128, .f32⟩
  | .local _ .vmem, ⟨60, _⟩ => ⟨S5000x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S5000x128, .f32⟩
  | .local _ .vmem, ⟨66, _⟩ => ⟨S5000x128, .f32⟩
  | .local _ .vmem, ⟨67, _⟩ => ⟨S5000x128, .bf16⟩
  | .local _ .vmem, ⟨68, _⟩ => ⟨S5000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev main_v35_2 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53_0 : Ref sig .tc := ⟨.hbm, 77, rfl⟩
abbrev main_v53_1 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72_0 : Ref sig .tc := ⟨.hbm, 100, rfl⟩
abbrev main_v72_1 : Ref sig .tc := ⟨.hbm, 101, rfl⟩
abbrev main_v72_2 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_cst_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90_0 : Ref sig .tc := ⟨.hbm, 124, rfl⟩
abbrev main_v90_1 : Ref sig .tc := ⟨.hbm, 125, rfl⟩
abbrev main_c_18 : Ref sig .tc := ⟨.hbm, 126, rfl⟩
abbrev main_v91 : Ref sig .tc := ⟨.hbm, 127, rfl⟩
abbrev main_v92 : Ref sig .tc := ⟨.hbm, 128, rfl⟩
abbrev main_c_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109_0 : Ref sig .tc := ⟨.hbm, 147, rfl⟩
abbrev main_v109_1 : Ref sig .tc := ⟨.hbm, 148, rfl⟩
abbrev main_v109_2 : Ref sig .tc := ⟨.hbm, 149, rfl⟩
abbrev main_cst_21 : Ref sig .tc := ⟨.hbm, 150, rfl⟩
abbrev main_v110 : Ref sig .tc := ⟨.hbm, 151, rfl⟩
abbrev main_v111 : Ref sig .tc := ⟨.hbm, 152, rfl⟩
abbrev main_cst_22 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_23 : Ref sig .tc := ⟨.hbm, 158, rfl⟩
abbrev main_v116 : Ref sig .tc := ⟨.hbm, 159, rfl⟩
abbrev main_v117 : Ref sig .tc := ⟨.hbm, 160, rfl⟩
abbrev main_cst_24 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127_0 : Ref sig .tc := ⟨.hbm, 171, rfl⟩
abbrev main_v127_1 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg8_0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg6_1 : Ref sig .tc := ⟨.vmem, 56, rfl⟩
abbrev cc4_stg7_0 : Ref sig .tc := ⟨.vmem, 57, rfl⟩
abbrev cc4_stg8_0 : Ref sig .tc := ⟨.vmem, 58, rfl⟩
abbrev cc5_stg0_0 : Ref sig .tc := ⟨.vmem, 59, rfl⟩
abbrev cc5_stg0_1 : Ref sig .tc := ⟨.vmem, 60, rfl⟩
abbrev cc5_stg1_0 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg5_0 : Ref sig .tc := ⟨.vmem, 65, rfl⟩
abbrev cc5_stg5_1 : Ref sig .tc := ⟨.vmem, 66, rfl⟩
abbrev cc5_stg6_0 : Ref sig .tc := ⟨.vmem, 67, rfl⟩
abbrev cc5_stg6_1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem8_0 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc3_sem6_0 : DmaSem sig := 44
abbrev cc3_sem6_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem6_1 : DmaSem sig := 56
abbrev cc4_sem7_0 : DmaSem sig := 57
abbrev cc4_sem8_0 : DmaSem sig := 58
abbrev cc5_sem0_0 : DmaSem sig := 59
abbrev cc5_sem0_1 : DmaSem sig := 60
abbrev cc5_sem1_0 : DmaSem sig := 61
abbrev cc5_sem2_0 : DmaSem sig := 62
abbrev cc5_sem3_0 : DmaSem sig := 63
abbrev cc5_sem4_0 : DmaSem sig := 64
abbrev cc5_sem5_0 : DmaSem sig := 65
abbrev cc5_sem5_1 : DmaSem sig := 66
abbrev cc5_sem6_0 : DmaSem sig := 67
abbrev cc5_sem6_1 : DmaSem sig := 68

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bitsLt_bf16_f32 : FTy.bits .bf16 < FTy.bits .f32
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  packedbf16_S5000x128_S5000x128_0_0 : (Rect.unit (s := S5000x128) ![0, 0] S5000x128.size inb_S5000x128_S5000x128_0_0).PackedRows (EltTy.packing .bf16)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .bf16 = 32 ∨ (Rect.block (s := S50000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .bf16 = 32 ∨ (Rect.block (s := S50000x128) S5000x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .bf16 = 32 ∨ (Rect.block (s := S50000x128) S5000x128.size (cc5_transform_6 i) (hinb5_6 i)).WholeWords (EltTy.packing .bf16)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v35_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v35_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v53_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v72_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v72_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v72_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v90_1) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v101) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v103) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v107) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v109_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v109_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v109_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v109_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v120) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v125) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v126) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v127_1) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 271
  | .vmem => 0
  | .smem => 0
  | _ => 0

abbrev hbmTy0_0 (i : Nat) : BufTy := match i % 128 with
  | 0 => ⟨S50000x128, .f32⟩
  | 1 => ⟨S2x1600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S50000, .f32⟩
  | 15 => ⟨S1600000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S50000x1, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S50000x128, .f32⟩
  | 42 => ⟨S1600000x1, .i32⟩
  | 43 => ⟨S50000x128, .f32⟩
  | 44 => ⟨S50000x128, .f32⟩
  | 45 => ⟨S50000x128, .f32⟩
  | 46 => ⟨S1x128x128, .f32⟩
  | 47 => ⟨S128x128, .f32⟩
  | 48 => ⟨S128x128, .f32⟩
  | 49 => ⟨S50000x128, .f32⟩
  | 50 => ⟨S1x128, .f32⟩
  | 51 => ⟨S128, .f32⟩
  | 52 => ⟨S1x128, .f32⟩
  | 53 => ⟨S50000x128, .f32⟩
  | 54 => ⟨S50000x128, .f32⟩
  | 55 => ⟨S1x128x128, .f32⟩
  | 56 => ⟨S128x128, .f32⟩
  | 57 => ⟨S128x128, .f32⟩
  | 58 => ⟨S50000x128, .f32⟩
  | 59 => ⟨S50000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S_, .f32⟩
  | 121 => ⟨S50000x128, .f32⟩
  | 122 => ⟨S1600000x1, .i32⟩
  | 123 => ⟨S50000x128, .f32⟩
  | 124 => ⟨S50000x128, .f32⟩
  | 125 => ⟨S50000x128, .f32⟩
  | 126 => ⟨S1x128x128, .f32⟩
  | 127 => ⟨S128x128, .f32⟩
  | _ => ⟨S50000x128, .f32⟩

abbrev hbmTy0_1 (i : Nat) : BufTy := match i % 128 with
  | 0 => ⟨S128x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S1x128x128, .f32⟩
  | 8 => ⟨S128x128, .f32⟩
  | 9 => ⟨S128x128, .f32⟩
  | 10 => ⟨S50000x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S50000x128, .f32⟩
  | 25 => ⟨S50000x128, .f32⟩
  | 26 => ⟨S50000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S50000x128, .f32⟩
  | 74 => ⟨S1600000x1, .i32⟩
  | 75 => ⟨S50000x128, .f32⟩
  | 76 => ⟨S50000x128, .f32⟩
  | 77 => ⟨S50000x128, .f32⟩
  | 78 => ⟨S1x128x128, .f32⟩
  | 79 => ⟨S128x128, .f32⟩
  | 80 => ⟨S128x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S1x128x128, .f32⟩
  | 88 => ⟨S128x128, .f32⟩
  | 89 => ⟨S128x128, .f32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S128, .f32⟩
  | 126 => ⟨S128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_cst_1 : Ref sig .tc := ⟨.hbm, 76, rfl⟩
abbrev main_call1_v8 : Ref sig .tc := ⟨.hbm, 77, rfl⟩
abbrev main_call1_cst_2 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_cst_3 : Ref sig .tc := ⟨.hbm, 82, rfl⟩
abbrev main_call1_v12 : Ref sig .tc := ⟨.hbm, 83, rfl⟩
abbrev main_call1_cst_4 : Ref sig .tc := ⟨.hbm, 84, rfl⟩
abbrev main_call1_call0_v0 : Ref sig .tc := ⟨.hbm, 85, rfl⟩
abbrev main_call1_call0_v1 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_10 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_call2_cst : Ref sig .tc := ⟨.hbm, 108, rfl⟩
abbrev main_call2_v0 : Ref sig .tc := ⟨.hbm, 109, rfl⟩
abbrev main_v65 : Ref sig .tc := ⟨.hbm, 110, rfl⟩
abbrev main_c_11 : Ref sig .tc := ⟨.hbm, 111, rfl⟩
abbrev main_v66 : Ref sig .tc := ⟨.hbm, 112, rfl⟩
abbrev main_v67 : Ref sig .tc := ⟨.hbm, 113, rfl⟩
abbrev main_c_12 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_14 : Ref sig .tc := ⟨.hbm, 140, rfl⟩
abbrev main_v92 : Ref sig .tc := ⟨.hbm, 141, rfl⟩
abbrev main_cst_15 : Ref sig .tc := ⟨.hbm, 142, rfl⟩
abbrev main_v93 : Ref sig .tc := ⟨.hbm, 143, rfl⟩
abbrev main_v94 : Ref sig .tc := ⟨.hbm, 144, rfl⟩
abbrev main_c_16 : Ref sig .tc := ⟨.hbm, 145, rfl⟩
abbrev main_call3_cst : Ref sig .tc := ⟨.hbm, 146, rfl⟩
abbrev main_call3_v0 : Ref sig .tc := ⟨.hbm, 147, rfl⟩
abbrev main_call3_v1 : Ref sig .tc := ⟨.hbm, 148, rfl⟩
abbrev main_call3_cst_0 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_call3_v5 : Ref sig .tc := ⟨.hbm, 153, rfl⟩
abbrev main_call3_v6 : Ref sig .tc := ⟨.hbm, 154, rfl⟩
abbrev main_call3_v7 : Ref sig .tc := ⟨.hbm, 155, rfl⟩
abbrev main_call3_cst_1 : Ref sig .tc := ⟨.hbm, 156, rfl⟩
abbrev main_call3_v8 : Ref sig .tc := ⟨.hbm, 157, rfl⟩
abbrev main_call3_cst_2 : Ref sig .tc := ⟨.hbm, 158, rfl⟩
abbrev main_call3_v9 : Ref sig .tc := ⟨.hbm, 159, rfl⟩
abbrev main_call3_v10 : Ref sig .tc := ⟨.hbm, 160, rfl⟩
abbrev main_call3_v11 : Ref sig .tc := ⟨.hbm, 161, rfl⟩
abbrev main_call3_cst_3 : Ref sig .tc := ⟨.hbm, 162, rfl⟩
abbrev main_call3_v12 : Ref sig .tc := ⟨.hbm, 163, rfl⟩
abbrev main_call3_cst_4 : Ref sig .tc := ⟨.hbm, 164, rfl⟩
abbrev main_call3_call0_v0 : Ref sig .tc := ⟨.hbm, 165, rfl⟩
abbrev main_call3_call0_v1 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_cst_17 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_call4_cst : Ref sig .tc := ⟨.hbm, 188, rfl⟩
abbrev main_call4_v0 : Ref sig .tc := ⟨.hbm, 189, rfl⟩
abbrev main_v115 : Ref sig .tc := ⟨.hbm, 190, rfl⟩
abbrev main_c_18 : Ref sig .tc := ⟨.hbm, 191, rfl⟩
abbrev main_v116 : Ref sig .tc := ⟨.hbm, 192, rfl⟩
abbrev main_v117 : Ref sig .tc := ⟨.hbm, 193, rfl⟩
abbrev main_c_19 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_cst_20 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_cst_21 : Ref sig .tc := ⟨.hbm, 220, rfl⟩
abbrev main_v142 : Ref sig .tc := ⟨.hbm, 221, rfl⟩
abbrev main_cst_22 : Ref sig .tc := ⟨.hbm, 222, rfl⟩
abbrev main_v143 : Ref sig .tc := ⟨.hbm, 223, rfl⟩
abbrev main_v144 : Ref sig .tc := ⟨.hbm, 224, rfl⟩
abbrev main_c_23 : Ref sig .tc := ⟨.hbm, 225, rfl⟩
abbrev main_call5_cst : Ref sig .tc := ⟨.hbm, 226, rfl⟩
abbrev main_call5_v0 : Ref sig .tc := ⟨.hbm, 227, rfl⟩
abbrev main_call5_v1 : Ref sig .tc := ⟨.hbm, 228, rfl⟩
abbrev main_call5_cst_0 : Ref sig .tc := ⟨.hbm, 229, rfl⟩
abbrev main_call5_v2 : Ref sig .tc := ⟨.hbm, 230, rfl⟩
abbrev main_call5_v3 : Ref sig .tc := ⟨.hbm, 231, rfl⟩
abbrev main_call5_v4 : Ref sig .tc := ⟨.hbm, 232, rfl⟩
abbrev main_call5_v5 : Ref sig .tc := ⟨.hbm, 233, rfl⟩
abbrev main_call5_v6 : Ref sig .tc := ⟨.hbm, 234, rfl⟩
abbrev main_call5_v7 : Ref sig .tc := ⟨.hbm, 235, rfl⟩
abbrev main_call5_cst_1 : Ref sig .tc := ⟨.hbm, 236, rfl⟩
abbrev main_call5_v8 : Ref sig .tc := ⟨.hbm, 237, rfl⟩
abbrev main_call5_cst_2 : Ref sig .tc := ⟨.hbm, 238, rfl⟩
abbrev main_call5_v9 : Ref sig .tc := ⟨.hbm, 239, rfl⟩
abbrev main_call5_v10 : Ref sig .tc := ⟨.hbm, 240, rfl⟩
abbrev main_call5_v11 : Ref sig .tc := ⟨.hbm, 241, rfl⟩
abbrev main_call5_cst_3 : Ref sig .tc := ⟨.hbm, 242, rfl⟩
abbrev main_call5_v12 : Ref sig .tc := ⟨.hbm, 243, rfl⟩
abbrev main_call5_cst_4 : Ref sig .tc := ⟨.hbm, 244, rfl⟩
abbrev main_call5_call0_v0 : Ref sig .tc := ⟨.hbm, 245, rfl⟩
abbrev main_call5_call0_v1 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_cst_24 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_call6_cst : Ref sig .tc := ⟨.hbm, 268, rfl⟩
abbrev main_call6_v0 : Ref sig .tc := ⟨.hbm, 269, rfl⟩
abbrev main_v165 : Ref sig .tc := ⟨.hbm, 270, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRunNamed.lean ====
/-
  The idealized kernel program's run with its result NAMED.

  The program is six kernel launches among stretches of host operations. Every weakly fair execution terminates
  without a fault; at the end each buffer the TensorCore keeps across the whole program holds the last boundary's
  contents `W14` — the fold of the host stretches and of each launch's write-backs over the launch memory. Here that
  fact is read at the result buffer as well as at the seven argument buffers: the result is `W14` at the last
  launch's first output array, the arguments are as launched.
-/
import proofs.«179303_j4578435137604_2_alg».proof.Proof.Gen.KernelIdeal.Frame

set_option maxRecDepth 16384

noncomputable section

namespace Cert.KernelIdeal.RunNamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v127_0) = W14 m ρ c (Proc.devRef .tc main_v127_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v127_0 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.RunNamed

end
-- ==== Proof.Spec.lean ====
/-
  Three layers of mean-aggregating graph convolution with batch normalisation, written once, entry by entry,
  over the extended reals.

  One layer takes node features `h : [N, D]` (N = 50000 nodes, D = 128 features), the neighbour sums
  `agg : [N, D]` (row r holds the sum of the rows of h over the edges that end at r), the inverse in-degree column
  `d : [N, 1]`, two weight matrices `wl, wr : [D, D]`, a bias row `b : [1, D]` and the normalisation's scale and
  shift rows `g, be : [1, D]`:

      out (r, c)  = Σ_k (agg (r, k) · d (r, 0)) · wl (c, k)  +  Σ_k h (r, k) · wr (c, k)  +  b (0, c)
      mean c      = (Σ_r out (r, c)) / N
      next (r, c) = max ( ((out (r, c) − mean c) · invstd c) · g (0, c) + be (0, c) )  0

  with `invstd c = 1 / √(var c + ε)`. The two programs compared differ in the association of the three summands of
  `out` and in how the variance is formed: one takes `max (Σ_r out² / N − mean², 0)` from the running sums of
  `out` and `out²`, the other `Σ_r (out − mean)² / N`. Both forms are stated here; that they agree on arrays of
  real numbers is proved separately.
-/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Sage

/-- Node features `[N, D]`. -/
abbrev SN : Shape := ⟨2, ![50000, 128]⟩
/-- A weight matrix `[D, D]`. -/
abbrev SW : Shape := ⟨2, ![128, 128]⟩
/-- A row `[1, D]`. -/
abbrev SR : Shape := ⟨2, ![1, 128]⟩
/-- A column `[N, 1]`. -/
abbrev SC : Shape := ⟨2, ![50000, 1]⟩

/-- The number of nodes, as the float word both programs divide by (50000). -/
abbrev cN : EReal := Ideal.ofBits .f32 0x47435000#32
/-- The variance's ε, as the float word both programs add (the float nearest 1e-5). -/
abbrev cEps : EReal := Ideal.ofBits .f32 0x3727C5AC#32
/-- The float zero word. -/
abbrev cZero : EReal := Ideal.ofBits .f32 0x00000000#32

/-- The linear stage, the two products summed first and the bias last. -/
def lin (agg h : SN.Idx → EReal) (d : SC.Idx → EReal) (wl : SW.Idx → EReal) (b : SR.Idx → EReal) (wr : SW.Idx → EReal) :
    SN.Idx → EReal := fun i =>
  ((∑ k : Fin 128, (agg (ix2 (i 0) k) * d (ix2 (i 0) 0)) * wl (ix2 (i 1) k))
    + ∑ k : Fin 128, h (ix2 (i 0) k) * wr (ix2 (i 1) k)) + b (ix2 0 (i 1))

/-- The linear stage, the bias added to the neighbours' product before the node's own product. -/
def linR (agg h : SN.Idx → EReal) (d : SC.Idx → EReal) (wl : SW.Idx → EReal) (b : SR.Idx → EReal) (wr : SW.Idx → EReal) :
    SN.Idx → EReal := fun i =>
  ((∑ k : Fin 128, (agg (ix2 (i 0) k) * d (ix2 (i 0) 0)) * wl (ix2 (i 1) k)) + b (ix2 0 (i 1)))
    + ∑ k : Fin 128, h (ix2 (i 0) k) * wr (ix2 (i 1) k)

/-- The sum down each column. -/
def colSum (o : SN.Idx → EReal) : SR.Idx → EReal := fun j => ∑ r : Fin 50000, o (ix2 r (j 1))

/-- The sum of squares down each column. -/
def colSumSq (o : SN.Idx → EReal) : SR.Idx → EReal := fun j => ∑ r : Fin 50000, o (ix2 r (j 1)) * o (ix2 r (j 1))

/-- The column mean. -/
def mean (o : SN.Idx → EReal) : SR.Idx → EReal := fun j => Ideal.div (colSum o j) cN

/-- `1 / √(var + ε)` with the variance as mean of squares minus squared mean, clamped at zero. -/
def invstdK (o : SN.Idx → EReal) : SR.Idx → EReal := fun j =>
  Ideal.rsqrt (max (Ideal.div (colSumSq o j) cN - mean o j * mean o j) cZero + cEps)

/-- `1 / √(var + ε)` with the variance as the mean of the squared deviations from the mean. -/
def invstdR (o : SN.Idx → EReal) : SR.Idx → EReal := fun j =>
  Ideal.rsqrt (Ideal.div (∑ r : Fin 50000, (o (ix2 r (j 1)) - mean o j) * (o (ix2 r (j 1)) - mean o j)) cN + cEps)

/-- Normalise, scale, shift, and clamp below at zero. -/
def norm (o : SN.Idx → EReal) (mu istd g be : SR.Idx → EReal) : SN.Idx → EReal := fun i =>
  max ((((o i - mu (ix2 0 (i 1))) * istd (ix2 0 (i 1))) * g (ix2 0 (i 1))) + be (ix2 0 (i 1))) cZero

/-- One layer in the first form. -/
def layerK (agg h : SN.Idx → EReal) (d : SC.Idx → EReal) (wl : SW.Idx → EReal) (b : SR.Idx → EReal) (wr : SW.Idx → EReal)
    (g be : SR.Idx → EReal) : SN.Idx → EReal :=
  norm (lin agg h d wl b wr) (mean (lin agg h d wl b wr)) (invstdK (lin agg h d wl b wr)) g be

/-- One layer in the second form. -/
def layerR (agg h : SN.Idx → EReal) (d : SC.Idx → EReal) (wl : SW.Idx → EReal) (b : SR.Idx → EReal) (wr : SW.Idx → EReal)
    (g be : SR.Idx → EReal) : SN.Idx → EReal :=
  norm (linR agg h d wl b wr) (mean (linR agg h d wl b wr)) (invstdR (linR agg h d wl b wr)) g be

/-- Layer `l`'s weight matrix out of the stacked `[3, D, D]` array. -/
def wOf (W : (⟨3, ![3, 128, 128]⟩ : Shape).Idx → EReal) (l : Fin 3) : SW.Idx → EReal := fun j => W (ix3 l (j 0) (j 1))

/-- Layer `l`'s row out of a stacked `[3, D]` array. -/
def rowOf (v : (⟨2, ![3, 128]⟩ : Shape).Idx → EReal) (l : Fin 3) : SR.Idx → EReal := fun j => v (ix2 l (j 1))

/-- The three layers in sequence, over any one-layer form `layer`, any neighbour aggregation `A` (features to
    neighbour sums) and any inverse-degree column `d`. -/
def net (layer : (SN.Idx → EReal) → (SN.Idx → EReal) → (SC.Idx → EReal) → (SW.Idx → EReal) → (SR.Idx → EReal) → (SW.Idx → EReal)
      → (SR.Idx → EReal) → (SR.Idx → EReal) → SN.Idx → EReal)
    (A : (SN.Idx → EReal) → SN.Idx → EReal) (d : SC.Idx → EReal)
    (Wl : (⟨3, ![3, 128, 128]⟩ : Shape).Idx → EReal) (bl : (⟨2, ![3, 128]⟩ : Shape).Idx → EReal)
    (Wr : (⟨3, ![3, 128, 128]⟩ : Shape).Idx → EReal) (g be : (⟨2, ![3, 128]⟩ : Shape).Idx → EReal)
    (x : SN.Idx → EReal) : SN.Idx → EReal :=
  let L : Fin 3 → (SN.Idx → EReal) → SN.Idx → EReal := fun l h =>
    layer (A h) h d (wOf Wl l) (rowOf bl l) (wOf Wr l) (rowOf g l) (rowOf be l)
  L 2 (L 1 (L 0 x))

end Cert.Sage

end
-- ==== Proof.KDefs.lean ====
/-
  The host-side pieces of the idealized kernel program, named once.

  Between its launches the program computes, with plain array operations: the two index columns out of the edge array
  (sources with negative entries wrapped by the number of nodes, targets as they are); the in-degree as a scatter-add of
  ones and from it the inverse-degree column (`1 / max (deg, 1)` where `deg > 0`, else `0`); per layer the neighbour
  sums (rows gathered at the source column, scatter-added into zeros along the target column) and, from the column
  sums `s` and `ss` of the linear stage and of its square, the mean `s / N` and `1 / √(max (ss / N − mean², 0) + ε)`.
  The last two, taken of the column sums of an array `o`, are the specification's `mean o` and `invstdK o`.
-/
import proofs.«179303_j4578435137604_2_alg».proof.Proof.Gen.KernelIdeal
import proofs.«179303_j4578435137604_2_alg».proof.Proof.Spec
import Idealize.ShloMosaic.PureOps.Ideal
import Idealize.ShloMosaic.Lib.ValueIdx

set_option maxRecDepth 16384

noncomputable section

namespace Cert.KernelIdeal.KValue

open Idealize.ShloMosaic Idealize.ShloMosaic.ValueIdx
open Cert.KernelIdeal Cert.KernelIdeal.Facts₀

/-- The edges' source entries `[E]`. -/
def v1Of (ei : IVec S2x1600000 32) : IVec S1600000 32 :=
  shapeCast S1600000 (extractStridedSlice S1x1600000 ![0, 0] ei slices_S2x1600000_S1x1600000_0_0) shapeCasts_S1x1600000_S1600000

/-- The edges' target entries `[E]`. -/
def v3Of (ei : IVec S2x1600000 32) : IVec S1600000 32 :=
  shapeCast S1600000 (extractStridedSlice S1x1600000 ![1, 0] ei slices_S2x1600000_S1x1600000_1_0) shapeCasts_S1x1600000_S1600000

/-- The source column `[E, 1]`, negative entries wrapped by `N`. -/
def srcCol (v1 : IVec S1600000 32) : IVec S1600000x1 32 :=
  broadcastInDim S1600000x1 ![0] bcast_S1600000_S1600000x1_0
    (select (cmpi .slt v1 (broadcastInDim S1600000 ![] bcast_S_S1600000 (constantI S_ 32 0#32)))
      (addi v1 (broadcastInDim S1600000 ![] bcast_S_S1600000 (constantI S_ 32 50000#32))) v1)

/-- The neighbour sums of a feature array: its rows gathered at the source column, scatter-added into zeros along the
    target column. -/
def aggOf (v1 v3 : IVec S1600000 32) (hb : FVec Ideal S50000x128 .bf16) : FVec Ideal S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 v3)
    (extf .f32 (Host.gather gather_S50000x128_S1600000x1_S1600000x128_1_0_n_n_0_1_1128 hb (srcCol v1)) bitsLt_bf16_f32)

/-- The in-degree `[N]`: ones scatter-added into zeros along the target column. -/
def degOf (v3 : IVec S1600000 32) : FVec Ideal S50000 .f32 :=
  Host.scatterAdd scatter_S50000_S1600000x1_S1600000_n_0_0_1
    (broadcastInDim S50000 ![] bcast_S_S50000 (constant S_ .f32 0x00000000#32))
    (broadcastInDim S1600000x1 ![0] bcast_S1600000_S1600000x1_0 v3)
    (broadcastInDim S1600000 ![] bcast_S_S1600000 (constant S_ .f32 0x3F800000#32))

/-- "The degree is positive", entry by entry. -/
def degPos (v3 : IVec S1600000 32) : IVec S50000 1 :=
  cmpf .ogt (degOf v3) (broadcastInDim S50000 ![] bcast_S_S50000 (constant S_ .f32 0x00000000#32))

/-- `1 / max (deg, 1)`. -/
def degRecip (v3 : IVec S1600000 32) : FVec Ideal S50000 .f32 :=
  Host.divf (broadcastInDim S50000 ![] bcast_S_S50000 (constant S_ .f32 0x3F800000#32))
    (maximumf (degOf v3) (broadcastInDim S50000 ![] bcast_S_S50000 (constant S_ .f32 0x3F800000#32)))

/-- A vector `[N]` as a column `[N, 1]`. -/
def colOf (v : FVec Ideal S50000 .f32) : FVec Ideal S50000x1 .f32 :=
  broadcastInDim S50000x1 ![0] bcast_S50000_S50000x1_0 v

/-- The entries of `a` where `c` holds, elsewhere the splat of the scalar `z`. -/
def selOf (c : IVec S50000 1) (a : FVec Ideal S50000 .f32) (z : FVec Ideal S_ .f32) : FVec Ideal S50000 .f32 :=
  select c a (broadcastInDim S50000 ![] bcast_S_S50000 (id z))

/-- The features after the change of float format the gather reads them in: over the extended reals, themselves. -/
def truncOf (x : FVec Ideal S50000x128 .f32) : FVec Ideal S50000x128 .bf16 := truncf .bf16 x bitsLt_bf16_f32

/-- The inverse-degree column `[N, 1]`. -/
def invDegOf (v3 : IVec S1600000 32) : FVec Ideal S50000x1 .f32 :=
  colOf (selOf (degPos v3) (degRecip v3) (constant S_ .f32 0x00000000#32))

/-- The column sums divided by the number of rows. -/
def meanOf (s : FVec Ideal S1x128 .f32) : FVec Ideal S1x128 .f32 :=
  Host.divf s (broadcastInDim S1x128 ![] bcast_S_S1x128 (constant S_ .f32 0x47435000#32))

/-- `1 / √(max (ss / N − mean², 0) + ε)`. -/
def invstdOf (s ss : FVec Ideal S1x128 .f32) : FVec Ideal S1x128 .f32 :=
  Host.rsqrt (addf (maximumf (subf (Host.divf ss (broadcastInDim S1x128 ![] bcast_S_S1x128 (constant S_ .f32 0x47435000#32)))
        (mulf (meanOf s) (meanOf s)))
      (broadcastInDim S1x128 ![] bcast_S_S1x128 (constant S_ .f32 0x00000000#32)))
    (broadcastInDim S1x128 ![] bcast_S_S1x128 (constant S_ .f32 0x3727C5AC#32)))

/-- Of the column sums of `o`, `meanOf` is the specification's mean. -/
theorem meanOf_colSum (o : Cert.Sage.SN.Idx → EReal) : meanOf (Cert.Sage.colSum o) = Cert.Sage.mean o := rfl

/-- Of the column sums of `o` and of its square, `invstdOf` is the specification's inverse deviation in the
    mean-of-squares form. -/
theorem invstdOf_colSums (o : Cert.Sage.SN.Idx → EReal) :
    invstdOf (Cert.Sage.colSum o) (Cert.Sage.colSumSq o) = Cert.Sage.invstdK o := rfl

end Cert.KernelIdeal.KValue

end
-- ==== Proof.LibStackedParams.lean ====
/-
  Reading one layer's parameters out of arrays stacked along a leading axis, at explicit coordinates.

  A `[L, a, b]` array sliced to its layer `l` (`[l : l+1, :, :]`) and recast as `[a, b]` reads, at `(i, j)`, the stacked
  array at `(l, i, j)`. A `[L, n]` array sliced to its row `l` and recast as a vector `[n]` reads, at `j`, the stacked
  array at `(l, j)`; recast once more as a row `[1, n]` it reads the same at `(0, j)`.
-/
import Idealize.ShloMosaic.Lib.ValueIdx
import Idealize.ShloMosaic.Lib.Pipeline.Value

noncomputable section

open Idealize.ShloMosaic Idealize.ShloMosaic.ValueIdx

namespace Cert.LibStackedParams

variable {α : Type}

/-- Layer `l` of a stack of matrices, at `(i, j)`. -/
theorem matrix_apply {L a b : ℕ} (l : ℕ) (hl : l < L) (W : (⟨3, ![L, a, b]⟩ : Shape).Idx → α)
    (hs : (⟨3, ![L, a, b]⟩ : Shape).Slices ![l, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![l, 0, 0] W hs) hc (ix2 i j) = W (ix3 ⟨l, hl⟩ i j) := by
  refine (shapeCast_apply _ hc (ix2 i j) (ix3 (0 : Fin 1) i j) ?_).trans ?_
  · rw [Shape.rowMajor_val_three, Shape.rowMajor_val_two]
    show (0 * a + i.val) * b + j.val = i.val * b + j.val
    rw [Nat.zero_mul, Nat.zero_add]
  · refine extractStridedSlice_apply _ W hs _ (ix3 ⟨l, hl⟩ i j) fun ax => ?_
    match ax with
    | ⟨0, _⟩ => rfl
    | ⟨1, _⟩ => show i.val = 0 + i.val; omega
    | ⟨2, _⟩ => show j.val = 0 + j.val; omega

/-- Row `l` of a stack of vectors, as a vector, at `j`. -/
theorem vector_apply {L n : ℕ} (l : ℕ) (hl : l < L) (v : (⟨2, ![L, n]⟩ : Shape).Idx → α)
    (hs : (⟨2, ![L, n]⟩ : Shape).Slices ![l, 0] ⟨2, ![1, n]⟩)
    (hc : (⟨2, ![1, n]⟩ : Shape).ShapeCasts ⟨1, ![n]⟩) (j : Fin n) :
    shapeCast ⟨1, ![n]⟩ (extractStridedSlice ⟨2, ![1, n]⟩ ![l, 0] v hs) hc (ix1 j) = v (ix2 ⟨l, hl⟩ j) := by
  refine (shapeCast_apply _ hc (ix1 j) (ix2 (0 : Fin 1) j) ?_).trans ?_
  · rw [Shape.rowMajor_val_two, Shape.rowMajor_val_one]
    show 0 * n + j.val = j.val
    rw [Nat.zero_mul, Nat.zero_add]
  · refine extractStridedSlice_apply _ v hs _ (ix2 ⟨l, hl⟩ j) fun ax => ?_
    match ax with
    | ⟨0, _⟩ => rfl
    | ⟨1, _⟩ => show j.val = 0 + j.val; omega

/-- Row `l` of a stack of vectors, recast as a vector and again as a row `[1, n]`, at `(0, j)`. -/
theorem row_apply {L n : ℕ} (l : ℕ) (hl : l < L) (v : (⟨2, ![L, n]⟩ : Shape).Idx → α)
    (hs : (⟨2, ![L, n]⟩ : Shape).Slices ![l, 0] ⟨2, ![1, n]⟩)
    (hc : (⟨2, ![1, n]⟩ : Shape).ShapeCasts ⟨1, ![n]⟩) (hc' : (⟨1, ![n]⟩ : Shape).ShapeCasts ⟨2, ![1, n]⟩) (u : Fin 1) (j : Fin n) :
    shapeCast ⟨2, ![1, n]⟩ (shapeCast ⟨1, ![n]⟩ (extractStridedSlice ⟨2, ![1, n]⟩ ![l, 0] v hs) hc) hc' (ix2 u j)
      = v (ix2 ⟨l, hl⟩ j) := by
  refine (shapeCast_apply _ hc' (ix2 u j) (ix1 j) ?_).trans (vector_apply l hl v hs hc j)
  have hu : u.val = 0 := by omega
  rw [Shape.rowMajor_val_two, Shape.rowMajor_val_one]
  show j.val = u.val * n + j.val
  rw [hu, Nat.zero_mul, Nat.zero_add]

end Cert.LibStackedParams

end
-- ==== Proof.KStretch.lean ====
/- What each stretch of host operations of the idealized kernel program leaves in the buffers the launches and the
  later stretches read, as a function of the buffer contents W the stretch starts from.

  Each statement is one buffer after one stretch: either the named host-side piece (the index entries, the degree's
  pieces, the neighbour sums, the mean and inverse deviation, a layer's slice of the stacked parameters read at
  (l, ·, ·) or (l, ·)) of the contents it is computed from, or, for a buffer the stretch does not write, the
  contents as they were.
-/
import proofs.«179303_j4578435137604_2_alg».proof.Proof.Gen.KernelIdeal.Launch
import proofs.«179303_j4578435137604_2_alg».proof.Proof.KDefs
import proofs.«179303_j4578435137604_2_alg».proof.Proof.LibStackedParams
import Idealize.ShloMosaic.Lib.StableHlo.Run

set_option maxRecDepth 16384

noncomputable section

namespace Cert.KernelIdeal.KValue

open Idealize.ShloMosaic Idealize.ShloMosaic.TcCoe Idealize.ShloMosaic.ValueIdx Idealize.ShloMosaic.StableHlo Idealize.SL.Sem
open Cert.KernelIdeal Cert.KernelIdeal.Gen

/-- The source entries, sliced out of the edge array. -/
theorem p0_v1 (W : Valuation τ sig (Elt Ideal)) :
    StableHlo.after (hostOps0 (F := Ideal)) W (Proc.devRef .tc main_v1) = v1Of (W (Proc.devRef .tc main_arg1)) := by
  after_results_simp
  rfl

/-- The target entries, sliced out of the edge array. -/
theorem p0_v3 (W : Valuation τ sig (Elt Ideal)) :
    StableHlo.after (hostOps0 (F := Ideal)) W (Proc.devRef .tc main_v3) = v3Of (W (Proc.devRef .tc main_arg1)) := by
  after_results_simp
  rfl

/-- Where the in-degree is positive. -/
theorem p0_v9 (W : Valuation τ sig (Elt Ideal)) :
    StableHlo.after (hostOps0 (F := Ideal)) W (Proc.devRef .tc main_v9) = degPos (v3Of (W (Proc.devRef .tc main_arg1))) := by
  after_results_simp
  rfl

/-- The reciprocal of the in-degree clamped below at one. -/
theorem p0_v13 (W : Valuation τ sig (Elt Ideal)) :
    StableHlo.after (hostOps0 (F := Ideal)) W (Proc.devRef .tc main_v13) = degRecip (v3Of (W (Proc.devRef .tc main_arg1))) := by
  after_results_simp
  rfl

/-- The zero the isolated nodes get. -/
theorem p0_cst4 (W : Valuation τ sig (Elt Ideal)) :
    StableHlo.after (hostOps0 (F := Ideal)) W (Proc.devRef .tc main_cst_4) = constant (F := Ideal) S_ .f32 0x00000000#32 := by
  after_results_simp

/-- The stretch writes nothing to this buffer. -/
theorem p0_keep_arg0 (W : Valuation τ sig (Elt Ideal)) :
    StableHlo.after (hostOps0 (F := Ideal)) W (Proc.devRef .tc main_arg0) = W (Proc.devRef .tc main_arg0) := by
  after_results_simp

/-- The stretch writes nothing to this buffer. -/
theorem p0_keep_arg2 (W : Valuation τ sig (Elt Ideal)) :
    StableHlo.after (hostOps0 (F := Ideal)) W (Proc.devRef .tc main_arg2) = W (Proc.devRef .tc main_arg2) := by
  after_results_simp

/-- The stretch writes nothing to this buffer. -/
theorem p0_keep_arg3 (W : Valuation τ sig (Elt Ideal)) :
    StableHlo.after (hostOps0 (F := Ideal)) W (Proc.devRef .tc main_arg3) = W (Proc.devRef .tc main_arg3) := by
  after_results_simp

/-- The stretch writes nothing to this buffer. -/
theorem p0_keep_arg4 (W : Valuation τ sig (Elt Ideal)) :
    StableHlo.after (hostOps0 (F := Ideal)) W (Proc.devRef .tc main_arg4) = W (Proc.devRef .tc main_arg4) := by
  after_results_simp

/-- The stretch writes nothing to this buffer. -/
theorem p0_keep_arg5 (W : Valuation τ sig (Elt Ideal)) :
    StableHlo.after (hostOps0 (F := Ideal)) W (Proc.devRef .tc main_arg5) = W (Proc.devRef .tc main_arg5) := by
  after_results_simp

/-- The stretch writes nothing to this buffer. -/
theorem p0_keep_arg6 (W : Valuation τ sig (Elt Ideal)) :
    StableHlo.after (hostOps0 (F := Ideal)) W (Proc.devRef .tc main_arg6) = W (Proc.devRef .tc main_arg6) := by
  after_results_simp

/-- The inverse degree: the reciprocal where the degree is positive, else zero. -/
theorem p01_v14 (W : Valuation τ sig (Elt Ideal)) :
    StableHlo.after (hostOps0_1 (F := Ideal)) W (Proc.devRef .tc main_v14) = selOf (W (Proc.devRef .tc main_v9)) (W (Proc.devRef .tc main_v13)) (W (Proc.devRef .tc main_cst_4)) := by
  after_results_simp
  rfl

/-- The stretch writes nothing to this buffer. -/
theorem p01_keep_v1 (W : Valuation τ sig (Elt Ideal)) :
    StableHlo.after (hostOps0_1 (F := Ideal)) W (Proc.devRef .tc main_v1) = W (Proc.devRef .tc main_v1) := by
  after_results_simp

/-- The stretch writes nothing to this buffer. -/
theorem p01_keep_v3 (W : Valuation τ sig (Elt Ideal)) :
    StableHlo.after (hostOps0_1 (F := Ideal)) W (Proc.devRef .tc main_v3) = W (Proc.devRef .tc main_v3) := by
  after_results_simp

/-- The stretch writes nothing to this buffer. -/
theorem p01_keep_arg0 (W : Valuation τ sig (Elt Ideal)) :
    StableHlo.after (hostOps0_1 (F := Ideal)) W (Proc.devRef .tc main_arg0) = W (Proc.devRef .tc main_arg0) := by
  after_results_simp

/-- The stretch writes nothing to this buffer. -/
theorem p01_keep_arg2 (W : Valuation τ sig (Elt Ideal)) :
    StableHlo.after (hostOps0_1 (F := Ideal)) W (Proc.devRef .tc main_arg2) = W (Proc.devRef .tc main_arg2) := by
  after_results_simp

/-- The stretch writes nothing to this buffer. -/
theorem p01_keep_arg3 (W : Valuation τ sig (Elt Ideal)) :
    StableHlo.after (hostOps0_1 (F := Ideal)) W (Proc.devRef .tc main_arg3) = W (Proc.devRef .tc main_arg3) := by
  after_results_simp

/-- The stretch writes nothing to this buffer. -/
theorem p01_keep_arg4 (W : Valuation τ sig (Elt Ideal)) :
    StableHlo.after (hostOps0_1 (F := Ideal)) W (Proc.devRef .tc main_arg4) = W (Proc.devRef .tc main_arg4) := by
  after_results_simp

/-- The stretch writes nothing to this buffer. -/
theorem p01_keep_arg5 (W : Valuation τ sig (Elt Ideal)) :
    StableHlo.after (hostOps0_1 (F := Ideal)) W (Proc.devRef .tc main_arg5) = W (Proc.devRef .tc main_arg5) := by
  after_results_simp

/-- The stretch writes nothing to this buffer. -/
theorem p01_keep_arg6 (W : Valuation τ sig (Elt Ideal)) :
    StableHlo.after (hostOps0_1 (F := Ideal)) W (Proc.devRef .tc main_arg6) = W (Proc.devRef .tc main_arg6) := by
  after_results_simp

/-- The inverse degree as a column. -/
theorem p02_v15 (W : Valuation τ sig (Elt Ideal)) :
    StableHlo.after (hostOps0_2 (F := Ideal)) W (Proc.devRef .tc main_v15) = colOf (W (Proc.devRef .tc main_v14)) := by
  after_results_simp
  rfl

/-- The first layer's neighbour sums, of the input features. -/
theorem p02_agg (W : Valuation τ sig (Elt Ideal)) :
    StableHlo.after (hostOps0_2 (F := Ideal)) W (Proc.devRef .tc main_v27) = aggOf (W (Proc.devRef .tc main_v1)) (W (Proc.devRef .tc main_v3)) (truncOf (W (Proc.devRef .tc main_arg0))) := by
  after_results_simp
  rfl

/-- Layer 0's neighbour weights. -/
theorem p02_wl (W : Valuation τ sig (Elt Ideal)) :
    StableHlo.after (hostOps0_2 (F := Ideal)) W (Proc.devRef .tc main_v29) = Cert.Sage.wOf (W (Proc.devRef .tc main_arg2)) 0 := by
  after_results_simp
  funext j
  obtain ⟨a, b, rfl⟩ : ∃ (a : Fin 128) (b : Fin 128), j = ix2 a b := ⟨j 0, j 1, eq_ix2 j⟩
  exact Cert.LibStackedParams.matrix_apply 0 (by decide) _ _ _ a b

/-- Layer 0's bias row. -/
theorem p02_b (W : Valuation τ sig (Elt Ideal)) :
    StableHlo.after (hostOps0_2 (F := Ideal)) W (Proc.devRef .tc main_v34) = Cert.Sage.rowOf (W (Proc.devRef .tc main_arg3)) 0 := by
  after_results_simp
  funext j
  obtain ⟨a, b, rfl⟩ : ∃ (a : Fin 1) (b : Fin 128), j = ix2 a b := ⟨j 0, j 1, eq_ix2 j⟩
  exact Cert.LibStackedParams.row_apply 0 (by decide) _ _ _ _ a b

/-- Layer 0's own weights. -/
theorem p02_wr (W : Valuation τ sig (Elt Ideal)) :
    StableHlo.after (hostOps0_2 (F := Ideal)) W (Proc.devRef .tc main_v33) = Cert.Sage.wOf (W (Proc.devRef .tc main_arg4)) 0 := by
  after_results_simp
  funext j
  obtain ⟨a, b, rfl⟩ : ∃ (a : Fin 128) (b : Fin 128), j = ix2 a b := ⟨j 0, j 1, eq_ix2 j⟩
  exact Cert.LibStackedParams.matrix_apply 0 (by decide) _ _ _ a b

/-- The stretch writes nothing to this buffer. -/
theorem p02_keep_arg0 (W : Valuation τ sig (Elt Ideal)) :
    StableHlo.after (hostOps0_2 (F := Ideal)) W (Proc.devRef .tc main_arg0) = W (Proc.devRef .tc main_arg0) := by
  after_results_simp

/-- The stretch writes nothing to this buffer. -/
theorem p02_keep_v1 (W : Valuation τ sig (Elt Ideal)) :
    StableHlo.after (hostOps0_2 (F := Ideal)) W (Proc.devRef .tc main_v1) = W (Proc.devRef .tc main_v1) := by
  after_results_simp

/-- The stretch writes nothing to this buffer. -/
theorem p02_keep_v3 (W : Valuation τ sig (Elt Ideal)) :
    StableHlo.after (hostOps0_2 (F := Ideal)) W (Proc.devRef .tc main_v3) = W (Proc.devRef .tc main_v3) := by
  after_results_simp

/-- The stretch writes nothing to this buffer. -/
theorem p02_keep_arg2 (W : Valuation τ sig (Elt Ideal)) :
    StableHlo.after (hostOps0_2 (F := Ideal)) W (Proc.devRef .tc main_arg2) = W (Proc.devRef .tc main_arg2) := by
  after_results_simp

/-- The stretch writes nothing to this buffer. -/
theorem p02_keep_arg3 (W : Valuation τ sig (Elt Ideal)) :
    StableHlo.after (hostOps0_2 (F := Ideal)) W (Proc.devRef .tc main_arg3) = W (Proc.devRef .tc main_arg3) := by
  after_results_simp

/-- The stretch writes nothing to this buffer. -/
theorem p02_keep_arg4 (W : Valuation τ sig (Elt Ideal)) :
    StableHlo.after (hostOps0_2 (F := Ideal)) W (Proc.devRef .tc main_arg4) = W (Proc.devRef .tc main_arg4) := by
  after_results_simp

/-- The stretch writes nothing to this buffer. -/
theorem p02_keep_arg5 (W : Valuation τ sig (Elt Ideal)) :
    StableHlo.after (hostOps0_2 (F := Ideal)) W (Proc.devRef .tc main_arg5) = W (Proc.devRef .tc main_arg5) := by
  after_results_simp

/-- The stretch writes nothing to this buffer. -/
theorem p02_keep_arg6 (W : Valuation τ sig (Elt Ideal)) :
    StableHlo.after (hostOps0_2 (F := Ideal)) W (Proc.devRef .tc main_arg6) = W (Proc.devRef .tc main_arg6) := by
  after_results_simp

/-- The column mean, from the running sum. -/
theorem s1_mean (W : Valuation τ sig (Elt Ideal)) :
    StableHlo.after (hostOps1 (F := Ideal)) W (Proc.devRef .tc main_v37) = meanOf (W (Proc.devRef .tc main_v35_1)) := by
  after_results_simp
  rfl

/-- The inverse deviation, from the running sums. -/
theorem s1_istd (W : Valuation τ sig (Elt Ideal)) :
    StableHlo.after (hostOps1 (F := Ideal)) W (Proc.devRef .tc main_v46) = invstdOf (W (Proc.devRef .tc main_v35_1)) (W (Proc.devRef .tc main_v35_2)) := by
  after_results_simp
  rfl

/-- Layer 0's scale row. -/
theorem s1_g (W : Valuation τ sig (Elt Ideal)) :
    StableHlo.after (hostOps1 (F := Ideal)) W (Proc.devRef .tc main_v51) = Cert.Sage.rowOf (W (Proc.devRef .tc main_arg5)) 0 := by
  after_results_simp
  funext j
  obtain ⟨a, b, rfl⟩ : ∃ (a : Fin 1) (b : Fin 128), j = ix2 a b := ⟨j 0, j 1, eq_ix2 j⟩
  exact Cert.LibStackedParams.row_apply 0 (by decide) _ _ _ _ a b

/-- Layer 0's shift row. -/
theorem s1_be (W : Valuation τ sig (Elt Ideal)) :
    StableHlo.after (hostOps1 (F := Ideal)) W (Proc.devRef .tc main_v52) = Cert.Sage.rowOf (W (Proc.devRef .tc main_arg6)) 0 := by
  after_results_simp
  funext j
  obtain ⟨a, b, rfl⟩ : ∃ (a : Fin 1) (b : Fin 128), j = ix2 a b := ⟨j 0, j 1, eq_ix2 j⟩
  exact Cert.LibStackedParams.row_apply 0 (by decide) _ _ _ _ a b

/-- The stretch writes nothing to this buffer. -/
theorem s1_keep_v35_0 (W : Valuation τ sig (Elt Ideal)) :
    StableHlo.after (hostOps1 (F := Ideal)) W (Proc.devRef .tc main_v35_0) = W (Proc.devRef .tc main_v35_0) := by
  after_results_simp

/-- The stretch writes nothing to this buffer. -/
theorem s1_keep_v15 (W : Valuation τ sig (Elt Ideal)) :
    StableHlo.after (hostOps1 (F := Ideal)) W (Proc.devRef .tc main_v15) = W (Proc.devRef .tc main_v15) := by
  after_results_simp

/-- The stretch writes nothing to this buffer. -/
theorem s1_keep_v1 (W : Valuation τ sig (Elt Ideal)) :
    StableHlo.after (hostOps1 (F := Ideal)) W (Proc.devRef .tc main_v1) = W (Proc.devRef .tc main_v1) := by
  after_results_simp

/-- The stretch writes nothing to this buffer. -/
theorem s1_keep_v3 (W : Valuation τ sig (Elt Ideal)) :
    StableHlo.after (hostOps1 (F := Ideal)) W (Proc.devRef .tc main_v3) = W (Proc.devRef .tc main_v3) := by
  after_results_simp

/-- The stretch writes nothing to this buffer. -/
theorem s1_keep_arg2 (W : Valuation τ sig (Elt Ideal)) :
    StableHlo.after (hostOps1 (F := Ideal)) W (Proc.devRef .tc main_arg2) = W (Proc.devRef .tc main_arg2) := by
  after_results_simp

/-- The stretch writes nothing to this buffer. -/
theorem s1_keep_arg3 (W : Valuation τ sig (Elt Ideal)) :
    StableHlo.after (hostOps1 (F := Ideal)) W (Proc.devRef .tc main_arg3) = W (Proc.devRef .tc main_arg3) := by
  after_results_simp

/-- The stretch writes nothing to this buffer. -/
theorem s1_keep_arg4 (W : Valuation τ sig (Elt Ideal)) :
    StableHlo.after (hostOps1 (F := Ideal)) W (Proc.devRef .tc main_arg4) = W (Proc.devRef .tc main_arg4) := by
  after_results_simp

/-- The stretch writes nothing to this buffer. -/
theorem s1_keep_arg5 (W : Valuation τ sig (Elt Ideal)) :
    StableHlo.after (hostOps1 (F := Ideal)) W (Proc.devRef .tc main_arg5) = W (Proc.devRef .tc main_arg5) := by
  after_results_simp

/-- The stretch writes nothing to this buffer. -/
theorem s1_keep_arg6 (W : Valuation τ sig (Elt Ideal)) :
    StableHlo.after (hostOps1 (F := Ideal)) W (Proc.devRef .tc main_arg6) = W (Proc.devRef .tc main_arg6) := by
  after_results_simp

/-- The column mean, from the running sum. -/
theorem s3_mean (W : Valuation τ sig (Elt Ideal)) :
    StableHlo.after (hostOps3 (F := Ideal)) W (Proc.devRef .tc main_v74) = meanOf (W (Proc.devRef .tc main_v72_1)) := by
  after_results_simp
  rfl

/-- The inverse deviation, from the running sums. -/
theorem s3_istd (W : Valuation τ sig (Elt Ideal)) :
    StableHlo.after (hostOps3 (F := Ideal)) W (Proc.devRef .tc main_v83) = invstdOf (W (Proc.devRef .tc main_v72_1)) (W (Proc.devRef .tc main_v72_2)) := by
  after_results_simp
  rfl

/-- Layer 1's scale row. -/
theorem s3_g (W : Valuation τ sig (Elt Ideal)) :
    StableHlo.after (hostOps3 (F := Ideal)) W (Proc.devRef .tc main_v88) = Cert.Sage.rowOf (W (Proc.devRef .tc main_arg5)) 1 := by
  after_results_simp
  funext j
  obtain ⟨a, b, rfl⟩ : ∃ (a : Fin 1) (b : Fin 128), j = ix2 a b := ⟨j 0, j 1, eq_ix2 j⟩
  exact Cert.LibStackedParams.row_apply 1 (by decide) _ _ _ _ a b

/-- Layer 1's shift row. -/
theorem s3_be (W : Valuation τ sig (Elt Ideal)) :
    StableHlo.after (hostOps3 (F := Ideal)) W (Proc.devRef .tc main_v89) = Cert.Sage.rowOf (W (Proc.devRef .tc main_arg6)) 1 := by
  after_results_simp
  funext j
  obtain ⟨a, b, rfl⟩ : ∃ (a : Fin 1) (b : Fin 128), j = ix2 a b := ⟨j 0, j 1, eq_ix2 j⟩
  exact Cert.LibStackedParams.row_apply 1 (by decide) _ _ _ _ a b

/-- The stretch writes nothing to this buffer. -/
theorem s3_keep_v72_0 (W : Valuation τ sig (Elt Ideal)) :
    StableHlo.after (hostOps3 (F := Ideal)) W (Proc.devRef .tc main_v72_0) = W (Proc.devRef .tc main_v72_0) := by
  after_results_simp

/-- The stretch writes nothing to this buffer. -/
theorem s3_keep_v15 (W : Valuation τ sig (Elt Ideal)) :
    StableHlo.after (hostOps3 (F := Ideal)) W (Proc.devRef .tc main_v15) = W (Proc.devRef .tc main_v15) := by
  after_results_simp

/-- The stretch writes nothing to this buffer. -/
theorem s3_keep_v1 (W : Valuation τ sig (Elt Ideal)) :
    StableHlo.after (hostOps3 (F := Ideal)) W (Proc.devRef .tc main_v1) = W (Proc.devRef .tc main_v1) := by
  after_results_simp

/-- The stretch writes nothing to this buffer. -/
theorem s3_keep_v3 (W : Valuation τ sig (Elt Ideal)) :
    StableHlo.after (hostOps3 (F := Ideal)) W (Proc.devRef .tc main_v3) = W (Proc.devRef .tc main_v3) := by
  after_results_simp

/-- The stretch writes nothing to this buffer. -/
theorem s3_keep_arg2 (W : Valuation τ sig (Elt Ideal)) :
    StableHlo.after (hostOps3 (F := Ideal)) W (Proc.devRef .tc main_arg2) = W (Proc.devRef .tc main_arg2) := by
  after_results_simp

/-- The stretch writes nothing to this buffer. -/
theorem s3_keep_arg3 (W : Valuation τ sig (Elt Ideal)) :
    StableHlo.after (hostOps3 (F := Ideal)) W (Proc.devRef .tc main_arg3) = W (Proc.devRef .tc main_arg3) := by
  after_results_simp

/-- The stretch writes nothing to this buffer. -/
theorem s3_keep_arg4 (W : Valuation τ sig (Elt Ideal)) :
    StableHlo.after (hostOps3 (F := Ideal)) W (Proc.devRef .tc main_arg4) = W (Proc.devRef .tc main_arg4) := by
  after_results_simp

/-- The stretch writes nothing to this buffer. -/
theorem s3_keep_arg5 (W : Valuation τ sig (Elt Ideal)) :
    StableHlo.after (hostOps3 (F := Ideal)) W (Proc.devRef .tc main_arg5) = W (Proc.devRef .tc main_arg5) := by
  after_results_simp

/-- The stretch writes nothing to this buffer. -/
theorem s3_keep_arg6 (W : Valuation τ sig (Elt Ideal)) :
    StableHlo.after (hostOps3 (F := Ideal)) W (Proc.devRef .tc main_arg6) = W (Proc.devRef .tc main_arg6) := by
  after_results_simp

/-- The column mean, from the running sum. -/
theorem s5_mean (W : Valuation τ sig (Elt Ideal)) :
    StableHlo.after (hostOps5 (F := Ideal)) W (Proc.devRef .tc main_v111) = meanOf (W (Proc.devRef .tc main_v109_1)) := by
  after_results_simp
  rfl

/-- The inverse deviation, from the running sums. -/
theorem s5_istd (W : Valuation τ sig (Elt Ideal)) :
    StableHlo.after (hostOps5 (F := Ideal)) W (Proc.devRef .tc main_v120) = invstdOf (W (Proc.devRef .tc main_v109_1)) (W (Proc.devRef .tc main_v109_2)) := by
  after_results_simp
  rfl

/-- Layer 2's scale row. -/
theorem s5_g (W : Valuation τ sig (Elt Ideal)) :
    StableHlo.after (hostOps5 (F := Ideal)) W (Proc.devRef .tc main_v125) = Cert.Sage.rowOf (W (Proc.devRef .tc main_arg5)) 2 := by
  after_results_simp
  funext j
  obtain ⟨a, b, rfl⟩ : ∃ (a : Fin 1) (b : Fin 128), j = ix2 a b := ⟨j 0, j 1, eq_ix2 j⟩
  exact Cert.LibStackedParams.row_apply 2 (by decide) _ _ _ _ a b

/-- Layer 2's shift row. -/
theorem s5_be (W : Valuation τ sig (Elt Ideal)) :
    StableHlo.after (hostOps5 (F := Ideal)) W (Proc.devRef .tc main_v126) = Cert.Sage.rowOf (W (Proc.devRef .tc main_arg6)) 2 := by
  after_results_simp
  funext j
  obtain ⟨a, b, rfl⟩ : ∃ (a : Fin 1) (b : Fin 128), j = ix2 a b := ⟨j 0, j 1, eq_ix2 j⟩
  exact Cert.LibStackedParams.row_apply 2 (by decide) _ _ _ _ a b

/-- The stretch writes nothing to this buffer. -/
theorem s5_keep_v109_0 (W : Valuation τ sig (Elt Ideal)) :
    StableHlo.after (hostOps5 (F := Ideal)) W (Proc.devRef .tc main_v109_0) = W (Proc.devRef .tc main_v109_0) := by
  after_results_simp

/-- The stretch writes nothing to this buffer. -/
theorem s5_keep_v15 (W : Valuation τ sig (Elt Ideal)) :
    StableHlo.after (hostOps5 (F := Ideal)) W (Proc.devRef .tc main_v15) = W (Proc.devRef .tc main_v15) := by
  after_results_simp

/-- The stretch writes nothing to this buffer. -/
theorem s5_keep_v1 (W : Valuation τ sig (Elt Ideal)) :
    StableHlo.after (hostOps5 (F := Ideal)) W (Proc.devRef .tc main_v1) = W (Proc.devRef .tc main_v1) := by
  after_results_simp

/-- The stretch writes nothing to this buffer. -/
theorem s5_keep_v3 (W : Valuation τ sig (Elt Ideal)) :
    StableHlo.after (hostOps5 (F := Ideal)) W (Proc.devRef .tc main_v3) = W (Proc.devRef .tc main_v3) := by
  after_results_simp

/-- The stretch writes nothing to this buffer. -/
theorem s5_keep_arg2 (W : Valuation τ sig (Elt Ideal)) :
    StableHlo.after (hostOps5 (F := Ideal)) W (Proc.devRef .tc main_arg2) = W (Proc.devRef .tc main_arg2) := by
  after_results_simp

/-- The stretch writes nothing to this buffer. -/
theorem s5_keep_arg3 (W : Valuation τ sig (Elt Ideal)) :
    StableHlo.after (hostOps5 (F := Ideal)) W (Proc.devRef .tc main_arg3) = W (Proc.devRef .tc main_arg3) := by
  after_results_simp

/-- The stretch writes nothing to this buffer. -/
theorem s5_keep_arg4 (W : Valuation τ sig (Elt Ideal)) :
    StableHlo.after (hostOps5 (F := Ideal)) W (Proc.devRef .tc main_arg4) = W (Proc.devRef .tc main_arg4) := by
  after_results_simp

/-- The stretch writes nothing to this buffer. -/
theorem s5_keep_arg5 (W : Valuation τ sig (Elt Ideal)) :
    StableHlo.after (hostOps5 (F := Ideal)) W (Proc.devRef .tc main_arg5) = W (Proc.devRef .tc main_arg5) := by
  after_results_simp

/-- The stretch writes nothing to this buffer. -/
theorem s5_keep_arg6 (W : Valuation τ sig (Elt Ideal)) :
    StableHlo.after (hostOps5 (F := Ideal)) W (Proc.devRef .tc main_arg6) = W (Proc.devRef .tc main_arg6) := by
  after_results_simp

/-- The layer's neighbour sums, of the previous layer's features. -/
theorem a2_agg (W : Valuation τ sig (Elt Ideal)) :
    StableHlo.after (hostOps2 (F := Ideal)) W (Proc.devRef .tc main_v64) = aggOf (W (Proc.devRef .tc main_v1)) (W (Proc.devRef .tc main_v3)) (W (Proc.devRef .tc main_v53_1)) := by
  after_results_simp
  rfl

/-- Layer 1's neighbour weights. -/
theorem a2_wl (W : Valuation τ sig (Elt Ideal)) :
    StableHlo.after (hostOps2 (F := Ideal)) W (Proc.devRef .tc main_v66) = Cert.Sage.wOf (W (Proc.devRef .tc main_arg2)) 1 := by
  after_results_simp
  funext j
  obtain ⟨a, b, rfl⟩ : ∃ (a : Fin 128) (b : Fin 128), j = ix2 a b := ⟨j 0, j 1, eq_ix2 j⟩
  exact Cert.LibStackedParams.matrix_apply 1 (by decide) _ _ _ a b

/-- Layer 1's bias row. -/
theorem a2_b (W : Valuation τ sig (Elt Ideal)) :
    StableHlo.after (hostOps2 (F := Ideal)) W (Proc.devRef .tc main_v71) = Cert.Sage.rowOf (W (Proc.devRef .tc main_arg3)) 1 := by
  after_results_simp
  funext j
  obtain ⟨a, b, rfl⟩ : ∃ (a : Fin 1) (b : Fin 128), j = ix2 a b := ⟨j 0, j 1, eq_ix2 j⟩
  exact Cert.LibStackedParams.row_apply 1 (by decide) _ _ _ _ a b

/-- Layer 1's own weights. -/
theorem a2_wr (W : Valuation τ sig (Elt Ideal)) :
    StableHlo.after (hostOps2 (F := Ideal)) W (Proc.devRef .tc main_v70) = Cert.Sage.wOf (W (Proc.devRef .tc main_arg4)) 1 := by
  after_results_simp
  funext j
  obtain ⟨a, b, rfl⟩ : ∃ (a : Fin 128) (b : Fin 128), j = ix2 a b := ⟨j 0, j 1, eq_ix2 j⟩
  exact Cert.LibStackedParams.matrix_apply 1 (by decide) _ _ _ a b

/-- The stretch writes nothing to this buffer. -/
theorem a2_keep_v53_0 (W : Valuation τ sig (Elt Ideal)) :
    StableHlo.after (hostOps2 (F := Ideal)) W (Proc.devRef .tc main_v53_0) = W (Proc.devRef .tc main_v53_0) := by
  after_results_simp

/-- The stretch writes nothing to this buffer. -/
theorem a2_keep_v15 (W : Valuation τ sig (Elt Ideal)) :
    StableHlo.after (hostOps2 (F := Ideal)) W (Proc.devRef .tc main_v15) = W (Proc.devRef .tc main_v15) := by
  after_results_simp

/-- The stretch writes nothing to this buffer. -/
theorem a2_keep_v1 (W : Valuation τ sig (Elt Ideal)) :
    StableHlo.after (hostOps2 (F := Ideal)) W (Proc.devRef .tc main_v1) = W (Proc.devRef .tc main_v1) := by
  after_results_simp

/-- The stretch writes nothing to this buffer. -/
theorem a2_keep_v3 (W : Valuation τ sig (Elt Ideal)) :
    StableHlo.after (hostOps2 (F := Ideal)) W (Proc.devRef .tc main_v3) = W (Proc.devRef .tc main_v3) := by
  after_results_simp

/-- The stretch writes nothing to this buffer. -/
theorem a2_keep_arg2 (W : Valuation τ sig (Elt Ideal)) :
    StableHlo.after (hostOps2 (F := Ideal)) W (Proc.devRef .tc main_arg2) = W (Proc.devRef .tc main_arg2) := by
  after_results_simp

/-- The stretch writes nothing to this buffer. -/
theorem a2_keep_arg3 (W : Valuation τ sig (Elt Ideal)) :
    StableHlo.after (hostOps2 (F := Ideal)) W (Proc.devRef .tc main_arg3) = W (Proc.devRef .tc main_arg3) := by
  after_results_simp

/-- The stretch writes nothing to this buffer. -/
theorem a2_keep_arg4 (W : Valuation τ sig (Elt Ideal)) :
    StableHlo.after (hostOps2 (F := Ideal)) W (Proc.devRef .tc main_arg4) = W (Proc.devRef .tc main_arg4) := by
  after_results_simp

/-- The stretch writes nothing to this buffer. -/
theorem a2_keep_arg5 (W : Valuation τ sig (Elt Ideal)) :
    StableHlo.after (hostOps2 (F := Ideal)) W (Proc.devRef .tc main_arg5) = W (Proc.devRef .tc main_arg5) := by
  after_results_simp

/-- The stretch writes nothing to this buffer. -/
theorem a2_keep_arg6 (W : Valuation τ sig (Elt Ideal)) :
    StableHlo.after (hostOps2 (F := Ideal)) W (Proc.devRef .tc main_arg6) = W (Proc.devRef .tc main_arg6) := by
  after_results_simp

/-- The layer's neighbour sums, of the previous layer's features. -/
theorem a4_agg (W : Valuation τ sig (Elt Ideal)) :
    StableHlo.after (hostOps4 (F := Ideal)) W (Proc.devRef .tc main_v101) = aggOf (W (Proc.devRef .tc main_v1)) (W (Proc.devRef .tc main_v3)) (W (Proc.devRef .tc main_v90_1)) := by
  after_results_simp
  rfl

/-- Layer 2's neighbour weights. -/
theorem a4_wl (W : Valuation τ sig (Elt Ideal)) :
    StableHlo.after (hostOps4 (F := Ideal)) W (Proc.devRef .tc main_v103) = Cert.Sage.wOf (W (Proc.devRef .tc main_arg2)) 2 := by
  after_results_simp
  funext j
  obtain ⟨a, b, rfl⟩ : ∃ (a : Fin 128) (b : Fin 128), j = ix2 a b := ⟨j 0, j 1, eq_ix2 j⟩
  exact Cert.LibStackedParams.matrix_apply 2 (by decide) _ _ _ a b

/-- Layer 2's bias row. -/
theorem a4_b (W : Valuation τ sig (Elt Ideal)) :
    StableHlo.after (hostOps4 (F := Ideal)) W (Proc.devRef .tc main_v108) = Cert.Sage.rowOf (W (Proc.devRef .tc main_arg3)) 2 := by
  after_results_simp
  funext j
  obtain ⟨a, b, rfl⟩ : ∃ (a : Fin 1) (b : Fin 128), j = ix2 a b := ⟨j 0, j 1, eq_ix2 j⟩
  exact Cert.LibStackedParams.row_apply 2 (by decide) _ _ _ _ a b

/-- Layer 2's own weights. -/
theorem a4_wr (W : Valuation τ sig (Elt Ideal)) :
    StableHlo.after (hostOps4 (F := Ideal)) W (Proc.devRef .tc main_v107) = Cert.Sage.wOf (W (Proc.devRef .tc main_arg4)) 2 := by
  after_results_simp
  funext j
  obtain ⟨a, b, rfl⟩ : ∃ (a : Fin 128) (b : Fin 128), j = ix2 a b := ⟨j 0, j 1, eq_ix2 j⟩
  exact Cert.LibStackedParams.matrix_apply 2 (by decide) _ _ _ a b

/-- The stretch writes nothing to this buffer. -/
theorem a4_keep_v90_0 (W : Valuation τ sig (Elt Ideal)) :
    StableHlo.after (hostOps4 (F := Ideal)) W (Proc.devRef .tc main_v90_0) = W (Proc.devRef .tc main_v90_0) := by
  after_results_simp

/-- The stretch writes nothing to this buffer. -/
theorem a4_keep_v15 (W : Valuation τ sig (Elt Ideal)) :
    StableHlo.after (hostOps4 (F := Ideal)) W (Proc.devRef .tc main_v15) = W (Proc.devRef .tc main_v15) := by
  after_results_simp

/-- The stretch writes nothing to this buffer. -/
theorem a4_keep_v1 (W : Valuation τ sig (Elt Ideal)) :
    StableHlo.after (hostOps4 (F := Ideal)) W (Proc.devRef .tc main_v1) = W (Proc.devRef .tc main_v1) := by
  after_results_simp

/-- The stretch writes nothing to this buffer. -/
theorem a4_keep_v3 (W : Valuation τ sig (Elt Ideal)) :
    StableHlo.after (hostOps4 (F := Ideal)) W (Proc.devRef .tc main_v3) = W (Proc.devRef .tc main_v3) := by
  after_results_simp

/-- The stretch writes nothing to this buffer. -/
theorem a4_keep_arg2 (W : Valuation τ sig (Elt Ideal)) :
    StableHlo.after (hostOps4 (F := Ideal)) W (Proc.devRef .tc main_arg2) = W (Proc.devRef .tc main_arg2) := by
  after_results_simp

/-- The stretch writes nothing to this buffer. -/
theorem a4_keep_arg3 (W : Valuation τ sig (Elt Ideal)) :
    StableHlo.after (hostOps4 (F := Ideal)) W (Proc.devRef .tc main_arg3) = W (Proc.devRef .tc main_arg3) := by
  after_results_simp

/-- The stretch writes nothing to this buffer. -/
theorem a4_keep_arg4 (W : Valuation τ sig (Elt Ideal)) :
    StableHlo.after (hostOps4 (F := Ideal)) W (Proc.devRef .tc main_arg4) = W (Proc.devRef .tc main_arg4) := by
  after_results_simp

/-- The stretch writes nothing to this buffer. -/
theorem a4_keep_arg5 (W : Valuation τ sig (Elt Ideal)) :
    StableHlo.after (hostOps4 (F := Ideal)) W (Proc.devRef .tc main_arg5) = W (Proc.devRef .tc main_arg5) := by
  after_results_simp

/-- The stretch writes nothing to this buffer. -/
theorem a4_keep_arg6 (W : Valuation τ sig (Elt Ideal)) :
    StableHlo.after (hostOps4 (F := Ideal)) W (Proc.devRef .tc main_arg6) = W (Proc.devRef .tc main_arg6) := by
  after_results_simp

end Cert.KernelIdeal.KValue

end
-- ==== Proof.KCongr.lean ====
/-
  Congruence of the specification's stages in all their array arguments at once: equal arrays in, equal arrays out.
-/
import proofs.«179303_j4578435137604_2_alg».proof.Proof.Spec

noncomputable section

namespace Cert.Sage

theorem lin_congr {agg agg' h h' : SN.Idx → EReal} {d d' : SC.Idx → EReal} {wl wl' wr wr' : SW.Idx → EReal} {b b' : SR.Idx → EReal}
    (e0 : agg = agg') (e1 : h = h') (e2 : d = d') (e3 : wl = wl') (e4 : b = b') (e5 : wr = wr') :
    lin agg h d wl b wr = lin agg' h' d' wl' b' wr' := by
  subst e0 e1 e2 e3 e4 e5; rfl

theorem norm_congr {o o' : SN.Idx → EReal} {mu mu' istd istd' g g' be be' : SR.Idx → EReal}
    (e0 : o = o') (e1 : mu = mu') (e2 : istd = istd') (e3 : g = g') (e4 : be = be') :
    norm o mu istd g be = norm o' mu' istd' g' be' := by
  subst e0 e1 e2 e3 e4; rfl

end Cert.Sage

end
-- ==== Proof.KNorm1.lean ====
/-
  The value of the kernel's normalise-and-clamp launch (launch 1 of six), as one function of the arrays it is
  entered with.

  The launch walks ten tiles of 5000 rows. At each tile the body reads the tile of `out` and the four whole rows
  `mean`, `invstd`, `gamma`, `beta`, and stores, entry by entry, `max (((out − mean) · invstd) · gamma + beta) 0`
  twice: once as it is and once after a change of float format, which over the extended reals is the identity.
  Row `p` of tile `t` is row `5000 t + p` of the array, the tiles cover the 50000 rows, so each of the two result
  arrays ends as that function of the whole arrays.
-/
import proofs.«179303_j4578435137604_2_alg».proof.Proof.Gen.KernelIdeal.Frame
import proofs.«179303_j4578435137604_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.NormValue1

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The stored tile, entry by entry: the tile of `out` minus the mean's entry of that column, times the inverse
    deviation's, times the scale's, plus the shift's, clamped below at zero. -/
theorem pay_apply (x0 : Vec Ideal S5000x128 .f32) (x1 x2 x3 x4 : Vec Ideal S1x128 .f32) (p : Fin 5000) (q : Fin 128) :
    k1_pay1 (F := Ideal) x0 x1 x2 x3 x4 (ix2 p q)
      = max ((((x0 (ix2 p q) - x1 (ix2 0 q)) * x2 (ix2 0 q)) * x3 (ix2 0 q)) + x4 (ix2 0 q)) Cert.Sage.cZero := by
  unfold k1_pay1
  simp only [shapeCast_self, maximumf_apply, addf_apply, mulf_apply, subf_apply, broadcast_apply, broadcastTo_1b_ab_apply]
  rfl

/-- The second stored tile is the first after a change of float format: the same extended reals. -/
theorem pay2_apply (x0 : Vec Ideal S5000x128 .f32) (x1 x2 x3 x4 : Vec Ideal S1x128 .f32) (j : S5000x128.Idx) :
    k1_pay2 (F := Ideal) x0 x1 x2 x3 x4 j = k1_pay1 (F := Ideal) x0 x1 x2 x3 x4 j := rfl

/-- The printed index maps over the grid: the tiled windows sit at tile `t`, the rows' windows at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The grid has ten points. -/
theorem t_lt (t : Fin cfg1.N) : t.val < 10 := lt_of_lt_of_eq (show t.val < grid1.N from t.isLt) N_1

/-- Row `p` of tile `t` is a row of the array. -/
theorem row_lt (t : Fin cfg1.N) (p : Fin 5000) : t.val * 5000 + p.val < 50000 := by
  have := t_lt t; have := p.isLt; omega

variable (V : (c : Dev nD) → (b : Ref sig .tc) → Buf (Elt Ideal) ((c : Thread nD τ).loc b))

/-- The function both result arrays end as, of the arrays the launch is entered with. -/
abbrev G (c : Dev nD) : S50000x128.Idx → EReal :=
  Cert.Sage.norm (V c (Pipeline.arrRef spec1 0)) (V c (Pipeline.arrRef spec1 1)) (V c (Pipeline.arrRef spec1 2))
    (V c (Pipeline.arrRef spec1 3)) (V c (Pipeline.arrRef spec1 4))

set_option maxHeartbeats 1000000 in
/-- A tile's entry `(p, q)` at point `t`, read off the entry arrays. -/
theorem body_at (c : Dev nD) (t : Fin cfg1.N) (p : Fin 5000) (q : Fin 128) :
    k1_pay1 (F := Ideal) (iblk1 V c 0 t) (iblk1 V c 1 t) (iblk1 V c 2 t) (iblk1 V c 3 t) (iblk1 V c 4 t) (ix2 p q)
      = G V c (ix2 (⟨t.val * 5000 + p.val, row_lt t p⟩ : Fin 50000) q) := by
  obtain ⟨e00, e01, e10, e11, e20, e21, e30, e31, e40, e41, -⟩ := idx_facts t
  refine (pay_apply (iblk1 V c 0 t) (iblk1 V c 1 t) (iblk1 V c 2 t) (iblk1 V c 3 t) (iblk1 V c 4 t) p q).trans ?_
  have h0 : iblk1 V c 0 t (ix2 p q) = V c (Pipeline.arrRef spec1 0) (ix2 (⟨t.val * 5000 + p.val, row_lt t p⟩ : Fin 50000) q) := by
    show V c (Pipeline.arrRef spec1 0) (((cfg1.win 0).blk t).view.emb (ix2 p q)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : iblk1 V c 1 t (ix2 0 q) = V c (Pipeline.arrRef spec1 1) (ix2 0 q) := by
    show V c (Pipeline.arrRef spec1 1) (((cfg1.win 1).blk t).view.emb (ix2 0 q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  have h2 : iblk1 V c 2 t (ix2 0 q) = V c (Pipeline.arrRef spec1 2) (ix2 0 q) := by
    show V c (Pipeline.arrRef spec1 2) (((cfg1.win 2).blk t).view.emb (ix2 0 q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  have h3 : iblk1 V c 3 t (ix2 0 q) = V c (Pipeline.arrRef spec1 3) (ix2 0 q) := by
    show V c (Pipeline.arrRef spec1 3) (((cfg1.win 3).blk t).view.emb (ix2 0 q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  have h4 : iblk1 V c 4 t (ix2 0 q) = V c (Pipeline.arrRef spec1 4) (ix2 0 q) := by
    show V c (Pipeline.arrRef spec1 4) (((cfg1.win 4).blk t).view.emb (ix2 0 q)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  rw [h0, h1, h2, h3, h4]
  rfl

/-- What point `t` writes back to the first result array is tile `t` of `G`. -/
theorem flushed5_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S1x128) hz]
  obtain ⟨-, -, -, -, -, -, -, -, -, -, e50, e51, -⟩ := idx_facts t
  funext j
  obtain ⟨p, q, rfl⟩ : ∃ (p : Fin 5000) (q : Fin 128), j = ix2 p q := ⟨j 0, j 1, eq_ix2 j⟩
  refine (body_at V c t p q).trans ?_
  show G V c _ = G V c (((cfg1.win 5).blk t).view.emb (ix2 p q))
  refine congrArg _ (funext fun a => Fin.ext ?_)
  match a with
  | ⟨0, _⟩ => show t.val * 5000 + p.val = win1_5.index t (0 : Fin 2) * 5000 + 1 * p.val; omega
  | ⟨1, _⟩ => show q.val = win1_5.index t (1 : Fin 2) * 128 + 1 * q.val; omega

/-- What point `t` writes back to the second result array is tile `t` of the same `G`. -/
theorem flushed6_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S1x128) hz]
  obtain ⟨-, -, -, -, -, -, -, -, -, -, -, -, e60, e61⟩ := idx_facts t
  funext j
  obtain ⟨p, q, rfl⟩ : ∃ (p : Fin 5000) (q : Fin 128), j = ix2 p q := ⟨j 0, j 1, eq_ix2 j⟩
  refine (pay2_apply _ _ _ _ _ (ix2 p q)).trans ((body_at V c t p q).trans ?_)
  show G V c _ = G V c (((cfg1.win 6).blk t).view.emb (ix2 p q))
  refine congrArg _ (funext fun a => Fin.ext ?_)
  match a with
  | ⟨0, _⟩ => show t.val * 5000 + p.val = win1_6.index t (0 : Fin 2) * 5000 + 1 * p.val; omega
  | ⟨1, _⟩ => show q.val = win1_6.index t (1 : Fin 2) * 128 + 1 * q.val; omega

/-- An index is in tile `t` of the first result array iff each coordinate is in the tile's range. -/
theorem mem_blk5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v53_0).slice (win1_5.rect t)).set ↔ _
  rw [View.set_slice_whole, Rect.mem_set_unit]
  exact Iff.rfl

theorem mem_blk6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v53_1).slice (win1_6.rect t)).set ↔ _
  rw [View.set_slice_whole, Rect.mem_set_unit]
  exact Iff.rfl

/-- Row `r` lies in tile `r / 5000`: the ten tiles cover the array. -/
theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by show (i 0).val / 5000 < grid1.N; rw [N_1]; omega⟩
  obtain ⟨-, -, -, -, -, -, -, -, -, -, e50, e51, -⟩ := idx_facts t
  have ht : t.val = (i 0).val / 5000 := rfl
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

theorem cover6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  let t : Fin cfg1.N := ⟨(i 0).val / 5000, by show (i 0).val / 5000 < grid1.N; rw [N_1]; omega⟩
  obtain ⟨-, -, -, -, -, -, -, -, -, -, -, -, e60, e61⟩ := idx_facts t
  have ht : t.val = (i 0).val / 5000 := rfl
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The first result array after the launch. -/
theorem out_eq (c : Dev nD) : (dat1 (F := Ideal) V c).arrAt 5 cfg1.N = G V c :=
  (dat1 (F := Ideal) V c).arrAt_eq_of_cover 5 (G V c) (fun t _ => flushed5_eq V c t) (cover5)

/-- The second result array after the launch: the same extended reals. -/
theorem out16_eq (c : Dev nD) : (dat1 (F := Ideal) V c).arrAt 6 cfg1.N = G V c :=
  (dat1 (F := Ideal) V c).arrAt_eq_of_cover 6 (G V c) (fun t _ => flushed6_eq V c t) (cover6)

end Cert.KernelIdeal.NormValue1

end
-- ==== Proof.KLayer1.lean ====
/-
  Layer 0 of the idealized kernel program, from the launch memory to the contents at its second launch's exit.

  Before the first launch the host operations slice the edge array into source and target entries, count the
  in-degrees by a scatter-add of ones and form the inverse-degree column, form the neighbour sums of the input
  features (read after a change of float format, which over the extended reals changes nothing) and slice layer 0's
  parameters out of the stacked arrays. From there the layer is as every layer: the linear launch, the statistics,
  the normalising launch — the specification's one layer in its mean-of-squares form. The index entries, the
  inverse-degree column and the stacked parameters are left for the next layers.
-/
import proofs.«179303_j4578435137604_2_alg».proof.Proof.Gen.KernelIdeal.Frame
import proofs.«179303_j4578435137604_2_alg».proof.Proof.KStretch
import proofs.«179303_j4578435137604_2_alg».proof.Proof.KCongr
import proofs.«179303_j4578435137604_2_alg».proof.Proof.KNorm1

set_option maxRecDepth 16384

noncomputable section

namespace Cert.KernelIdeal.KValue

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

set_option maxHeartbeats 1000000 in
/-- Layer 0, given what the linear launch's three result arrays are of its entry arrays. -/
theorem layer1 (c : Dev nD) (x : Cert.Sage.SN.Idx → EReal) (ei : IVec S2x1600000 32)
    (a2 a4 : (⟨3, ![3, 128, 128]⟩ : Shape).Idx → EReal) (a3 a5 a6 : (⟨2, ![3, 128]⟩ : Shape).Idx → EReal)
    (ex : W0 m ρ c (Proc.devRef .tc main_arg0) = x) (eei : W0 m ρ c (Proc.devRef .tc main_arg1) = ei)
    (ea2 : W0 m ρ c (Proc.devRef .tc main_arg2) = a2) (ea3 : W0 m ρ c (Proc.devRef .tc main_arg3) = a3) (ea4 : W0 m ρ c (Proc.devRef .tc main_arg4) = a4)
    (ea5 : W0 m ρ c (Proc.devRef .tc main_arg5) = a5) (ea6 : W0 m ρ c (Proc.devRef .tc main_arg6) = a6)
    (Hout : (dat0 (F := Ideal) (V3 m ρ) c).arrAt 6 cfg0.N
      = Cert.Sage.lin (V3 m ρ c (Pipeline.arrRef spec0 0)) (V3 m ρ c (Pipeline.arrRef spec0 1)) (V3 m ρ c (Pipeline.arrRef spec0 2))
          (V3 m ρ c (Pipeline.arrRef spec0 3)) (V3 m ρ c (Pipeline.arrRef spec0 4)) (V3 m ρ c (Pipeline.arrRef spec0 5)))
    (Hsum : (dat0 (F := Ideal) (V3 m ρ) c).arrAt 7 cfg0.N
      = Cert.Sage.colSum (Cert.Sage.lin (V3 m ρ c (Pipeline.arrRef spec0 0)) (V3 m ρ c (Pipeline.arrRef spec0 1)) (V3 m ρ c (Pipeline.arrRef spec0 2))
          (V3 m ρ c (Pipeline.arrRef spec0 3)) (V3 m ρ c (Pipeline.arrRef spec0 4)) (V3 m ρ c (Pipeline.arrRef spec0 5))))
    (Hsq : (dat0 (F := Ideal) (V3 m ρ) c).arrAt 8 cfg0.N
      = Cert.Sage.colSumSq (Cert.Sage.lin (V3 m ρ c (Pipeline.arrRef spec0 0)) (V3 m ρ c (Pipeline.arrRef spec0 1)) (V3 m ρ c (Pipeline.arrRef spec0 2))
          (V3 m ρ c (Pipeline.arrRef spec0 3)) (V3 m ρ c (Pipeline.arrRef spec0 4)) (V3 m ρ c (Pipeline.arrRef spec0 5)))) :
    W6 m ρ c (Proc.devRef .tc main_v53_0) = Cert.Sage.layerK (aggOf (v1Of ei) (v3Of ei) x) x (invDegOf (v3Of ei)) (Cert.Sage.wOf a2 0) (Cert.Sage.rowOf a3 0) (Cert.Sage.wOf a4 0) (Cert.Sage.rowOf a5 0) (Cert.Sage.rowOf a6 0)
    ∧ W6 m ρ c (Proc.devRef .tc main_v53_1) = Cert.Sage.layerK (aggOf (v1Of ei) (v3Of ei) x) x (invDegOf (v3Of ei)) (Cert.Sage.wOf a2 0) (Cert.Sage.rowOf a3 0) (Cert.Sage.wOf a4 0) (Cert.Sage.rowOf a5 0) (Cert.Sage.rowOf a6 0)
    ∧ W6 m ρ c (Proc.devRef .tc main_v1) = v1Of ei ∧ W6 m ρ c (Proc.devRef .tc main_v3) = v3Of ei ∧ W6 m ρ c (Proc.devRef .tc main_v15) = invDegOf (v3Of ei)
    ∧ W6 m ρ c (Proc.devRef .tc main_arg2) = a2 ∧ W6 m ρ c (Proc.devRef .tc main_arg3) = a3 ∧ W6 m ρ c (Proc.devRef .tc main_arg4) = a4
    ∧ W6 m ρ c (Proc.devRef .tc main_arg5) = a5 ∧ W6 m ρ c (Proc.devRef .tc main_arg6) = a6 := by
  -- after the first stretch: the index entries and the degree's pieces
  have b_v1 : W1 m ρ c (Proc.devRef .tc main_v1) = v1Of ei := (p0_v1 (W0 m ρ c)).trans (by rw [eei])
  have b_v3 : W1 m ρ c (Proc.devRef .tc main_v3) = v3Of ei := (p0_v3 (W0 m ρ c)).trans (by rw [eei])
  have b_v9 : W1 m ρ c (Proc.devRef .tc main_v9) = degPos (v3Of ei) := (p0_v9 (W0 m ρ c)).trans (by rw [eei])
  have b_v13 : W1 m ρ c (Proc.devRef .tc main_v13) = degRecip (v3Of ei) := (p0_v13 (W0 m ρ c)).trans (by rw [eei])
  have b_c4 : W1 m ρ c (Proc.devRef .tc main_cst_4) = constant (F := Ideal) S_ .f32 0x00000000#32 := p0_cst4 (W0 m ρ c)
  have b_arg0 : W1 m ρ c (Proc.devRef .tc main_arg0) = x := (p0_keep_arg0 (W0 m ρ c)).trans ex
  have b_arg2 : W1 m ρ c (Proc.devRef .tc main_arg2) = a2 := (p0_keep_arg2 (W0 m ρ c)).trans ea2
  have b_arg3 : W1 m ρ c (Proc.devRef .tc main_arg3) = a3 := (p0_keep_arg3 (W0 m ρ c)).trans ea3
  have b_arg4 : W1 m ρ c (Proc.devRef .tc main_arg4) = a4 := (p0_keep_arg4 (W0 m ρ c)).trans ea4
  have b_arg5 : W1 m ρ c (Proc.devRef .tc main_arg5) = a5 := (p0_keep_arg5 (W0 m ρ c)).trans ea5
  have b_arg6 : W1 m ρ c (Proc.devRef .tc main_arg6) = a6 := (p0_keep_arg6 (W0 m ρ c)).trans ea6
  -- after the second: the inverse degree as a vector
  have c_v14 : W2 m ρ c (Proc.devRef .tc main_v14) = selOf (degPos (v3Of ei)) (degRecip (v3Of ei)) (constant (F := Ideal) S_ .f32 0x00000000#32) :=
    (p01_v14 (W1 m ρ c)).trans (by rw [b_v9, b_v13, b_c4])
  have c_v1 : W2 m ρ c (Proc.devRef .tc main_v1) = v1Of ei := (p01_keep_v1 (W1 m ρ c)).trans b_v1
  have c_v3 : W2 m ρ c (Proc.devRef .tc main_v3) = v3Of ei := (p01_keep_v3 (W1 m ρ c)).trans b_v3
  have c_arg0 : W2 m ρ c (Proc.devRef .tc main_arg0) = x := (p01_keep_arg0 (W1 m ρ c)).trans b_arg0
  have c_arg2 : W2 m ρ c (Proc.devRef .tc main_arg2) = a2 := (p01_keep_arg2 (W1 m ρ c)).trans b_arg2
  have c_arg3 : W2 m ρ c (Proc.devRef .tc main_arg3) = a3 := (p01_keep_arg3 (W1 m ρ c)).trans b_arg3
  have c_arg4 : W2 m ρ c (Proc.devRef .tc main_arg4) = a4 := (p01_keep_arg4 (W1 m ρ c)).trans b_arg4
  have c_arg5 : W2 m ρ c (Proc.devRef .tc main_arg5) = a5 := (p01_keep_arg5 (W1 m ρ c)).trans b_arg5
  have c_arg6 : W2 m ρ c (Proc.devRef .tc main_arg6) = a6 := (p01_keep_arg6 (W1 m ρ c)).trans b_arg6
  -- after the third: the first launch's entry arrays
  have fa : V3 m ρ c (Pipeline.arrRef spec0 0) = aggOf (v1Of ei) (v3Of ei) x :=
    (p02_agg (W2 m ρ c)).trans (by rw [c_v1, c_v3, c_arg0]; rfl)
  have fh : V3 m ρ c (Pipeline.arrRef spec0 1) = x := (p02_keep_arg0 (W2 m ρ c)).trans c_arg0
  have fD : V3 m ρ c (Pipeline.arrRef spec0 2) = invDegOf (v3Of ei) := (p02_v15 (W2 m ρ c)).trans (by rw [c_v14]; rfl)
  have fwl : V3 m ρ c (Pipeline.arrRef spec0 3) = Cert.Sage.wOf a2 0 := (p02_wl (W2 m ρ c)).trans (by rw [c_arg2])
  have fb : V3 m ρ c (Pipeline.arrRef spec0 4) = Cert.Sage.rowOf a3 0 := (p02_b (W2 m ρ c)).trans (by rw [c_arg3])
  have fwr : V3 m ρ c (Pipeline.arrRef spec0 5) = Cert.Sage.wOf a4 0 := (p02_wr (W2 m ρ c)).trans (by rw [c_arg4])
  have f_v1 : W3 m ρ c (Proc.devRef .tc main_v1) = v1Of ei := (p02_keep_v1 (W2 m ρ c)).trans c_v1
  have f_v3 : W3 m ρ c (Proc.devRef .tc main_v3) = v3Of ei := (p02_keep_v3 (W2 m ρ c)).trans c_v3
  have f_arg2 : W3 m ρ c (Proc.devRef .tc main_arg2) = a2 := (p02_keep_arg2 (W2 m ρ c)).trans c_arg2
  have f_arg3 : W3 m ρ c (Proc.devRef .tc main_arg3) = a3 := (p02_keep_arg3 (W2 m ρ c)).trans c_arg3
  have f_arg4 : W3 m ρ c (Proc.devRef .tc main_arg4) = a4 := (p02_keep_arg4 (W2 m ρ c)).trans c_arg4
  have f_arg5 : W3 m ρ c (Proc.devRef .tc main_arg5) = a5 := (p02_keep_arg5 (W2 m ρ c)).trans c_arg5
  have f_arg6 : W3 m ρ c (Proc.devRef .tc main_arg6) = a6 := (p02_keep_arg6 (W2 m ρ c)).trans c_arg6
  -- after the linear launch
  have go : W4 m ρ c (Proc.devRef .tc main_v35_0) = Cert.Sage.lin (aggOf (v1Of ei) (v3Of ei) x) x (invDegOf (v3Of ei)) (Cert.Sage.wOf a2 0) (Cert.Sage.rowOf a3 0) (Cert.Sage.wOf a4 0) :=
    (W4_arr m ρ c 6).trans (Hout.trans (Cert.Sage.lin_congr fa fh fD fwl fb fwr))
  have gs : W4 m ρ c (Proc.devRef .tc main_v35_1) = Cert.Sage.colSum (Cert.Sage.lin (aggOf (v1Of ei) (v3Of ei) x) x (invDegOf (v3Of ei)) (Cert.Sage.wOf a2 0) (Cert.Sage.rowOf a3 0) (Cert.Sage.wOf a4 0)) :=
    (W4_arr m ρ c 7).trans (Hsum.trans (congrArg Cert.Sage.colSum (Cert.Sage.lin_congr fa fh fD fwl fb fwr)))
  have gss : W4 m ρ c (Proc.devRef .tc main_v35_2) = Cert.Sage.colSumSq (Cert.Sage.lin (aggOf (v1Of ei) (v3Of ei) x) x (invDegOf (v3Of ei)) (Cert.Sage.wOf a2 0) (Cert.Sage.rowOf a3 0) (Cert.Sage.wOf a4 0)) :=
    (W4_arr m ρ c 8).trans (Hsq.trans (congrArg Cert.Sage.colSumSq (Cert.Sage.lin_congr fa fh fD fwl fb fwr)))
  have gD : W4 m ρ c (Proc.devRef .tc main_v15) = invDegOf (v3Of ei) :=
    ((W4_arr m ρ c 2).trans (((dat0 (F := Ideal) (V3 m ρ) c).arrAt_in 2 rfl _).trans (A_eq0 (V3 m ρ) c 2))).trans fD
  have g_v1 : W4 m ρ c (Proc.devRef .tc main_v1) = v1Of ei := (W4_of_ne m ρ c main_v1 (by decide)).trans f_v1
  have g_v3 : W4 m ρ c (Proc.devRef .tc main_v3) = v3Of ei := (W4_of_ne m ρ c main_v3 (by decide)).trans f_v3
  have g_arg2 : W4 m ρ c (Proc.devRef .tc main_arg2) = a2 := (W4_of_ne m ρ c main_arg2 (by decide)).trans f_arg2
  have g_arg3 : W4 m ρ c (Proc.devRef .tc main_arg3) = a3 := (W4_of_ne m ρ c main_arg3 (by decide)).trans f_arg3
  have g_arg4 : W4 m ρ c (Proc.devRef .tc main_arg4) = a4 := (W4_of_ne m ρ c main_arg4 (by decide)).trans f_arg4
  have g_arg5 : W4 m ρ c (Proc.devRef .tc main_arg5) = a5 := (W4_of_ne m ρ c main_arg5 (by decide)).trans f_arg5
  have g_arg6 : W4 m ρ c (Proc.devRef .tc main_arg6) = a6 := (W4_of_ne m ρ c main_arg6 (by decide)).trans f_arg6
  -- after the statistics stretch
  have ko : V5 m ρ c (Pipeline.arrRef spec1 0) = Cert.Sage.lin (aggOf (v1Of ei) (v3Of ei) x) x (invDegOf (v3Of ei)) (Cert.Sage.wOf a2 0) (Cert.Sage.rowOf a3 0) (Cert.Sage.wOf a4 0) := (s1_keep_v35_0 (W4 m ρ c)).trans go
  have kmean : V5 m ρ c (Pipeline.arrRef spec1 1) = Cert.Sage.mean (Cert.Sage.lin (aggOf (v1Of ei) (v3Of ei) x) x (invDegOf (v3Of ei)) (Cert.Sage.wOf a2 0) (Cert.Sage.rowOf a3 0) (Cert.Sage.wOf a4 0)) :=
    (s1_mean (W4 m ρ c)).trans (by rw [gs]; exact meanOf_colSum _)
  have kistd : V5 m ρ c (Pipeline.arrRef spec1 2) = Cert.Sage.invstdK (Cert.Sage.lin (aggOf (v1Of ei) (v3Of ei) x) x (invDegOf (v3Of ei)) (Cert.Sage.wOf a2 0) (Cert.Sage.rowOf a3 0) (Cert.Sage.wOf a4 0)) :=
    (s1_istd (W4 m ρ c)).trans (by rw [gs, gss]; exact invstdOf_colSums _)
  have kg : V5 m ρ c (Pipeline.arrRef spec1 3) = Cert.Sage.rowOf a5 0 := (s1_g (W4 m ρ c)).trans (by rw [g_arg5])
  have kbe : V5 m ρ c (Pipeline.arrRef spec1 4) = Cert.Sage.rowOf a6 0 := (s1_be (W4 m ρ c)).trans (by rw [g_arg6])
  have kD : W5 m ρ c (Proc.devRef .tc main_v15) = invDegOf (v3Of ei) := (s1_keep_v15 (W4 m ρ c)).trans gD
  have k_v1 : W5 m ρ c (Proc.devRef .tc main_v1) = v1Of ei := (s1_keep_v1 (W4 m ρ c)).trans g_v1
  have k_v3 : W5 m ρ c (Proc.devRef .tc main_v3) = v3Of ei := (s1_keep_v3 (W4 m ρ c)).trans g_v3
  have k_arg2 : W5 m ρ c (Proc.devRef .tc main_arg2) = a2 := (s1_keep_arg2 (W4 m ρ c)).trans g_arg2
  have k_arg3 : W5 m ρ c (Proc.devRef .tc main_arg3) = a3 := (s1_keep_arg3 (W4 m ρ c)).trans g_arg3
  have k_arg4 : W5 m ρ c (Proc.devRef .tc main_arg4) = a4 := (s1_keep_arg4 (W4 m ρ c)).trans g_arg4
  have k_arg5 : W5 m ρ c (Proc.devRef .tc main_arg5) = a5 := (s1_keep_arg5 (W4 m ρ c)).trans g_arg5
  have k_arg6 : W5 m ρ c (Proc.devRef .tc main_arg6) = a6 := (s1_keep_arg6 (W4 m ρ c)).trans g_arg6
  -- after the normalising launch
  have hG : NormValue1.G (V5 m ρ) c = Cert.Sage.layerK (aggOf (v1Of ei) (v3Of ei) x) x (invDegOf (v3Of ei)) (Cert.Sage.wOf a2 0) (Cert.Sage.rowOf a3 0) (Cert.Sage.wOf a4 0) (Cert.Sage.rowOf a5 0) (Cert.Sage.rowOf a6 0) := by
    exact (Cert.Sage.norm_congr ko kmean kistd kg kbe).trans rfl
  exact ⟨(W6_arr m ρ c 5).trans ((NormValue1.out_eq (V5 m ρ) c).trans hG),
    (W6_arr m ρ c 6).trans ((NormValue1.out16_eq (V5 m ρ) c).trans hG),
    (W6_of_ne m ρ c main_v1 (by decide)).trans k_v1, (W6_of_ne m ρ c main_v3 (by decide)).trans k_v3,
    (W6_of_ne m ρ c main_v15 (by decide)).trans kD,
    (W6_of_ne m ρ c main_arg2 (by decide)).trans k_arg2, (W6_of_ne m ρ c main_arg3 (by decide)).trans k_arg3,
    (W6_of_ne m ρ c main_arg4 (by decide)).trans k_arg4, (W6_of_ne m ρ c main_arg5 (by decide)).trans k_arg5,
    (W6_of_ne m ρ c main_arg6 (by decide)).trans k_arg6⟩

end Cert.KernelIdeal.KValue

end
-- ==== Proof.KNorm3.lean ====
/-
  The value of the kernel's normalise-and-clamp launch (launch 3 of six), as one function of the arrays it is
  entered with.

  The launch walks ten tiles of 5000 rows. At each tile the body reads the tile of `out` and the four whole rows
  `mean`, `invstd`, `gamma`, `beta`, and stores, entry by entry, `max (((out − mean) · invstd) · gamma + beta) 0`
  twice: once as it is and once after a change of float format, which over the extended reals is the identity.
  Row `p` of tile `t` is row `5000 t + p` of the array, the tiles cover the 50000 rows, so each of the two result
  arrays ends as that function of the whole arrays.
-/
import proofs.«179303_j4578435137604_2_alg».proof.Proof.Gen.KernelIdeal.Frame
import proofs.«179303_j4578435137604_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.NormValue3

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The stored tile, entry by entry: the tile of `out` minus the mean's entry of that column, times the inverse
    deviation's, times the scale's, plus the shift's, clamped below at zero. -/
theorem pay_apply (x0 : Vec Ideal S5000x128 .f32) (x1 x2 x3 x4 : Vec Ideal S1x128 .f32) (p : Fin 5000) (q : Fin 128) :
    k3_pay1 (F := Ideal) x0 x1 x2 x3 x4 (ix2 p q)
      = max ((((x0 (ix2 p q) - x1 (ix2 0 q)) * x2 (ix2 0 q)) * x3 (ix2 0 q)) + x4 (ix2 0 q)) Cert.Sage.cZero := by
  unfold k3_pay1
  simp only [shapeCast_self, maximumf_apply, addf_apply, mulf_apply, subf_apply, broadcast_apply, broadcastTo_1b_ab_apply]
  rfl

/-- The second stored tile is the first after a change of float format: the same extended reals. -/
theorem pay2_apply (x0 : Vec Ideal S5000x128 .f32) (x1 x2 x3 x4 : Vec Ideal S1x128 .f32) (j : S5000x128.Idx) :
    k3_pay2 (F := Ideal) x0 x1 x2 x3 x4 j = k3_pay1 (F := Ideal) x0 x1 x2 x3 x4 j := rfl

/-- The printed index maps over the grid: the tiled windows sit at tile `t`, the rows' windows at their one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The grid has ten points. -/
theorem t_lt (t : Fin cfg3.N) : t.val < 10 := lt_of_lt_of_eq (show t.val < grid3.N from t.isLt) N_3

/-- Row `p` of tile `t` is a row of the array. -/
theorem row_lt (t : Fin cfg3.N) (p : Fin 5000) : t.val * 5000 + p.val < 50000 := by
  have := t_lt t; have := p.isLt; omega

variable (V : (c : Dev nD) → (b : Ref sig .tc) → Buf (Elt Ideal) ((c : Thread nD τ).loc b))

/-- The function both result arrays end as, of the arrays the launch is entered with. -/
abbrev G (c : Dev nD) : S50000x128.Idx → EReal :=
  Cert.Sage.norm (V c (Pipeline.arrRef spec3 0)) (V c (Pipeline.arrRef spec3 1)) (V c (Pipeline.arrRef spec3 2))
    (V c (Pipeline.arrRef spec3 3)) (V c (Pipeline.arrRef spec3 4))

set_option maxHeartbeats 1000000 in
/-- A tile's entry `(p, q)` at point `t`, read off the entry arrays. -/
theorem body_at (c : Dev nD) (t : Fin cfg3.N) (p : Fin 5000) (q : Fin 128) :
    k3_pay1 (F := Ideal) (iblk3 V c 0 t) (iblk3 V c 1 t) (iblk3 V c 2 t) (iblk3 V c 3 t) (iblk3 V c 4 t) (ix2 p q)
      = G V c (ix2 (⟨t.val * 5000 + p.val, row_lt t p⟩ : Fin 50000) q) := by
  obtain ⟨e00, e01, e10, e11, e20, e21, e30, e31, e40, e41, -⟩ := idx_facts t
  refine (pay_apply (iblk3 V c 0 t) (iblk3 V c 1 t) (iblk3 V c 2 t) (iblk3 V c 3 t) (iblk3 V c 4 t) p q).trans ?_
  have h0 : iblk3 V c 0 t (ix2 p q) = V c (Pipeline.arrRef spec3 0) (ix2 (⟨t.val * 5000 + p.val, row_lt t p⟩ : Fin 50000) q) := by
    show V c (Pipeline.arrRef spec3 0) (((cfg3.win 0).blk t).view.emb (ix2 p q)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : iblk3 V c 1 t (ix2 0 q) = V c (Pipeline.arrRef spec3 1) (ix2 0 q) := by
    show V c (Pipeline.arrRef spec3 1) (((cfg3.win 1).blk t).view.emb (ix2 0 q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  have h2 : iblk3 V c 2 t (ix2 0 q) = V c (Pipeline.arrRef spec3 2) (ix2 0 q) := by
    show V c (Pipeline.arrRef spec3 2) (((cfg3.win 2).blk t).view.emb (ix2 0 q)) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  have h3 : iblk3 V c 3 t (ix2 0 q) = V c (Pipeline.arrRef spec3 3) (ix2 0 q) := by
    show V c (Pipeline.arrRef spec3 3) (((cfg3.win 3).blk t).view.emb (ix2 0 q)) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  have h4 : iblk3 V c 4 t (ix2 0 q) = V c (Pipeline.arrRef spec3 4) (ix2 0 q) := by
    show V c (Pipeline.arrRef spec3 4) (((cfg3.win 4).blk t).view.emb (ix2 0 q)) = _
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega
  rw [h0, h1, h2, h3, h4]
  rfl

/-- What point `t` writes back to the first result array is tile `t` of `G`. -/
theorem flushed5_eq (c : Dev nD) (t : Fin cfg3.N) :
    (dat3 (F := Ideal) V c).flushed 5 t = ((cfg3.win 5).blk t).view.read (Elt Ideal) (G V c) := by
  show (cfg3.win 5).cut (grid3.coords t) ((dat3 (F := Ideal) V c).after 5 t) = _
  rw [after3_5]
  unfold out3_5
  rw [View.canon_unit_zero hz]
  simp only [View.ld_unit_zero (S := S5000x128) hz, View.ld_unit_zero (S := S1x128) hz]
  obtain ⟨-, -, -, -, -, -, -, -, -, -, e50, e51, -⟩ := idx_facts t
  funext j
  obtain ⟨p, q, rfl⟩ : ∃ (p : Fin 5000) (q : Fin 128), j = ix2 p q := ⟨j 0, j 1, eq_ix2 j⟩
  refine (body_at V c t p q).trans ?_
  show G V c _ = G V c (((cfg3.win 5).blk t).view.emb (ix2 p q))
  refine congrArg _ (funext fun a => Fin.ext ?_)
  match a with
  | ⟨0, _⟩ => show t.val * 5000 + p.val = win3_5.index t (0 : Fin 2) * 5000 + 1 * p.val; omega
  | ⟨1, _⟩ => show q.val = win3_5.index t (1 : Fin 2) * 128 + 1 * q.val; omega

/-- What point `t` writes back to the second result array is tile `t` of the same `G`. -/
theorem flushed6_eq (c : Dev nD) (t : Fin cfg3.N) :
    (dat3 (F := Ideal) V c).flushed 6 t = ((cfg3.win 6).blk t).view.read (Elt Ideal) (G V c) := by
  show (cfg3.win 6).cut (grid3.coords t) ((dat3 (F := Ideal) V c).after 6 t) = _
  rw [after3_6]
  unfold out3_6
  rw [View.canon_unit_zero hz]
  simp only [View.ld_unit_zero (S := S5000x128) hz, View.ld_unit_zero (S := S1x128) hz]
  obtain ⟨-, -, -, -, -, -, -, -, -, -, -, -, e60, e61⟩ := idx_facts t
  funext j
  obtain ⟨p, q, rfl⟩ : ∃ (p : Fin 5000) (q : Fin 128), j = ix2 p q := ⟨j 0, j 1, eq_ix2 j⟩
  refine (pay2_apply _ _ _ _ _ (ix2 p q)).trans ((body_at V c t p q).trans ?_)
  show G V c _ = G V c (((cfg3.win 6).blk t).view.emb (ix2 p q))
  refine congrArg _ (funext fun a => Fin.ext ?_)
  match a with
  | ⟨0, _⟩ => show t.val * 5000 + p.val = win3_6.index t (0 : Fin 2) * 5000 + 1 * p.val; omega
  | ⟨1, _⟩ => show q.val = win3_6.index t (1 : Fin 2) * 128 + 1 * q.val; omega

/-- An index is in tile `t` of the first result array iff each coordinate is in the tile's range. -/
theorem mem_blk5 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v90_0).slice (win3_5.rect t)).set ↔ _
  rw [View.set_slice_whole, Rect.mem_set_unit]
  exact Iff.rfl

theorem mem_blk6 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v90_1).slice (win3_6.rect t)).set ↔ _
  rw [View.set_slice_whole, Rect.mem_set_unit]
  exact Iff.rfl

/-- Row `r` lies in tile `r / 5000`: the ten tiles cover the array. -/
theorem cover5 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  let t : Fin cfg3.N := ⟨(i 0).val / 5000, by show (i 0).val / 5000 < grid3.N; rw [N_3]; omega⟩
  obtain ⟨-, -, -, -, -, -, -, -, -, -, e50, e51, -⟩ := idx_facts t
  have ht : t.val = (i 0).val / 5000 := rfl
  refine ⟨t, flush3_5 t, ?_⟩
  rw [mem_blk5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

theorem cover6 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  let t : Fin cfg3.N := ⟨(i 0).val / 5000, by show (i 0).val / 5000 < grid3.N; rw [N_3]; omega⟩
  obtain ⟨-, -, -, -, -, -, -, -, -, -, -, -, e60, e61⟩ := idx_facts t
  have ht : t.val = (i 0).val / 5000 := rfl
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The first result array after the launch. -/
theorem out_eq (c : Dev nD) : (dat3 (F := Ideal) V c).arrAt 5 cfg3.N = G V c :=
  (dat3 (F := Ideal) V c).arrAt_eq_of_cover 5 (G V c) (fun t _ => flushed5_eq V c t) (cover5)

/-- The second result array after the launch: the same extended reals. -/
theorem out16_eq (c : Dev nD) : (dat3 (F := Ideal) V c).arrAt 6 cfg3.N = G V c :=
  (dat3 (F := Ideal) V c).arrAt_eq_of_cover 6 (G V c) (fun t _ => flushed6_eq V c t) (cover6)

end Cert.KernelIdeal.NormValue3

end
-- ==== Proof.KLayer2.lean ====
/-
  Layer 1 of the idealized kernel program, from the buffer contents at the previous launch's exit to the contents
  at this layer's second launch's exit.

  The stretch of host operations forms the neighbour sums of the previous layer's features and slices this layer's
  weights and bias out of the stacked arrays; the first launch leaves the linear stage `out` and the column sums of
  `out` and `out²`; the next stretch turns the sums into the mean and the inverse deviation and slices the scale and
  shift rows; the second launch leaves `max (((out − mean) · invstd) · scale + shift) 0`, twice. Together: the
  specification's one layer, in its mean-of-squares form. The index entries, the inverse-degree column and the
  stacked parameters pass through untouched.
-/
import proofs.«179303_j4578435137604_2_alg».proof.Proof.Gen.KernelIdeal.Frame
import proofs.«179303_j4578435137604_2_alg».proof.Proof.KStretch
import proofs.«179303_j4578435137604_2_alg».proof.Proof.KCongr
import proofs.«179303_j4578435137604_2_alg».proof.Proof.KNorm3

set_option maxRecDepth 16384

noncomputable section

namespace Cert.KernelIdeal.KValue

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

set_option maxHeartbeats 1000000 in
/-- Layer 1, given what the linear launch's three result arrays are of its entry arrays. -/
theorem layer2 (c : Dev nD) (h : Cert.Sage.SN.Idx → EReal) (v1 v3 : IVec S1600000 32) (D : Cert.Sage.SC.Idx → EReal)
    (a2 a4 : (⟨3, ![3, 128, 128]⟩ : Shape).Idx → EReal) (a3 a5 a6 : (⟨2, ![3, 128]⟩ : Shape).Idx → EReal)
    (e0 : W6 m ρ c (Proc.devRef .tc main_v53_0) = h) (e1 : W6 m ρ c (Proc.devRef .tc main_v53_1) = h)
    (ev1 : W6 m ρ c (Proc.devRef .tc main_v1) = v1) (ev3 : W6 m ρ c (Proc.devRef .tc main_v3) = v3) (eD : W6 m ρ c (Proc.devRef .tc main_v15) = D)
    (ea2 : W6 m ρ c (Proc.devRef .tc main_arg2) = a2) (ea3 : W6 m ρ c (Proc.devRef .tc main_arg3) = a3) (ea4 : W6 m ρ c (Proc.devRef .tc main_arg4) = a4)
    (ea5 : W6 m ρ c (Proc.devRef .tc main_arg5) = a5) (ea6 : W6 m ρ c (Proc.devRef .tc main_arg6) = a6)
    (Hout : (dat2 (F := Ideal) (V7 m ρ) c).arrAt 6 cfg2.N
      = Cert.Sage.lin (V7 m ρ c (Pipeline.arrRef spec2 0)) (V7 m ρ c (Pipeline.arrRef spec2 1)) (V7 m ρ c (Pipeline.arrRef spec2 2))
          (V7 m ρ c (Pipeline.arrRef spec2 3)) (V7 m ρ c (Pipeline.arrRef spec2 4)) (V7 m ρ c (Pipeline.arrRef spec2 5)))
    (Hsum : (dat2 (F := Ideal) (V7 m ρ) c).arrAt 7 cfg2.N
      = Cert.Sage.colSum (Cert.Sage.lin (V7 m ρ c (Pipeline.arrRef spec2 0)) (V7 m ρ c (Pipeline.arrRef spec2 1)) (V7 m ρ c (Pipeline.arrRef spec2 2))
          (V7 m ρ c (Pipeline.arrRef spec2 3)) (V7 m ρ c (Pipeline.arrRef spec2 4)) (V7 m ρ c (Pipeline.arrRef spec2 5))))
    (Hsq : (dat2 (F := Ideal) (V7 m ρ) c).arrAt 8 cfg2.N
      = Cert.Sage.colSumSq (Cert.Sage.lin (V7 m ρ c (Pipeline.arrRef spec2 0)) (V7 m ρ c (Pipeline.arrRef spec2 1)) (V7 m ρ c (Pipeline.arrRef spec2 2))
          (V7 m ρ c (Pipeline.arrRef spec2 3)) (V7 m ρ c (Pipeline.arrRef spec2 4)) (V7 m ρ c (Pipeline.arrRef spec2 5)))) :
    W10 m ρ c (Proc.devRef .tc main_v90_0) = Cert.Sage.layerK (aggOf v1 v3 h) h D (Cert.Sage.wOf a2 1) (Cert.Sage.rowOf a3 1) (Cert.Sage.wOf a4 1) (Cert.Sage.rowOf a5 1) (Cert.Sage.rowOf a6 1)
    ∧ W10 m ρ c (Proc.devRef .tc main_v90_1) = Cert.Sage.layerK (aggOf v1 v3 h) h D (Cert.Sage.wOf a2 1) (Cert.Sage.rowOf a3 1) (Cert.Sage.wOf a4 1) (Cert.Sage.rowOf a5 1) (Cert.Sage.rowOf a6 1)
    ∧ W10 m ρ c (Proc.devRef .tc main_v1) = v1 ∧ W10 m ρ c (Proc.devRef .tc main_v3) = v3 ∧ W10 m ρ c (Proc.devRef .tc main_v15) = D
    ∧ W10 m ρ c (Proc.devRef .tc main_arg2) = a2 ∧ W10 m ρ c (Proc.devRef .tc main_arg3) = a3 ∧ W10 m ρ c (Proc.devRef .tc main_arg4) = a4
    ∧ W10 m ρ c (Proc.devRef .tc main_arg5) = a5 ∧ W10 m ρ c (Proc.devRef .tc main_arg6) = a6 := by
  -- after the aggregation stretch
  have fa : V7 m ρ c (Pipeline.arrRef spec2 0) = aggOf v1 v3 h := (a2_agg (W6 m ρ c)).trans (by rw [ev1, ev3, e1])
  have fh : V7 m ρ c (Pipeline.arrRef spec2 1) = h := (a2_keep_v53_0 (W6 m ρ c)).trans e0
  have fD : V7 m ρ c (Pipeline.arrRef spec2 2) = D := (a2_keep_v15 (W6 m ρ c)).trans eD
  have fwl : V7 m ρ c (Pipeline.arrRef spec2 3) = Cert.Sage.wOf a2 1 := (a2_wl (W6 m ρ c)).trans (by rw [ea2])
  have fb : V7 m ρ c (Pipeline.arrRef spec2 4) = Cert.Sage.rowOf a3 1 := (a2_b (W6 m ρ c)).trans (by rw [ea3])
  have fwr : V7 m ρ c (Pipeline.arrRef spec2 5) = Cert.Sage.wOf a4 1 := (a2_wr (W6 m ρ c)).trans (by rw [ea4])
  have f_v1 : W7 m ρ c (Proc.devRef .tc main_v1) = v1 := (a2_keep_v1 (W6 m ρ c)).trans ev1
  have f_v3 : W7 m ρ c (Proc.devRef .tc main_v3) = v3 := (a2_keep_v3 (W6 m ρ c)).trans ev3
  have f_arg2 : W7 m ρ c (Proc.devRef .tc main_arg2) = a2 := (a2_keep_arg2 (W6 m ρ c)).trans ea2
  have f_arg3 : W7 m ρ c (Proc.devRef .tc main_arg3) = a3 := (a2_keep_arg3 (W6 m ρ c)).trans ea3
  have f_arg4 : W7 m ρ c (Proc.devRef .tc main_arg4) = a4 := (a2_keep_arg4 (W6 m ρ c)).trans ea4
  have f_arg5 : W7 m ρ c (Proc.devRef .tc main_arg5) = a5 := (a2_keep_arg5 (W6 m ρ c)).trans ea5
  have f_arg6 : W7 m ρ c (Proc.devRef .tc main_arg6) = a6 := (a2_keep_arg6 (W6 m ρ c)).trans ea6
  -- after the linear launch
  have go : W8 m ρ c (Proc.devRef .tc main_v72_0) = Cert.Sage.lin (aggOf v1 v3 h) h D (Cert.Sage.wOf a2 1) (Cert.Sage.rowOf a3 1) (Cert.Sage.wOf a4 1) :=
    (W8_arr m ρ c 6).trans (Hout.trans (Cert.Sage.lin_congr fa fh fD fwl fb fwr))
  have gs : W8 m ρ c (Proc.devRef .tc main_v72_1) = Cert.Sage.colSum (Cert.Sage.lin (aggOf v1 v3 h) h D (Cert.Sage.wOf a2 1) (Cert.Sage.rowOf a3 1) (Cert.Sage.wOf a4 1)) :=
    (W8_arr m ρ c 7).trans (Hsum.trans (congrArg Cert.Sage.colSum (Cert.Sage.lin_congr fa fh fD fwl fb fwr)))
  have gss : W8 m ρ c (Proc.devRef .tc main_v72_2) = Cert.Sage.colSumSq (Cert.Sage.lin (aggOf v1 v3 h) h D (Cert.Sage.wOf a2 1) (Cert.Sage.rowOf a3 1) (Cert.Sage.wOf a4 1)) :=
    (W8_arr m ρ c 8).trans (Hsq.trans (congrArg Cert.Sage.colSumSq (Cert.Sage.lin_congr fa fh fD fwl fb fwr)))
  have gD : W8 m ρ c (Proc.devRef .tc main_v15) = D :=
    ((W8_arr m ρ c 2).trans (((dat2 (F := Ideal) (V7 m ρ) c).arrAt_in 2 rfl _).trans (A_eq2 (V7 m ρ) c 2))).trans fD
  have g_v1 : W8 m ρ c (Proc.devRef .tc main_v1) = v1 := (W8_of_ne m ρ c main_v1 (by decide)).trans f_v1
  have g_v3 : W8 m ρ c (Proc.devRef .tc main_v3) = v3 := (W8_of_ne m ρ c main_v3 (by decide)).trans f_v3
  have g_arg2 : W8 m ρ c (Proc.devRef .tc main_arg2) = a2 := (W8_of_ne m ρ c main_arg2 (by decide)).trans f_arg2
  have g_arg3 : W8 m ρ c (Proc.devRef .tc main_arg3) = a3 := (W8_of_ne m ρ c main_arg3 (by decide)).trans f_arg3
  have g_arg4 : W8 m ρ c (Proc.devRef .tc main_arg4) = a4 := (W8_of_ne m ρ c main_arg4 (by decide)).trans f_arg4
  have g_arg5 : W8 m ρ c (Proc.devRef .tc main_arg5) = a5 := (W8_of_ne m ρ c main_arg5 (by decide)).trans f_arg5
  have g_arg6 : W8 m ρ c (Proc.devRef .tc main_arg6) = a6 := (W8_of_ne m ρ c main_arg6 (by decide)).trans f_arg6
  -- after the statistics stretch
  have ko : V9 m ρ c (Pipeline.arrRef spec3 0) = Cert.Sage.lin (aggOf v1 v3 h) h D (Cert.Sage.wOf a2 1) (Cert.Sage.rowOf a3 1) (Cert.Sage.wOf a4 1) := (s3_keep_v72_0 (W8 m ρ c)).trans go
  have kmean : V9 m ρ c (Pipeline.arrRef spec3 1) = Cert.Sage.mean (Cert.Sage.lin (aggOf v1 v3 h) h D (Cert.Sage.wOf a2 1) (Cert.Sage.rowOf a3 1) (Cert.Sage.wOf a4 1)) :=
    (s3_mean (W8 m ρ c)).trans (by rw [gs]; exact meanOf_colSum _)
  have kistd : V9 m ρ c (Pipeline.arrRef spec3 2) = Cert.Sage.invstdK (Cert.Sage.lin (aggOf v1 v3 h) h D (Cert.Sage.wOf a2 1) (Cert.Sage.rowOf a3 1) (Cert.Sage.wOf a4 1)) :=
    (s3_istd (W8 m ρ c)).trans (by rw [gs, gss]; exact invstdOf_colSums _)
  have kg : V9 m ρ c (Pipeline.arrRef spec3 3) = Cert.Sage.rowOf a5 1 := (s3_g (W8 m ρ c)).trans (by rw [g_arg5])
  have kbe : V9 m ρ c (Pipeline.arrRef spec3 4) = Cert.Sage.rowOf a6 1 := (s3_be (W8 m ρ c)).trans (by rw [g_arg6])
  have kD : W9 m ρ c (Proc.devRef .tc main_v15) = D := (s3_keep_v15 (W8 m ρ c)).trans gD
  have k_v1 : W9 m ρ c (Proc.devRef .tc main_v1) = v1 := (s3_keep_v1 (W8 m ρ c)).trans g_v1
  have k_v3 : W9 m ρ c (Proc.devRef .tc main_v3) = v3 := (s3_keep_v3 (W8 m ρ c)).trans g_v3
  have k_arg2 : W9 m ρ c (Proc.devRef .tc main_arg2) = a2 := (s3_keep_arg2 (W8 m ρ c)).trans g_arg2
  have k_arg3 : W9 m ρ c (Proc.devRef .tc main_arg3) = a3 := (s3_keep_arg3 (W8 m ρ c)).trans g_arg3
  have k_arg4 : W9 m ρ c (Proc.devRef .tc main_arg4) = a4 := (s3_keep_arg4 (W8 m ρ c)).trans g_arg4
  have k_arg5 : W9 m ρ c (Proc.devRef .tc main_arg5) = a5 := (s3_keep_arg5 (W8 m ρ c)).trans g_arg5
  have k_arg6 : W9 m ρ c (Proc.devRef .tc main_arg6) = a6 := (s3_keep_arg6 (W8 m ρ c)).trans g_arg6
  -- after the normalising launch
  have hG : NormValue3.G (V9 m ρ) c = Cert.Sage.layerK (aggOf v1 v3 h) h D (Cert.Sage.wOf a2 1) (Cert.Sage.rowOf a3 1) (Cert.Sage.wOf a4 1) (Cert.Sage.rowOf a5 1) (Cert.Sage.rowOf a6 1) := by
    exact (Cert.Sage.norm_congr ko kmean kistd kg kbe).trans rfl
  exact ⟨(W10_arr m ρ c 5).trans ((NormValue3.out_eq (V9 m ρ) c).trans hG),
    (W10_arr m ρ c 6).trans ((NormValue3.out16_eq (V9 m ρ) c).trans hG),
    (W10_of_ne m ρ c main_v1 (by decide)).trans k_v1, (W10_of_ne m ρ c main_v3 (by decide)).trans k_v3,
    (W10_of_ne m ρ c main_v15 (by decide)).trans kD,
    (W10_of_ne m ρ c main_arg2 (by decide)).trans k_arg2, (W10_of_ne m ρ c main_arg3 (by decide)).trans k_arg3,
    (W10_of_ne m ρ c main_arg4 (by decide)).trans k_arg4, (W10_of_ne m ρ c main_arg5 (by decide)).trans k_arg5,
    (W10_of_ne m ρ c main_arg6 (by decide)).trans k_arg6⟩

end Cert.KernelIdeal.KValue

end
-- ==== Proof.KNorm5.lean ====
/-
  The value of the kernel's normalise-and-clamp launch (launch 5 of six), as one function of the arrays it is
  entered with.

  The launch walks ten tiles of 5000 rows. At each tile the body reads the tile of `out` and the four whole rows
  `mean`, `invstd`, `gamma`, `beta`, and stores, entry by entry, `max (((out − mean) · invstd) · gamma + beta) 0`
  twice: once as it is and once after a change of float format, which over the extended reals is the identity.
  Row `p` of tile `t` is row `5000 t + p` of the array, the tiles cover the 50000 rows, so each of the two result
  arrays ends as that function of the whole arrays.
-/
import proofs.«179303_j4578435137604_2_alg».proof.Proof.Gen.KernelIdeal.Frame
import proofs.«179303_j4578435137604_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.NormValue5

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The stored tile, entry by entry: the tile of `out` minus the mean's entry of that column, times the inverse
    deviation's, times the scale's, plus the shift's, clamped below at zero. -/
theorem pay_apply (x0 : Vec Ideal S5000x128 .f32) (x1 x2 x3 x4 : Vec Ideal S1x128 .f32) (p : Fin 5000) (q : Fin 128) :
    k5_pay1 (F := Ideal) x0 x1 x2 x3 x4 (ix2 p q)
      = max ((((x0 (ix2 p q) - x1 (ix2 0 q)) * x2 (ix2 0 q)) * x3 (ix2 0 q)) + x4 (ix2 0 q)) Cert.Sage.cZero := by
  unfold k5_pay1
  simp only [shapeCast_self, maximumf_apply, addf_apply, mulf_apply, subf_apply, broadcast_apply, broadcastTo_1b_ab_apply]
  rfl

/-- The second stored tile is the first after a change of float format: the same extended reals. -/
theorem pay2_apply (x0 : Vec Ideal S5000x128 .f32) (x1 x2 x3 x4 : Vec Ideal S1x128 .f32) (j : S5000x128.Idx) :
    k5_pay2 (F := Ideal) x0 x1 x2 x3 x4 j = k5_pay1 (F := Ideal) x0 x1 x2 x3 x4 j := rfl

/-- The printed index maps over the grid: the tiled windows sit at tile `t`, the rows' windows at their one block. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- The grid has ten points. -/
theorem t_lt (t : Fin cfg5.N) : t.val < 10 := lt_of_lt_of_eq (show t.val < grid5.N from t.isLt) N_5

/-- Row `p` of tile `t` is a row of the array. -/
theorem row_lt (t : Fin cfg5.N) (p : Fin 5000) : t.val * 5000 + p.val < 50000 := by
  have := t_lt t; have := p.isLt; omega

variable (V : (c : Dev nD) → (b : Ref sig .tc) → Buf (Elt Ideal) ((c : Thread nD τ).loc b))

/-- The function both result arrays end as, of the arrays the launch is entered with. -/
abbrev G (c : Dev nD) : S50000x128.Idx → EReal :=
  Cert.Sage.norm (V c (Pipeline.arrRef spec5 0)) (V c (Pipeline.arrRef spec5 1)) (V c (Pipeline.arrRef spec5 2))
    (V c (Pipeline.arrRef spec5 3)) (V c (Pipeline.arrRef spec5 4))

set_option maxHeartbeats 1000000 in
/-- A tile's entry `(p, q)` at point `t`, read off the entry arrays. -/
theorem body_at (c : Dev nD) (t : Fin cfg5.N) (p : Fin 5000) (q : Fin 128) :
    k5_pay1 (F := Ideal) (iblk5 V c 0 t) (iblk5 V c 1 t) (iblk5 V c 2 t) (iblk5 V c 3 t) (iblk5 V c 4 t) (ix2 p q)
      = G V c (ix2 (⟨t.val * 5000 + p.val, row_lt t p⟩ : Fin 50000) q) := by
  obtain ⟨e00, e01, e10, e11, e20, e21, e30, e31, e40, e41, -⟩ := idx_facts t
  refine (pay_apply (iblk5 V c 0 t) (iblk5 V c 1 t) (iblk5 V c 2 t) (iblk5 V c 3 t) (iblk5 V c 4 t) p q).trans ?_
  have h0 : iblk5 V c 0 t (ix2 p q) = V c (Pipeline.arrRef spec5 0) (ix2 (⟨t.val * 5000 + p.val, row_lt t p⟩ : Fin 50000) q) := by
    show V c (Pipeline.arrRef spec5 0) (((cfg5.win 0).blk t).view.emb (ix2 p q)) = _
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 128 + 1 * q.val = q.val; omega
  have h1 : iblk5 V c 1 t (ix2 0 q) = V c (Pipeline.arrRef spec5 1) (ix2 0 q) := by
    show V c (Pipeline.arrRef spec5 1) (((cfg5.win 1).blk t).view.emb (ix2 0 q)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  have h2 : iblk5 V c 2 t (ix2 0 q) = V c (Pipeline.arrRef spec5 2) (ix2 0 q) := by
    show V c (Pipeline.arrRef spec5 2) (((cfg5.win 2).blk t).view.emb (ix2 0 q)) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  have h3 : iblk5 V c 3 t (ix2 0 q) = V c (Pipeline.arrRef spec5 3) (ix2 0 q) := by
    show V c (Pipeline.arrRef spec5 3) (((cfg5.win 3).blk t).view.emb (ix2 0 q)) = _
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega
  have h4 : iblk5 V c 4 t (ix2 0 q) = V c (Pipeline.arrRef spec5 4) (ix2 0 q) := by
    show V c (Pipeline.arrRef spec5 4) (((cfg5.win 4).blk t).view.emb (ix2 0 q)) = _
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * q.val = q.val; omega
  rw [h0, h1, h2, h3, h4]
  rfl

/-- What point `t` writes back to the first result array is tile `t` of `G`. -/
theorem flushed5_eq (c : Dev nD) (t : Fin cfg5.N) :
    (dat5 (F := Ideal) V c).flushed 5 t = ((cfg5.win 5).blk t).view.read (Elt Ideal) (G V c) := by
  show (cfg5.win 5).cut (grid5.coords t) ((dat5 (F := Ideal) V c).after 5 t) = _
  rw [after5_5]
  unfold out5_5
  rw [View.canon_unit_zero hz]
  simp only [View.ld_unit_zero (S := S5000x128) hz, View.ld_unit_zero (S := S1x128) hz]
  obtain ⟨-, -, -, -, -, -, -, -, -, -, e50, e51, -⟩ := idx_facts t
  funext j
  obtain ⟨p, q, rfl⟩ : ∃ (p : Fin 5000) (q : Fin 128), j = ix2 p q := ⟨j 0, j 1, eq_ix2 j⟩
  refine (body_at V c t p q).trans ?_
  show G V c _ = G V c (((cfg5.win 5).blk t).view.emb (ix2 p q))
  refine congrArg _ (funext fun a => Fin.ext ?_)
  match a with
  | ⟨0, _⟩ => show t.val * 5000 + p.val = win5_5.index t (0 : Fin 2) * 5000 + 1 * p.val; omega
  | ⟨1, _⟩ => show q.val = win5_5.index t (1 : Fin 2) * 128 + 1 * q.val; omega

/-- What point `t` writes back to the second result array is tile `t` of the same `G`. -/
theorem flushed6_eq (c : Dev nD) (t : Fin cfg5.N) :
    (dat5 (F := Ideal) V c).flushed 6 t = ((cfg5.win 6).blk t).view.read (Elt Ideal) (G V c) := by
  show (cfg5.win 6).cut (grid5.coords t) ((dat5 (F := Ideal) V c).after 6 t) = _
  rw [after5_6]
  unfold out5_6
  rw [View.canon_unit_zero hz]
  simp only [View.ld_unit_zero (S := S5000x128) hz, View.ld_unit_zero (S := S1x128) hz]
  obtain ⟨-, -, -, -, -, -, -, -, -, -, -, -, e60, e61⟩ := idx_facts t
  funext j
  obtain ⟨p, q, rfl⟩ : ∃ (p : Fin 5000) (q : Fin 128), j = ix2 p q := ⟨j 0, j 1, eq_ix2 j⟩
  refine (pay2_apply _ _ _ _ _ (ix2 p q)).trans ((body_at V c t p q).trans ?_)
  show G V c _ = G V c (((cfg5.win 6).blk t).view.emb (ix2 p q))
  refine congrArg _ (funext fun a => Fin.ext ?_)
  match a with
  | ⟨0, _⟩ => show t.val * 5000 + p.val = win5_6.index t (0 : Fin 2) * 5000 + 1 * p.val; omega
  | ⟨1, _⟩ => show q.val = win5_6.index t (1 : Fin 2) * 128 + 1 * q.val; omega

/-- An index is in tile `t` of the first result array iff each coordinate is in the tile's range. -/
theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v127_0).slice (win5_5.rect t)).set ↔ _
  rw [View.set_slice_whole, Rect.mem_set_unit]
  exact Iff.rfl

theorem mem_blk6 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v127_1).slice (win5_6.rect t)).set ↔ _
  rw [View.set_slice_whole, Rect.mem_set_unit]
  exact Iff.rfl

/-- Row `r` lies in tile `r / 5000`: the ten tiles cover the array. -/
theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  let t : Fin cfg5.N := ⟨(i 0).val / 5000, by show (i 0).val / 5000 < grid5.N; rw [N_5]; omega⟩
  obtain ⟨-, -, -, -, -, -, -, -, -, -, e50, e51, -⟩ := idx_facts t
  have ht : t.val = (i 0).val / 5000 := rfl
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

theorem cover6 (i : S50000x128.Idx) : ∃ t : Fin cfg5.N, (cfg5.win 6).flush t = true ∧ i ∈ ((cfg5.win 6).blk t).view.set := by
  have hi0 : (i 0).val < 50000 := (i 0).isLt
  have hi1 : (i 1).val < 128 := (i 1).isLt
  let t : Fin cfg5.N := ⟨(i 0).val / 5000, by show (i 0).val / 5000 < grid5.N; rw [N_5]; omega⟩
  obtain ⟨-, -, -, -, -, -, -, -, -, -, -, -, e60, e61⟩ := idx_facts t
  have ht : t.val = (i 0).val / 5000 := rfl
  refine ⟨t, flush5_6 t, ?_⟩
  rw [mem_blk6]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- The first result array after the launch. -/
theorem out_eq (c : Dev nD) : (dat5 (F := Ideal) V c).arrAt 5 cfg5.N = G V c :=
  (dat5 (F := Ideal) V c).arrAt_eq_of_cover 5 (G V c) (fun t _ => flushed5_eq V c t) (cover5)

/-- The second result array after the launch: the same extended reals. -/
theorem out16_eq (c : Dev nD) : (dat5 (F := Ideal) V c).arrAt 6 cfg5.N = G V c :=
  (dat5 (F := Ideal) V c).arrAt_eq_of_cover 6 (G V c) (fun t _ => flushed6_eq V c t) (cover6)

end Cert.KernelIdeal.NormValue5

end
-- ==== Proof.KLayer3.lean ====
/-
  Layer 2 of the idealized kernel program, from the buffer contents at the previous launch's exit to the contents
  at this layer's second launch's exit.

  The stretch of host operations forms the neighbour sums of the previous layer's features and slices this layer's
  weights and bias out of the stacked arrays; the first launch leaves the linear stage `out` and the column sums of
  `out` and `out²`; the next stretch turns the sums into the mean and the inverse deviation and slices the scale and
  shift rows; the second launch leaves `max (((out − mean) · invstd) · scale + shift) 0`, twice. Together: the
  specification's one layer, in its mean-of-squares form. The index entries, the inverse-degree column and the
  stacked parameters pass through untouched.
-/
import proofs.«179303_j4578435137604_2_alg».proof.Proof.Gen.KernelIdeal.Frame
import proofs.«179303_j4578435137604_2_alg».proof.Proof.KStretch
import proofs.«179303_j4578435137604_2_alg».proof.Proof.KCongr
import proofs.«179303_j4578435137604_2_alg».proof.Proof.KNorm5

set_option maxRecDepth 16384

noncomputable section

namespace Cert.KernelIdeal.KValue

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

set_option maxHeartbeats 1000000 in
/-- Layer 2, given what the linear launch's three result arrays are of its entry arrays. -/
theorem layer3 (c : Dev nD) (h : Cert.Sage.SN.Idx → EReal) (v1 v3 : IVec S1600000 32) (D : Cert.Sage.SC.Idx → EReal)
    (a2 a4 : (⟨3, ![3, 128, 128]⟩ : Shape).Idx → EReal) (a3 a5 a6 : (⟨2, ![3, 128]⟩ : Shape).Idx → EReal)
    (e0 : W10 m ρ c (Proc.devRef .tc main_v90_0) = h) (e1 : W10 m ρ c (Proc.devRef .tc main_v90_1) = h)
    (ev1 : W10 m ρ c (Proc.devRef .tc main_v1) = v1) (ev3 : W10 m ρ c (Proc.devRef .tc main_v3) = v3) (eD : W10 m ρ c (Proc.devRef .tc main_v15) = D)
    (ea2 : W10 m ρ c (Proc.devRef .tc main_arg2) = a2) (ea3 : W10 m ρ c (Proc.devRef .tc main_arg3) = a3) (ea4 : W10 m ρ c (Proc.devRef .tc main_arg4) = a4)
    (ea5 : W10 m ρ c (Proc.devRef .tc main_arg5) = a5) (ea6 : W10 m ρ c (Proc.devRef .tc main_arg6) = a6)
    (Hout : (dat4 (F := Ideal) (V11 m ρ) c).arrAt 6 cfg4.N
      = Cert.Sage.lin (V11 m ρ c (Pipeline.arrRef spec4 0)) (V11 m ρ c (Pipeline.arrRef spec4 1)) (V11 m ρ c (Pipeline.arrRef spec4 2))
          (V11 m ρ c (Pipeline.arrRef spec4 3)) (V11 m ρ c (Pipeline.arrRef spec4 4)) (V11 m ρ c (Pipeline.arrRef spec4 5)))
    (Hsum : (dat4 (F := Ideal) (V11 m ρ) c).arrAt 7 cfg4.N
      = Cert.Sage.colSum (Cert.Sage.lin (V11 m ρ c (Pipeline.arrRef spec4 0)) (V11 m ρ c (Pipeline.arrRef spec4 1)) (V11 m ρ c (Pipeline.arrRef spec4 2))
          (V11 m ρ c (Pipeline.arrRef spec4 3)) (V11 m ρ c (Pipeline.arrRef spec4 4)) (V11 m ρ c (Pipeline.arrRef spec4 5))))
    (Hsq : (dat4 (F := Ideal) (V11 m ρ) c).arrAt 8 cfg4.N
      = Cert.Sage.colSumSq (Cert.Sage.lin (V11 m ρ c (Pipeline.arrRef spec4 0)) (V11 m ρ c (Pipeline.arrRef spec4 1)) (V11 m ρ c (Pipeline.arrRef spec4 2))
          (V11 m ρ c (Pipeline.arrRef spec4 3)) (V11 m ρ c (Pipeline.arrRef spec4 4)) (V11 m ρ c (Pipeline.arrRef spec4 5)))) :
    W14 m ρ c (Proc.devRef .tc main_v127_0) = Cert.Sage.layerK (aggOf v1 v3 h) h D (Cert.Sage.wOf a2 2) (Cert.Sage.rowOf a3 2) (Cert.Sage.wOf a4 2) (Cert.Sage.rowOf a5 2) (Cert.Sage.rowOf a6 2)
    ∧ W14 m ρ c (Proc.devRef .tc main_v127_1) = Cert.Sage.layerK (aggOf v1 v3 h) h D (Cert.Sage.wOf a2 2) (Cert.Sage.rowOf a3 2) (Cert.Sage.wOf a4 2) (Cert.Sage.rowOf a5 2) (Cert.Sage.rowOf a6 2)
    ∧ W14 m ρ c (Proc.devRef .tc main_v1) = v1 ∧ W14 m ρ c (Proc.devRef .tc main_v3) = v3 ∧ W14 m ρ c (Proc.devRef .tc main_v15) = D
    ∧ W14 m ρ c (Proc.devRef .tc main_arg2) = a2 ∧ W14 m ρ c (Proc.devRef .tc main_arg3) = a3 ∧ W14 m ρ c (Proc.devRef .tc main_arg4) = a4
    ∧ W14 m ρ c (Proc.devRef .tc main_arg5) = a5 ∧ W14 m ρ c (Proc.devRef .tc main_arg6) = a6 := by
  -- after the aggregation stretch
  have fa : V11 m ρ c (Pipeline.arrRef spec4 0) = aggOf v1 v3 h := (a4_agg (W10 m ρ c)).trans (by rw [ev1, ev3, e1])
  have fh : V11 m ρ c (Pipeline.arrRef spec4 1) = h := (a4_keep_v90_0 (W10 m ρ c)).trans e0
  have fD : V11 m ρ c (Pipeline.arrRef spec4 2) = D := (a4_keep_v15 (W10 m ρ c)).trans eD
  have fwl : V11 m ρ c (Pipeline.arrRef spec4 3) = Cert.Sage.wOf a2 2 := (a4_wl (W10 m ρ c)).trans (by rw [ea2])
  have fb : V11 m ρ c (Pipeline.arrRef spec4 4) = Cert.Sage.rowOf a3 2 := (a4_b (W10 m ρ c)).trans (by rw [ea3])
  have fwr : V11 m ρ c (Pipeline.arrRef spec4 5) = Cert.Sage.wOf a4 2 := (a4_wr (W10 m ρ c)).trans (by rw [ea4])
  have f_v1 : W11 m ρ c (Proc.devRef .tc main_v1) = v1 := (a4_keep_v1 (W10 m ρ c)).trans ev1
  have f_v3 : W11 m ρ c (Proc.devRef .tc main_v3) = v3 := (a4_keep_v3 (W10 m ρ c)).trans ev3
  have f_arg2 : W11 m ρ c (Proc.devRef .tc main_arg2) = a2 := (a4_keep_arg2 (W10 m ρ c)).trans ea2
  have f_arg3 : W11 m ρ c (Proc.devRef .tc main_arg3) = a3 := (a4_keep_arg3 (W10 m ρ c)).trans ea3
  have f_arg4 : W11 m ρ c (Proc.devRef .tc main_arg4) = a4 := (a4_keep_arg4 (W10 m ρ c)).trans ea4
  have f_arg5 : W11 m ρ c (Proc.devRef .tc main_arg5) = a5 := (a4_keep_arg5 (W10 m ρ c)).trans ea5
  have f_arg6 : W11 m ρ c (Proc.devRef .tc main_arg6) = a6 := (a4_keep_arg6 (W10 m ρ c)).trans ea6
  -- after the linear launch
  have go : W12 m ρ c (Proc.devRef .tc main_v109_0) = Cert.Sage.lin (aggOf v1 v3 h) h D (Cert.Sage.wOf a2 2) (Cert.Sage.rowOf a3 2) (Cert.Sage.wOf a4 2) :=
    (W12_arr m ρ c 6).trans (Hout.trans (Cert.Sage.lin_congr fa fh fD fwl fb fwr))
  have gs : W12 m ρ c (Proc.devRef .tc main_v109_1) = Cert.Sage.colSum (Cert.Sage.lin (aggOf v1 v3 h) h D (Cert.Sage.wOf a2 2) (Cert.Sage.rowOf a3 2) (Cert.Sage.wOf a4 2)) :=
    (W12_arr m ρ c 7).trans (Hsum.trans (congrArg Cert.Sage.colSum (Cert.Sage.lin_congr fa fh fD fwl fb fwr)))
  have gss : W12 m ρ c (Proc.devRef .tc main_v109_2) = Cert.Sage.colSumSq (Cert.Sage.lin (aggOf v1 v3 h) h D (Cert.Sage.wOf a2 2) (Cert.Sage.rowOf a3 2) (Cert.Sage.wOf a4 2)) :=
    (W12_arr m ρ c 8).trans (Hsq.trans (congrArg Cert.Sage.colSumSq (Cert.Sage.lin_congr fa fh fD fwl fb fwr)))
  have gD : W12 m ρ c (Proc.devRef .tc main_v15) = D :=
    ((W12_arr m ρ c 2).trans (((dat4 (F := Ideal) (V11 m ρ) c).arrAt_in 2 rfl _).trans (A_eq4 (V11 m ρ) c 2))).trans fD
  have g_v1 : W12 m ρ c (Proc.devRef .tc main_v1) = v1 := (W12_of_ne m ρ c main_v1 (by decide)).trans f_v1
  have g_v3 : W12 m ρ c (Proc.devRef .tc main_v3) = v3 := (W12_of_ne m ρ c main_v3 (by decide)).trans f_v3
  have g_arg2 : W12 m ρ c (Proc.devRef .tc main_arg2) = a2 := (W12_of_ne m ρ c main_arg2 (by decide)).trans f_arg2
  have g_arg3 : W12 m ρ c (Proc.devRef .tc main_arg3) = a3 := (W12_of_ne m ρ c main_arg3 (by decide)).trans f_arg3
  have g_arg4 : W12 m ρ c (Proc.devRef .tc main_arg4) = a4 := (W12_of_ne m ρ c main_arg4 (by decide)).trans f_arg4
  have g_arg5 : W12 m ρ c (Proc.devRef .tc main_arg5) = a5 := (W12_of_ne m ρ c main_arg5 (by decide)).trans f_arg5
  have g_arg6 : W12 m ρ c (Proc.devRef .tc main_arg6) = a6 := (W12_of_ne m ρ c main_arg6 (by decide)).trans f_arg6
  -- after the statistics stretch
  have ko : V13 m ρ c (Pipeline.arrRef spec5 0) = Cert.Sage.lin (aggOf v1 v3 h) h D (Cert.Sage.wOf a2 2) (Cert.Sage.rowOf a3 2) (Cert.Sage.wOf a4 2) := (s5_keep_v109_0 (W12 m ρ c)).trans go
  have kmean : V13 m ρ c (Pipeline.arrRef spec5 1) = Cert.Sage.mean (Cert.Sage.lin (aggOf v1 v3 h) h D (Cert.Sage.wOf a2 2) (Cert.Sage.rowOf a3 2) (Cert.Sage.wOf a4 2)) :=
    (s5_mean (W12 m ρ c)).trans (by rw [gs]; exact meanOf_colSum _)
  have kistd : V13 m ρ c (Pipeline.arrRef spec5 2) = Cert.Sage.invstdK (Cert.Sage.lin (aggOf v1 v3 h) h D (Cert.Sage.wOf a2 2) (Cert.Sage.rowOf a3 2) (Cert.Sage.wOf a4 2)) :=
    (s5_istd (W12 m ρ c)).trans (by rw [gs, gss]; exact invstdOf_colSums _)
  have kg : V13 m ρ c (Pipeline.arrRef spec5 3) = Cert.Sage.rowOf a5 2 := (s5_g (W12 m ρ c)).trans (by rw [g_arg5])
  have kbe : V13 m ρ c (Pipeline.arrRef spec5 4) = Cert.Sage.rowOf a6 2 := (s5_be (W12 m ρ c)).trans (by rw [g_arg6])
  have kD : W13 m ρ c (Proc.devRef .tc main_v15) = D := (s5_keep_v15 (W12 m ρ c)).trans gD
  have k_v1 : W13 m ρ c (Proc.devRef .tc main_v1) = v1 := (s5_keep_v1 (W12 m ρ c)).trans g_v1
  have k_v3 : W13 m ρ c (Proc.devRef .tc main_v3) = v3 := (s5_keep_v3 (W12 m ρ c)).trans g_v3
  have k_arg2 : W13 m ρ c (Proc.devRef .tc main_arg2) = a2 := (s5_keep_arg2 (W12 m ρ c)).trans g_arg2
  have k_arg3 : W13 m ρ c (Proc.devRef .tc main_arg3) = a3 := (s5_keep_arg3 (W12 m ρ c)).trans g_arg3
  have k_arg4 : W13 m ρ c (Proc.devRef .tc main_arg4) = a4 := (s5_keep_arg4 (W12 m ρ c)).trans g_arg4
  have k_arg5 : W13 m ρ c (Proc.devRef .tc main_arg5) = a5 := (s5_keep_arg5 (W12 m ρ c)).trans g_arg5
  have k_arg6 : W13 m ρ c (Proc.devRef .tc main_arg6) = a6 := (s5_keep_arg6 (W12 m ρ c)).trans g_arg6
  -- after the normalising launch
  have hG : NormValue5.G (V13 m ρ) c = Cert.Sage.layerK (aggOf v1 v3 h) h D (Cert.Sage.wOf a2 2) (Cert.Sage.rowOf a3 2) (Cert.Sage.wOf a4 2) (Cert.Sage.rowOf a5 2) (Cert.Sage.rowOf a6 2) := by
    exact (Cert.Sage.norm_congr ko kmean kistd kg kbe).trans rfl
  exact ⟨(W14_arr m ρ c 5).trans ((NormValue5.out_eq (V13 m ρ) c).trans hG),
    (W14_arr m ρ c 6).trans ((NormValue5.out16_eq (V13 m ρ) c).trans hG),
    (W14_of_ne m ρ c main_v1 (by decide)).trans k_v1, (W14_of_ne m ρ c main_v3 (by decide)).trans k_v3,
    (W14_of_ne m ρ c main_v15 (by decide)).trans kD,
    (W14_of_ne m ρ c main_arg2 (by decide)).trans k_arg2, (W14_of_ne m ρ c main_arg3 (by decide)).trans k_arg3,
    (W14_of_ne m ρ c main_arg4 (by decide)).trans k_arg4, (W14_of_ne m ρ c main_arg5 (by decide)).trans k_arg5,
    (W14_of_ne m ρ c main_arg6 (by decide)).trans k_arg6⟩

end Cert.KernelIdeal.KValue

end
-- ==== Proof.LibLinTile.lean ====
/-
  A tile of a linear layer and its column statistics, read entry by entry over the extended reals.

  * A matrix product whose two operands are both contracted along their LAST axis (dimension numbers
    `[1] × [1]`, no batch axes, free axes `[0]` and `[0]`): an `M × K` by `N × K` product accumulated into the
    zero matrix is, at entry `(a, b)`, `Σ_k l (a, k) · r (b, k)` — the left operand times the transpose of the
    right one. The dimension-number record is a variable with its six lists given by hypotheses.
  * A column `[m, 1]` broadcast along the second axis reads `(r, 0)` at `(r, c)`.
  * The sum of an `[m, n]` matrix along its first axis is, at column `c`, `Σ_p v (p, c)`; recast as a row
    `[1, n]` and added to a row it gives the running column sums.
  * The tile itself: with `agg, h : [m, K]`, a column `d : [m, 1]`, weights `wl, wr : [n, K]` and a bias row
    `b : [1, n]`, the value `((agg ∘ d) · wlᵀ + h · wrᵀ) + b` (operands passed through a change of format, which
    is the identity on the extended reals) is, at `(p, q)`,
    `(Σ_k (agg (p, k) · d (p, 0)) · wl (q, k) + Σ_k h (p, k) · wr (q, k)) + b (0, q)`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibLinTile

open Idealize.ShloMosaic Idealize.ShloMosaic.ValueIdx

/-! ## The product with both operands contracted on their last axis -/

section Matmul

variable {M K N : Nat} (D : DotDims ⟨2, ![M, K]⟩ ⟨2, ![N, K]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `0`, the right operand's row is the result's column. -/
theorem rhs_row (hln : D.lhsNonContracting = [0]) (hrn : D.rhsNonContracting = [0]) (hlb : D.lhsBatch = [])
    (hrb : D.rhsBatch = []) (j : (⟨2, ![M, N]⟩ : Shape).Idx) (q : D.contr.Idx) : (D.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- An `M × K` by `N × K` product, both contracted on the last axis, into the zero matrix, at entry `(a, b)`:
    `Σ_k l (a, k) · r (b, k)`. -/
theorem matmul_zero_apply {φ₁ φ₂ : FTy}
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (a : Fin M) (b : Fin N) :
    FloatOps.matmul D prec l r (constant (F := Ideal) ⟨2, ![M, N]⟩ .f32 0x00000000#32) (ix2 a b)
      = ∑ k : Fin K, l (ix2 a k) * r (ix2 b k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 b k :=
    funext fun c => Fin.ext (by
      match c with
      | ⟨0, _⟩ => exact rhs_row D hln hrn hlb hrb _ _
      | ⟨1, _⟩ => exact (D.rhsIdx_val_of_single hrc _ _).trans hk)
  rw [el, er]

end Matmul

/-! ## A column broadcast along the rows' entries -/

/-- A column `[m, 1]` broadcast to `[m, n]`, read at `(r, c)`, is the column at `(r, 0)`. -/
theorem bcast_col {α : Type} {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r (0 : Fin 1)) :=
  broadcastTo_apply v h (ix2 r c) (ix2 r (0 : Fin 1)) (fun a => match a with
    | ⟨0, _⟩ => by show r.val = (if m = 1 then 0 else r.val); rw [if_neg hm]
    | ⟨1, _⟩ => by show 0 = (if (1 : ℕ) = 1 then 0 else c.val); rw [if_pos rfl])

/-! ## Sums down the columns -/

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (lift_col h c k)

/-- A row plus the column sums of a matrix kept as a row: at `(0, c)` the row's entry plus `Σ_p v (p, c)`. -/
theorem addColSum_apply {m n : ℕ} (row : FVec Ideal (⟨2, ![1, n]⟩ : Shape) .f32) (v : FVec Ideal (⟨2, ![m, n]⟩ : Shape) .f32)
    (acc : BitVec 32) (h : (⟨2, ![m, n]⟩ : Shape).Reduces [0] (⟨1, ![n]⟩ : Shape)) (hφ : FKind.Formats .f32)
    (hacc : acc = FKind.add.neutral .f32 hφ) (hc : (⟨1, ![n]⟩ : Shape).ShapeCasts ⟨2, ![1, n]⟩) (c : Fin n) :
    addf row (shapeCast ⟨2, ![1, n]⟩ (multiReduction .add [0] (⟨1, ![n]⟩ : Shape) v acc h hφ hacc) hc) (ix2 (0 : Fin 1) c)
      = row (ix2 (0 : Fin 1) c) + ∑ p : Fin m, v (ix2 p c) :=
  (addf_apply _ _ _).trans (congrArg (row (ix2 (0 : Fin 1) c) + ·)
    ((shapeCast_a_1a_apply _ hc 0 c).trans (colSum_apply v acc h hφ hacc c)))

/-! ## The tile -/

/-- The tile's value at `(p, q)`. -/
theorem tile_apply {m K n : ℕ} (D : DotDims ⟨2, ![m, K]⟩ ⟨2, ![n, K]⟩ ⟨2, ![m, n]⟩)
    (hlc : D.lhsContracting = [1]) (hrc : D.rhsContracting = [1]) (hln : D.lhsNonContracting = [0])
    (hrn : D.rhsNonContracting = [0]) (hlb : D.lhsBatch = []) (hrb : D.rhsBatch = [])
    (hm : m ≠ 1)
    (agg h : FVec Ideal ⟨2, ![m, K]⟩ .f32) (d : FVec Ideal ⟨2, ![m, 1]⟩ .f32) (wl wr : FVec Ideal ⟨2, ![n, K]⟩ .f32)
    (b : FVec Ideal ⟨2, ![1, n]⟩ .f32)
    (hbc : (⟨2, ![m, 1]⟩ : Shape).Broadcasts ⟨2, ![m, K]⟩) (hbr : (⟨2, ![1, n]⟩ : Shape).Broadcasts ⟨2, ![m, n]⟩)
    (hlt : FTy.bits .bf16 < FTy.bits .f32) (p : Fin m) (q : Fin n) :
    addf (addf
        (matmul D none (truncf .bf16 (mulf agg (broadcastTo ⟨2, ![m, K]⟩ d hbc)) hlt) (truncf .bf16 wl hlt)
          (constant (F := Ideal) ⟨2, ![m, n]⟩ .f32 0x00000000#32))
        (matmul D none (truncf .bf16 h hlt) (truncf .bf16 wr hlt) (constant (F := Ideal) ⟨2, ![m, n]⟩ .f32 0x00000000#32)))
      (broadcastTo ⟨2, ![m, n]⟩ b hbr) (ix2 p q)
      = ((∑ k : Fin K, (agg (ix2 p k) * d (ix2 p (0 : Fin 1))) * wl (ix2 q k)) + ∑ k : Fin K, h (ix2 p k) * wr (ix2 q k))
          + b (ix2 (0 : Fin 1) q) := by
  refine (addf_apply _ _ _).trans ?_
  refine congrArg₂ (· + ·) ((addf_apply _ _ _).trans (congrArg₂ (· + ·) ?_ ?_)) (broadcastTo_1b_ab_apply b hbr p q)
  · refine (matmul_zero_apply D hlc hrc hln hrn hlb hrb none _ _ p q).trans ?_
    refine Finset.sum_congr rfl fun k _ => ?_
    show (agg (ix2 p k) * broadcastTo ⟨2, ![m, K]⟩ d hbc (ix2 p k)) * wl (ix2 q k) = _
    rw [bcast_col hm d hbc p k]
  · exact matmul_zero_apply D hlc hrc hln hrn hlb hrb none _ _ p q

end Cert.LibLinTile

end
-- ==== Proof.KLinPay.lean ====
/-
  The values the linear-and-statistics kernel body stores, read entry by entry over the extended reals.

  The body computes, from a 5000-row block of the neighbour sums `agg`, of the features `h` and of the inverse degrees
  `d`, and from the whole weights `wl`, `wr` and bias row `b`, the tile
      out (p, q) = (Σ_k (agg (p, k) · d (p, 0)) · wl (q, k) + Σ_k h (p, k) · wr (q, k)) + b (0, q),
  the operands of the two products passed through a change of format that is the identity on the extended reals; it
  adds the tile's column sums into one row and the column sums of its squares into another. The program launches
  this kernel three times, and the three launches run the same body.
-/
import proofs.«179303_j4578435137604_2_alg».proof.Proof.Gen.KernelIdeal.Skeleton
import proofs.«179303_j4578435137604_2_alg».proof.Proof.LibLinTile

noncomputable section

open scoped BigOperators

open Idealize.ShloMosaic Idealize.ShloMosaic.ValueIdx

/-! ## The payloads of the kernel launched as region 0 of the program -/

namespace Cert.KernelIdeal.LinPay0

open Cert.KernelIdeal Cert.KernelIdeal.Gen

/-- The stored tile at row `p`, column `q`: the two products of row `p` with row `q` of the weights, summed, plus
    the bias at `q`. -/
theorem pay4_apply (v3 : Vec Ideal S5000x128 .f32) (v5 : Vec Ideal S5000x1 .f32) (v10 : Vec Ideal S5000x128 .f32)
    (v12 : Vec Ideal S128x128 .f32) (v15 : Vec Ideal S128x128 .f32) (v21 : Vec Ideal S1x128 .f32) (p : Fin 5000) (q : Fin 128) :
    k0_pay4 (F := Ideal) v3 v5 v10 v12 v15 v21 (ix2 p q)
      = ((∑ k : Fin 128, (v3 (ix2 p k) * v5 (ix2 p (0 : Fin 1))) * v12 (ix2 q k)) + ∑ k : Fin 128, v10 (ix2 p k) * v15 (ix2 q k))
          + v21 (ix2 (0 : Fin 1) q) := by
  unfold k0_pay4
  simp only [shapeCast_self]
  exact Cert.LibLinTile.tile_apply dot_S5000x128_S128x128_S5000x128_1_1_0_0_n_n rfl rfl rfl rfl rfl rfl (by decide)
    v3 v10 v5 v12 v15 v21 broadcasts_S5000x1_S5000x128 broadcasts_S1x128_S5000x128 bitsLt_bf16_f32 p q

/-- The sum block's new contents at column `q`: what it held plus the tile's column sum. -/
theorem pay5_apply (v3 : Vec Ideal S5000x128 .f32) (v5 : Vec Ideal S5000x1 .f32) (v10 : Vec Ideal S5000x128 .f32)
    (v12 : Vec Ideal S128x128 .f32) (v15 : Vec Ideal S128x128 .f32) (v21 : Vec Ideal S1x128 .f32) (v26 : Vec Ideal S1x128 .f32)
    (q : Fin 128) :
    k0_pay5 (F := Ideal) v3 v5 v10 v12 v15 v21 v26 (ix2 (0 : Fin 1) q)
      = v26 (ix2 (0 : Fin 1) q) + ∑ p : Fin 5000, k0_pay4 (F := Ideal) v3 v5 v10 v12 v15 v21 (ix2 p q) := by
  unfold k0_pay5
  refine (Cert.LibLinTile.addColSum_apply (shapeCast S1x128 v26 shapeCasts_S1x128_S1x128) (k0_pay4 (F := Ideal) v3 v5 v10 v12 v15 v21)
    0x00000000#32 reduces_S5000x128_S128 (.inl rfl) rfl shapeCasts_S128_S1x128 q).trans ?_
  rw [shapeCast_self]

/-- The sum-of-squares block's new contents at column `q`: what it held plus the column sum of the tile's squares. -/
theorem pay1_apply (v24 : FVec Ideal S5000x128 .f32) (v32 : Vec Ideal S1x128 .f32) (q : Fin 128) :
    k0_pay1 (F := Ideal) v24 v32 (ix2 (0 : Fin 1) q)
      = v32 (ix2 (0 : Fin 1) q) + ∑ p : Fin 5000, v24 (ix2 p q) * v24 (ix2 p q) := by
  unfold k0_pay1
  refine (Cert.LibLinTile.addColSum_apply (shapeCast S1x128 v32 shapeCasts_S1x128_S1x128) (mulf v24 v24)
    0x00000000#32 reduces_S5000x128_S128 (.inl rfl) rfl shapeCasts_S128_S1x128 q).trans ?_
  rw [shapeCast_self]
  rfl

/-- The two rows stored at the first point are zero everywhere. -/
theorem pay2_apply (j : S1x128.Idx) : k0_pay2 (F := Ideal) j = 0 := Ideal.ofBits_zero_f32

theorem pay3_apply (j : S1x128.Idx) : k0_pay3 (F := Ideal) j = 0 := Ideal.ofBits_zero_f32

end Cert.KernelIdeal.LinPay0

/-! ## The payloads of the kernel launched as region 2 of the program -/

namespace Cert.KernelIdeal.LinPay2

open Cert.KernelIdeal Cert.KernelIdeal.Gen

/-- The stored tile at row `p`, column `q`: the two products of row `p` with row `q` of the weights, summed, plus
    the bias at `q`. -/
theorem pay4_apply (v3 : Vec Ideal S5000x128 .f32) (v5 : Vec Ideal S5000x1 .f32) (v10 : Vec Ideal S5000x128 .f32)
    (v12 : Vec Ideal S128x128 .f32) (v15 : Vec Ideal S128x128 .f32) (v21 : Vec Ideal S1x128 .f32) (p : Fin 5000) (q : Fin 128) :
    k2_pay4 (F := Ideal) v3 v5 v10 v12 v15 v21 (ix2 p q)
      = ((∑ k : Fin 128, (v3 (ix2 p k) * v5 (ix2 p (0 : Fin 1))) * v12 (ix2 q k)) + ∑ k : Fin 128, v10 (ix2 p k) * v15 (ix2 q k))
          + v21 (ix2 (0 : Fin 1) q) := by
  unfold k2_pay4
  simp only [shapeCast_self]
  exact Cert.LibLinTile.tile_apply dot_S5000x128_S128x128_S5000x128_1_1_0_0_n_n rfl rfl rfl rfl rfl rfl (by decide)
    v3 v10 v5 v12 v15 v21 broadcasts_S5000x1_S5000x128 broadcasts_S1x128_S5000x128 bitsLt_bf16_f32 p q

/-- The sum block's new contents at column `q`: what it held plus the tile's column sum. -/
theorem pay5_apply (v3 : Vec Ideal S5000x128 .f32) (v5 : Vec Ideal S5000x1 .f32) (v10 : Vec Ideal S5000x128 .f32)
    (v12 : Vec Ideal S128x128 .f32) (v15 : Vec Ideal S128x128 .f32) (v21 : Vec Ideal S1x128 .f32) (v26 : Vec Ideal S1x128 .f32)
    (q : Fin 128) :
    k2_pay5 (F := Ideal) v3 v5 v10 v12 v15 v21 v26 (ix2 (0 : Fin 1) q)
      = v26 (ix2 (0 : Fin 1) q) + ∑ p : Fin 5000, k2_pay4 (F := Ideal) v3 v5 v10 v12 v15 v21 (ix2 p q) := by
  unfold k2_pay5
  refine (Cert.LibLinTile.addColSum_apply (shapeCast S1x128 v26 shapeCasts_S1x128_S1x128) (k2_pay4 (F := Ideal) v3 v5 v10 v12 v15 v21)
    0x00000000#32 reduces_S5000x128_S128 (.inl rfl) rfl shapeCasts_S128_S1x128 q).trans ?_
  rw [shapeCast_self]

/-- The sum-of-squares block's new contents at column `q`: what it held plus the column sum of the tile's squares. -/
theorem pay1_apply (v24 : FVec Ideal S5000x128 .f32) (v32 : Vec Ideal S1x128 .f32) (q : Fin 128) :
    k2_pay1 (F := Ideal) v24 v32 (ix2 (0 : Fin 1) q)
      = v32 (ix2 (0 : Fin 1) q) + ∑ p : Fin 5000, v24 (ix2 p q) * v24 (ix2 p q) := by
  unfold k2_pay1
  refine (Cert.LibLinTile.addColSum_apply (shapeCast S1x128 v32 shapeCasts_S1x128_S1x128) (mulf v24 v24)
    0x00000000#32 reduces_S5000x128_S128 (.inl rfl) rfl shapeCasts_S128_S1x128 q).trans ?_
  rw [shapeCast_self]
  rfl

/-- The two rows stored at the first point are zero everywhere. -/
theorem pay2_apply (j : S1x128.Idx) : k2_pay2 (F := Ideal) j = 0 := Ideal.ofBits_zero_f32

theorem pay3_apply (j : S1x128.Idx) : k2_pay3 (F := Ideal) j = 0 := Ideal.ofBits_zero_f32

end Cert.KernelIdeal.LinPay2

/-! ## The payloads of the kernel launched as region 4 of the program -/

namespace Cert.KernelIdeal.LinPay4

open Cert.KernelIdeal Cert.KernelIdeal.Gen

/-- The stored tile at row `p`, column `q`: the two products of row `p` with row `q` of the weights, summed, plus
    the bias at `q`. -/
theorem pay4_apply (v3 : Vec Ideal S5000x128 .f32) (v5 : Vec Ideal S5000x1 .f32) (v10 : Vec Ideal S5000x128 .f32)
    (v12 : Vec Ideal S128x128 .f32) (v15 : Vec Ideal S128x128 .f32) (v21 : Vec Ideal S1x128 .f32) (p : Fin 5000) (q : Fin 128) :
    k4_pay4 (F := Ideal) v3 v5 v10 v12 v15 v21 (ix2 p q)
      = ((∑ k : Fin 128, (v3 (ix2 p k) * v5 (ix2 p (0 : Fin 1))) * v12 (ix2 q k)) + ∑ k : Fin 128, v10 (ix2 p k) * v15 (ix2 q k))
          + v21 (ix2 (0 : Fin 1) q) := by
  unfold k4_pay4
  simp only [shapeCast_self]
  exact Cert.LibLinTile.tile_apply dot_S5000x128_S128x128_S5000x128_1_1_0_0_n_n rfl rfl rfl rfl rfl rfl (by decide)
    v3 v10 v5 v12 v15 v21 broadcasts_S5000x1_S5000x128 broadcasts_S1x128_S5000x128 bitsLt_bf16_f32 p q

/-- The sum block's new contents at column `q`: what it held plus the tile's column sum. -/
theorem pay5_apply (v3 : Vec Ideal S5000x128 .f32) (v5 : Vec Ideal S5000x1 .f32) (v10 : Vec Ideal S5000x128 .f32)
    (v12 : Vec Ideal S128x128 .f32) (v15 : Vec Ideal S128x128 .f32) (v21 : Vec Ideal S1x128 .f32) (v26 : Vec Ideal S1x128 .f32)
    (q : Fin 128) :
    k4_pay5 (F := Ideal) v3 v5 v10 v12 v15 v21 v26 (ix2 (0 : Fin 1) q)
      = v26 (ix2 (0 : Fin 1) q) + ∑ p : Fin 5000, k4_pay4 (F := Ideal) v3 v5 v10 v12 v15 v21 (ix2 p q) := by
  unfold k4_pay5
  refine (Cert.LibLinTile.addColSum_apply (shapeCast S1x128 v26 shapeCasts_S1x128_S1x128) (k4_pay4 (F := Ideal) v3 v5 v10 v12 v15 v21)
    0x00000000#32 reduces_S5000x128_S128 (.inl rfl) rfl shapeCasts_S128_S1x128 q).trans ?_
  rw [shapeCast_self]

/-- The sum-of-squares block's new contents at column `q`: what it held plus the column sum of the tile's squares. -/
theorem pay1_apply (v24 : FVec Ideal S5000x128 .f32) (v32 : Vec Ideal S1x128 .f32) (q : Fin 128) :
    k4_pay1 (F := Ideal) v24 v32 (ix2 (0 : Fin 1) q)
      = v32 (ix2 (0 : Fin 1) q) + ∑ p : Fin 5000, v24 (ix2 p q) * v24 (ix2 p q) := by
  unfold k4_pay1
  refine (Cert.LibLinTile.addColSum_apply (shapeCast S1x128 v32 shapeCasts_S1x128_S1x128) (mulf v24 v24)
    0x00000000#32 reduces_S5000x128_S128 (.inl rfl) rfl shapeCasts_S128_S1x128 q).trans ?_
  rw [shapeCast_self]
  rfl

/-- The two rows stored at the first point are zero everywhere. -/
theorem pay2_apply (j : S1x128.Idx) : k4_pay2 (F := Ideal) j = 0 := Ideal.ofBits_zero_f32

theorem pay3_apply (j : S1x128.Idx) : k4_pay3 (F := Ideal) j = 0 := Ideal.ofBits_zero_f32

end Cert.KernelIdeal.LinPay4

end
-- ==== Proof.KLin0Out.lean ====
/-
  What one run of the linear-and-statistics kernel body leaves in its three output blocks, as values of the blocks
  it was given.

  The body stores the tile `out` once; at the first grid point it first stores zero rows into the two statistics
  blocks and reads them back, at every other point it reads what the point before left. In both cases the sum block
  ends at "what it held, plus the column sums of the tile" and the sum-of-squares block at "what it held, plus the
  column sums of the tile's squares", where "what it held" is the zero row at the first point. Each statement below
  reads one output block back through the stores that cover it; the loads of whole buffers read the buffers' contents.
-/
import proofs.«179303_j4578435137604_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.LinValue0

open Cert.KernelIdeal Cert.KernelIdeal.Gen

variable {F : FTy → Type} [FloatOps F]

theorem hz : (![0, 0] : Fin 2 → Nat) = fun _ => 0 := funext fun a => by fin_cases a <;> rfl

/-- First point, the tile: the one store's payload over the loaded blocks. -/
theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S5000x1 .f32) (x3 : Vec F S128x128 .f32) (x4 : Vec F S1x128 .f32) (x5 : Vec F S128x128 .f32) :
    out0_A_6 c i a1 h1 a2 h2 a3 h3 a4 h4 a5 h5 a6 h6 a7 h7 a8 h8 a9 h9 hc x0 x1 x2 x3 x4 x5 = k0_pay4 x0 x2 x1 x3 x5 x4 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S5000x1) hz, View.ld_unit_zero (S := S128x128) hz,
    View.ld_unit_zero (S := S1x128) hz]

/-- First point, the sum block: the zero row stored first, read back, plus the tile's column sums. -/
theorem out_A_7 (c : Dev nD) (i : grid0.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S5000x1 .f32) (x3 : Vec F S128x128 .f32) (x4 : Vec F S1x128 .f32) (x5 : Vec F S128x128 .f32) :
    out0_A_7 c i a1 h1 a2 h2 a3 h3 a4 h4 a5 h5 a6 h6 a7 h7 a8 h8 a9 h9 hc x0 x1 x2 x3 x4 x5 = k0_pay5 x0 x2 x1 x3 x5 x4 (k0_pay2 (F := F)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S5000x1) hz, View.ld_unit_zero (S := S128x128) hz,
    View.ld_unit_zero (S := S1x128) hz]

/-- First point, the sum-of-squares block: the zero row stored first, read back, plus the column sums of the squares. -/
theorem out_A_8 (c : Dev nD) (i : grid0.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S5000x1 .f32) (x3 : Vec F S128x128 .f32) (x4 : Vec F S1x128 .f32) (x5 : Vec F S128x128 .f32) :
    out0_A_8 c i a1 h1 a2 h2 a3 h3 a4 h4 a5 h5 a6 h6 a7 h7 a8 h8 a9 h9 hc x0 x1 x2 x3 x4 x5 = k0_pay1 (k0_pay4 x0 x2 x1 x3 x5 x4) (k0_pay3 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S5000x1) hz, View.ld_unit_zero (S := S128x128) hz,
    View.ld_unit_zero (S := S1x128) hz]

/-- A later point, the tile. -/
theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S5000x1 .f32) (x3 : Vec F S128x128 .f32) (x4 : Vec F S1x128 .f32) (x5 : Vec F S128x128 .f32) (xo7 : Vec F S1x128 .f32) (xo8 : Vec F S1x128 .f32) :
    out0_B_6 c i a1 h1 a2 h2 a3 h3 a4 h4 a5 h5 a6 h6 a7 h7 a8 h8 a9 h9 hc x0 x1 x2 x3 x4 x5 xo7 xo8 = k0_pay4 x0 x2 x1 x3 x5 x4 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread,
    h8.read_unread, h9.read_unread,
    View.ld_unit_zero (S := S5000x128) hz, View.ld_unit_zero (S := S5000x1) hz, View.ld_unit_zero (S := S128x128) hz,
    View.ld_unit_zero (S := S1x128) hz]

/-- A later point, the sum block: what the point before left, plus the tile's column sums. -/
theorem out_B_7 (c : Dev nD) (i : grid0.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S5000x1 .f32) (x3 : Vec F S128x128 .f32) (x4 : Vec F S1x128 .f32) (x5 : Vec F S128x128 .f32) (xo7 : Vec F S1x128 .f32) (xo8 : Vec F S1x128 .f32) :
    out0_B_7 c i a1 h1 a2 h2 a3 h3 a4 h4 a5 h5 a6 h6 a7 h7 a8 h8 a9 h9 hc x0 x1 x2 x3 x4 x5 xo7 xo8 = k0_pay5 x0 x2 x1 x3 x5 x4 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread,
    h8.read_unread, h9.read_unread,
    View.ld_unit_zero (S := S5000x128) hz, View.ld_unit_zero (S := S5000x1) hz, View.ld_unit_zero (S := S128x128) hz,
    View.ld_unit_zero (S := S1x128) hz]

/-- A later point, the sum-of-squares block: what the point before left, plus the column sums of the squares. -/
theorem out_B_8 (c : Dev nD) (i : grid0.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S5000x1 .f32) (x3 : Vec F S128x128 .f32) (x4 : Vec F S1x128 .f32) (x5 : Vec F S128x128 .f32) (xo7 : Vec F S1x128 .f32) (xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x0 x2 x1 x3 x5 x4) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread,
    h8.read_unread, h9.read_unread,
    View.ld_unit_zero (S := S5000x128) hz, View.ld_unit_zero (S := S5000x1) hz, View.ld_unit_zero (S := S128x128) hz,
    View.ld_unit_zero (S := S1x128) hz]

end Cert.KernelIdeal.LinValue0

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.KLinSum.lean ====
/-
  Fifty thousand rows as ten consecutive blocks of five thousand.

  Row `p` of block `s` is row `5000 · s + p` of the whole; a sum over all rows is the sum, over the ten blocks in
  order, of the sums over each block's rows. The block number is a natural number so that a running sum over the
  first `n + 1` blocks can be written as a sum over `Finset.range (n + 1)`; past the tenth block the row is
  defined to be row 0 and is never used.
-/
import proofs.«179303_j4578435137604_2_alg».proof.Proof.LibERealSums

open scoped BigOperators

namespace Cert.LinSum

/-- Row `p` of block `s`. -/
def blockRow (s : ℕ) (p : Fin 5000) : Fin 50000 :=
  if h : s < 10 then ⟨5000 * s + p.val, by have := p.isLt; omega⟩ else ⟨0, by decide⟩

theorem blockRow_val {s : ℕ} (h : s < 10) (p : Fin 5000) : (blockRow s p).val = 5000 * s + p.val := by
  unfold blockRow; rw [dif_pos h]

/-- The sum over all rows is the sum over the ten blocks of the sums over their rows. -/
theorem sum_blocks {M : Type*} [AddCommMonoid M] (f : Fin 50000 → M) :
    ∑ s ∈ Finset.range 10, ∑ p : Fin 5000, f (blockRow s p) = ∑ r : Fin 50000, f r := by
  rw [Finset.sum_range]
  exact (Cert.LibERealSums.sum_fin_blocks (m := 10) (n := 5000) (N := 50000) rfl (fun k r => blockRow k.val r)
    (fun k r => blockRow_val k.isLt r) f).symm

end Cert.LinSum
-- ==== Proof.KLin0.lean ====
/-
  The three arrays one launch of the linear-and-statistics kernel leaves, as functions of the six arrays it reads.

  The grid has ten points. At point `t` the windows on the neighbour sums, the features and the inverse degrees
  hold rows `5000 t … 5000 t + 4999` of their arrays, the windows on the two weight matrices and the bias row hold
  the whole arrays, and the body stores into the first output's block the tile whose entry `(p, q)` is the linear
  stage's entry at row `5000 t + p`: written back at every point, the ten blocks tile the output, which therefore
  ends as the linear stage of the whole arrays. The two statistics blocks are one block each, zeroed at point 0 and
  never written back before the last point: after point `n` they hold the column sums (of the entries, of their
  squares) over the rows of blocks `0 … n` — by induction on the point, the addition of extended reals being
  associative — and after point 9 over all fifty thousand rows.
-/
import proofs.«179303_j4578435137604_2_alg».proof.Proof.Gen.KernelIdeal.Frame
import proofs.«179303_j4578435137604_2_alg».proof.Proof.Spec
import proofs.«179303_j4578435137604_2_alg».proof.Proof.KLinPay
import proofs.«179303_j4578435137604_2_alg».proof.Proof.KLin0Out
import proofs.«179303_j4578435137604_2_alg».proof.Proof.KLinSum
import Idealize.ShloMosaic.Lib.Pipeline.Value
import Idealize.ShloMosaic.Lib.Tactic

noncomputable section

open scoped BigOperators

open Idealize.ShloMosaic Idealize.ShloMosaic.TcCoe Idealize.SL.Sem Idealize.ShloMosaic.Tactic Idealize.ShloMosaic.ValueIdx
open Idealize.ShloMosaic.Pipeline (Dat)

namespace Cert.KernelIdeal.LinValue0

open Cert.KernelIdeal Cert.KernelIdeal.Gen Cert.LinSum

variable (V : (c : Dev nD) → (b : Ref sig .tc) → Buf (Elt Ideal) ((c : Thread nD τ).loc b))

/-! ## Where each window's block sits -/

/-- The row-block windows (the three tiled inputs and the tiled output) are at block `(t, 0)`. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_6.index t (0 : Fin 2) = t.val ∧ win0_6.index t (1 : Fin 2) = 0) :=
  (by decide +kernel : ∀ t : Fin grid0.N, _)

/-- The other windows are at block `(0, 0)` at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## The input blocks, read in their arrays -/

theorem iblk_0 (c : Dev nD) (t : Fin cfg0.N) (p : Fin 5000) (q : Fin 128) :
    (iblk0 V c 0 t : Vec Ideal S5000x128 .f32) (ix2 p q) = V c (Pipeline.arrRef spec0 0) (ix2 (blockRow t.val p) q) := by
  have e0 := (idx_rows t).1.1
  have e1 := (idx_rows t).1.2
  have hr := blockRow_val (lt_of_lt_of_eq t.isLt (show cfg0.N = 10 from N_0)) p
  unfold iblk0
  rw [View.read_apply]
  show V c (Pipeline.arrRef spec0 0) (((cfg0.win 0).blk t).view.emb (ix2 p q)) = _
  refine congrArg (V c (Pipeline.arrRef spec0 0)) (funext fun a => Fin.ext ?_)
  match a with
  | ⟨0, _⟩ => show win0_0.index t (0 : Fin 2) * 5000 + 1 * p.val = (blockRow t.val p).val; rw [e0, hr]; omega
  | ⟨1, _⟩ => show win0_0.index t (1 : Fin 2) * 128 + 1 * q.val = q.val; rw [e1]; omega

theorem iblk_1 (c : Dev nD) (t : Fin cfg0.N) (p : Fin 5000) (q : Fin 128) :
    (iblk0 V c 1 t : Vec Ideal S5000x128 .f32) (ix2 p q) = V c (Pipeline.arrRef spec0 1) (ix2 (blockRow t.val p) q) := by
  have e0 := (idx_rows t).2.1.1
  have e1 := (idx_rows t).2.1.2
  have hr := blockRow_val (lt_of_lt_of_eq t.isLt (show cfg0.N = 10 from N_0)) p
  unfold iblk0
  rw [View.read_apply]
  show V c (Pipeline.arrRef spec0 1) (((cfg0.win 1).blk t).view.emb (ix2 p q)) = _
  refine congrArg (V c (Pipeline.arrRef spec0 1)) (funext fun a => Fin.ext ?_)
  match a with
  | ⟨0, _⟩ => show win0_1.index t (0 : Fin 2) * 5000 + 1 * p.val = (blockRow t.val p).val; rw [e0, hr]; omega
  | ⟨1, _⟩ => show win0_1.index t (1 : Fin 2) * 128 + 1 * q.val = q.val; rw [e1]; omega

theorem iblk_2 (c : Dev nD) (t : Fin cfg0.N) (p : Fin 5000) (q : Fin 1) :
    (iblk0 V c 2 t : Vec Ideal S5000x1 .f32) (ix2 p q) = V c (Pipeline.arrRef spec0 2) (ix2 (blockRow t.val p) q) := by
  have e0 := (idx_rows t).2.2.1.1
  have e1 := (idx_rows t).2.2.1.2
  have hr := blockRow_val (lt_of_lt_of_eq t.isLt (show cfg0.N = 10 from N_0)) p
  unfold iblk0
  rw [View.read_apply]
  show V c (Pipeline.arrRef spec0 2) (((cfg0.win 2).blk t).view.emb (ix2 p q)) = _
  refine congrArg (V c (Pipeline.arrRef spec0 2)) (funext fun a => Fin.ext ?_)
  match a with
  | ⟨0, _⟩ => show win0_2.index t (0 : Fin 2) * 5000 + 1 * p.val = (blockRow t.val p).val; rw [e0, hr]; omega
  | ⟨1, _⟩ => show win0_2.index t (1 : Fin 2) * 1 + 1 * q.val = q.val; rw [e1]; omega

theorem iblk_3 (c : Dev nD) (t : Fin cfg0.N) (p : Fin 128) (q : Fin 128) :
    (iblk0 V c 3 t : Vec Ideal S128x128 .f32) (ix2 p q) = V c (Pipeline.arrRef spec0 3) (ix2 p q) := by
  have e0 := (idx_whole t).1.1
  have e1 := (idx_whole t).1.2
  unfold iblk0
  rw [View.read_apply]
  show V c (Pipeline.arrRef spec0 3) (((cfg0.win 3).blk t).view.emb (ix2 p q)) = _
  refine congrArg (V c (Pipeline.arrRef spec0 3)) (funext fun a => Fin.ext ?_)
  match a with
  | ⟨0, _⟩ => show win0_3.index t (0 : Fin 2) * 128 + 1 * p.val = p.val; rw [e0]; omega
  | ⟨1, _⟩ => show win0_3.index t (1 : Fin 2) * 128 + 1 * q.val = q.val; rw [e1]; omega

theorem iblk_4 (c : Dev nD) (t : Fin cfg0.N) (p : Fin 1) (q : Fin 128) :
    (iblk0 V c 4 t : Vec Ideal S1x128 .f32) (ix2 p q) = V c (Pipeline.arrRef spec0 4) (ix2 p q) := by
  have e0 := (idx_whole t).2.1.1
  have e1 := (idx_whole t).2.1.2
  unfold iblk0
  rw [View.read_apply]
  show V c (Pipeline.arrRef spec0 4) (((cfg0.win 4).blk t).view.emb (ix2 p q)) = _
  refine congrArg (V c (Pipeline.arrRef spec0 4)) (funext fun a => Fin.ext ?_)
  match a with
  | ⟨0, _⟩ => show win0_4.index t (0 : Fin 2) * 1 + 1 * p.val = p.val; rw [e0]; omega
  | ⟨1, _⟩ => show win0_4.index t (1 : Fin 2) * 128 + 1 * q.val = q.val; rw [e1]; omega

theorem iblk_5 (c : Dev nD) (t : Fin cfg0.N) (p : Fin 128) (q : Fin 128) :
    (iblk0 V c 5 t : Vec Ideal S128x128 .f32) (ix2 p q) = V c (Pipeline.arrRef spec0 5) (ix2 p q) := by
  have e0 := (idx_whole t).2.2.1.1
  have e1 := (idx_whole t).2.2.1.2
  unfold iblk0
  rw [View.read_apply]
  show V c (Pipeline.arrRef spec0 5) (((cfg0.win 5).blk t).view.emb (ix2 p q)) = _
  refine congrArg (V c (Pipeline.arrRef spec0 5)) (funext fun a => Fin.ext ?_)
  match a with
  | ⟨0, _⟩ => show win0_5.index t (0 : Fin 2) * 128 + 1 * p.val = p.val; rw [e0]; omega
  | ⟨1, _⟩ => show win0_5.index t (1 : Fin 2) * 128 + 1 * q.val = q.val; rw [e1]; omega

/-! ## The tile is the linear stage on the block's rows -/

/-- Over any blocks that read the arrays at block `s`'s rows (the weights and the bias whole), the stored tile at
    `(p, q)` is the linear stage at row `p` of block `s`. -/
theorem tile_lin (A0 A1 : Cert.Sage.SN.Idx → EReal) (A2 : Cert.Sage.SC.Idx → EReal) (A3 : Cert.Sage.SW.Idx → EReal)
    (A4 : Cert.Sage.SR.Idx → EReal) (A5 : Cert.Sage.SW.Idx → EReal) (s : ℕ)
    (b0 b1 : Vec Ideal S5000x128 .f32) (b2 : Vec Ideal S5000x1 .f32) (b3 : Vec Ideal S128x128 .f32) (b4 : Vec Ideal S1x128 .f32)
    (b5 : Vec Ideal S128x128 .f32)
    (e0 : ∀ (p : Fin 5000) (q : Fin 128), b0 (ix2 p q) = A0 (ix2 (blockRow s p) q))
    (e1 : ∀ (p : Fin 5000) (q : Fin 128), b1 (ix2 p q) = A1 (ix2 (blockRow s p) q))
    (e2 : ∀ (p : Fin 5000) (q : Fin 1), b2 (ix2 p q) = A2 (ix2 (blockRow s p) q))
    (e3 : ∀ (p : Fin 128) (q : Fin 128), b3 (ix2 p q) = A3 (ix2 p q))
    (e4 : ∀ (p : Fin 1) (q : Fin 128), b4 (ix2 p q) = A4 (ix2 p q))
    (e5 : ∀ (p : Fin 128) (q : Fin 128), b5 (ix2 p q) = A5 (ix2 p q))
    (p : Fin 5000) (q : Fin 128) :
    k0_pay4 (F := Ideal) b0 b2 b1 b3 b5 b4 (ix2 p q) = Cert.Sage.lin A0 A1 A2 A3 A4 A5 (ix2 (blockRow s p) q) := by
  refine (Cert.KernelIdeal.LinPay0.pay4_apply b0 b2 b1 b3 b5 b4 p q).trans ?_
  simp only [e0, e1, e2, e3, e4, e5]
  rfl

/-- The linear stage of the six arrays the region reads. -/
abbrev L (c : Dev nD) : Cert.Sage.SN.Idx → EReal := Cert.Sage.lin (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))

/-- At point `t`, over the windows' blocks. -/
theorem tile_at (c : Dev nD) (t : Fin cfg0.N) (p : Fin 5000) (q : Fin 128) :
    k0_pay4 (F := Ideal) (iblk0 V c 0 t) (iblk0 V c 2 t) (iblk0 V c 1 t) (iblk0 V c 3 t) (iblk0 V c 5 t) (iblk0 V c 4 t) (ix2 p q) = L V c (ix2 (blockRow t.val p) q) :=
  tile_lin (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) t.val (iblk0 V c 0 t) (iblk0 V c 1 t) (iblk0 V c 2 t) (iblk0 V c 3 t) (iblk0 V c 4 t) (iblk0 V c 5 t)
    (iblk_0 V c t) (iblk_1 V c t) (iblk_2 V c t) (iblk_3 V c t) (iblk_4 V c t) (iblk_5 V c t) p q

/-! ## What the output blocks hold after each point -/

/-- The tile block, after point `t`: the tile of point `t`. -/
theorem outs6 (c : Dev nD) (t : Fin cfg0.N) :
    (outsAt0 V c t.val t.isLt).1 = k0_pay4 (F := Ideal) (iblk0 V c 0 t) (iblk0 V c 2 t) (iblk0 V c 1 t) (iblk0 V c 3 t) (iblk0 V c 5 t) (iblk0 V c 4 t) := by
  by_cases h0 : t.val % 10 = 0
  · rw [outsAt0_A V c t h0]
    dsimp only
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- The sum block, after point `n`: the column sums over the rows of blocks `0 … n`. -/
theorem outs7 (c : Dev nD) : ∀ (n : ℕ) (h : n < cfg0.N) (q : Fin 128),
    (outsAt0 V c n h).2.1 (ix2 (0 : Fin 1) q) = ∑ s ∈ Finset.range (n + 1), ∑ p : Fin 5000, L V c (ix2 (blockRow s p) q)
  | 0, h, q => by
    have e := congrArg (fun x => x.2.1) (outsAt0_A V c ⟨0, h⟩ (Nat.zero_mod _))
    refine (congrFun (e.trans (out_A_7 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) ((hcond0_0 ⟨0, h⟩).mpr (Nat.zero_mod _)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩))) (ix2 (0 : Fin 1) q)).trans ?_
    refine (Cert.KernelIdeal.LinPay0.pay5_apply (iblk0 V c 0 ⟨0, h⟩) (iblk0 V c 2 ⟨0, h⟩) (iblk0 V c 1 ⟨0, h⟩) (iblk0 V c 3 ⟨0, h⟩) (iblk0 V c 5 ⟨0, h⟩) (iblk0 V c 4 ⟨0, h⟩) _ q).trans ?_
    rw [Cert.KernelIdeal.LinPay0.pay2_apply, zero_add, Finset.sum_range_one]
    exact Finset.sum_congr rfl fun p _ => tile_at V c ⟨0, h⟩ p q
  | n + 1, h, q => by
    have hN : cfg0.N = 10 := N_0
    have hB : ¬(⟨n + 1, h⟩ : Fin cfg0.N).val % 10 = 0 := by dsimp only; omega
    have e : (outsAt0 V c (n + 1) h).2.1 = out0_B_7 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.1 (outsAt0 V c n (Nat.lt_of_succ_lt h)).2.2 :=
      congrArg (fun x => x.2.1) (outsAt0_B V c ⟨n + 1, h⟩ hB)
    refine (congrFun (e.trans (out_B_7 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.1 (outsAt0 V c n (Nat.lt_of_succ_lt h)).2.2)) (ix2 (0 : Fin 1) q)).trans ?_
    refine (Cert.KernelIdeal.LinPay0.pay5_apply (iblk0 V c 0 ⟨n + 1, h⟩) (iblk0 V c 2 ⟨n + 1, h⟩) (iblk0 V c 1 ⟨n + 1, h⟩) (iblk0 V c 3 ⟨n + 1, h⟩) (iblk0 V c 5 ⟨n + 1, h⟩) (iblk0 V c 4 ⟨n + 1, h⟩) _ q).trans ?_
    rw [Finset.sum_range_succ _ (n + 1)]
    exact congrArg₂ (· + ·) (outs7 c n (Nat.lt_of_succ_lt h) q) (Finset.sum_congr rfl fun p _ => tile_at V c ⟨n + 1, h⟩ p q)

/-- The sum-of-squares block, after point `n`: the column sums of the squares over the rows of blocks `0 … n`. -/
theorem outs8 (c : Dev nD) : ∀ (n : ℕ) (h : n < cfg0.N) (q : Fin 128),
    (outsAt0 V c n h).2.2 (ix2 (0 : Fin 1) q)
      = ∑ s ∈ Finset.range (n + 1), ∑ p : Fin 5000, L V c (ix2 (blockRow s p) q) * L V c (ix2 (blockRow s p) q)
  | 0, h, q => by
    have e := congrArg (fun x => x.2.2) (outsAt0_A V c ⟨0, h⟩ (Nat.zero_mod _))
    refine (congrFun (e.trans (out_A_8 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) ((hcond0_0 ⟨0, h⟩).mpr (Nat.zero_mod _)) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩))) (ix2 (0 : Fin 1) q)).trans ?_
    refine (Cert.KernelIdeal.LinPay0.pay1_apply _ _ q).trans ?_
    rw [Cert.KernelIdeal.LinPay0.pay3_apply, zero_add, Finset.sum_range_one]
    exact Finset.sum_congr rfl fun p _ => congrArg₂ (· * ·) (tile_at V c ⟨0, h⟩ p q) (tile_at V c ⟨0, h⟩ p q)
  | n + 1, h, q => by
    have hN : cfg0.N = 10 := N_0
    have hB : ¬(⟨n + 1, h⟩ : Fin cfg0.N).val % 10 = 0 := by dsimp only; omega
    have e : (outsAt0 V c (n + 1) h).2.2 = out0_B_8 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.1 (outsAt0 V c n (Nat.lt_of_succ_lt h)).2.2 :=
      congrArg (fun x => x.2.2) (outsAt0_B V c ⟨n + 1, h⟩ hB)
    refine (congrFun (e.trans (out_B_8 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.1 (outsAt0 V c n (Nat.lt_of_succ_lt h)).2.2)) (ix2 (0 : Fin 1) q)).trans ?_
    refine (Cert.KernelIdeal.LinPay0.pay1_apply _ _ q).trans ?_
    rw [Finset.sum_range_succ _ (n + 1)]
    exact congrArg₂ (· + ·) (outs8 c n (Nat.lt_of_succ_lt h) q)
      (Finset.sum_congr rfl fun p _ => congrArg₂ (· * ·) (tile_at V c ⟨n + 1, h⟩ p q) (tile_at V c ⟨n + 1, h⟩ p q))

/-! ## The first output: ten blocks of rows tile the array -/

/-- What point `t` writes back is block `t` of the linear stage. -/
theorem flushed6 (c : Dev nD) (t : Fin cfg0.N) :
    (dat0 V c).flushed 6 t = ((cfg0.win 6).blk t).view.read (Elt Ideal) (L V c) := by
  show (cfg0.win 6).cut (grid0.coords t) ((dat0 V c).after 6 t) = _
  rw [after0_6, outs6]
  have e0 := (idx_rows t).2.2.2.1
  have e1 := (idx_rows t).2.2.2.2
  have ht : t.val < 10 := lt_of_lt_of_eq t.isLt (show cfg0.N = 10 from N_0)
  funext j
  have hp : (j 0).val < 5000 := (j 0).isLt
  have hq : (j 1).val < 128 := (j 1).isLt
  have hx : (cfg0.win 6).xinj (grid0.coords t) j = ix2 (⟨(j 0).val, hp⟩ : Fin 5000) (⟨(j 1).val, hq⟩ : Fin 128) :=
    funext fun a => match a with
      | ⟨0, _⟩ => rfl
      | ⟨1, _⟩ => rfl
  rw [View.read_apply]
  show k0_pay4 (F := Ideal) (iblk0 V c 0 t) (iblk0 V c 2 t) (iblk0 V c 1 t) (iblk0 V c 3 t) (iblk0 V c 5 t) (iblk0 V c 4 t) ((cfg0.win 6).xinj (grid0.coords t) j) = L V c (((cfg0.win 6).blk t).view.emb j)
  rw [hx]
  refine (tile_at V c t ⟨(j 0).val, hp⟩ ⟨(j 1).val, hq⟩).trans ?_
  refine congrArg (L V c) (funext fun a => Fin.ext ?_)
  match a with
  | ⟨0, _⟩ => show (blockRow t.val ⟨(j 0).val, hp⟩).val = win0_6.index t (0 : Fin 2) * 5000 + 1 * (j 0).val; rw [blockRow_val ht, e0]; show 5000 * t.val + (j 0).val = t.val * 5000 + 1 * (j 0).val; omega
  | ⟨1, _⟩ => show (j 1).val = win0_6.index t (1 : Fin 2) * 128 + 1 * (j 1).val; rw [e1]; omega

/-- An index of the output is in point `t`'s block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v35_0).slice (win0_6.rect t)).set ↔ _
  rw [View.set_slice_whole, Rect.mem_set_unit]
  exact Iff.rfl

/-- The first output ends as the linear stage of the six arrays. -/
theorem out_eq (c : Dev nD) : (Gen.dat0 (F := Ideal) V c).arrAt 6 cfg0.N
      = Cert.Sage.lin (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 6 (L V c) (fun t _ => flushed6 V c t) fun i => by
    have hi0 : (i 0).val < 50000 := (i 0).isLt
    have hi1 : (i 1).val < 128 := (i 1).isLt
    have hN : cfg0.N = 10 := N_0
    refine ⟨⟨(i 0).val / 5000, by rw [hN]; omega⟩, flush0_6 _, ?_⟩
    have e0 := (idx_rows (⟨(i 0).val / 5000, by rw [hN]; omega⟩ : Fin cfg0.N)).2.2.2.1
    have e1 := (idx_rows (⟨(i 0).val / 5000, by rw [hN]; omega⟩ : Fin cfg0.N)).2.2.2.2
    rw [mem_blk6]
    intro a
    match a with
    | ⟨0, _⟩ =>
      show win0_6.index _ (0 : Fin 2) * 5000 ≤ (i 0).val ∧ (i 0).val < win0_6.index _ (0 : Fin 2) * 5000 + 5000
      rw [e0]; dsimp only; omega
    | ⟨1, _⟩ =>
      show win0_6.index _ (1 : Fin 2) * 128 ≤ (i 1).val ∧ (i 1).val < win0_6.index _ (1 : Fin 2) * 128 + 128
      rw [e1]; omega

/-! ## The two statistics rows: one block, written back after the last point -/

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v35_1).slice (win0_7.rect t)).set ↔ _
  rw [View.set_slice_whole, Rect.mem_set_unit]
  exact Iff.rfl

theorem mem_blk8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v35_2).slice (win0_8.rect t)).set ↔ _
  rw [View.set_slice_whole, Rect.mem_set_unit]
  exact Iff.rfl

/-- What the write-back of window 7 at a point writes, at an index: the block's contents after that point. -/
theorem flushed7_apply (c : Dev nD) (t : Fin cfg0.N) (j : ((cfg0.win 7).xblock (grid0.coords t)).Idx) :
    (dat0 V c).flushed 7 t j = (outsAt0 V c t.val t.isLt).2.1 ((cfg0.win 7).xinj (grid0.coords t) j) := by
  show (cfg0.win 7).cut (grid0.coords t) ((dat0 V c).after 7 t) j = _
  rw [after0_7]

/-- The block of window 7 at a point read out of any contents of its array, at an index. -/
theorem read_blk7 (t : Fin cfg0.N) (G : S1x128.Idx → EReal) (j : ((cfg0.win 7).xblock (grid0.coords t)).Idx) :
    ((cfg0.win 7).blk t).view.read (Elt Ideal) G j = G (((cfg0.win 7).blk t).view.emb j) := rfl

/-- The one write-back of the sum row, after point 9, writes the column sums over all rows. -/
theorem flushed7 (c : Dev nD) (t : Fin cfg0.N) (hf : (cfg0.win 7).flush t = true) :
    (dat0 V c).flushed 7 t = ((cfg0.win 7).blk t).view.read (Elt Ideal) (Cert.Sage.colSum (L V c)) := by
  have hN : cfg0.N = 10 := N_0
  have h9 : t.val = 9 := by have := (flush0_7 t).mp hf; have := t.isLt; omega
  have e1 := (idx_whole t).2.2.2.1.2
  funext j
  have hu : (j 0).val < 1 := (j 0).isLt
  have hq : (j 1).val < 128 := (j 1).isLt
  have hx : (cfg0.win 7).xinj (grid0.coords t) j = ix2 (0 : Fin 1) (⟨(j 1).val, hq⟩ : Fin 128) :=
    funext fun a => match a with
      | ⟨0, _⟩ => Fin.ext (by show (j 0).val = 0; omega)
      | ⟨1, _⟩ => rfl
  have hr : Finset.range (t.val + 1) = Finset.range 10 := by rw [h9]
  refine (flushed7_apply V c t j).trans ?_
  refine Eq.trans ?_ (read_blk7 t (Cert.Sage.colSum (L V c)) j).symm
  rw [hx, outs7 V c t.val t.isLt ⟨(j 1).val, hq⟩, hr, sum_blocks (fun r => L V c (ix2 r (⟨(j 1).val, hq⟩ : Fin 128)))]
  show (∑ r : Fin 50000, L V c (ix2 r (⟨(j 1).val, hq⟩ : Fin 128)) : EReal)
    = ∑ r : Fin 50000, L V c (ix2 r ((((cfg0.win 7).blk t).view.emb j) 1))
  refine Finset.sum_congr rfl fun r _ => congrArg (fun x => L V c (ix2 r x)) (Fin.ext ?_)
  show (j 1).val = win0_7.index t (1 : Fin 2) * 128 + 1 * (j 1).val
  rw [e1]; omega

/-- The second output ends as the column sums of the linear stage. -/
theorem sum_eq (c : Dev nD) : (Gen.dat0 (F := Ideal) V c).arrAt 7 cfg0.N
      = Cert.Sage.colSum (Cert.Sage.lin (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) :=
  (dat0 V c).arrAt_eq_of_cover 7 (Cert.Sage.colSum (L V c)) (flushed7 V c) fun i => by
    have hi0 : (i 0).val < 1 := (i 0).isLt
    have hi1 : (i 1).val < 128 := (i 1).isLt
    have hN : cfg0.N = 10 := N_0
    refine ⟨⟨9, by rw [hN]; decide⟩, (flush0_7 _).mpr rfl, ?_⟩
    have e0 := (idx_whole (⟨9, by rw [hN]; decide⟩ : Fin cfg0.N)).2.2.2.1.1
    have e1 := (idx_whole (⟨9, by rw [hN]; decide⟩ : Fin cfg0.N)).2.2.2.1.2
    rw [mem_blk7]
    intro a
    match a with
    | ⟨0, _⟩ =>
      show win0_7.index _ (0 : Fin 2) * 1 ≤ (i 0).val ∧ (i 0).val < win0_7.index _ (0 : Fin 2) * 1 + 1
      rw [e0]; omega
    | ⟨1, _⟩ =>
      show win0_7.index _ (1 : Fin 2) * 128 ≤ (i 1).val ∧ (i 1).val < win0_7.index _ (1 : Fin 2) * 128 + 128
      rw [e1]; omega

/-- What the write-back of window 8 at a point writes, at an index: the block's contents after that point. -/
theorem flushed8_apply (c : Dev nD) (t : Fin cfg0.N) (j : ((cfg0.win 8).xblock (grid0.coords t)).Idx) :
    (dat0 V c).flushed 8 t j = (outsAt0 V c t.val t.isLt).2.2 ((cfg0.win 8).xinj (grid0.coords t) j) := by
  show (cfg0.win 8).cut (grid0.coords t) ((dat0 V c).after 8 t) j = _
  rw [after0_8]

/-- The block of window 8 at a point read out of any contents of its array, at an index. -/
theorem read_blk8 (t : Fin cfg0.N) (G : S1x128.Idx → EReal) (j : ((cfg0.win 8).xblock (grid0.coords t)).Idx) :
    ((cfg0.win 8).blk t).view.read (Elt Ideal) G j = G (((cfg0.win 8).blk t).view.emb j) := rfl

/-- The one write-back of the sum-of-squares row, after point 9, writes the column sums of the squares over all rows. -/
theorem flushed8 (c : Dev nD) (t : Fin cfg0.N) (hf : (cfg0.win 8).flush t = true) :
    (dat0 V c).flushed 8 t = ((cfg0.win 8).blk t).view.read (Elt Ideal) (Cert.Sage.colSumSq (L V c)) := by
  have hN : cfg0.N = 10 := N_0
  have h9 : t.val = 9 := by have := (flush0_8 t).mp hf; have := t.isLt; omega
  have e1 := (idx_whole t).2.2.2.2.2
  funext j
  have hu : (j 0).val < 1 := (j 0).isLt
  have hq : (j 1).val < 128 := (j 1).isLt
  have hx : (cfg0.win 8).xinj (grid0.coords t) j = ix2 (0 : Fin 1) (⟨(j 1).val, hq⟩ : Fin 128) :=
    funext fun a => match a with
      | ⟨0, _⟩ => Fin.ext (by show (j 0).val = 0; omega)
      | ⟨1, _⟩ => rfl
  have hr : Finset.range (t.val + 1) = Finset.range 10 := by rw [h9]
  refine (flushed8_apply V c t j).trans ?_
  refine Eq.trans ?_ (read_blk8 t (Cert.Sage.colSumSq (L V c)) j).symm
  rw [hx, outs8 V c t.val t.isLt ⟨(j 1).val, hq⟩, hr,
    sum_blocks (fun r => L V c (ix2 r (⟨(j 1).val, hq⟩ : Fin 128)) * L V c (ix2 r (⟨(j 1).val, hq⟩ : Fin 128)))]
  show (∑ r : Fin 50000, L V c (ix2 r (⟨(j 1).val, hq⟩ : Fin 128)) * L V c (ix2 r (⟨(j 1).val, hq⟩ : Fin 128)) : EReal)
    = ∑ r : Fin 50000, L V c (ix2 r ((((cfg0.win 8).blk t).view.emb j) 1)) * L V c (ix2 r ((((cfg0.win 8).blk t).view.emb j) 1))
  refine Finset.sum_congr rfl fun r _ => congrArg (fun x => L V c (ix2 r x) * L V c (ix2 r x)) (Fin.ext ?_)
  show (j 1).val = win0_8.index t (1 : Fin 2) * 128 + 1 * (j 1).val
  rw [e1]; omega

/-- The third output ends as the column sums of the squares of the linear stage. -/
theorem sumsq_eq (c : Dev nD) : (Gen.dat0 (F := Ideal) V c).arrAt 8 cfg0.N
      = Cert.Sage.colSumSq (Cert.Sage.lin (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) :=
  (dat0 V c).arrAt_eq_of_cover 8 (Cert.Sage.colSumSq (L V c)) (flushed8 V c) fun i => by
    have hi0 : (i 0).val < 1 := (i 0).isLt
    have hi1 : (i 1).val < 128 := (i 1).isLt
    have hN : cfg0.N = 10 := N_0
    refine ⟨⟨9, by rw [hN]; decide⟩, (flush0_8 _).mpr rfl, ?_⟩
    have e0 := (idx_whole (⟨9, by rw [hN]; decide⟩ : Fin cfg0.N)).2.2.2.2.1
    have e1 := (idx_whole (⟨9, by rw [hN]; decide⟩ : Fin cfg0.N)).2.2.2.2.2
    rw [mem_blk8]
    intro a
    match a with
    | ⟨0, _⟩ =>
      show win0_8.index _ (0 : Fin 2) * 1 ≤ (i 0).val ∧ (i 0).val < win0_8.index _ (0 : Fin 2) * 1 + 1
      rw [e0]; omega
    | ⟨1, _⟩ =>
      show win0_8.index _ (1 : Fin 2) * 128 ≤ (i 1).val ∧ (i 1).val < win0_8.index _ (1 : Fin 2) * 128 + 128
      rw [e1]; omega

end Cert.KernelIdeal.LinValue0

end
-- ==== Proof.KLin2Out.lean ====
/-
  What one run of the linear-and-statistics kernel body leaves in its three output blocks, as values of the blocks
  it was given.

  The body stores the tile `out` once; at the first grid point it first stores zero rows into the two statistics
  blocks and reads them back, at every other point it reads what the point before left. In both cases the sum block
  ends at "what it held, plus the column sums of the tile" and the sum-of-squares block at "what it held, plus the
  column sums of the tile's squares", where "what it held" is the zero row at the first point. Each statement below
  reads one output block back through the stores that cover it; the loads of whole buffers read the buffers' contents.
-/
import proofs.«179303_j4578435137604_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.LinValue2

open Cert.KernelIdeal Cert.KernelIdeal.Gen

variable {F : FTy → Type} [FloatOps F]

theorem hz : (![0, 0] : Fin 2 → Nat) = fun _ => 0 := funext fun a => by fin_cases a <;> rfl

/-- First point, the tile: the one store's payload over the loaded blocks. -/
theorem out_A_6 (c : Dev nD) (i : grid2.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 : Vec F S5000x128 .f32) (x1 : Vec F S5000x128 .f32) (x2 : Vec F S5000x1 .f32) (x3 : Vec F S128x128 .f32) (x4 : Vec F S1x128 .f32) (x5 : Vec F S128x128 .f32) :
    out2_A_6 c i a1 h1 a2 h2 a3 h3 a4 h4 a5 h5 a6 h6 a7 h7 a8 h8 a9 h9 hc x0 x1 x2 x3 x4 x5 = k2_pay4 x0 x2 x1 x3 x5 x4 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S5000x1) hz, View.ld_unit_zero (S := S128x128) hz,
    View.ld_unit_zero (S := S1x128) hz]

/-- First point, the sum block: the zero row stored first, read back, plus the tile's column sums. -/
theorem out_A_7 (c : Dev nD) (i : grid2.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 : Vec F S5000x128 .f32) (x1 : Vec F S5000x128 .f32) (x2 : Vec F S5000x1 .f32) (x3 : Vec F S128x128 .f32) (x4 : Vec F S1x128 .f32) (x5 : Vec F S128x128 .f32) :
    out2_A_7 c i a1 h1 a2 h2 a3 h3 a4 h4 a5 h5 a6 h6 a7 h7 a8 h8 a9 h9 hc x0 x1 x2 x3 x4 x5 = k2_pay5 x0 x2 x1 x3 x5 x4 (k2_pay2 (F := F)) := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S5000x1) hz, View.ld_unit_zero (S := S128x128) hz,
    View.ld_unit_zero (S := S1x128) hz]

/-- First point, the sum-of-squares block: the zero row stored first, read back, plus the column sums of the squares. -/
theorem out_A_8 (c : Dev nD) (i : grid2.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 : Vec F S5000x128 .f32) (x1 : Vec F S5000x128 .f32) (x2 : Vec F S5000x1 .f32) (x3 : Vec F S128x128 .f32) (x4 : Vec F S1x128 .f32) (x5 : Vec F S128x128 .f32) :
    out2_A_8 c i a1 h1 a2 h2 a3 h3 a4 h4 a5 h5 a6 h6 a7 h7 a8 h8 a9 h9 hc x0 x1 x2 x3 x4 x5 = k2_pay1 (k2_pay4 x0 x2 x1 x3 x5 x4) (k2_pay3 (F := F)) := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S5000x1) hz, View.ld_unit_zero (S := S128x128) hz,
    View.ld_unit_zero (S := S1x128) hz]

/-- A later point, the tile. -/
theorem out_B_6 (c : Dev nD) (i : grid2.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S5000x128 .f32) (x1 : Vec F S5000x128 .f32) (x2 : Vec F S5000x1 .f32) (x3 : Vec F S128x128 .f32) (x4 : Vec F S1x128 .f32) (x5 : Vec F S128x128 .f32) (xo7 : Vec F S1x128 .f32) (xo8 : Vec F S1x128 .f32) :
    out2_B_6 c i a1 h1 a2 h2 a3 h3 a4 h4 a5 h5 a6 h6 a7 h7 a8 h8 a9 h9 hc x0 x1 x2 x3 x4 x5 xo7 xo8 = k2_pay4 x0 x2 x1 x3 x5 x4 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread,
    h8.read_unread, h9.read_unread,
    View.ld_unit_zero (S := S5000x128) hz, View.ld_unit_zero (S := S5000x1) hz, View.ld_unit_zero (S := S128x128) hz,
    View.ld_unit_zero (S := S1x128) hz]

/-- A later point, the sum block: what the point before left, plus the tile's column sums. -/
theorem out_B_7 (c : Dev nD) (i : grid2.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S5000x128 .f32) (x1 : Vec F S5000x128 .f32) (x2 : Vec F S5000x1 .f32) (x3 : Vec F S128x128 .f32) (x4 : Vec F S1x128 .f32) (x5 : Vec F S128x128 .f32) (xo7 : Vec F S1x128 .f32) (xo8 : Vec F S1x128 .f32) :
    out2_B_7 c i a1 h1 a2 h2 a3 h3 a4 h4 a5 h5 a6 h6 a7 h7 a8 h8 a9 h9 hc x0 x1 x2 x3 x4 x5 xo7 xo8 = k2_pay5 x0 x2 x1 x3 x5 x4 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread,
    h8.read_unread, h9.read_unread,
    View.ld_unit_zero (S := S5000x128) hz, View.ld_unit_zero (S := S5000x1) hz, View.ld_unit_zero (S := S128x128) hz,
    View.ld_unit_zero (S := S1x128) hz]

/-- A later point, the sum-of-squares block: what the point before left, plus the column sums of the squares. -/
theorem out_B_8 (c : Dev nD) (i : grid2.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S5000x128 .f32) (x1 : Vec F S5000x128 .f32) (x2 : Vec F S5000x1 .f32) (x3 : Vec F S128x128 .f32) (x4 : Vec F S1x128 .f32) (x5 : Vec F S128x128 .f32) (xo7 : Vec F S1x128 .f32) (xo8 : Vec F S1x128 .f32) :
    out2_B_8 c i a1 h1 a2 h2 a3 h3 a4 h4 a5 h5 a6 h6 a7 h7 a8 h8 a9 h9 hc x0 x1 x2 x3 x4 x5 xo7 xo8 = k2_pay1 (k2_pay4 x0 x2 x1 x3 x5 x4) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread,
    h8.read_unread, h9.read_unread,
    View.ld_unit_zero (S := S5000x128) hz, View.ld_unit_zero (S := S5000x1) hz, View.ld_unit_zero (S := S128x128) hz,
    View.ld_unit_zero (S := S1x128) hz]

end Cert.KernelIdeal.LinValue2

end
-- ==== Proof.KLin2.lean ====
/-
  The three arrays one launch of the linear-and-statistics kernel leaves, as functions of the six arrays it reads.

  The grid has ten points. At point `t` the windows on the neighbour sums, the features and the inverse degrees
  hold rows `5000 t … 5000 t + 4999` of their arrays, the windows on the two weight matrices and the bias row hold
  the whole arrays, and the body stores into the first output's block the tile whose entry `(p, q)` is the linear
  stage's entry at row `5000 t + p`: written back at every point, the ten blocks tile the output, which therefore
  ends as the linear stage of the whole arrays. The two statistics blocks are one block each, zeroed at point 0 and
  never written back before the last point: after point `n` they hold the column sums (of the entries, of their
  squares) over the rows of blocks `0 … n` — by induction on the point, the addition of extended reals being
  associative — and after point 9 over all fifty thousand rows.
-/
import proofs.«179303_j4578435137604_2_alg».proof.Proof.Gen.KernelIdeal.Frame
import proofs.«179303_j4578435137604_2_alg».proof.Proof.Spec
import proofs.«179303_j4578435137604_2_alg».proof.Proof.KLinPay
import proofs.«179303_j4578435137604_2_alg».proof.Proof.KLin2Out
import proofs.«179303_j4578435137604_2_alg».proof.Proof.KLinSum
import Idealize.ShloMosaic.Lib.Pipeline.Value
import Idealize.ShloMosaic.Lib.Tactic

noncomputable section

open scoped BigOperators

open Idealize.ShloMosaic Idealize.ShloMosaic.TcCoe Idealize.SL.Sem Idealize.ShloMosaic.Tactic Idealize.ShloMosaic.ValueIdx
open Idealize.ShloMosaic.Pipeline (Dat)

namespace Cert.KernelIdeal.LinValue2

open Cert.KernelIdeal Cert.KernelIdeal.Gen Cert.LinSum

variable (V : (c : Dev nD) → (b : Ref sig .tc) → Buf (Elt Ideal) ((c : Thread nD τ).loc b))

/-! ## Where each window's block sits -/

/-- The row-block windows (the three tiled inputs and the tiled output) are at block `(t, 0)`. -/
theorem idx_rows : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_6.index t (0 : Fin 2) = t.val ∧ win2_6.index t (1 : Fin 2) = 0) :=
  (by decide +kernel : ∀ t : Fin grid2.N, _)

/-- The other windows are at block `(0, 0)` at every point. -/
theorem idx_whole : ∀ t : Fin cfg2.N,
    (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

/-! ## The input blocks, read in their arrays -/

theorem iblk_0 (c : Dev nD) (t : Fin cfg2.N) (p : Fin 5000) (q : Fin 128) :
    (iblk2 V c 0 t : Vec Ideal S5000x128 .f32) (ix2 p q) = V c (Pipeline.arrRef spec2 0) (ix2 (blockRow t.val p) q) := by
  have e0 := (idx_rows t).1.1
  have e1 := (idx_rows t).1.2
  have hr := blockRow_val (lt_of_lt_of_eq t.isLt (show cfg2.N = 10 from N_2)) p
  unfold iblk2
  rw [View.read_apply]
  show V c (Pipeline.arrRef spec2 0) (((cfg2.win 0).blk t).view.emb (ix2 p q)) = _
  refine congrArg (V c (Pipeline.arrRef spec2 0)) (funext fun a => Fin.ext ?_)
  match a with
  | ⟨0, _⟩ => show win2_0.index t (0 : Fin 2) * 5000 + 1 * p.val = (blockRow t.val p).val; rw [e0, hr]; omega
  | ⟨1, _⟩ => show win2_0.index t (1 : Fin 2) * 128 + 1 * q.val = q.val; rw [e1]; omega

theorem iblk_1 (c : Dev nD) (t : Fin cfg2.N) (p : Fin 5000) (q : Fin 128) :
    (iblk2 V c 1 t : Vec Ideal S5000x128 .f32) (ix2 p q) = V c (Pipeline.arrRef spec2 1) (ix2 (blockRow t.val p) q) := by
  have e0 := (idx_rows t).2.1.1
  have e1 := (idx_rows t).2.1.2
  have hr := blockRow_val (lt_of_lt_of_eq t.isLt (show cfg2.N = 10 from N_2)) p
  unfold iblk2
  rw [View.read_apply]
  show V c (Pipeline.arrRef spec2 1) (((cfg2.win 1).blk t).view.emb (ix2 p q)) = _
  refine congrArg (V c (Pipeline.arrRef spec2 1)) (funext fun a => Fin.ext ?_)
  match a with
  | ⟨0, _⟩ => show win2_1.index t (0 : Fin 2) * 5000 + 1 * p.val = (blockRow t.val p).val; rw [e0, hr]; omega
  | ⟨1, _⟩ => show win2_1.index t (1 : Fin 2) * 128 + 1 * q.val = q.val; rw [e1]; omega

theorem iblk_2 (c : Dev nD) (t : Fin cfg2.N) (p : Fin 5000) (q : Fin 1) :
    (iblk2 V c 2 t : Vec Ideal S5000x1 .f32) (ix2 p q) = V c (Pipeline.arrRef spec2 2) (ix2 (blockRow t.val p) q) := by
  have e0 := (idx_rows t).2.2.1.1
  have e1 := (idx_rows t).2.2.1.2
  have hr := blockRow_val (lt_of_lt_of_eq t.isLt (show cfg2.N = 10 from N_2)) p
  unfold iblk2
  rw [View.read_apply]
  show V c (Pipeline.arrRef spec2 2) (((cfg2.win 2).blk t).view.emb (ix2 p q)) = _
  refine congrArg (V c (Pipeline.arrRef spec2 2)) (funext fun a => Fin.ext ?_)
  match a with
  | ⟨0, _⟩ => show win2_2.index t (0 : Fin 2) * 5000 + 1 * p.val = (blockRow t.val p).val; rw [e0, hr]; omega
  | ⟨1, _⟩ => show win2_2.index t (1 : Fin 2) * 1 + 1 * q.val = q.val; rw [e1]; omega

theorem iblk_3 (c : Dev nD) (t : Fin cfg2.N) (p : Fin 128) (q : Fin 128) :
    (iblk2 V c 3 t : Vec Ideal S128x128 .f32) (ix2 p q) = V c (Pipeline.arrRef spec2 3) (ix2 p q) := by
  have e0 := (idx_whole t).1.1
  have e1 := (idx_whole t).1.2
  unfold iblk2
  rw [View.read_apply]
  show V c (Pipeline.arrRef spec2 3) (((cfg2.win 3).blk t).view.emb (ix2 p q)) = _
  refine congrArg (V c (Pipeline.arrRef spec2 3)) (funext fun a => Fin.ext ?_)
  match a with
  | ⟨0, _⟩ => show win2_3.index t (0 : Fin 2) * 128 + 1 * p.val = p.val; rw [e0]; omega
  | ⟨1, _⟩ => show win2_3.index t (1 : Fin 2) * 128 + 1 * q.val = q.val; rw [e1]; omega

theorem iblk_4 (c : Dev nD) (t : Fin cfg2.N) (p : Fin 1) (q : Fin 128) :
    (iblk2 V c 4 t : Vec Ideal S1x128 .f32) (ix2 p q) = V c (Pipeline.arrRef spec2 4) (ix2 p q) := by
  have e0 := (idx_whole t).2.1.1
  have e1 := (idx_whole t).2.1.2
  unfold iblk2
  rw [View.read_apply]
  show V c (Pipeline.arrRef spec2 4) (((cfg2.win 4).blk t).view.emb (ix2 p q)) = _
  refine congrArg (V c (Pipeline.arrRef spec2 4)) (funext fun a => Fin.ext ?_)
  match a with
  | ⟨0, _⟩ => show win2_4.index t (0 : Fin 2) * 1 + 1 * p.val = p.val; rw [e0]; omega
  | ⟨1, _⟩ => show win2_4.index t (1 : Fin 2) * 128 + 1 * q.val = q.val; rw [e1]; omega

theorem iblk_5 (c : Dev nD) (t : Fin cfg2.N) (p : Fin 128) (q : Fin 128) :
    (iblk2 V c 5 t : Vec Ideal S128x128 .f32) (ix2 p q) = V c (Pipeline.arrRef spec2 5) (ix2 p q) := by
  have e0 := (idx_whole t).2.2.1.1
  have e1 := (idx_whole t).2.2.1.2
  unfold iblk2
  rw [View.read_apply]
  show V c (Pipeline.arrRef spec2 5) (((cfg2.win 5).blk t).view.emb (ix2 p q)) = _
  refine congrArg (V c (Pipeline.arrRef spec2 5)) (funext fun a => Fin.ext ?_)
  match a with
  | ⟨0, _⟩ => show win2_5.index t (0 : Fin 2) * 128 + 1 * p.val = p.val; rw [e0]; omega
  | ⟨1, _⟩ => show win2_5.index t (1 : Fin 2) * 128 + 1 * q.val = q.val; rw [e1]; omega

/-! ## The tile is the linear stage on the block's rows -/

/-- Over any blocks that read the arrays at block `s`'s rows (the weights and the bias whole), the stored tile at
    `(p, q)` is the linear stage at row `p` of block `s`. -/
theorem tile_lin (A0 A1 : Cert.Sage.SN.Idx → EReal) (A2 : Cert.Sage.SC.Idx → EReal) (A3 : Cert.Sage.SW.Idx → EReal)
    (A4 : Cert.Sage.SR.Idx → EReal) (A5 : Cert.Sage.SW.Idx → EReal) (s : ℕ)
    (b0 b1 : Vec Ideal S5000x128 .f32) (b2 : Vec Ideal S5000x1 .f32) (b3 : Vec Ideal S128x128 .f32) (b4 : Vec Ideal S1x128 .f32)
    (b5 : Vec Ideal S128x128 .f32)
    (e0 : ∀ (p : Fin 5000) (q : Fin 128), b0 (ix2 p q) = A0 (ix2 (blockRow s p) q))
    (e1 : ∀ (p : Fin 5000) (q : Fin 128), b1 (ix2 p q) = A1 (ix2 (blockRow s p) q))
    (e2 : ∀ (p : Fin 5000) (q : Fin 1), b2 (ix2 p q) = A2 (ix2 (blockRow s p) q))
    (e3 : ∀ (p : Fin 128) (q : Fin 128), b3 (ix2 p q) = A3 (ix2 p q))
    (e4 : ∀ (p : Fin 1) (q : Fin 128), b4 (ix2 p q) = A4 (ix2 p q))
    (e5 : ∀ (p : Fin 128) (q : Fin 128), b5 (ix2 p q) = A5 (ix2 p q))
    (p : Fin 5000) (q : Fin 128) :
    k2_pay4 (F := Ideal) b0 b2 b1 b3 b5 b4 (ix2 p q) = Cert.Sage.lin A0 A1 A2 A3 A4 A5 (ix2 (blockRow s p) q) := by
  refine (Cert.KernelIdeal.LinPay2.pay4_apply b0 b2 b1 b3 b5 b4 p q).trans ?_
  simp only [e0, e1, e2, e3, e4, e5]
  rfl

/-- The linear stage of the six arrays the region reads. -/
abbrev L (c : Dev nD) : Cert.Sage.SN.Idx → EReal := Cert.Sage.lin (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))

/-- At point `t`, over the windows' blocks. -/
theorem tile_at (c : Dev nD) (t : Fin cfg2.N) (p : Fin 5000) (q : Fin 128) :
    k2_pay4 (F := Ideal) (iblk2 V c 0 t) (iblk2 V c 2 t) (iblk2 V c 1 t) (iblk2 V c 3 t) (iblk2 V c 5 t) (iblk2 V c 4 t) (ix2 p q) = L V c (ix2 (blockRow t.val p) q) :=
  tile_lin (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) t.val (iblk2 V c 0 t) (iblk2 V c 1 t) (iblk2 V c 2 t) (iblk2 V c 3 t) (iblk2 V c 4 t) (iblk2 V c 5 t)
    (iblk_0 V c t) (iblk_1 V c t) (iblk_2 V c t) (iblk_3 V c t) (iblk_4 V c t) (iblk_5 V c t) p q

/-! ## What the output blocks hold after each point -/

/-- The tile block, after point `t`: the tile of point `t`. -/
theorem outs6 (c : Dev nD) (t : Fin cfg2.N) :
    (outsAt2 V c t.val t.isLt).1 = k2_pay4 (F := Ideal) (iblk2 V c 0 t) (iblk2 V c 2 t) (iblk2 V c 1 t) (iblk2 V c 3 t) (iblk2 V c 5 t) (iblk2 V c 4 t) := by
  by_cases h0 : t.val % 10 = 0
  · rw [outsAt2_A V c t h0]
    dsimp only
    exact out_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)
  · rw [outsAt2_B V c t h0]
    dsimp only
    exact out_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

/-- The sum block, after point `n`: the column sums over the rows of blocks `0 … n`. -/
theorem outs7 (c : Dev nD) : ∀ (n : ℕ) (h : n < cfg2.N) (q : Fin 128),
    (outsAt2 V c n h).2.1 (ix2 (0 : Fin 1) q) = ∑ s ∈ Finset.range (n + 1), ∑ p : Fin 5000, L V c (ix2 (blockRow s p) q)
  | 0, h, q => by
    have e := congrArg (fun x => x.2.1) (outsAt2_A V c ⟨0, h⟩ (Nat.zero_mod _))
    refine (congrFun (e.trans (out_A_7 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) ((hcond2_0 ⟨0, h⟩).mpr (Nat.zero_mod _)) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩))) (ix2 (0 : Fin 1) q)).trans ?_
    refine (Cert.KernelIdeal.LinPay2.pay5_apply (iblk2 V c 0 ⟨0, h⟩) (iblk2 V c 2 ⟨0, h⟩) (iblk2 V c 1 ⟨0, h⟩) (iblk2 V c 3 ⟨0, h⟩) (iblk2 V c 5 ⟨0, h⟩) (iblk2 V c 4 ⟨0, h⟩) _ q).trans ?_
    rw [Cert.KernelIdeal.LinPay2.pay2_apply, zero_add, Finset.sum_range_one]
    exact Finset.sum_congr rfl fun p _ => tile_at V c ⟨0, h⟩ p q
  | n + 1, h, q => by
    have hN : cfg2.N = 10 := N_2
    have hB : ¬(⟨n + 1, h⟩ : Fin cfg2.N).val % 10 = 0 := by dsimp only; omega
    have e : (outsAt2 V c (n + 1) h).2.1 = out2_B_7 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.1 (outsAt2 V c n (Nat.lt_of_succ_lt h)).2.2 :=
      congrArg (fun x => x.2.1) (outsAt2_B V c ⟨n + 1, h⟩ hB)
    refine (congrFun (e.trans (out_B_7 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.1 (outsAt2 V c n (Nat.lt_of_succ_lt h)).2.2)) (ix2 (0 : Fin 1) q)).trans ?_
    refine (Cert.KernelIdeal.LinPay2.pay5_apply (iblk2 V c 0 ⟨n + 1, h⟩) (iblk2 V c 2 ⟨n + 1, h⟩) (iblk2 V c 1 ⟨n + 1, h⟩) (iblk2 V c 3 ⟨n + 1, h⟩) (iblk2 V c 5 ⟨n + 1, h⟩) (iblk2 V c 4 ⟨n + 1, h⟩) _ q).trans ?_
    rw [Finset.sum_range_succ _ (n + 1)]
    exact congrArg₂ (· + ·) (outs7 c n (Nat.lt_of_succ_lt h) q) (Finset.sum_congr rfl fun p _ => tile_at V c ⟨n + 1, h⟩ p q)

/-- The sum-of-squares block, after point `n`: the column sums of the squares over the rows of blocks `0 … n`. -/
theorem outs8 (c : Dev nD) : ∀ (n : ℕ) (h : n < cfg2.N) (q : Fin 128),
    (outsAt2 V c n h).2.2 (ix2 (0 : Fin 1) q)
      = ∑ s ∈ Finset.range (n + 1), ∑ p : Fin 5000, L V c (ix2 (blockRow s p) q) * L V c (ix2 (blockRow s p) q)
  | 0, h, q => by
    have e := congrArg (fun x => x.2.2) (outsAt2_A V c ⟨0, h⟩ (Nat.zero_mod _))
    refine (congrFun (e.trans (out_A_8 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) (ms2_8 ⟨0, h⟩) (hs2_8 ⟨0, h⟩) ((hcond2_0 ⟨0, h⟩).mpr (Nat.zero_mod _)) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩))) (ix2 (0 : Fin 1) q)).trans ?_
    refine (Cert.KernelIdeal.LinPay2.pay1_apply _ _ q).trans ?_
    rw [Cert.KernelIdeal.LinPay2.pay3_apply, zero_add, Finset.sum_range_one]
    exact Finset.sum_congr rfl fun p _ => congrArg₂ (· * ·) (tile_at V c ⟨0, h⟩ p q) (tile_at V c ⟨0, h⟩ p q)
  | n + 1, h, q => by
    have hN : cfg2.N = 10 := N_2
    have hB : ¬(⟨n + 1, h⟩ : Fin cfg2.N).val % 10 = 0 := by dsimp only; omega
    have e : (outsAt2 V c (n + 1) h).2.2 = out2_B_8 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.1 (outsAt2 V c n (Nat.lt_of_succ_lt h)).2.2 :=
      congrArg (fun x => x.2.2) (outsAt2_B V c ⟨n + 1, h⟩ hB)
    refine (congrFun (e.trans (out_B_8 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (ms2_8 ⟨n + 1, h⟩) (hs2_8 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).2.1 (outsAt2 V c n (Nat.lt_of_succ_lt h)).2.2)) (ix2 (0 : Fin 1) q)).trans ?_
    refine (Cert.KernelIdeal.LinPay2.pay1_apply _ _ q).trans ?_
    rw [Finset.sum_range_succ _ (n + 1)]
    exact congrArg₂ (· + ·) (outs8 c n (Nat.lt_of_succ_lt h) q)
      (Finset.sum_congr rfl fun p _ => congrArg₂ (· * ·) (tile_at V c ⟨n + 1, h⟩ p q) (tile_at V c ⟨n + 1, h⟩ p q))

/-! ## The first output: ten blocks of rows tile the array -/

/-- What point `t` writes back is block `t` of the linear stage. -/
theorem flushed6 (c : Dev nD) (t : Fin cfg2.N) :
    (dat2 V c).flushed 6 t = ((cfg2.win 6).blk t).view.read (Elt Ideal) (L V c) := by
  show (cfg2.win 6).cut (grid2.coords t) ((dat2 V c).after 6 t) = _
  rw [after2_6, outs6]
  have e0 := (idx_rows t).2.2.2.1
  have e1 := (idx_rows t).2.2.2.2
  have ht : t.val < 10 := lt_of_lt_of_eq t.isLt (show cfg2.N = 10 from N_2)
  funext j
  have hp : (j 0).val < 5000 := (j 0).isLt
  have hq : (j 1).val < 128 := (j 1).isLt
  have hx : (cfg2.win 6).xinj (grid2.coords t) j = ix2 (⟨(j 0).val, hp⟩ : Fin 5000) (⟨(j 1).val, hq⟩ : Fin 128) :=
    funext fun a => match a with
      | ⟨0, _⟩ => rfl
      | ⟨1, _⟩ => rfl
  rw [View.read_apply]
  show k2_pay4 (F := Ideal) (iblk2 V c 0 t) (iblk2 V c 2 t) (iblk2 V c 1 t) (iblk2 V c 3 t) (iblk2 V c 5 t) (iblk2 V c 4 t) ((cfg2.win 6).xinj (grid2.coords t) j) = L V c (((cfg2.win 6).blk t).view.emb j)
  rw [hx]
  refine (tile_at V c t ⟨(j 0).val, hp⟩ ⟨(j 1).val, hq⟩).trans ?_
  refine congrArg (L V c) (funext fun a => Fin.ext ?_)
  match a with
  | ⟨0, _⟩ => show (blockRow t.val ⟨(j 0).val, hp⟩).val = win2_6.index t (0 : Fin 2) * 5000 + 1 * (j 0).val; rw [blockRow_val ht, e0]; show 5000 * t.val + (j 0).val = t.val * 5000 + 1 * (j 0).val; omega
  | ⟨1, _⟩ => show (j 1).val = win2_6.index t (1 : Fin 2) * 128 + 1 * (j 1).val; rw [e1]; omega

/-- An index of the output is in point `t`'s block iff each coordinate is in the block's range on its axis. -/
theorem mem_blk6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v72_0).slice (win2_6.rect t)).set ↔ _
  rw [View.set_slice_whole, Rect.mem_set_unit]
  exact Iff.rfl

/-- The first output ends as the linear stage of the six arrays. -/
theorem out_eq (c : Dev nD) : (Gen.dat2 (F := Ideal) V c).arrAt 6 cfg2.N
      = Cert.Sage.lin (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 (L V c) (fun t _ => flushed6 V c t) fun i => by
    have hi0 : (i 0).val < 50000 := (i 0).isLt
    have hi1 : (i 1).val < 128 := (i 1).isLt
    have hN : cfg2.N = 10 := N_2
    refine ⟨⟨(i 0).val / 5000, by rw [hN]; omega⟩, flush2_6 _, ?_⟩
    have e0 := (idx_rows (⟨(i 0).val / 5000, by rw [hN]; omega⟩ : Fin cfg2.N)).2.2.2.1
    have e1 := (idx_rows (⟨(i 0).val / 5000, by rw [hN]; omega⟩ : Fin cfg2.N)).2.2.2.2
    rw [mem_blk6]
    intro a
    match a with
    | ⟨0, _⟩ =>
      show win2_6.index _ (0 : Fin 2) * 5000 ≤ (i 0).val ∧ (i 0).val < win2_6.index _ (0 : Fin 2) * 5000 + 5000
      rw [e0]; dsimp only; omega
    | ⟨1, _⟩ =>
      show win2_6.index _ (1 : Fin 2) * 128 ≤ (i 1).val ∧ (i 1).val < win2_6.index _ (1 : Fin 2) * 128 + 128
      rw [e1]; omega

/-! ## The two statistics rows: one block, written back after the last point -/

theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v72_1).slice (win2_7.rect t)).set ↔ _
  rw [View.set_slice_whole, Rect.mem_set_unit]
  exact Iff.rfl

theorem mem_blk8 (t : Fin cfg2.N) (i : S1x128.Idx) :
    i ∈ ((cfg2.win 8).blk t).view.set ↔ ∀ a : Fin 2, win2_8.index t a * S1x128.size a ≤ (i a).val ∧ (i a).val < win2_8.index t a * S1x128.size a + S1x128.size a := by
  show i ∈ ((View.whole main_v72_2).slice (win2_8.rect t)).set ↔ _
  rw [View.set_slice_whole, Rect.mem_set_unit]
  exact Iff.rfl

/-- What the write-back of window 7 at a point writes, at an index: the block's contents after that point. -/
theorem flushed7_apply (c : Dev nD) (t : Fin cfg2.N) (j : ((cfg2.win 7).xblock (grid2.coords t)).Idx) :
    (dat2 V c).flushed 7 t j = (outsAt2 V c t.val t.isLt).2.1 ((cfg2.win 7).xinj (grid2.coords t) j) := by
  show (cfg2.win 7).cut (grid2.coords t) ((dat2 V c).after 7 t) j = _
  rw [after2_7]

/-- The block of window 7 at a point read out of any contents of its array, at an index. -/
theorem read_blk7 (t : Fin cfg2.N) (G : S1x128.Idx → EReal) (j : ((cfg2.win 7).xblock (grid2.coords t)).Idx) :
    ((cfg2.win 7).blk t).view.read (Elt Ideal) G j = G (((cfg2.win 7).blk t).view.emb j) := rfl

/-- The one write-back of the sum row, after point 9, writes the column sums over all rows. -/
theorem flushed7 (c : Dev nD) (t : Fin cfg2.N) (hf : (cfg2.win 7).flush t = true) :
    (dat2 V c).flushed 7 t = ((cfg2.win 7).blk t).view.read (Elt Ideal) (Cert.Sage.colSum (L V c)) := by
  have hN : cfg2.N = 10 := N_2
  have h9 : t.val = 9 := by have := (flush2_7 t).mp hf; have := t.isLt; omega
  have e1 := (idx_whole t).2.2.2.1.2
  funext j
  have hu : (j 0).val < 1 := (j 0).isLt
  have hq : (j 1).val < 128 := (j 1).isLt
  have hx : (cfg2.win 7).xinj (grid2.coords t) j = ix2 (0 : Fin 1) (⟨(j 1).val, hq⟩ : Fin 128) :=
    funext fun a => match a with
      | ⟨0, _⟩ => Fin.ext (by show (j 0).val = 0; omega)
      | ⟨1, _⟩ => rfl
  have hr : Finset.range (t.val + 1) = Finset.range 10 := by rw [h9]
  refine (flushed7_apply V c t j).trans ?_
  refine Eq.trans ?_ (read_blk7 t (Cert.Sage.colSum (L V c)) j).symm
  rw [hx, outs7 V c t.val t.isLt ⟨(j 1).val, hq⟩, hr, sum_blocks (fun r => L V c (ix2 r (⟨(j 1).val, hq⟩ : Fin 128)))]
  show (∑ r : Fin 50000, L V c (ix2 r (⟨(j 1).val, hq⟩ : Fin 128)) : EReal)
    = ∑ r : Fin 50000, L V c (ix2 r ((((cfg2.win 7).blk t).view.emb j) 1))
  refine Finset.sum_congr rfl fun r _ => congrArg (fun x => L V c (ix2 r x)) (Fin.ext ?_)
  show (j 1).val = win2_7.index t (1 : Fin 2) * 128 + 1 * (j 1).val
  rw [e1]; omega

/-- The second output ends as the column sums of the linear stage. -/
theorem sum_eq (c : Dev nD) : (Gen.dat2 (F := Ideal) V c).arrAt 7 cfg2.N
      = Cert.Sage.colSum (Cert.Sage.lin (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) :=
  (dat2 V c).arrAt_eq_of_cover 7 (Cert.Sage.colSum (L V c)) (flushed7 V c) fun i => by
    have hi0 : (i 0).val < 1 := (i 0).isLt
    have hi1 : (i 1).val < 128 := (i 1).isLt
    have hN : cfg2.N = 10 := N_2
    refine ⟨⟨9, by rw [hN]; decide⟩, (flush2_7 _).mpr rfl, ?_⟩
    have e0 := (idx_whole (⟨9, by rw [hN]; decide⟩ : Fin cfg2.N)).2.2.2.1.1
    have e1 := (idx_whole (⟨9, by rw [hN]; decide⟩ : Fin cfg2.N)).2.2.2.1.2
    rw [mem_blk7]
    intro a
    match a with
    | ⟨0, _⟩ =>
      show win2_7.index _ (0 : Fin 2) * 1 ≤ (i 0).val ∧ (i 0).val < win2_7.index _ (0 : Fin 2) * 1 + 1
      rw [e0]; omega
    | ⟨1, _⟩ =>
      show win2_7.index _ (1 : Fin 2) * 128 ≤ (i 1).val ∧ (i 1).val < win2_7.index _ (1 : Fin 2) * 128 + 128
      rw [e1]; omega

/-- What the write-back of window 8 at a point writes, at an index: the block's contents after that point. -/
theorem flushed8_apply (c : Dev nD) (t : Fin cfg2.N) (j : ((cfg2.win 8).xblock (grid2.coords t)).Idx) :
    (dat2 V c).flushed 8 t j = (outsAt2 V c t.val t.isLt).2.2 ((cfg2.win 8).xinj (grid2.coords t) j) := by
  show (cfg2.win 8).cut (grid2.coords t) ((dat2 V c).after 8 t) j = _
  rw [after2_8]

/-- The block of window 8 at a point read out of any contents of its array, at an index. -/
theorem read_blk8 (t : Fin cfg2.N) (G : S1x128.Idx → EReal) (j : ((cfg2.win 8).xblock (grid2.coords t)).Idx) :
    ((cfg2.win 8).blk t).view.read (Elt Ideal) G j = G (((cfg2.win 8).blk t).view.emb j) := rfl

/-- The one write-back of the sum-of-squares row, after point 9, writes the column sums of the squares over all rows. -/
theorem flushed8 (c : Dev nD) (t : Fin cfg2.N) (hf : (cfg2.win 8).flush t = true) :
    (dat2 V c).flushed 8 t = ((cfg2.win 8).blk t).view.read (Elt Ideal) (Cert.Sage.colSumSq (L V c)) := by
  have hN : cfg2.N = 10 := N_2
  have h9 : t.val = 9 := by have := (flush2_8 t).mp hf; have := t.isLt; omega
  have e1 := (idx_whole t).2.2.2.2.2
  funext j
  have hu : (j 0).val < 1 := (j 0).isLt
  have hq : (j 1).val < 128 := (j 1).isLt
  have hx : (cfg2.win 8).xinj (grid2.coords t) j = ix2 (0 : Fin 1) (⟨(j 1).val, hq⟩ : Fin 128) :=
    funext fun a => match a with
      | ⟨0, _⟩ => Fin.ext (by show (j 0).val = 0; omega)
      | ⟨1, _⟩ => rfl
  have hr : Finset.range (t.val + 1) = Finset.range 10 := by rw [h9]
  refine (flushed8_apply V c t j).trans ?_
  refine Eq.trans ?_ (read_blk8 t (Cert.Sage.colSumSq (L V c)) j).symm
  rw [hx, outs8 V c t.val t.isLt ⟨(j 1).val, hq⟩, hr,
    sum_blocks (fun r => L V c (ix2 r (⟨(j 1).val, hq⟩ : Fin 128)) * L V c (ix2 r (⟨(j 1).val, hq⟩ : Fin 128)))]
  show (∑ r : Fin 50000, L V c (ix2 r (⟨(j 1).val, hq⟩ : Fin 128)) * L V c (ix2 r (⟨(j 1).val, hq⟩ : Fin 128)) : EReal)
    = ∑ r : Fin 50000, L V c (ix2 r ((((cfg2.win 8).blk t).view.emb j) 1)) * L V c (ix2 r ((((cfg2.win 8).blk t).view.emb j) 1))
  refine Finset.sum_congr rfl fun r _ => congrArg (fun x => L V c (ix2 r x) * L V c (ix2 r x)) (Fin.ext ?_)
  show (j 1).val = win2_8.index t (1 : Fin 2) * 128 + 1 * (j 1).val
  rw [e1]; omega

/-- The third output ends as the column sums of the squares of the linear stage. -/
theorem sumsq_eq (c : Dev nD) : (Gen.dat2 (F := Ideal) V c).arrAt 8 cfg2.N
      = Cert.Sage.colSumSq (Cert.Sage.lin (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) :=
  (dat2 V c).arrAt_eq_of_cover 8 (Cert.Sage.colSumSq (L V c)) (flushed8 V c) fun i => by
    have hi0 : (i 0).val < 1 := (i 0).isLt
    have hi1 : (i 1).val < 128 := (i 1).isLt
    have hN : cfg2.N = 10 := N_2
    refine ⟨⟨9, by rw [hN]; decide⟩, (flush2_8 _).mpr rfl, ?_⟩
    have e0 := (idx_whole (⟨9, by rw [hN]; decide⟩ : Fin cfg2.N)).2.2.2.2.1
    have e1 := (idx_whole (⟨9, by rw [hN]; decide⟩ : Fin cfg2.N)).2.2.2.2.2
    rw [mem_blk8]
    intro a
    match a with
    | ⟨0, _⟩ =>
      show win2_8.index _ (0 : Fin 2) * 1 ≤ (i 0).val ∧ (i 0).val < win2_8.index _ (0 : Fin 2) * 1 + 1
      rw [e0]; omega
    | ⟨1, _⟩ =>
      show win2_8.index _ (1 : Fin 2) * 128 ≤ (i 1).val ∧ (i 1).val < win2_8.index _ (1 : Fin 2) * 128 + 128
      rw [e1]; omega

end Cert.KernelIdeal.LinValue2

end
-- ==== Proof.KLin4Out.lean ====
/-
  What one run of the linear-and-statistics kernel body leaves in its three output blocks, as values of the blocks
  it was given.

  The body stores the tile `out` once; at the first grid point it first stores zero rows into the two statistics
  blocks and reads them back, at every other point it reads what the point before left. In both cases the sum block
  ends at "what it held, plus the column sums of the tile" and the sum-of-squares block at "what it held, plus the
  column sums of the tile's squares", where "what it held" is the zero row at the first point. Each statement below
  reads one output block back through the stores that cover it; the loads of whole buffers read the buffers' contents.
-/
import proofs.«179303_j4578435137604_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.LinValue4

open Cert.KernelIdeal Cert.KernelIdeal.Gen

variable {F : FTy → Type} [FloatOps F]

theorem hz : (![0, 0] : Fin 2 → Nat) = fun _ => 0 := funext fun a => by fin_cases a <;> rfl

/-- First point, the tile: the one store's payload over the loaded blocks. -/
theorem out_A_6 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 : Vec F S5000x128 .f32) (x1 : Vec F S5000x128 .f32) (x2 : Vec F S5000x1 .f32) (x3 : Vec F S128x128 .f32) (x4 : Vec F S1x128 .f32) (x5 : Vec F S128x128 .f32) :
    out4_A_6 c i a1 h1 a2 h2 a3 h3 a4 h4 a5 h5 a6 h6 a7 h7 a8 h8 a9 h9 hc x0 x1 x2 x3 x4 x5 = k4_pay4 x0 x2 x1 x3 x5 x4 := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  sl_unfold_words
  rw [View.canon_unit_zero hz]
  simp only [View.readAt_eq_ld, h1.read_unread, h2.read_unread, h3.read_unread, h4.read_unread, h5.read_unread, h6.read_unread,
    View.ld_unit_zero (S := S5000x128) hz, View.ld_unit_zero (S := S5000x1) hz, View.ld_unit_zero (S := S128x128) hz,
    View.ld_unit_zero (S := S1x128) hz]

/-- First point, the sum block: the zero row stored first, read back, plus the tile's column sums. -/
theorem out_A_7 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 : Vec F S5000x128 .f32) (x1 : Vec F S5000x128 .f32) (x2 : Vec F S5000x1 .f32) (x3 : Vec F S128x128 .f32) (x4 : Vec F S1x128 .f32) (x5 : Vec F S128x128 .f32) :
    out4_A_7 c i a1 h1 a2 h2 a3 h3 a4 h4 a5 h5 a6 h6 a7 h7 a8 h8 a9 h9 hc x0 x1 x2 x3 x4 x5 = k4_pay5 x0 x2 x1 x3 x5 x4 (k4_pay2 (F := F)) := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S5000x1) hz, View.ld_unit_zero (S := S128x128) hz,
    View.ld_unit_zero (S := S1x128) hz]

/-- First point, the sum-of-squares block: the zero row stored first, read back, plus the column sums of the squares. -/
theorem out_A_8 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 : Vec F S5000x128 .f32) (x1 : Vec F S5000x128 .f32) (x2 : Vec F S5000x1 .f32) (x3 : Vec F S128x128 .f32) (x4 : Vec F S1x128 .f32) (x5 : Vec F S128x128 .f32) :
    out4_A_8 c i a1 h1 a2 h2 a3 h3 a4 h4 a5 h5 a6 h6 a7 h7 a8 h8 a9 h9 hc x0 x1 x2 x3 x4 x5 = k4_pay1 (k4_pay4 x0 x2 x1 x3 x5 x4) (k4_pay3 (F := F)) := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S5000x128) hz, View.ld_unit_zero (S := S5000x1) hz, View.ld_unit_zero (S := S128x128) hz,
    View.ld_unit_zero (S := S1x128) hz]

/-- A later point, the tile. -/
theorem out_B_6 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 : Vec F S5000x128 .f32) (x1 : Vec F S5000x128 .f32) (x2 : Vec F S5000x1 .f32) (x3 : Vec F S128x128 .f32) (x4 : Vec F S1x128 .f32) (x5 : Vec F S128x128 .f32) (xo7 : Vec F S1x128 .f32) (xo8 : Vec F S1x128 .f32) :
    out4_B_6 c i a1 h1 a2 h2 a3 h3 a4 h4 a5 h5 a6 h6 a7 h7 a8 h8 a9 h9 hc x0 x1 x2 x3 x4 x5 xo7 xo8 = k4_pay4 x0 x2 x1 x3 x5 x4 := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread,
    h8.read_unread, h9.read_unread,
    View.ld_unit_zero (S := S5000x128) hz, View.ld_unit_zero (S := S5000x1) hz, View.ld_unit_zero (S := S128x128) hz,
    View.ld_unit_zero (S := S1x128) hz]

/-- A later point, the sum block: what the point before left, plus the tile's column sums. -/
theorem out_B_7 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 : Vec F S5000x128 .f32) (x1 : Vec F S5000x128 .f32) (x2 : Vec F S5000x1 .f32) (x3 : Vec F S128x128 .f32) (x4 : Vec F S1x128 .f32) (x5 : Vec F S128x128 .f32) (xo7 : Vec F S1x128 .f32) (xo8 : Vec F S1x128 .f32) :
    out4_B_7 c i a1 h1 a2 h2 a3 h3 a4 h4 a5 h5 a6 h6 a7 h7 a8 h8 a9 h9 hc x0 x1 x2 x3 x4 x5 xo7 xo8 = k4_pay5 x0 x2 x1 x3 x5 x4 xo7 := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread,
    h8.read_unread, h9.read_unread,
    View.ld_unit_zero (S := S5000x128) hz, View.ld_unit_zero (S := S5000x1) hz, View.ld_unit_zero (S := S128x128) hz,
    View.ld_unit_zero (S := S1x128) hz]

/-- A later point, the sum-of-squares block: what the point before left, plus the column sums of the squares. -/
theorem out_B_8 (c : Dev nD) (i : grid4.Coords) (a1 : Memref sig .tc .vmem S5000x128 .f32) (h1 : a1.IsWhole) (a2 : Memref sig .tc .vmem S5000x128 .f32) (h2 : a2.IsWhole) (a3 : Memref sig .tc .vmem S5000x1 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 : Vec F S5000x128 .f32) (x1 : Vec F S5000x128 .f32) (x2 : Vec F S5000x1 .f32) (x3 : Vec F S128x128 .f32) (x4 : Vec F S1x128 .f32) (x5 : Vec F S128x128 .f32) (xo7 : Vec F S1x128 .f32) (xo8 : Vec F S1x128 .f32) :
    out4_B_8 c i a1 h1 a2 h2 a3 h3 a4 h4 a5 h5 a6 h6 a7 h7 a8 h8 a9 h9 hc x0 x1 x2 x3 x4 x5 xo7 xo8 = k4_pay1 (k4_pay4 x0 x2 x1 x3 x5 x4) xo8 := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread,
    h8.read_unread, h9.read_unread,
    View.ld_unit_zero (S := S5000x128) hz, View.ld_unit_zero (S := S5000x1) hz, View.ld_unit_zero (S := S128x128) hz,
    View.ld_unit_zero (S := S1x128) hz]

end Cert.KernelIdeal.LinValue4

end
-- ==== Proof.KLin4.lean ====
/-
  The three arrays one launch of the linear-and-statistics kernel leaves, as functions of the six arrays it reads.

  The grid has ten points. At point `t` the windows on the neighbour sums, the features and the inverse degrees
  hold rows `5000 t … 5000 t + 4999` of their arrays, the windows on the two weight matrices and the bias row hold
  the whole arrays, and the body stores into the first output's block the tile whose entry `(p, q)` is the linear
  stage's entry at row `5000 t + p`: written back at every point, the ten blocks tile the output, which therefore
  ends as the linear stage of the whole arrays. The two statistics blocks are one block each, zeroed at point 0 and
  never written back before the last point: after point `n` they hold the column sums (of the entries, of their
  squares) over the rows of blocks `0 … n` — by induction on the point, the addition of extended reals being
  associative — and after point 9 over all fifty thousand rows.
-/
import proofs.«179303_j4578435137604_2_alg».proof.Proof.Gen.KernelIdeal.Frame
import proofs.«179303_j4578435137604_2_alg».proof.Proof.Spec
import proofs.«179303_j4578435137604_2_alg».proof.Proof.KLinPay
import proofs.«179303_j4578435137604_2_alg».proof.Proof.KLin4Out
import proofs.«179303_j4578435137604_2_alg».proof.Proof.KLinSum
import Idealize.ShloMosaic.Lib.Pipeline.Value
import Idealize.ShloMosaic.Lib.Tactic

noncomputable section

open scoped BigOperators

open Idealize.ShloMosaic Idealize.ShloMosaic.TcCoe Idealize.SL.Sem Idealize.ShloMosaic.Tactic Idealize.ShloMosaic.ValueIdx
open Idealize.ShloMosaic.Pipeline (Dat)

namespace Cert.KernelIdeal.LinValue4

open Cert.KernelIdeal Cert.KernelIdeal.Gen Cert.LinSum

variable (V : (c : Dev nD) → (b : Ref sig .tc) → Buf (Elt Ideal) ((c : Thread nD τ).loc b))

/-! ## Where each window's block sits -/

/-- The row-block windows (the three tiled inputs and the tiled output) are at block `(t, 0)`. -/
theorem idx_rows : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_6.index t (0 : Fin 2) = t.val ∧ win4_6.index t (1 : Fin 2) = 0) :=
  (by decide +kernel : ∀ t : Fin grid4.N, _)

/-- The other windows are at block `(0, 0)` at every point. -/
theorem idx_whole : ∀ t : Fin cfg4.N,
    (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_7.index t (0 : Fin 2) = 0 ∧ win4_7.index t (1 : Fin 2) = 0)
    ∧ (win4_8.index t (0 : Fin 2) = 0 ∧ win4_8.index t (1 : Fin 2) = 0) :=
  (by decide +kernel : ∀ t : Fin grid4.N, _)

/-! ## The input blocks, read in their arrays -/

theorem iblk_0 (c : Dev nD) (t : Fin cfg4.N) (p : Fin 5000) (q : Fin 128) :
    (iblk4 V c 0 t : Vec Ideal S5000x128 .f32) (ix2 p q) = V c (Pipeline.arrRef spec4 0) (ix2 (blockRow t.val p) q) := by
  have e0 := (idx_rows t).1.1
  have e1 := (idx_rows t).1.2
  have hr := blockRow_val (lt_of_lt_of_eq t.isLt (show cfg4.N = 10 from N_4)) p
  unfold iblk4
  rw [View.read_apply]
  show V c (Pipeline.arrRef spec4 0) (((cfg4.win 0).blk t).view.emb (ix2 p q)) = _
  refine congrArg (V c (Pipeline.arrRef spec4 0)) (funext fun a => Fin.ext ?_)
  match a with
  | ⟨0, _⟩ => show win4_0.index t (0 : Fin 2) * 5000 + 1 * p.val = (blockRow t.val p).val; rw [e0, hr]; omega
  | ⟨1, _⟩ => show win4_0.index t (1 : Fin 2) * 128 + 1 * q.val = q.val; rw [e1]; omega

theorem iblk_1 (c : Dev nD) (t : Fin cfg4.N) (p : Fin 5000) (q : Fin 128) :
    (iblk4 V c 1 t : Vec Ideal S5000x128 .f32) (ix2 p q) = V c (Pipeline.arrRef spec4 1) (ix2 (blockRow t.val p) q) := by
  have e0 := (idx_rows t).2.1.1
  have e1 := (idx_rows t).2.1.2
  have hr := blockRow_val (lt_of_lt_of_eq t.isLt (show cfg4.N = 10 from N_4)) p
  unfold iblk4
  rw [View.read_apply]
  show V c (Pipeline.arrRef spec4 1) (((cfg4.win 1).blk t).view.emb (ix2 p q)) = _
  refine congrArg (V c (Pipeline.arrRef spec4 1)) (funext fun a => Fin.ext ?_)
  match a with
  | ⟨0, _⟩ => show win4_1.index t (0 : Fin 2) * 5000 + 1 * p.val = (blockRow t.val p).val; rw [e0, hr]; omega
  | ⟨1, _⟩ => show win4_1.index t (1 : Fin 2) * 128 + 1 * q.val = q.val; rw [e1]; omega

theorem iblk_2 (c : Dev nD) (t : Fin cfg4.N) (p : Fin 5000) (q : Fin 1) :
    (iblk4 V c 2 t : Vec Ideal S5000x1 .f32) (ix2 p q) = V c (Pipeline.arrRef spec4 2) (ix2 (blockRow t.val p) q) := by
  have e0 := (idx_rows t).2.2.1.1
  have e1 := (idx_rows t).2.2.1.2
  have hr := blockRow_val (lt_of_lt_of_eq t.isLt (show cfg4.N = 10 from N_4)) p
  unfold iblk4
  rw [View.read_apply]
  show V c (Pipeline.arrRef spec4 2) (((cfg4.win 2).blk t).view.emb (ix2 p q)) = _
  refine congrArg (V c (Pipeline.arrRef spec4 2)) (funext fun a => Fin.ext ?_)
  match a with
  | ⟨0, _⟩ => show win4_2.index t (0 : Fin 2) * 5000 + 1 * p.val = (blockRow t.val p).val; rw [e0, hr]; omega
  | ⟨1, _⟩ => show win4_2.index t (1 : Fin 2) * 1 + 1 * q.val = q.val; rw [e1]; omega

theorem iblk_3 (c : Dev nD) (t : Fin cfg4.N) (p : Fin 128) (q : Fin 128) :
    (iblk4 V c 3 t : Vec Ideal S128x128 .f32) (ix2 p q) = V c (Pipeline.arrRef spec4 3) (ix2 p q) := by
  have e0 := (idx_whole t).1.1
  have e1 := (idx_whole t).1.2
  unfold iblk4
  rw [View.read_apply]
  show V c (Pipeline.arrRef spec4 3) (((cfg4.win 3).blk t).view.emb (ix2 p q)) = _
  refine congrArg (V c (Pipeline.arrRef spec4 3)) (funext fun a => Fin.ext ?_)
  match a with
  | ⟨0, _⟩ => show win4_3.index t (0 : Fin 2) * 128 + 1 * p.val = p.val; rw [e0]; omega
  | ⟨1, _⟩ => show win4_3.index t (1 : Fin 2) * 128 + 1 * q.val = q.val; rw [e1]; omega

theorem iblk_4 (c : Dev nD) (t : Fin cfg4.N) (p : Fin 1) (q : Fin 128) :
    (iblk4 V c 4 t : Vec Ideal S1x128 .f32) (ix2 p q) = V c (Pipeline.arrRef spec4 4) (ix2 p q) := by
  have e0 := (idx_whole t).2.1.1
  have e1 := (idx_whole t).2.1.2
  unfold iblk4
  rw [View.read_apply]
  show V c (Pipeline.arrRef spec4 4) (((cfg4.win 4).blk t).view.emb (ix2 p q)) = _
  refine congrArg (V c (Pipeline.arrRef spec4 4)) (funext fun a => Fin.ext ?_)
  match a with
  | ⟨0, _⟩ => show win4_4.index t (0 : Fin 2) * 1 + 1 * p.val = p.val; rw [e0]; omega
  | ⟨1, _⟩ => show win4_4.index t (1 : Fin 2) * 128 + 1 * q.val = q.val; rw [e1]; omega

theorem iblk_5 (c : Dev nD) (t : Fin cfg4.N) (p : Fin 128) (q : Fin 128) :
    (iblk4 V c 5 t : Vec Ideal S128x128 .f32) (ix2 p q) = V c (Pipeline.arrRef spec4 5) (ix2 p q) := by
  have e0 := (idx_whole t).2.2.1.1
  have e1 := (idx_whole t).2.2.1.2
  unfold iblk4
  rw [View.read_apply]
  show V c (Pipeline.arrRef spec4 5) (((cfg4.win 5).blk t).view.emb (ix2 p q)) = _
  refine congrArg (V c (Pipeline.arrRef spec4 5)) (funext fun a => Fin.ext ?_)
  match a with
  | ⟨0, _⟩ => show win4_5.index t (0 : Fin 2) * 128 + 1 * p.val = p.val; rw [e0]; omega
  | ⟨1, _⟩ => show win4_5.index t (1 : Fin 2) * 128 + 1 * q.val = q.val; rw [e1]; omega

/-! ## The tile is the linear stage on the block's rows -/

/-- Over any blocks that read the arrays at block `s`'s rows (the weights and the bias whole), the stored tile at
    `(p, q)` is the linear stage at row `p` of block `s`. -/
theorem tile_lin (A0 A1 : Cert.Sage.SN.Idx → EReal) (A2 : Cert.Sage.SC.Idx → EReal) (A3 : Cert.Sage.SW.Idx → EReal)
    (A4 : Cert.Sage.SR.Idx → EReal) (A5 : Cert.Sage.SW.Idx → EReal) (s : ℕ)
    (b0 b1 : Vec Ideal S5000x128 .f32) (b2 : Vec Ideal S5000x1 .f32) (b3 : Vec Ideal S128x128 .f32) (b4 : Vec Ideal S1x128 .f32)
    (b5 : Vec Ideal S128x128 .f32)
    (e0 : ∀ (p : Fin 5000) (q : Fin 128), b0 (ix2 p q) = A0 (ix2 (blockRow s p) q))
    (e1 : ∀ (p : Fin 5000) (q : Fin 128), b1 (ix2 p q) = A1 (ix2 (blockRow s p) q))
    (e2 : ∀ (p : Fin 5000) (q : Fin 1), b2 (ix2 p q) = A2 (ix2 (blockRow s p) q))
    (e3 : ∀ (p : Fin 128) (q : Fin 128), b3 (ix2 p q) = A3 (ix2 p q))
    (e4 : ∀ (p : Fin 1) (q : Fin 128), b4 (ix2 p q) = A4 (ix2 p q))
    (e5 : ∀ (p : Fin 128) (q : Fin 128), b5 (ix2 p q) = A5 (ix2 p q))
    (p : Fin 5000) (q : Fin 128) :
    k4_pay4 (F := Ideal) b0 b2 b1 b3 b5 b4 (ix2 p q) = Cert.Sage.lin A0 A1 A2 A3 A4 A5 (ix2 (blockRow s p) q) := by
  refine (Cert.KernelIdeal.LinPay4.pay4_apply b0 b2 b1 b3 b5 b4 p q).trans ?_
  simp only [e0, e1, e2, e3, e4, e5]
  rfl

/-- The linear stage of the six arrays the region reads. -/
abbrev L (c : Dev nD) : Cert.Sage.SN.Idx → EReal := Cert.Sage.lin (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))

/-- At point `t`, over the windows' blocks. -/
theorem tile_at (c : Dev nD) (t : Fin cfg4.N) (p : Fin 5000) (q : Fin 128) :
    k4_pay4 (F := Ideal) (iblk4 V c 0 t) (iblk4 V c 2 t) (iblk4 V c 1 t) (iblk4 V c 3 t) (iblk4 V c 5 t) (iblk4 V c 4 t) (ix2 p q) = L V c (ix2 (blockRow t.val p) q) :=
  tile_lin (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) t.val (iblk4 V c 0 t) (iblk4 V c 1 t) (iblk4 V c 2 t) (iblk4 V c 3 t) (iblk4 V c 4 t) (iblk4 V c 5 t)
    (iblk_0 V c t) (iblk_1 V c t) (iblk_2 V c t) (iblk_3 V c t) (iblk_4 V c t) (iblk_5 V c t) p q

/-! ## What the output blocks hold after each point -/

/-- The tile block, after point `t`: the tile of point `t`. -/
theorem outs6 (c : Dev nD) (t : Fin cfg4.N) :
    (outsAt4 V c t.val t.isLt).1 = k4_pay4 (F := Ideal) (iblk4 V c 0 t) (iblk4 V c 2 t) (iblk4 V c 1 t) (iblk4 V c 3 t) (iblk4 V c 5 t) (iblk4 V c 4 t) := by
  by_cases h0 : t.val % 10 = 0
  · rw [outsAt4_A V c t h0]
    dsimp only
    exact out_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)
  · rw [outsAt4_B V c t h0]
    dsimp only
    exact out_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2

/-- The sum block, after point `n`: the column sums over the rows of blocks `0 … n`. -/
theorem outs7 (c : Dev nD) : ∀ (n : ℕ) (h : n < cfg4.N) (q : Fin 128),
    (outsAt4 V c n h).2.1 (ix2 (0 : Fin 1) q) = ∑ s ∈ Finset.range (n + 1), ∑ p : Fin 5000, L V c (ix2 (blockRow s p) q)
  | 0, h, q => by
    have e := congrArg (fun x => x.2.1) (outsAt4_A V c ⟨0, h⟩ (Nat.zero_mod _))
    refine (congrFun (e.trans (out_A_7 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) (ms4_8 ⟨0, h⟩) (hs4_8 ⟨0, h⟩) ((hcond4_0 ⟨0, h⟩).mpr (Nat.zero_mod _)) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩))) (ix2 (0 : Fin 1) q)).trans ?_
    refine (Cert.KernelIdeal.LinPay4.pay5_apply (iblk4 V c 0 ⟨0, h⟩) (iblk4 V c 2 ⟨0, h⟩) (iblk4 V c 1 ⟨0, h⟩) (iblk4 V c 3 ⟨0, h⟩) (iblk4 V c 5 ⟨0, h⟩) (iblk4 V c 4 ⟨0, h⟩) _ q).trans ?_
    rw [Cert.KernelIdeal.LinPay4.pay2_apply, zero_add, Finset.sum_range_one]
    exact Finset.sum_congr rfl fun p _ => tile_at V c ⟨0, h⟩ p q
  | n + 1, h, q => by
    have hN : cfg4.N = 10 := N_4
    have hB : ¬(⟨n + 1, h⟩ : Fin cfg4.N).val % 10 = 0 := by dsimp only; omega
    have e : (outsAt4 V c (n + 1) h).2.1 = out4_B_7 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) (fun hh => hB ((hcond4_0 ⟨n + 1, h⟩).mp hh)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2 :=
      congrArg (fun x => x.2.1) (outsAt4_B V c ⟨n + 1, h⟩ hB)
    refine (congrFun (e.trans (out_B_7 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) (fun hh => hB ((hcond4_0 ⟨n + 1, h⟩).mp hh)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2)) (ix2 (0 : Fin 1) q)).trans ?_
    refine (Cert.KernelIdeal.LinPay4.pay5_apply (iblk4 V c 0 ⟨n + 1, h⟩) (iblk4 V c 2 ⟨n + 1, h⟩) (iblk4 V c 1 ⟨n + 1, h⟩) (iblk4 V c 3 ⟨n + 1, h⟩) (iblk4 V c 5 ⟨n + 1, h⟩) (iblk4 V c 4 ⟨n + 1, h⟩) _ q).trans ?_
    rw [Finset.sum_range_succ _ (n + 1)]
    exact congrArg₂ (· + ·) (outs7 c n (Nat.lt_of_succ_lt h) q) (Finset.sum_congr rfl fun p _ => tile_at V c ⟨n + 1, h⟩ p q)

/-- The sum-of-squares block, after point `n`: the column sums of the squares over the rows of blocks `0 … n`. -/
theorem outs8 (c : Dev nD) : ∀ (n : ℕ) (h : n < cfg4.N) (q : Fin 128),
    (outsAt4 V c n h).2.2 (ix2 (0 : Fin 1) q)
      = ∑ s ∈ Finset.range (n + 1), ∑ p : Fin 5000, L V c (ix2 (blockRow s p) q) * L V c (ix2 (blockRow s p) q)
  | 0, h, q => by
    have e := congrArg (fun x => x.2.2) (outsAt4_A V c ⟨0, h⟩ (Nat.zero_mod _))
    refine (congrFun (e.trans (out_A_8 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) (ms4_8 ⟨0, h⟩) (hs4_8 ⟨0, h⟩) ((hcond4_0 ⟨0, h⟩).mpr (Nat.zero_mod _)) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩))) (ix2 (0 : Fin 1) q)).trans ?_
    refine (Cert.KernelIdeal.LinPay4.pay1_apply _ _ q).trans ?_
    rw [Cert.KernelIdeal.LinPay4.pay3_apply, zero_add, Finset.sum_range_one]
    exact Finset.sum_congr rfl fun p _ => congrArg₂ (· * ·) (tile_at V c ⟨0, h⟩ p q) (tile_at V c ⟨0, h⟩ p q)
  | n + 1, h, q => by
    have hN : cfg4.N = 10 := N_4
    have hB : ¬(⟨n + 1, h⟩ : Fin cfg4.N).val % 10 = 0 := by dsimp only; omega
    have e : (outsAt4 V c (n + 1) h).2.2 = out4_B_8 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) (fun hh => hB ((hcond4_0 ⟨n + 1, h⟩).mp hh)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2 :=
      congrArg (fun x => x.2.2) (outsAt4_B V c ⟨n + 1, h⟩ hB)
    refine (congrFun (e.trans (out_B_8 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) (fun hh => hB ((hcond4_0 ⟨n + 1, h⟩).mp hh)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (outsAt4 V c n (Nat.lt_of_succ_lt h)).2.1 (outsAt4 V c n (Nat.lt_of_succ_lt h)).2.2)) (ix2 (0 : Fin 1) q)).trans ?_
    refine (Cert.KernelIdeal.LinPay4.pay1_apply _ _ q).trans ?_
    rw [Finset.sum_range_succ _ (n + 1)]
    exact congrArg₂ (· + ·) (outs8 c n (Nat.lt_of_succ_lt h) q)
      (Finset.sum_congr rfl fun p _ => congrArg₂ (· * ·) (tile_at V c ⟨n + 1, h⟩ p q) (tile_at V c ⟨n + 1, h⟩ p q))

/-! ## The first output: ten blocks of rows tile the array -/

/-- What point `t` writes back is block `t` of the linear stage. -/
theorem flushed6 (c : Dev nD) (t : Fin cfg4.N) :
    (dat4 V c).flushed 6 t = ((cfg4.win 6).blk t).view.read (Elt Ideal) (L V c) := by
  show (cfg4.win 6).cut (grid4.coords t) ((dat4 V c).after 6 t) = _
  rw [after4_6, outs6]
  have e0 := (idx_rows t).2.2.2.1
  have e1 := (idx_rows t).2.2.2.2
  have ht : t.val < 10 := lt_of_lt_of_eq t.isLt (show cfg4.N = 10 from N_4)
  funext j
  have hp : (j 0).val < 5000 := (j 0).isLt
  have hq : (j 1).val < 128 := (j 1).isLt
  have hx : (cfg4.win 6).xinj (grid4.coords t) j = ix2 (⟨(j 0).val, hp⟩ : Fin 5000) (⟨(j 1).val, hq⟩ : Fin 128) :=
    funext fun a => match a with
      | ⟨0, _⟩ => rfl
      | ⟨1, _⟩ => rfl
  rw [View.read_apply]
  show k4_pay4 (F := Ideal) (iblk4 V c 0 t) (iblk4 V c 2 t) (iblk4 V c 1 t) (iblk4 V c 3 t) (iblk4 V c 5 t) (iblk4 V c 4 t) ((cfg4.win 6).xinj (grid4.coords t) j) = L V c (((cfg4.win 6).blk t).view.emb j)
  rw [hx]
  refine (tile_at V c t ⟨(j 0).val, hp⟩ ⟨(j 1).val, hq⟩).trans ?_
  refine congrArg (L V c) (funext fun a => Fin.ext ?_)
  match a with
  | ⟨0, _⟩ => show (blockRow t.val ⟨(j 0).val, hp⟩).val = win4_6.index t (0 : Fin 2) * 5000 + 1 * (j 0).val; rw [blockRow_val ht, e0]; show 5000 * t.val + (j 0).val = t.val * 5000 + 1 * (j 0).val; omega
  | ⟨1, _⟩ => show (j 1).val = win4_6.index t (1 : Fin 2) * 128 + 1 * (j 1).val; rw [e1]; omega

/-- An index of the output is in point `t`'s block iff each coordinate is in the block's range on its axis. -/
theorem mem_blk6 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v109_0).slice (win4_6.rect t)).set ↔ _
  rw [View.set_slice_whole, Rect.mem_set_unit]
  exact Iff.rfl

/-- The first output ends as the linear stage of the six arrays. -/
theorem out_eq (c : Dev nD) : (Gen.dat4 (F := Ideal) V c).arrAt 6 cfg4.N
      = Cert.Sage.lin (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 (L V c) (fun t _ => flushed6 V c t) fun i => by
    have hi0 : (i 0).val < 50000 := (i 0).isLt
    have hi1 : (i 1).val < 128 := (i 1).isLt
    have hN : cfg4.N = 10 := N_4
    refine ⟨⟨(i 0).val / 5000, by rw [hN]; omega⟩, flush4_6 _, ?_⟩
    have e0 := (idx_rows (⟨(i 0).val / 5000, by rw [hN]; omega⟩ : Fin cfg4.N)).2.2.2.1
    have e1 := (idx_rows (⟨(i 0).val / 5000, by rw [hN]; omega⟩ : Fin cfg4.N)).2.2.2.2
    rw [mem_blk6]
    intro a
    match a with
    | ⟨0, _⟩ =>
      show win4_6.index _ (0 : Fin 2) * 5000 ≤ (i 0).val ∧ (i 0).val < win4_6.index _ (0 : Fin 2) * 5000 + 5000
      rw [e0]; dsimp only; omega
    | ⟨1, _⟩ =>
      show win4_6.index _ (1 : Fin 2) * 128 ≤ (i 1).val ∧ (i 1).val < win4_6.index _ (1 : Fin 2) * 128 + 128
      rw [e1]; omega

/-! ## The two statistics rows: one block, written back after the last point -/

theorem mem_blk7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v109_1).slice (win4_7.rect t)).set ↔ _
  rw [View.set_slice_whole, Rect.mem_set_unit]
  exact Iff.rfl

theorem mem_blk8 (t : Fin cfg4.N) (i : S1x128.Idx) :
    i ∈ ((cfg4.win 8).blk t).view.set ↔ ∀ a : Fin 2, win4_8.index t a * S1x128.size a ≤ (i a).val ∧ (i a).val < win4_8.index t a * S1x128.size a + S1x128.size a := by
  show i ∈ ((View.whole main_v109_2).slice (win4_8.rect t)).set ↔ _
  rw [View.set_slice_whole, Rect.mem_set_unit]
  exact Iff.rfl

/-- What the write-back of window 7 at a point writes, at an index: the block's contents after that point. -/
theorem flushed7_apply (c : Dev nD) (t : Fin cfg4.N) (j : ((cfg4.win 7).xblock (grid4.coords t)).Idx) :
    (dat4 V c).flushed 7 t j = (outsAt4 V c t.val t.isLt).2.1 ((cfg4.win 7).xinj (grid4.coords t) j) := by
  show (cfg4.win 7).cut (grid4.coords t) ((dat4 V c).after 7 t) j = _
  rw [after4_7]

/-- The block of window 7 at a point read out of any contents of its array, at an index. -/
theorem read_blk7 (t : Fin cfg4.N) (G : S1x128.Idx → EReal) (j : ((cfg4.win 7).xblock (grid4.coords t)).Idx) :
    ((cfg4.win 7).blk t).view.read (Elt Ideal) G j = G (((cfg4.win 7).blk t).view.emb j) := rfl

/-- The one write-back of the sum row, after point 9, writes the column sums over all rows. -/
theorem flushed7 (c : Dev nD) (t : Fin cfg4.N) (hf : (cfg4.win 7).flush t = true) :
    (dat4 V c).flushed 7 t = ((cfg4.win 7).blk t).view.read (Elt Ideal) (Cert.Sage.colSum (L V c)) := by
  have hN : cfg4.N = 10 := N_4
  have h9 : t.val = 9 := by have := (flush4_7 t).mp hf; have := t.isLt; omega
  have e1 := (idx_whole t).2.2.2.1.2
  funext j
  have hu : (j 0).val < 1 := (j 0).isLt
  have hq : (j 1).val < 128 := (j 1).isLt
  have hx : (cfg4.win 7).xinj (grid4.coords t) j = ix2 (0 : Fin 1) (⟨(j 1).val, hq⟩ : Fin 128) :=
    funext fun a => match a with
      | ⟨0, _⟩ => Fin.ext (by show (j 0).val = 0; omega)
      | ⟨1, _⟩ => rfl
  have hr : Finset.range (t.val + 1) = Finset.range 10 := by rw [h9]
  refine (flushed7_apply V c t j).trans ?_
  refine Eq.trans ?_ (read_blk7 t (Cert.Sage.colSum (L V c)) j).symm
  rw [hx, outs7 V c t.val t.isLt ⟨(j 1).val, hq⟩, hr, sum_blocks (fun r => L V c (ix2 r (⟨(j 1).val, hq⟩ : Fin 128)))]
  show (∑ r : Fin 50000, L V c (ix2 r (⟨(j 1).val, hq⟩ : Fin 128)) : EReal)
    = ∑ r : Fin 50000, L V c (ix2 r ((((cfg4.win 7).blk t).view.emb j) 1))
  refine Finset.sum_congr rfl fun r _ => congrArg (fun x => L V c (ix2 r x)) (Fin.ext ?_)
  show (j 1).val = win4_7.index t (1 : Fin 2) * 128 + 1 * (j 1).val
  rw [e1]; omega

/-- The second output ends as the column sums of the linear stage. -/
theorem sum_eq (c : Dev nD) : (Gen.dat4 (F := Ideal) V c).arrAt 7 cfg4.N
      = Cert.Sage.colSum (Cert.Sage.lin (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  (dat4 V c).arrAt_eq_of_cover 7 (Cert.Sage.colSum (L V c)) (flushed7 V c) fun i => by
    have hi0 : (i 0).val < 1 := (i 0).isLt
    have hi1 : (i 1).val < 128 := (i 1).isLt
    have hN : cfg4.N = 10 := N_4
    refine ⟨⟨9, by rw [hN]; decide⟩, (flush4_7 _).mpr rfl, ?_⟩
    have e0 := (idx_whole (⟨9, by rw [hN]; decide⟩ : Fin cfg4.N)).2.2.2.1.1
    have e1 := (idx_whole (⟨9, by rw [hN]; decide⟩ : Fin cfg4.N)).2.2.2.1.2
    rw [mem_blk7]
    intro a
    match a with
    | ⟨0, _⟩ =>
      show win4_7.index _ (0 : Fin 2) * 1 ≤ (i 0).val ∧ (i 0).val < win4_7.index _ (0 : Fin 2) * 1 + 1
      rw [e0]; omega
    | ⟨1, _⟩ =>
      show win4_7.index _ (1 : Fin 2) * 128 ≤ (i 1).val ∧ (i 1).val < win4_7.index _ (1 : Fin 2) * 128 + 128
      rw [e1]; omega

/-- What the write-back of window 8 at a point writes, at an index: the block's contents after that point. -/
theorem flushed8_apply (c : Dev nD) (t : Fin cfg4.N) (j : ((cfg4.win 8).xblock (grid4.coords t)).Idx) :
    (dat4 V c).flushed 8 t j = (outsAt4 V c t.val t.isLt).2.2 ((cfg4.win 8).xinj (grid4.coords t) j) := by
  show (cfg4.win 8).cut (grid4.coords t) ((dat4 V c).after 8 t) j = _
  rw [after4_8]

/-- The block of window 8 at a point read out of any contents of its array, at an index. -/
theorem read_blk8 (t : Fin cfg4.N) (G : S1x128.Idx → EReal) (j : ((cfg4.win 8).xblock (grid4.coords t)).Idx) :
    ((cfg4.win 8).blk t).view.read (Elt Ideal) G j = G (((cfg4.win 8).blk t).view.emb j) := rfl

/-- The one write-back of the sum-of-squares row, after point 9, writes the column sums of the squares over all rows. -/
theorem flushed8 (c : Dev nD) (t : Fin cfg4.N) (hf : (cfg4.win 8).flush t = true) :
    (dat4 V c).flushed 8 t = ((cfg4.win 8).blk t).view.read (Elt Ideal) (Cert.Sage.colSumSq (L V c)) := by
  have hN : cfg4.N = 10 := N_4
  have h9 : t.val = 9 := by have := (flush4_8 t).mp hf; have := t.isLt; omega
  have e1 := (idx_whole t).2.2.2.2.2
  funext j
  have hu : (j 0).val < 1 := (j 0).isLt
  have hq : (j 1).val < 128 := (j 1).isLt
  have hx : (cfg4.win 8).xinj (grid4.coords t) j = ix2 (0 : Fin 1) (⟨(j 1).val, hq⟩ : Fin 128) :=
    funext fun a => match a with
      | ⟨0, _⟩ => Fin.ext (by show (j 0).val = 0; omega)
      | ⟨1, _⟩ => rfl
  have hr : Finset.range (t.val + 1) = Finset.range 10 := by rw [h9]
  refine (flushed8_apply V c t j).trans ?_
  refine Eq.trans ?_ (read_blk8 t (Cert.Sage.colSumSq (L V c)) j).symm
  rw [hx, outs8 V c t.val t.isLt ⟨(j 1).val, hq⟩, hr,
    sum_blocks (fun r => L V c (ix2 r (⟨(j 1).val, hq⟩ : Fin 128)) * L V c (ix2 r (⟨(j 1).val, hq⟩ : Fin 128)))]
  show (∑ r : Fin 50000, L V c (ix2 r (⟨(j 1).val, hq⟩ : Fin 128)) * L V c (ix2 r (⟨(j 1).val, hq⟩ : Fin 128)) : EReal)
    = ∑ r : Fin 50000, L V c (ix2 r ((((cfg4.win 8).blk t).view.emb j) 1)) * L V c (ix2 r ((((cfg4.win 8).blk t).view.emb j) 1))
  refine Finset.sum_congr rfl fun r _ => congrArg (fun x => L V c (ix2 r x) * L V c (ix2 r x)) (Fin.ext ?_)
  show (j 1).val = win4_8.index t (1 : Fin 2) * 128 + 1 * (j 1).val
  rw [e1]; omega

/-- The third output ends as the column sums of the squares of the linear stage. -/
theorem sumsq_eq (c : Dev nD) : (Gen.dat4 (F := Ideal) V c).arrAt 8 cfg4.N
      = Cert.Sage.colSumSq (Cert.Sage.lin (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  (dat4 V c).arrAt_eq_of_cover 8 (Cert.Sage.colSumSq (L V c)) (flushed8 V c) fun i => by
    have hi0 : (i 0).val < 1 := (i 0).isLt
    have hi1 : (i 1).val < 128 := (i 1).isLt
    have hN : cfg4.N = 10 := N_4
    refine ⟨⟨9, by rw [hN]; decide⟩, (flush4_8 _).mpr rfl, ?_⟩
    have e0 := (idx_whole (⟨9, by rw [hN]; decide⟩ : Fin cfg4.N)).2.2.2.2.1
    have e1 := (idx_whole (⟨9, by rw [hN]; decide⟩ : Fin cfg4.N)).2.2.2.2.2
    rw [mem_blk8]
    intro a
    match a with
    | ⟨0, _⟩ =>
      show win4_8.index _ (0 : Fin 2) * 1 ≤ (i 0).val ∧ (i 0).val < win4_8.index _ (0 : Fin 2) * 1 + 1
      rw [e0]; omega
    | ⟨1, _⟩ =>
      show win4_8.index _ (1 : Fin 2) * 128 ≤ (i 1).val ∧ (i 1).val < win4_8.index _ (1 : Fin 2) * 128 + 128
      rw [e1]; omega

end Cert.KernelIdeal.LinValue4

end
-- ==== Proof.KValue.lean ====
/-
  The idealized kernel program's result, as a function of its arguments.

  The three layers in sequence: layer 0 from the launch memory, layers 1 and 2 each from the previous layer's exit.
  What is left in the result buffer is the specification's three-layer composition in its mean-of-squares form, with
  the neighbour aggregation and the inverse-degree column the program's own host-side pieces of the edge array.
-/
import proofs.«179303_j4578435137604_2_alg».proof.Proof.KLayer1
import proofs.«179303_j4578435137604_2_alg».proof.Proof.KLayer2
import proofs.«179303_j4578435137604_2_alg».proof.Proof.KLayer3
import proofs.«179303_j4578435137604_2_alg».proof.Proof.KLin0
import proofs.«179303_j4578435137604_2_alg».proof.Proof.KLin2
import proofs.«179303_j4578435137604_2_alg».proof.Proof.KLin4

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The program's three layers, of its argument arrays. -/
def netOf (x : Cert.Sage.SN.Idx → EReal) (ei : IVec S2x1600000 32)
    (a2 a4 : (⟨3, ![3, 128, 128]⟩ : Shape).Idx → EReal) (a3 a5 a6 : (⟨2, ![3, 128]⟩ : Shape).Idx → EReal) : Cert.Sage.SN.Idx → EReal :=
  Cert.Sage.net Cert.Sage.layerK (fun h => aggOf (v1Of ei) (v3Of ei) h) (invDegOf (v3Of ei)) a2 a3 a4 a5 a6 x

set_option maxHeartbeats 1000000 in
/-- The last boundary's contents at the result buffer. -/
theorem result_eq (c : Dev nD) :
    W14 m ρ c (Proc.devRef .tc main_v127_0)
      = netOf (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg6)) := by
  obtain ⟨h10, h11, hv1, hv3, hD, ha2, ha3, ha4, ha5, ha6⟩ :=
    layer1 m ρ c (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg6))
      rfl rfl rfl rfl rfl rfl rfl
      (LinValue0.out_eq (V3 m ρ) c) (LinValue0.sum_eq (V3 m ρ) c) (LinValue0.sumsq_eq (V3 m ρ) c)
  obtain ⟨h20, h21, kv1, kv3, kD, ka2, ka3, ka4, ka5, ka6⟩ :=
    layer2 m ρ c _ _ _ _ _ _ _ _ _ h10 h11 hv1 hv3 hD ha2 ha3 ha4 ha5 ha6
      (LinValue2.out_eq (V7 m ρ) c) (LinValue2.sum_eq (V7 m ρ) c) (LinValue2.sumsq_eq (V7 m ρ) c)
  exact (layer3 m ρ c _ _ _ _ _ _ _ _ _ h20 h21 kv1 kv3 kD ka2 ka3 ka4 ka5 ka6
      (LinValue4.out_eq (V11 m ρ) c) (LinValue4.sum_eq (V11 m ρ) c) (LinValue4.sumsq_eq (V11 m ρ) c)).1

end Cert.KernelIdeal.KValue

end
-- ==== Proof.LibRealArrays.lean ====
/-
  Arrays of real numbers inside arrays of extended reals, and the operations that keep them real.

  An array is REAL when every entry is (the coercion of) a real number. Reading an array at computed
  places (a gather, a broadcast) keeps it real; so do entrywise sums, differences and products, and a
  finite sum of entries — in particular the accumulating scatter, whose entry is the operand's entry
  plus a finite sum of update entries. The reciprocal square root keeps an array real where its entries are POSITIVE,
  and then the result is positive too. No operation here looks at which places are read: only at the
  fact that finitely many real numbers are combined.
-/
import Idealize.ShloMosaic.PureOps.Ideal.Laws
import Idealize.ShloMosaic.Lib.ValueIdx

noncomputable section

open scoped BigOperators

open Idealize.ShloMosaic Idealize.ShloMosaic.ValueIdx

namespace Cert.RealArr

/-- Every entry is a real number. -/
def IsReal {s : Shape} (v : s.Idx → EReal) : Prop := ∀ i, ∃ r : ℝ, v i = (r : EReal)

/-- Every entry is a positive real number. -/
def IsPos {s : Shape} (v : s.Idx → EReal) : Prop := ∀ i, ∃ r : ℝ, 0 < r ∧ v i = (r : EReal)

theorem IsPos.isReal {s : Shape} {v : s.Idx → EReal} (h : IsPos v) : IsReal v :=
  fun i => let ⟨r, _, e⟩ := h i; ⟨r, e⟩

/-- A finite sum of real numbers is a real number. -/
theorem sum_real {ι : Type*} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by rw [Finset.sum_empty, EReal.coe_zero]⟩
  | insert a s ha ih =>
    obtain ⟨ra, ea⟩ := h a (Finset.mem_insert_self a s)
    obtain ⟨rs, es⟩ := ih fun i hi => h i (Finset.mem_insert_of_mem hi)
    exact ⟨ra + rs, by rw [Finset.sum_insert ha, ea, es, EReal.coe_add]⟩

/-- A finite sum of nonnegative reals is a nonnegative real. -/
theorem sum_nonneg_real {ι : Type*} (s : Finset ι) (g : ι → EReal)
    (h : ∀ i ∈ s, ∃ r : ℝ, 0 ≤ r ∧ g i = (r : EReal)) : ∃ r : ℝ, 0 ≤ r ∧ ∑ i ∈ s, g i = (r : EReal) := by
  classical
  induction s using Finset.induction_on with
  | empty => exact ⟨0, le_rfl, by rw [Finset.sum_empty, EReal.coe_zero]⟩
  | insert a s ha ih =>
    obtain ⟨ra, pa, ea⟩ := h a (Finset.mem_insert_self a s)
    obtain ⟨rs, ps, es⟩ := ih fun i hi => h i (Finset.mem_insert_of_mem hi)
    exact ⟨ra + rs, add_nonneg pa ps, by rw [Finset.sum_insert ha, ea, es, EReal.coe_add]⟩

variable {s t : Shape}

/-- An array read at computed places (a gather) stays real. -/
theorem gather {si : Shape} {w : Nat} (d : GatherDims s si t) (x : s.Idx → EReal) (idx : IVec si w)
    (hx : IsReal x) : IsReal (Host.gather d x idx) := fun j => hx _

/-- A broadcast stays real. -/
theorem bcast (dims : Fin s.rank → Fin t.rank) (h : s.BroadcastsInDim t dims) (x : s.Idx → EReal)
    (hx : IsReal x) : IsReal (broadcastInDim t dims h x) := fun j => hx _

theorem bcast_pos (dims : Fin s.rank → Fin t.rank) (h : s.BroadcastsInDim t dims) (x : s.Idx → EReal)
    (hx : IsPos x) : IsPos (broadcastInDim t dims h x) := fun j => hx _

theorem mul (x y : FVec Ideal s .f32) (hx : IsReal x) (hy : IsReal y) : IsReal (mulf x y) := fun i => by
  obtain ⟨a, ea⟩ := hx i
  obtain ⟨b, eb⟩ := hy i
  exact ⟨a * b, by show x i * y i = _; rw [ea, eb, EReal.coe_mul]⟩

theorem add (x y : FVec Ideal s .f32) (hx : IsReal x) (hy : IsReal y) : IsReal (addf x y) := fun i => by
  obtain ⟨a, ea⟩ := hx i
  obtain ⟨b, eb⟩ := hy i
  exact ⟨a + b, by show x i + y i = _; rw [ea, eb, EReal.coe_add]⟩

theorem sub (x y : FVec Ideal s .f32) (hx : IsReal x) (hy : IsReal y) : IsReal (subf x y) := fun i => by
  obtain ⟨a, ea⟩ := hx i
  obtain ⟨b, eb⟩ := hy i
  exact ⟨a - b, by show x i - y i = _; rw [ea, eb, EReal.coe_sub]⟩

/-- A splat of a real constant is real. -/
theorem const (b : BitVec 32) (r : ℝ) (hb : Ideal.ofBits .f32 b = (r : EReal)) :
    IsReal (constant (F := Ideal) s .f32 b) := fun _ => ⟨r, hb⟩

/-- The accumulating scatter of a real array into a real array is real. -/
theorem scatterAdd {si u : Shape} {w : Nat} (d : ScatterDims s si u) (x : FVec Ideal s .f32) (idx : IVec si w)
    (upd : FVec Ideal u .f32) (hx : IsReal x) (hu : IsReal upd) : IsReal (Host.scatterAdd d x idx upd) := fun i => by
  obtain ⟨a, ea⟩ := hx i
  obtain ⟨b, eb⟩ := sum_real (Finset.univ.filter fun j => d.resultIdx? j idx = some i) upd fun j _ => hu j
  exact ⟨a + b, by
    show x i + ∑ j ∈ Finset.univ.filter (fun j => d.resultIdx? j idx = some i), upd j = _
    rw [ea, eb, EReal.coe_add]⟩

/-- The accumulating scatter of nonnegative reals into zeros, plus one, is positive. -/
theorem scatterAdd_count_pos {si u : Shape} {w : Nat} (d : ScatterDims s si u) (x : FVec Ideal s .f32)
    (idx : IVec si w) (upd one : FVec Ideal u .f32) (o : FVec Ideal s .f32)
    (hx : ∀ i, x i = 0) (hu : ∀ j, upd j = 1) (ho : ∀ i, o i = 1) :
    IsPos (addf (Host.scatterAdd d x idx upd) o) := fun i => by
  obtain ⟨b, pb, eb⟩ := sum_nonneg_real (Finset.univ.filter fun j => d.resultIdx? j idx = some i) upd
    fun j _ => ⟨1, zero_le_one, by rw [hu j, EReal.coe_one]⟩
  refine ⟨b + 1, by linarith, ?_⟩
  show (x i + ∑ j ∈ Finset.univ.filter (fun j => d.resultIdx? j idx = some i), upd j) + o i = _
  rw [hx i, ho i, eb, zero_add, EReal.coe_add, EReal.coe_one]

/-- The reciprocal square root of positive reals is positive reals. -/
theorem rsqrt_pos (v : FVec Ideal s .f32) (hv : IsPos v) : IsPos (Host.rsqrt v) := fun i => by
  obtain ⟨r, pr, er⟩ := hv i
  refine ⟨(Real.sqrt r)⁻¹, inv_pos.mpr (Real.sqrt_pos.mpr pr), ?_⟩
  show Ideal.rsqrt (v i) = _
  rw [er, Ideal.rsqrt_coe, if_neg (not_lt.mpr pr.le), if_neg (ne_of_gt pr)]

end Cert.RealArr

end
-- ==== Proof.LibRealDegree.lean ====
/-
  The inverse in-degree of the nodes of a graph is an array of real numbers.

  The in-degree is an accumulating scatter of ones into zeros: at each node it is zero plus a finite sum of
  ones, a real number. The inverse is chosen entry by entry: where the degree is above zero, one over the
  larger of the degree and one; elsewhere zero. The larger of a real number and one is a real number that is
  at least one, hence not zero, so the quotient of one by it is a real number; zero is a real number; and a
  choice between two real numbers is one of them. Spreading the result along further axes only reads
  entries. Nothing here depends on the shapes, on which places the scatter writes, or on how the constants
  are spread: every one of them is a variable.
-/
import Idealize.ShloMosaic.PureOps.Ideal.Laws
import Idealize.ShloMosaic.Lib.ValueIdx
import proofs.«179303_j4578435137604_2_alg».proof.Proof.LibRealArrays

noncomputable section

open Idealize.ShloMosaic Idealize.ShloMosaic.ValueIdx

open Cert.RealArr

namespace Cert.LibRealDegree

variable {s : Shape}

/-- Every entry is a real number other than zero. -/
def IsNonzeroReal {s : Shape} (v : s.Idx → EReal) : Prop := ∀ i, ∃ r : ℝ, r ≠ 0 ∧ v i = (r : EReal)

theorem IsNonzeroReal.isReal {v : s.Idx → EReal} (h : IsNonzeroReal v) : IsReal v :=
  fun i => let ⟨r, _, e⟩ := h i; ⟨r, e⟩

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The coercion of a maximum of reals is the maximum of the coercions (the coercion is monotone). -/
theorem coe_real_max (a b : ℝ) : ((max a b : ℝ) : EReal) = max (a : EReal) (b : EReal) :=
  EReal.coe_strictMono.monotone.map_max

/-- The zero constant, spread over any shape along any axes, is zero at every place. -/
theorem splat_zero {S0 : Shape} (dims : Fin S0.rank → Fin s.rank) (h : S0.BroadcastsInDim s dims) (i : s.Idx) :
    broadcastInDim s dims h (constant (F := Ideal) S0 .f32 0x00000000#32) i = 0 :=
  Ideal.ofBits_zero_f32

/-- The same with the constant passed through the identity. -/
theorem splat_id_zero {S0 : Shape} (dims : Fin S0.rank → Fin s.rank) (h : S0.BroadcastsInDim s dims) (i : s.Idx) :
    broadcastInDim s dims h (id (constant (F := Ideal) S0 .f32 0x00000000#32)) i = 0 :=
  Ideal.ofBits_zero_f32

/-- The one constant, spread over any shape along any axes, is one at every place. -/
theorem splat_one {S0 : Shape} (dims : Fin S0.rank → Fin s.rank) (h : S0.BroadcastsInDim s dims) (i : s.Idx) :
    broadcastInDim s dims h (constant (F := Ideal) S0 .f32 0x3F800000#32) i = 1 :=
  ofBits_one_f32

/-- An array that is the same real number at every place is real. -/
theorem isReal_of_forall_eq {v : s.Idx → EReal} (r : ℝ) (h : ∀ i, v i = (r : EReal)) : IsReal v :=
  fun i => ⟨r, h i⟩

theorem isReal_of_forall_zero {v : s.Idx → EReal} (h : ∀ i, v i = 0) : IsReal v :=
  fun i => ⟨0, by rw [h i, EReal.coe_zero]⟩

theorem isReal_of_forall_one {v : s.Idx → EReal} (h : ∀ i, v i = 1) : IsReal v :=
  fun i => ⟨1, by rw [h i, EReal.coe_one]⟩

/-- The entrywise maximum of two real arrays is real. -/
theorem isReal_maximumf (x y : FVec Ideal s .f32) (hx : IsReal x) (hy : IsReal y) : IsReal (maximumf x y) := fun i => by
  obtain ⟨a, ea⟩ := hx i
  obtain ⟨b, eb⟩ := hy i
  refine ⟨max a b, ?_⟩
  show max (x i) (y i) = _
  rw [ea, eb, coe_real_max]

/-- The entrywise maximum of a real array and an array of ones is an array of nonzero reals (each at least one). -/
theorem nonzero_maximumf_one (x one : FVec Ideal s .f32) (hx : IsReal x) (hone : ∀ i, one i = 1) :
    IsNonzeroReal (maximumf x one) := fun i => by
  obtain ⟨a, ea⟩ := hx i
  refine ⟨max a 1, (lt_of_lt_of_le zero_lt_one (le_max_right a 1)).ne', ?_⟩
  show max (x i) (one i) = _
  rw [ea, hone i, coe_real_max, EReal.coe_one]

/-- The quotient (the host program's division) of a real array by an array of nonzero reals is real. -/
theorem isReal_hostDivf (x y : FVec Ideal s .f32) (hx : IsReal x) (hy : IsNonzeroReal y) : IsReal (Host.divf x y) := fun i => by
  obtain ⟨a, ea⟩ := hx i
  obtain ⟨b, hb, eb⟩ := hy i
  refine ⟨a / b, ?_⟩
  show Ideal.div (x i) (y i) = _
  rw [ea, eb, Ideal.div_coe hb, ← EReal.coe_mul, mul_one_div]

/-- The quotient (the device program's division) of a real array by an array of nonzero reals is real. -/
theorem isReal_divf (x y : FVec Ideal s .f32) (hx : IsReal x) (hy : IsNonzeroReal y) : IsReal (divf x y) := fun i => by
  obtain ⟨a, ea⟩ := hx i
  obtain ⟨b, hb, eb⟩ := hy i
  refine ⟨a / b, ?_⟩
  show Ideal.div (x i) (y i) = _
  rw [ea, eb, Ideal.div_coe hb, ← EReal.coe_mul, mul_one_div]

/-- An entrywise choice between two real arrays is real, whatever the choosing bits are. -/
theorem isReal_select (c : IVec s 1) (a b : s.Idx → EReal) (ha : IsReal a) (hb : IsReal b) : IsReal (select c a b) := fun i => by
  show ∃ r : ℝ, Scalar.select (c i) (a i) (b i) = (r : EReal)
  unfold Scalar.select
  split
  · exact ha i
  · exact hb i

/-- The inverse degree, each constant array a variable known only by its entries: where `deg` is above `z`,
    one over the larger of `deg` and one; elsewhere zero. Real whenever `deg` is. -/
theorem isReal_invDegree (deg z one one' z' : FVec Ideal s .f32) (hdeg : IsReal deg) (hone : ∀ i, one i = 1)
    (hone' : ∀ i, one' i = 1) (hz' : ∀ i, z' i = 0) :
    IsReal (select (cmpf .ogt deg z) (Host.divf one (maximumf deg one')) z') :=
  isReal_select _ _ _
    (isReal_hostDivf one (maximumf deg one') (isReal_of_forall_one hone) (nonzero_maximumf_one deg one' hdeg hone'))
    (isReal_of_forall_zero hz')

/-- The degree: an accumulating scatter of an array of ones into an array of zeros is real. -/
theorem isReal_degree {si u : Shape} {w : Nat} (d : ScatterDims s si u) (z : FVec Ideal s .f32) (idx : IVec si w)
    (o : FVec Ideal u .f32) (hz : ∀ i, z i = 0) (ho : ∀ j, o j = 1) : IsReal (Host.scatterAdd d z idx o) :=
  Cert.RealArr.scatterAdd d z idx o (isReal_of_forall_zero hz) (isReal_of_forall_one ho)

/-- The inverse-degree column as the two programs spell it, every shape, scatter record, axis map and shape
    witness a variable: the degree is the scatter of the spread one constant into the spread zero constant; the
    inverse is chosen against the spread zero constant between one over the larger of degree and one, and
    zero; the result is spread to a further shape. It is an array of real numbers. -/
theorem isReal_invDegreeCol {S0 sN si sE sC : Shape} {w : Nat} (d : ScatterDims sN si sE) (idx : IVec si w)
    (dimsN : Fin S0.rank → Fin sN.rank) (hN : S0.BroadcastsInDim sN dimsN)
    (dimsE : Fin S0.rank → Fin sE.rank) (hE : S0.BroadcastsInDim sE dimsE)
    (dimsC : Fin sN.rank → Fin sC.rank) (hC : sN.BroadcastsInDim sC dimsC) :
    IsReal (broadcastInDim sC dimsC hC
      (select
        (cmpf .ogt
          (Host.scatterAdd d (broadcastInDim sN dimsN hN (constant (F := Ideal) S0 .f32 0x00000000#32)) idx
            (broadcastInDim sE dimsE hE (constant (F := Ideal) S0 .f32 0x3F800000#32)))
          (broadcastInDim sN dimsN hN (constant (F := Ideal) S0 .f32 0x00000000#32)))
        (Host.divf (broadcastInDim sN dimsN hN (constant (F := Ideal) S0 .f32 0x3F800000#32))
          (maximumf
            (Host.scatterAdd d (broadcastInDim sN dimsN hN (constant (F := Ideal) S0 .f32 0x00000000#32)) idx
              (broadcastInDim sE dimsE hE (constant (F := Ideal) S0 .f32 0x3F800000#32)))
            (broadcastInDim sN dimsN hN (constant (F := Ideal) S0 .f32 0x3F800000#32))))
        (broadcastInDim sN dimsN hN (id (constant (F := Ideal) S0 .f32 0x00000000#32))))) :=
  Cert.RealArr.bcast dimsC hC _
    (isReal_invDegree _ _ _ _ _
      (isReal_degree d _ idx _ (splat_zero dimsN hN) (splat_one dimsE hE))
      (splat_one dimsN hN) (splat_one dimsN hN) (splat_id_zero dimsN hN))

end Cert.LibRealDegree

end
-- ==== Proof.KReal.lean ====
/-
  The neighbour sums of a real feature array, the in-degree, and the inverse-degree column are arrays of real
  numbers.

  The neighbour sums are an accumulating scatter, into zeros, of rows read out of the feature array at computed
  places: each entry is zero plus a finite sum of entries of the feature array. The in-degree is an accumulating
  scatter of ones into zeros. The inverse-degree column is one over the larger of the degree and one where the
  degree is above zero, and zero elsewhere; the general statement about that computation applies as it stands.
-/
import proofs.«179303_j4578435137604_2_alg».proof.Proof.KDefs
import proofs.«179303_j4578435137604_2_alg».proof.Proof.LibRealArrays
import proofs.«179303_j4578435137604_2_alg».proof.Proof.LibRealDegree

set_option maxRecDepth 16384

noncomputable section

namespace Cert.KernelIdeal.KValue

open Idealize.ShloMosaic Idealize.ShloMosaic.ValueIdx
open Cert.KernelIdeal Cert.KernelIdeal.Facts₀
open Cert.RealArr

/-- The neighbour sums of a real array are real: zeros plus finite sums of gathered entries. -/
theorem isReal_aggOf (v1 v3 : IVec S1600000 32) (h : Cert.Sage.SN.Idx → EReal) (hh : IsReal h) : IsReal (aggOf v1 v3 h) := by
  unfold aggOf
  refine Cert.RealArr.scatterAdd _ _ _ _ ?_ ?_
  · exact Cert.LibRealDegree.isReal_of_forall_zero (Cert.LibRealDegree.splat_zero _ _)
  · intro j
    exact Cert.RealArr.gather gather_S50000x128_S1600000x1_S1600000x128_1_0_n_n_0_1_1128 h (srcCol v1) hh j

/-- The in-degree is real: zeros plus finite sums of ones. -/
theorem isReal_degOf (v3 : IVec S1600000 32) : IsReal (degOf v3) := by
  unfold degOf
  refine Cert.RealArr.scatterAdd _ _ _ _ ?_ ?_
  · exact Cert.LibRealDegree.isReal_of_forall_zero (Cert.LibRealDegree.splat_zero _ _)
  · exact Cert.LibRealDegree.isReal_of_forall_one (Cert.LibRealDegree.splat_one _ _)

/-- The inverse-degree column is real. -/
theorem isReal_invDegOf (v3 : IVec S1600000 32) : IsReal (invDegOf v3) := by
  unfold invDegOf colOf selOf degPos degRecip degOf
  exact Cert.LibRealDegree.isReal_invDegreeCol _ _ _ _ _ _ _ _

end Cert.KernelIdeal.KValue

end
-- ==== Proof.RRunOps.lean ====
/-
  The reference program's @main as a list of host operations, the module-local functions it calls (the two
  selects, the variance, the clamp at zero) written out at their call sites over each call's own buffers. The list
  is given in ten stretches: the degree column; then per layer the neighbour aggregation with the linear stage, the
  statistics, and the normalisation. @main runs exactly these operations in this order, and every operation touches
  only buffers of the TensorCore.
-/
import proofs.«179303_j4578435137604_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 24 operations of @main, in order (through the value held in `main_v15`). -/
abbrev opsP : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    nullary main_cst_3 (constant S_ .f32 0x3F800000#32),
    unary main_cst_3 main_v12 (broadcastInDim S50000 ![] bcast_S_S50000 : (⟨S_, .f32⟩ : BufTy).Contents (Elt F) → (⟨S50000, .f32⟩ : BufTy).Contents (Elt F)),
    binary main_v12 main_v11 main_v13 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    TRef.unary (.of main_cst_4) main_call0.v0 id,
    TRef.unary main_call0.v0 main_call0.v1 (broadcastInDim S50000 ![] bcast_S_S50000),
    TRef.ternary (.of main_v9) (.of main_v13) main_call0.v1 main_call0.v2 select,
    unary main_v14 main_v15 (broadcastInDim S50000x1 ![0] bcast_S50000_S50000x1_0 : (⟨S50000, .f32⟩ : BufTy).Contents (Elt F) → (⟨S50000x1, .f32⟩ : BufTy).Contents (Elt F)) ]

/-- 29 operations of @main, in order (through the value held in `main_v41`). -/
abbrev opsA1 : List (HloOp τ sig (Elt F)) :=
  [ nullary main_c (constantI S_ 32 0#32),
    unary main_c main_v16 (broadcastInDim S1600000 ![] bcast_S_S1600000 : (⟨S_, .i32⟩ : BufTy).Contents (Elt F) → (⟨S1600000, .i32⟩ : BufTy).Contents (Elt F)),
    binary main_v1 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 50000#32),
    unary main_c_5 main_v18 (broadcastInDim S1600000 ![] bcast_S_S1600000 : (⟨S_, .i32⟩ : BufTy).Contents (Elt F) → (⟨S1600000, .i32⟩ : BufTy).Contents (Elt F)),
    binary main_v1 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_arg0 main_v21 main_v22 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v23 (broadcastInDim S50000x128 ![] bcast_S_S50000x128 : (⟨S_, .f32⟩ : BufTy).Contents (Elt F) → (⟨S50000x128, .f32⟩ : BufTy).Contents (Elt F)),
    unary main_v3 main_v24 (broadcastInDim S1600000x1 ![0] bcast_S1600000_S1600000x1_0 : (⟨S1600000, .i32⟩ : BufTy).Contents (Elt F) → (⟨S1600000x1, .i32⟩ : BufTy).Contents (Elt F)),
    ternary main_v23 main_v24 main_v22 main_v25 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_v15 main_v26 (broadcastInDim S50000x128 ![0, 1] bcast_S50000x1_S50000x128_0_1 : (⟨S50000x1, .f32⟩ : BufTy).Contents (Elt F) → (⟨S50000x128, .f32⟩ : BufTy).Contents (Elt F)),
    binary main_v25 main_v26 main_v27 (mulf : (⟨S50000x128, .f32⟩ : BufTy).Contents (Elt F) → (⟨S50000x128, .f32⟩ : BufTy).Contents (Elt F) → (⟨S50000x128, .f32⟩ : BufTy).Contents (Elt F)),
    unary main_arg2 main_v28 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v28 main_v29 rfl shapeCasts_S1x128x128_S128x128,
    unary main_v29 main_v30 ((transpose S128x128 [1, 0] · transposes_S128x128_S128x128_1_0) : (⟨S128x128, .f32⟩ : BufTy).Contents (Elt F) → (⟨S128x128, .f32⟩ : BufTy).Contents (Elt F)),
    binary main_v27 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v32 ((extractStridedSlice S1x128 ![0, 0] · slices_S3x128_S1x128_0_0) : (⟨S3x128, .f32⟩ : BufTy).Contents (Elt F) → (⟨S1x128, .f32⟩ : BufTy).Contents (Elt F)),
    reshape main_v32 main_v33 rfl shapeCasts_S1x128_S128,
    unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S50000x128 ![0, 1] bcast_S1x128_S50000x128_0_1 : (⟨S1x128, .f32⟩ : BufTy).Contents (Elt F) → (⟨S50000x128, .f32⟩ : BufTy).Contents (Elt F)),
    binary main_v31 main_v35 main_v36 (addf : (⟨S50000x128, .f32⟩ : BufTy).Contents (Elt F) → (⟨S50000x128, .f32⟩ : BufTy).Contents (Elt F) → (⟨S50000x128, .f32⟩ : BufTy).Contents (Elt F)),
    unary main_arg4 main_v37 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v37 main_v38 rfl shapeCasts_S1x128x128_S128x128,
    unary main_v38 main_v39 ((transpose S128x128 [1, 0] · transposes_S128x128_S128x128_1_0) : (⟨S128x128, .f32⟩ : BufTy).Contents (Elt F) → (⟨S128x128, .f32⟩ : BufTy).Contents (Elt F)),
    binary main_arg0 main_v39 main_v40 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v36 main_v40 main_v41 (addf : (⟨S50000x128, .f32⟩ : BufTy).Contents (Elt F) → (⟨S50000x128, .f32⟩ : BufTy).Contents (Elt F) → (⟨S50000x128, .f32⟩ : BufTy).Contents (Elt F)) ]

/-- 30 operations of @main, in order (through the value held in `main_v47`). -/
abbrev opsB1a : List (HloOp τ sig (Elt F)) :=
  [ nullary main_cst_7 (constant S_ .f32 0x00000000#32),
    binary main_v41 main_cst_7 main_v42 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_8 (constant S_ .f32 0x47435000#32),
    unary main_cst_8 main_v43 (broadcastInDim S128 ![] bcast_S_S128 : (⟨S_, .f32⟩ : BufTy).Contents (Elt F) → (⟨S128, .f32⟩ : BufTy).Contents (Elt F)),
    binary main_v42 main_v43 main_v44 (Host.divf : (⟨S128, .f32⟩ : BufTy).Contents (Elt F) → (⟨S128, .f32⟩ : BufTy).Contents (Elt F) → (⟨S128, .f32⟩ : BufTy).Contents (Elt F)),
    nullary main_c_9 (constantI S_ 32 0#32),
    TRef.nullary main_call1.cst (constant S_ .f32 0x00000000#32),
    TRef.binary (.of main_v41) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v41) main_call1.v4 main_call1.v5 subf,
    TRef.binary main_call1.v5 main_call1.v5 main_call1.v6 mulf,
    TRef.unary (.of main_c_9) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v44 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)) ]

/-- 21 operations of @main, in order (through the value held in `main_v65`). -/
abbrev opsB1b : List (HloOp τ sig (Elt F)) :=
  [ binary main_v41 main_v47 main_v48 (subf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3727C5AC#32),
    unary main_cst_10 main_v49 (broadcastInDim S128 ![] bcast_S_S128 : (⟨S_, .f32⟩ : BufTy).Contents (Elt F) → (⟨S128, .f32⟩ : BufTy).Contents (Elt F)),
    binary main_v45 main_v49 main_v50 (addf : (⟨S128, .f32⟩ : BufTy).Contents (Elt F) → (⟨S128, .f32⟩ : BufTy).Contents (Elt F) → (⟨S128, .f32⟩ : BufTy).Contents (Elt F)),
    unary main_v50 main_v51 (Host.rsqrt : (⟨S128, .f32⟩ : BufTy).Contents (Elt F) → (⟨S128, .f32⟩ : BufTy).Contents (Elt F)),
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v48 main_v53 main_v54 (mulf : (⟨S50000x128, .f32⟩ : BufTy).Contents (Elt F) → (⟨S50000x128, .f32⟩ : BufTy).Contents (Elt F) → (⟨S50000x128, .f32⟩ : BufTy).Contents (Elt F)),
    unary main_arg5 main_v55 ((extractStridedSlice S1x128 ![0, 0] · slices_S3x128_S1x128_0_0) : (⟨S3x128, .f32⟩ : BufTy).Contents (Elt F) → (⟨S1x128, .f32⟩ : BufTy).Contents (Elt F)),
    reshape main_v55 main_v56 rfl shapeCasts_S1x128_S128,
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v54 main_v58 main_v59 (mulf : (⟨S50000x128, .f32⟩ : BufTy).Contents (Elt F) → (⟨S50000x128, .f32⟩ : BufTy).Contents (Elt F) → (⟨S50000x128, .f32⟩ : BufTy).Contents (Elt F)),
    unary main_arg6 main_v60 ((extractStridedSlice S1x128 ![0, 0] · slices_S3x128_S1x128_0_0) : (⟨S3x128, .f32⟩ : BufTy).Contents (Elt F) → (⟨S1x128, .f32⟩ : BufTy).Contents (Elt F)),
    reshape main_v60 main_v61 rfl shapeCasts_S1x128_S128,
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v59 main_v63 main_v64 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v64) main_call2.v0 main_call2.v1 maximumf ]

/-- 29 operations of @main, in order (through the value held in `main_v91`). -/
abbrev opsA2 : List (HloOp τ sig (Elt F)) :=
  [ nullary main_c_11 (constantI S_ 32 0#32),
    unary main_c_11 main_v66 (broadcastInDim S1600000 ![] bcast_S_S1600000 : (⟨S_, .i32⟩ : BufTy).Contents (Elt F) → (⟨S1600000, .i32⟩ : BufTy).Contents (Elt F)),
    binary main_v1 main_v66 main_v67 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 50000#32),
    unary main_c_12 main_v68 (broadcastInDim S1600000 ![] bcast_S_S1600000 : (⟨S_, .i32⟩ : BufTy).Contents (Elt F) → (⟨S1600000, .i32⟩ : BufTy).Contents (Elt F)),
    binary main_v1 main_v68 main_v69 (addi : (⟨S1600000, .i32⟩ : BufTy).Contents (Elt F) → (⟨S1600000, .i32⟩ : BufTy).Contents (Elt F) → (⟨S1600000, .i32⟩ : BufTy).Contents (Elt F)),
    ternary main_v67 main_v69 main_v1 main_v70 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v70 main_v71 (broadcastInDim S1600000x1 ![0] bcast_S1600000_S1600000x1_0 : (⟨S1600000, .i32⟩ : BufTy).Contents (Elt F) → (⟨S1600000x1, .i32⟩ : BufTy).Contents (Elt F)),
    binary main_v65 main_v71 main_v72 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst_13 (constant S_ .f32 0x00000000#32),
    unary main_cst_13 main_v73 (broadcastInDim S50000x128 ![] bcast_S_S50000x128 : (⟨S_, .f32⟩ : BufTy).Contents (Elt F) → (⟨S50000x128, .f32⟩ : BufTy).Contents (Elt F)),
    unary main_v3 main_v74 (broadcastInDim S1600000x1 ![0] bcast_S1600000_S1600000x1_0 : (⟨S1600000, .i32⟩ : BufTy).Contents (Elt F) → (⟨S1600000x1, .i32⟩ : BufTy).Contents (Elt F)),
    ternary main_v73 main_v74 main_v72 main_v75 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_v15 main_v76 (broadcastInDim S50000x128 ![0, 1] bcast_S50000x1_S50000x128_0_1 : (⟨S50000x1, .f32⟩ : BufTy).Contents (Elt F) → (⟨S50000x128, .f32⟩ : BufTy).Contents (Elt F)),
    binary main_v75 main_v76 main_v77 (mulf : (⟨S50000x128, .f32⟩ : BufTy).Contents (Elt F) → (⟨S50000x128, .f32⟩ : BufTy).Contents (Elt F) → (⟨S50000x128, .f32⟩ : BufTy).Contents (Elt F)),
    unary main_arg2 main_v78 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v78 main_v79 rfl shapeCasts_S1x128x128_S128x128,
    unary main_v79 main_v80 ((transpose S128x128 [1, 0] · transposes_S128x128_S128x128_1_0) : (⟨S128x128, .f32⟩ : BufTy).Contents (Elt F) → (⟨S128x128, .f32⟩ : BufTy).Contents (Elt F)),
    binary main_v77 main_v80 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v82 ((extractStridedSlice S1x128 ![1, 0] · slices_S3x128_S1x128_1_0) : (⟨S3x128, .f32⟩ : BufTy).Contents (Elt F) → (⟨S1x128, .f32⟩ : BufTy).Contents (Elt F)),
    reshape main_v82 main_v83 rfl shapeCasts_S1x128_S128,
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v81 main_v85 main_v86 (addf : (⟨S50000x128, .f32⟩ : BufTy).Contents (Elt F) → (⟨S50000x128, .f32⟩ : BufTy).Contents (Elt F) → (⟨S50000x128, .f32⟩ : BufTy).Contents (Elt F)),
    unary main_arg4 main_v87 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v87 main_v88 rfl shapeCasts_S1x128x128_S128x128,
    unary main_v88 main_v89 ((transpose S128x128 [1, 0] · transposes_S128x128_S128x128_1_0) : (⟨S128x128, .f32⟩ : BufTy).Contents (Elt F) → (⟨S128x128, .f32⟩ : BufTy).Contents (Elt F)),
    binary main_v65 main_v89 main_v90 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v86 main_v90 main_v91 (addf : (⟨S50000x128, .f32⟩ : BufTy).Contents (Elt F) → (⟨S50000x128, .f32⟩ : BufTy).Contents (Elt F) → (⟨S50000x128, .f32⟩ : BufTy).Contents (Elt F)) ]

/-- 33 operations of @main, in order (through the value held in `main_v99`). -/
abbrev opsB2a : List (HloOp τ sig (Elt F)) :=
  [ nullary main_cst_14 (constant S_ .f32 0x00000000#32),
    binary main_v91 main_cst_14 main_v92 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_15 (constant S_ .f32 0x47435000#32),
    unary main_cst_15 main_v93 (broadcastInDim S128 ![] bcast_S_S128 : (⟨S_, .f32⟩ : BufTy).Contents (Elt F) → (⟨S128, .f32⟩ : BufTy).Contents (Elt F)),
    binary main_v92 main_v93 main_v94 (Host.divf : (⟨S128, .f32⟩ : BufTy).Contents (Elt F) → (⟨S128, .f32⟩ : BufTy).Contents (Elt F) → (⟨S128, .f32⟩ : BufTy).Contents (Elt F)),
    nullary main_c_16 (constantI S_ 32 0#32),
    TRef.nullary main_call3.cst (constant S_ .f32 0x00000000#32),
    TRef.binary (.of main_v91) main_call3.cst main_call3.v0 (fun x v => Host.reduceAdd x v reducesTo_S50000x128_S128_d0 h_S_),
    TRef.unary main_call3.v0 main_call3.v1 (broadcastInDim S1x128 ![1] bcast_S128_S1x128_1),
    TRef.nullary main_call3.cst_0 (constant S_ .f32 0x47435000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S50000x128 ![0, 1] bcast_S1x128_S50000x128_0_1),
    TRef.binary (.of main_v91) main_call3.v4 main_call3.v5 subf,
    TRef.binary main_call3.v5 main_call3.v5 main_call3.v6 mulf,
    TRef.unary (.of main_c_16) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v94 main_v96 (broadcastInDim S1x128 ![1] bcast_S128_S1x128_1 : (⟨S128, .f32⟩ : BufTy).Contents (Elt F) → (⟨S1x128, .f32⟩ : BufTy).Contents (Elt F)),
    unary main_v96 main_v97 (broadcastInDim S50000x128 ![0, 1] bcast_S1x128_S50000x128_0_1 : (⟨S1x128, .f32⟩ : BufTy).Contents (Elt F) → (⟨S50000x128, .f32⟩ : BufTy).Contents (Elt F)),
    binary main_v91 main_v97 main_v98 (subf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x3727C5AC#32),
    unary main_cst_17 main_v99 (broadcastInDim S128 ![] bcast_S_S128 : (⟨S_, .f32⟩ : BufTy).Contents (Elt F) → (⟨S128, .f32⟩ : BufTy).Contents (Elt F)) ]

/-- 18 operations of @main, in order (through the value held in `main_v115`). -/
abbrev opsB2b : List (HloOp τ sig (Elt F)) :=
  [ binary main_v95 main_v99 main_v100 (addf : (⟨S128, .f32⟩ : BufTy).Contents (Elt F) → (⟨S128, .f32⟩ : BufTy).Contents (Elt F) → (⟨S128, .f32⟩ : BufTy).Contents (Elt F)),
    unary main_v100 main_v101 (Host.rsqrt : (⟨S128, .f32⟩ : BufTy).Contents (Elt F) → (⟨S128, .f32⟩ : BufTy).Contents (Elt F)),
    unary main_v101 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v98 main_v103 main_v104 (mulf : (⟨S50000x128, .f32⟩ : BufTy).Contents (Elt F) → (⟨S50000x128, .f32⟩ : BufTy).Contents (Elt F) → (⟨S50000x128, .f32⟩ : BufTy).Contents (Elt F)),
    unary main_arg5 main_v105 ((extractStridedSlice S1x128 ![1, 0] · slices_S3x128_S1x128_1_0) : (⟨S3x128, .f32⟩ : BufTy).Contents (Elt F) → (⟨S1x128, .f32⟩ : BufTy).Contents (Elt F)),
    reshape main_v105 main_v106 rfl shapeCasts_S1x128_S128,
    unary main_v106 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v104 main_v108 main_v109 (mulf : (⟨S50000x128, .f32⟩ : BufTy).Contents (Elt F) → (⟨S50000x128, .f32⟩ : BufTy).Contents (Elt F) → (⟨S50000x128, .f32⟩ : BufTy).Contents (Elt F)),
    unary main_arg6 main_v110 ((extractStridedSlice S1x128 ![1, 0] · slices_S3x128_S1x128_1_0) : (⟨S3x128, .f32⟩ : BufTy).Contents (Elt F) → (⟨S1x128, .f32⟩ : BufTy).Contents (Elt F)),
    reshape main_v110 main_v111 rfl shapeCasts_S1x128_S128,
    unary main_v111 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v109 main_v113 main_v114 (addf : (⟨S50000x128, .f32⟩ : BufTy).Contents (Elt F) → (⟨S50000x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary (.of main_v114) main_call4.v0 main_call4.v1 maximumf ]

/-- 29 operations of @main, in order (through the value held in `main_v141`). -/
abbrev opsA3 : List (HloOp τ sig (Elt F)) :=
  [ nullary main_c_18 (constantI S_ 32 0#32),
    unary main_c_18 main_v116 (broadcastInDim S1600000 ![] bcast_S_S1600000 : (⟨S_, .i32⟩ : BufTy).Contents (Elt F) → (⟨S1600000, .i32⟩ : BufTy).Contents (Elt F)),
    binary main_v1 main_v116 main_v117 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 50000#32),
    unary main_c_19 main_v118 (broadcastInDim S1600000 ![] bcast_S_S1600000 : (⟨S_, .i32⟩ : BufTy).Contents (Elt F) → (⟨S1600000, .i32⟩ : BufTy).Contents (Elt F)),
    binary main_v1 main_v118 main_v119 (addi : (⟨S1600000, .i32⟩ : BufTy).Contents (Elt F) → (⟨S1600000, .i32⟩ : BufTy).Contents (Elt F) → (⟨S1600000, .i32⟩ : BufTy).Contents (Elt F)),
    ternary main_v117 main_v119 main_v1 main_v120 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v120 main_v121 (broadcastInDim S1600000x1 ![0] bcast_S1600000_S1600000x1_0 : (⟨S1600000, .i32⟩ : BufTy).Contents (Elt F) → (⟨S1600000x1, .i32⟩ : BufTy).Contents (Elt F)),
    binary main_v115 main_v121 main_v122 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst_20 (constant S_ .f32 0x00000000#32),
    unary main_cst_20 main_v123 (broadcastInDim S50000x128 ![] bcast_S_S50000x128 : (⟨S_, .f32⟩ : BufTy).Contents (Elt F) → (⟨S50000x128, .f32⟩ : BufTy).Contents (Elt F)),
    unary main_v3 main_v124 (broadcastInDim S1600000x1 ![0] bcast_S1600000_S1600000x1_0 : (⟨S1600000, .i32⟩ : BufTy).Contents (Elt F) → (⟨S1600000x1, .i32⟩ : BufTy).Contents (Elt F)),
    ternary main_v123 main_v124 main_v122 main_v125 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_v15 main_v126 (broadcastInDim S50000x128 ![0, 1] bcast_S50000x1_S50000x128_0_1 : (⟨S50000x1, .f32⟩ : BufTy).Contents (Elt F) → (⟨S50000x128, .f32⟩ : BufTy).Contents (Elt F)),
    binary main_v125 main_v126 main_v127 (mulf : (⟨S50000x128, .f32⟩ : BufTy).Contents (Elt F) → (⟨S50000x128, .f32⟩ : BufTy).Contents (Elt F) → (⟨S50000x128, .f32⟩ : BufTy).Contents (Elt F)),
    unary main_arg2 main_v128 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v128 main_v129 rfl shapeCasts_S1x128x128_S128x128,
    unary main_v129 main_v130 ((transpose S128x128 [1, 0] · transposes_S128x128_S128x128_1_0) : (⟨S128x128, .f32⟩ : BufTy).Contents (Elt F) → (⟨S128x128, .f32⟩ : BufTy).Contents (Elt F)),
    binary main_v127 main_v130 main_v131 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v132 ((extractStridedSlice S1x128 ![2, 0] · slices_S3x128_S1x128_2_0) : (⟨S3x128, .f32⟩ : BufTy).Contents (Elt F) → (⟨S1x128, .f32⟩ : BufTy).Contents (Elt F)),
    reshape main_v132 main_v133 rfl shapeCasts_S1x128_S128,
    unary main_v133 main_v134 (broadcastInDim S1x128 ![1] bcast_S128_S1x128_1 : (⟨S128, .f32⟩ : BufTy).Contents (Elt F) → (⟨S1x128, .f32⟩ : BufTy).Contents (Elt F)),
    unary main_v134 main_v135 (broadcastInDim S50000x128 ![0, 1] bcast_S1x128_S50000x128_0_1 : (⟨S1x128, .f32⟩ : BufTy).Contents (Elt F) → (⟨S50000x128, .f32⟩ : BufTy).Contents (Elt F)),
    binary main_v131 main_v135 main_v136 (addf : (⟨S50000x128, .f32⟩ : BufTy).Contents (Elt F) → (⟨S50000x128, .f32⟩ : BufTy).Contents (Elt F) → (⟨S50000x128, .f32⟩ : BufTy).Contents (Elt F)),
    unary main_arg4 main_v137 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v137 main_v138 rfl shapeCasts_S1x128x128_S128x128,
    unary main_v138 main_v139 ((transpose S128x128 [1, 0] · transposes_S128x128_S128x128_1_0) : (⟨S128x128, .f32⟩ : BufTy).Contents (Elt F) → (⟨S128x128, .f32⟩ : BufTy).Contents (Elt F)),
    binary main_v115 main_v139 main_v140 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v136 main_v140 main_v141 (addf : (⟨S50000x128, .f32⟩ : BufTy).Contents (Elt F) → (⟨S50000x128, .f32⟩ : BufTy).Contents (Elt F) → (⟨S50000x128, .f32⟩ : BufTy).Contents (Elt F)) ]

/-- 36 operations of @main, in order (through the value held in `main_v152`). -/
abbrev opsB3a : List (HloOp τ sig (Elt F)) :=
  [ nullary main_cst_21 (constant S_ .f32 0x00000000#32),
    binary main_v141 main_cst_21 main_v142 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_22 (constant S_ .f32 0x47435000#32),
    unary main_cst_22 main_v143 (broadcastInDim S128 ![] bcast_S_S128 : (⟨S_, .f32⟩ : BufTy).Contents (Elt F) → (⟨S128, .f32⟩ : BufTy).Contents (Elt F)),
    binary main_v142 main_v143 main_v144 (Host.divf : (⟨S128, .f32⟩ : BufTy).Contents (Elt F) → (⟨S128, .f32⟩ : BufTy).Contents (Elt F) → (⟨S128, .f32⟩ : BufTy).Contents (Elt F)),
    nullary main_c_23 (constantI S_ 32 0#32),
    TRef.nullary main_call5.cst (constant S_ .f32 0x00000000#32),
    TRef.binary (.of main_v141) main_call5.cst main_call5.v0 (fun x v => Host.reduceAdd x v reducesTo_S50000x128_S128_d0 h_S_),
    TRef.unary main_call5.v0 main_call5.v1 (broadcastInDim S1x128 ![1] bcast_S128_S1x128_1),
    TRef.nullary main_call5.cst_0 (constant S_ .f32 0x47435000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S50000x128 ![0, 1] bcast_S1x128_S50000x128_0_1),
    TRef.binary (.of main_v141) main_call5.v4 main_call5.v5 subf,
    TRef.binary main_call5.v5 main_call5.v5 main_call5.v6 mulf,
    TRef.unary (.of main_c_23) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b),
    unary main_v144 main_v146 (broadcastInDim S1x128 ![1] bcast_S128_S1x128_1 : (⟨S128, .f32⟩ : BufTy).Contents (Elt F) → (⟨S1x128, .f32⟩ : BufTy).Contents (Elt F)),
    unary main_v146 main_v147 (broadcastInDim S50000x128 ![0, 1] bcast_S1x128_S50000x128_0_1 : (⟨S1x128, .f32⟩ : BufTy).Contents (Elt F) → (⟨S50000x128, .f32⟩ : BufTy).Contents (Elt F)),
    binary main_v141 main_v147 main_v148 (subf : (⟨S50000x128, .f32⟩ : BufTy).Contents (Elt F) → (⟨S50000x128, .f32⟩ : BufTy).Contents (Elt F) → (⟨S50000x128, .f32⟩ : BufTy).Contents (Elt F)),
    nullary main_cst_24 (constant S_ .f32 0x3727C5AC#32),
    unary main_cst_24 main_v149 (broadcastInDim S128 ![] bcast_S_S128 : (⟨S_, .f32⟩ : BufTy).Contents (Elt F) → (⟨S128, .f32⟩ : BufTy).Contents (Elt F)),
    binary main_v145 main_v149 main_v150 (addf : (⟨S128, .f32⟩ : BufTy).Contents (Elt F) → (⟨S128, .f32⟩ : BufTy).Contents (Elt F) → (⟨S128, .f32⟩ : BufTy).Contents (Elt F)),
    unary main_v150 main_v151 (Host.rsqrt : (⟨S128, .f32⟩ : BufTy).Contents (Elt F) → (⟨S128, .f32⟩ : BufTy).Contents (Elt F)),
    unary main_v151 main_v152 (broadcastInDim S1x128 ![1] bcast_S128_S1x128_1 : (⟨S128, .f32⟩ : BufTy).Contents (Elt F) → (⟨S1x128, .f32⟩ : BufTy).Contents (Elt F)) ]

/-- 15 operations of @main, in order (through the value held in `main_v165`). -/
abbrev opsB3b : List (HloOp τ sig (Elt F)) :=
  [ unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v148 main_v153 main_v154 (mulf : (⟨S50000x128, .f32⟩ : BufTy).Contents (Elt F) → (⟨S50000x128, .f32⟩ : BufTy).Contents (Elt F) → (⟨S50000x128, .f32⟩ : BufTy).Contents (Elt F)),
    unary main_arg5 main_v155 ((extractStridedSlice S1x128 ![2, 0] · slices_S3x128_S1x128_2_0) : (⟨S3x128, .f32⟩ : BufTy).Contents (Elt F) → (⟨S1x128, .f32⟩ : BufTy).Contents (Elt F)),
    reshape main_v155 main_v156 rfl shapeCasts_S1x128_S128,
    unary main_v156 main_v157 (broadcastInDim S1x128 ![1] bcast_S128_S1x128_1 : (⟨S128, .f32⟩ : BufTy).Contents (Elt F) → (⟨S1x128, .f32⟩ : BufTy).Contents (Elt F)),
    unary main_v157 main_v158 (broadcastInDim S50000x128 ![0, 1] bcast_S1x128_S50000x128_0_1 : (⟨S1x128, .f32⟩ : BufTy).Contents (Elt F) → (⟨S50000x128, .f32⟩ : BufTy).Contents (Elt F)),
    binary main_v154 main_v158 main_v159 (mulf : (⟨S50000x128, .f32⟩ : BufTy).Contents (Elt F) → (⟨S50000x128, .f32⟩ : BufTy).Contents (Elt F) → (⟨S50000x128, .f32⟩ : BufTy).Contents (Elt F)),
    unary main_arg6 main_v160 ((extractStridedSlice S1x128 ![2, 0] · slices_S3x128_S1x128_2_0) : (⟨S3x128, .f32⟩ : BufTy).Contents (Elt F) → (⟨S1x128, .f32⟩ : BufTy).Contents (Elt F)),
    reshape main_v160 main_v161 rfl shapeCasts_S1x128_S128,
    unary main_v161 main_v162 (broadcastInDim S1x128 ![1] bcast_S128_S1x128_1 : (⟨S128, .f32⟩ : BufTy).Contents (Elt F) → (⟨S1x128, .f32⟩ : BufTy).Contents (Elt F)),
    unary main_v162 main_v163 (broadcastInDim S50000x128 ![0, 1] bcast_S1x128_S50000x128_0_1 : (⟨S1x128, .f32⟩ : BufTy).Contents (Elt F) → (⟨S50000x128, .f32⟩ : BufTy).Contents (Elt F)),
    binary main_v159 main_v163 main_v164 (addf : (⟨S50000x128, .f32⟩ : BufTy).Contents (Elt F) → (⟨S50000x128, .f32⟩ : BufTy).Contents (Elt F) → (⟨S50000x128, .f32⟩ : BufTy).Contents (Elt F)),
    TRef.nullary main_call6.cst (constant S_ .f32 0x00000000#32),
    TRef.unary main_call6.cst main_call6.v0 (broadcastInDim S50000x128 ![] bcast_S_S50000x128),
    TRef.binary (.of main_v164) main_call6.v0 main_call6.v1 maximumf ]

/-- All of @main's operations, in order. -/
abbrev ops : List (HloOp τ sig (Elt F)) :=
  opsP ++ (opsA1 ++ (opsB1a ++ (opsB1b ++ (opsA2 ++ (opsB2a ++ (opsB2b ++ (opsA3 ++ (opsB3a ++ (opsB3b)))))))))

set_option maxRecDepth 8192 in
set_option maxHeartbeats 4000000 in
/-- The first window of @main is its stretches run in order: the functions' bodies unfolded at their calls, both
    sides are one chain of operations once sequencing is reassociated. -/
theorem main_part0_eq (c : Dev nD) : main_part0 (F := F) c = (seq opsP >>= fun _ => seq opsA1 >>= fun _ => seq opsB1a : Prog (TpuEff nD τ sig (Elt F) (Pipeline.Sig Λ₀ (Fin 0) fun p => (pcfgs (F := F) p).Adm) .tc) PUnit) := by
  simp only [main_part0, fn_where.body, fn_var.body, fn_where_0.body, opsP, opsA1, opsB1a, seq, bind_assoc, pure_bind]
  rfl

set_option maxRecDepth 8192 in
set_option maxHeartbeats 4000000 in
/-- The second window of @main is its stretches run in order: the functions' bodies unfolded at their calls, both
    sides are one chain of operations once sequencing is reassociated. -/
theorem main_part1_eq (c : Dev nD) : main_part1 (F := F) c = (seq opsB1b >>= fun _ => seq opsA2 >>= fun _ => seq opsB2a : Prog (TpuEff nD τ sig (Elt F) (Pipeline.Sig Λ₀ (Fin 0) fun p => (pcfgs (F := F) p).Adm) .tc) PUnit) := by
  simp only [main_part1, fn_relu.body, fn_var.body, fn_where_0.body, opsB1b, opsA2, opsB2a, seq, bind_assoc, pure_bind]
  rfl

set_option maxRecDepth 8192 in
set_option maxHeartbeats 4000000 in
/-- The third window of @main is its stretches run in order: the functions' bodies unfolded at their calls, both
    sides are one chain of operations once sequencing is reassociated. -/
theorem main_part2_eq (c : Dev nD) : main_part2 (F := F) c = (seq opsB2b >>= fun _ => seq opsA3 >>= fun _ => seq opsB3a : Prog (TpuEff nD τ sig (Elt F) (Pipeline.Sig Λ₀ (Fin 0) fun p => (pcfgs (F := F) p).Adm) .tc) PUnit) := by
  simp only [main_part2, fn_relu.body, fn_var.body, fn_where_0.body, opsB2b, opsA3, opsB3a, seq, bind_assoc, pure_bind]
  rfl

set_option maxRecDepth 8192 in
set_option maxHeartbeats 4000000 in
/-- The fourth window of @main is its stretches run in order: the functions' bodies unfolded at their calls, both
    sides are one chain of operations once sequencing is reassociated. -/
theorem main_part3_eq (c : Dev nD) : main_part3 (F := F) c = (seq opsB3b : Prog (TpuEff nD τ sig (Elt F) (Pipeline.Sig Λ₀ (Fin 0) fun p => (pcfgs (F := F) p).Adm) .tc) PUnit) := by
  simp only [main_part3, fn_relu.body, opsB3b, seq, bind_assoc, pure_bind]

set_option maxRecDepth 8192 in
/-- @main is its operations run in order. -/
theorem main_eq (c : Dev nD) : main (F := F) c = seq ops := by
  simp only [ops, seq_append, main, main_part0_eq, main_part1_eq, main_part2_eq, main_part3_eq, bind_assoc]

theorem scopedRefs_eq : (Finset.univ.filter fun b : Ref sig .tc => b.isScoped) = ∅ := by decide
theorem scopedSems_eq : (Finset.univ.filter fun sm : SemLoc sig => sm.isScoped .tc) = ∅ := by decide

theorem opsP_sub : (opsP : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub ..⟩

theorem opsA1_sub : (opsA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub ..⟩

theorem opsB1a_sub : (opsB1a : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub ..⟩

theorem opsB1b_sub : (opsB1b : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem opsA2_sub : (opsA2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub ..⟩

theorem opsB2a_sub : (opsB2a : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

theorem opsB2b_sub : (opsB2b : List (HloOp τ sig (Elt F))).Forall fun op => op.bufs ⊆ tcRefs τ sig :=
  ⟨binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem opsA3_sub : (opsA3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub ..⟩

theorem opsB3a_sub : (opsB3a : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub ..⟩

theorem opsB3b_sub : (opsB3b : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- Every operation touches only buffers of the TensorCore. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp opsP_sub op h, List.forall_iff_forall_mem.mp opsA1_sub op h, List.forall_iff_forall_mem.mp opsB1a_sub op h, List.forall_iff_forall_mem.mp opsB1b_sub op h, List.forall_iff_forall_mem.mp opsA2_sub op h, List.forall_iff_forall_mem.mp opsB2a_sub op h, List.forall_iff_forall_mem.mp opsB2b_sub op h, List.forall_iff_forall_mem.mp opsA3_sub op h, List.forall_iff_forall_mem.mp opsB3a_sub op h, List.forall_iff_forall_mem.mp opsB3b_sub op h]

end Cert.ReferenceIdeal.RefRun

end
-- ==== Proof.RRaw.lean ====
/-
  The reference program's stages as functions of arrays, spelt with the program's own host operations.

  `srcRaw`, `dstRaw`: the two rows of the edge array as vectors. `invDegRaw`: the inverse in-degree column (ones
  scatter-added along the target row give the degree; one over the degree clamped below at one where the degree is
  positive, zero elsewhere). `aggRaw`: the rows of the features gathered at the sign-wrapped source entries and
  scatter-added into zeros along the target row. `linRaw l`: layer `l`'s linear stage, the neighbours' product with
  the bias first and the node's own product last. `meanRaw`, `varRaw`: the column mean and the column variance (the
  mean of the squared deviations, taken when the divisor is positive). `normRaw l`: the normalisation with layer `l`'s
  scale and shift, clamped below at zero. `layerRaw l` composes them.
-/
import proofs.«179303_j4578435137604_2_alg».proof.Proof.Gen.ReferenceIdeal

noncomputable section

namespace Cert.ReferenceIdeal.RefRaw

open Cert.ReferenceIdeal Cert.ReferenceIdeal.Gen Idealize.ShloMosaic

variable {F : FTy → Type} [FloatOps F]

/-- The source row of the edge array, as a vector. -/
def srcRaw (ei : IVec S2x1600000 32) : IVec S1600000 32 :=
  shapeCast S1600000 (extractStridedSlice S1x1600000 ![0, 0] ei slices_S2x1600000_S1x1600000_0_0) shapeCasts_S1x1600000_S1600000

/-- The target row of the edge array, as a vector. -/
def dstRaw (ei : IVec S2x1600000 32) : IVec S1600000 32 :=
  shapeCast S1600000 (extractStridedSlice S1x1600000 ![1, 0] ei slices_S2x1600000_S1x1600000_1_0) shapeCasts_S1x1600000_S1600000

/-- The in-degree of every node: ones scatter-added into zeros along the target row. -/
def degRaw (ei : IVec S2x1600000 32) : FVec F S50000 .f32 :=
  Host.scatterAdd scatter_S50000_S1600000x1_S1600000_n_0_0_1
    (broadcastInDim S50000 ![] bcast_S_S50000 (constant S_ .f32 0x00000000#32))
    (broadcastInDim S1600000x1 ![0] bcast_S1600000_S1600000x1_0 (dstRaw ei))
    (broadcastInDim S1600000 ![] bcast_S_S1600000 (constant S_ .f32 0x3F800000#32))

/-- The inverse in-degree column: one over the degree clamped below at one where the degree is positive, else zero. -/
def invDegRaw (ei : IVec S2x1600000 32) : FVec F S50000x1 .f32 :=
  broadcastInDim S50000x1 ![0] bcast_S50000_S50000x1_0
    (select (cmpf .ogt (degRaw (F := F) ei) (broadcastInDim S50000 ![] bcast_S_S50000 (constant S_ .f32 0x00000000#32)))
      (Host.divf (broadcastInDim S50000 ![] bcast_S_S50000 (constant S_ .f32 0x3F800000#32))
        (maximumf (degRaw (F := F) ei) (broadcastInDim S50000 ![] bcast_S_S50000 (constant S_ .f32 0x3F800000#32))))
      (broadcastInDim S50000 ![] bcast_S_S50000 (constant S_ .f32 0x00000000#32)))

/-- The neighbour aggregation: rows of `h` gathered at the sign-wrapped source entries, scatter-added into zeros along
    the target row. -/
def aggRaw (ei : IVec S2x1600000 32) (h : FVec F S50000x128 .f32) : FVec F S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 (dstRaw ei))
    (Host.gather gather_S50000x128_S1600000x1_S1600000x128_1_0_n_n_0_1_1128 h
      (broadcastInDim S1600000x1 ![0] bcast_S1600000_S1600000x1_0
        (select (cmpi .slt (srcRaw ei) (broadcastInDim S1600000 ![] bcast_S_S1600000 (constantI S_ 32 0#32)))
          (addi (srcRaw ei) (broadcastInDim S1600000 ![] bcast_S_S1600000 (constantI S_ 32 50000#32)))
          (srcRaw ei))))

/-- Layer `l`'s weight matrix out of a stacked array, transposed. -/
def wMat (l : Nat) (hW : S3x128x128.Slices ![l, 0, 0] S1x128x128) (W : FVec F S3x128x128 .f32) : FVec F S128x128 .f32 :=
  transpose S128x128 [1, 0]
    (shapeCast S128x128 (extractStridedSlice S1x128x128 ![l, 0, 0] W hW) shapeCasts_S1x128x128_S128x128)
    transposes_S128x128_S128x128_1_0

/-- A vector laid out as a row and repeated down the rows. -/
def rowsOf (v : FVec F S128 .f32) : FVec F S50000x128 .f32 :=
  broadcastInDim S50000x128 ![0, 1] bcast_S1x128_S50000x128_0_1 (broadcastInDim S1x128 ![1] bcast_S128_S1x128_1 v)

/-- Layer `l`'s row out of a stacked array, repeated down the rows. -/
def rowBc (l : Nat) (hv : S3x128.Slices ![l, 0] S1x128) (v : FVec F S3x128 .f32) : FVec F S50000x128 .f32 :=
  rowsOf (shapeCast S128 (extractStridedSlice S1x128 ![l, 0] v hv) shapeCasts_S1x128_S128)

/-- Layer `l`'s linear stage. -/
def linRaw (l : Nat) (hW : S3x128x128.Slices ![l, 0, 0] S1x128x128) (hv : S3x128.Slices ![l, 0] S1x128)
    (agg h : FVec F S50000x128 .f32) (d : FVec F S50000x1 .f32)
    (Wl : FVec F S3x128x128 .f32) (bl : FVec F S3x128 .f32) (Wr : FVec F S3x128x128 .f32) : FVec F S50000x128 .f32 :=
  addf
    (addf
      (Host.dotGeneral dot_S50000x128_S128x128_S50000x128_1_0_0_1_n_n none
        (mulf agg (broadcastInDim S50000x128 ![0, 1] bcast_S50000x1_S50000x128_0_1 d)) (wMat l hW Wl))
      (rowBc l hv bl))
    (Host.dotGeneral dot_S50000x128_S128x128_S50000x128_1_0_0_1_n_n none h (wMat l hW Wr))

/-- The column sums divided by the number of rows. -/
def meanRaw (o : FVec F S50000x128 .f32) : FVec F S128 .f32 :=
  Host.divf (Host.reduceAdd o (constant S_ .f32 0x00000000#32) reducesTo_S50000x128_S128_d0 h_S_)
    (broadcastInDim S128 ![] bcast_S_S128 (constant S_ .f32 0x47435000#32))

/-- The number of rows less the (zero) degrees of freedom. -/
def divisorRaw : FVec F S_ .f32 :=
  subf (constant S_ .f32 0x47435000#32) (sitofp .f32 (constantI S_ 32 0#32))

/-- The deviations from the column mean (the mean formed as a row). -/
def devRaw (o : FVec F S50000x128 .f32) : FVec F S50000x128 .f32 :=
  subf o
    (broadcastInDim S50000x128 ![0, 1] bcast_S1x128_S50000x128_0_1
      (Host.divf
        (broadcastInDim S1x128 ![1] bcast_S128_S1x128_1 (Host.reduceAdd o (constant S_ .f32 0x00000000#32) reducesTo_S50000x128_S128_d0 h_S_))
        (broadcastInDim S1x128 ![] bcast_S_S1x128 (constant S_ .f32 0x47435000#32))))

/-- The column variance: the sum of the squared deviations over the divisor when the divisor is positive. -/
def varRaw (o : FVec F S50000x128 .f32) : FVec F S128 .f32 :=
  select (broadcastInDim S128 ![] bcast_S_S128 (cmpf .ogt (divisorRaw (F := F)) (constant S_ .f32 0x00000000#32)))
    (Host.divf
      (Host.reduceAdd (mulf (devRaw o) (devRaw o)) (constant S_ .f32 0x00000000#32) reducesTo_S50000x128_S128_d0 h_S_)
      (broadcastInDim S128 ![] bcast_S_S128 (divisorRaw (F := F))))
    (broadcastInDim S128 ![] bcast_S_S128 (constant S_ .f32 0x7FC00000#32))

/-- One over the square root of the variance plus ε. -/
def istdRaw (o : FVec F S50000x128 .f32) : FVec F S128 .f32 :=
  Host.rsqrt (addf (varRaw o) (broadcastInDim S128 ![] bcast_S_S128 (constant S_ .f32 0x3727C5AC#32)))

/-- The normalisation with layer `l`'s scale and shift, clamped below at zero. -/
def normRaw (l : Nat) (hv : S3x128.Slices ![l, 0] S1x128) (o : FVec F S50000x128 .f32) (g be : FVec F S3x128 .f32) :
    FVec F S50000x128 .f32 :=
  maximumf
    (addf (mulf (mulf (subf o (rowsOf (meanRaw o))) (rowsOf (istdRaw o))) (rowBc l hv g)) (rowBc l hv be))
    (broadcastInDim S50000x128 ![] bcast_S_S50000x128 (constant S_ .f32 0x00000000#32))

/-- Layer `l`, from the features `h`. -/
def layerRaw (l : Nat) (hW : S3x128x128.Slices ![l, 0, 0] S1x128x128) (hv : S3x128.Slices ![l, 0] S1x128)
    (ei : IVec S2x1600000 32) (Wl : FVec F S3x128x128 .f32) (bl : FVec F S3x128 .f32) (Wr : FVec F S3x128x128 .f32)
    (g be : FVec F S3x128 .f32) (h : FVec F S50000x128 .f32) : FVec F S50000x128 .f32 :=
  normRaw l hv (linRaw l hW hv (aggRaw ei h) h (invDegRaw ei) Wl bl Wr) g be

end Cert.ReferenceIdeal.RefRaw

end
-- ==== Proof.RRunVal.lean ====
/-
  The reference program's run, read stretch by stretch: the contents of the buffers still needed after each stretch of
  operations, as the raw stages (RRaw) of the launch contents; and from these the run itself — every weakly fair
  execution of @main terminates with the result buffer at the three raw layers composed and the arguments unchanged.
-/
import proofs.«179303_j4578435137604_2_alg».proof.Proof.RRunOps
import proofs.«179303_j4578435137604_2_alg».proof.Proof.RRaw
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option Elab.async false

open Cert.ReferenceIdeal.RefRaw in
section

/-- The first layer's linear stage, of the contents `V0` of the argument buffers. -/
def lin1 (V0 : Valuation τ sig (Elt F)) : FVec F S50000x128 .f32 :=
  RefRaw.linRaw 0 slices_S3x128x128_S1x128x128_0_0_0 slices_S3x128_S1x128_0_0 (RefRaw.aggRaw (V0 (Proc.devRef .tc main_arg1)) (V0 (Proc.devRef .tc main_arg0))) (V0 (Proc.devRef .tc main_arg0)) (RefRaw.invDegRaw (V0 (Proc.devRef .tc main_arg1))) (V0 (Proc.devRef .tc main_arg2)) (V0 (Proc.devRef .tc main_arg3)) (V0 (Proc.devRef .tc main_arg4))
/-- The first layer's output. -/
def h1 (V0 : Valuation τ sig (Elt F)) : FVec F S50000x128 .f32 := RefRaw.normRaw 0 slices_S3x128_S1x128_0_0 (lin1 V0) (V0 (Proc.devRef .tc main_arg5)) (V0 (Proc.devRef .tc main_arg6))
/-- The second layer's linear stage. -/
def lin2 (V0 : Valuation τ sig (Elt F)) : FVec F S50000x128 .f32 :=
  RefRaw.linRaw 1 slices_S3x128x128_S1x128x128_1_0_0 slices_S3x128_S1x128_1_0 (RefRaw.aggRaw (V0 (Proc.devRef .tc main_arg1)) (h1 V0)) (h1 V0) (RefRaw.invDegRaw (V0 (Proc.devRef .tc main_arg1))) (V0 (Proc.devRef .tc main_arg2)) (V0 (Proc.devRef .tc main_arg3)) (V0 (Proc.devRef .tc main_arg4))
/-- The second layer's output. -/
def h2 (V0 : Valuation τ sig (Elt F)) : FVec F S50000x128 .f32 := RefRaw.normRaw 1 slices_S3x128_S1x128_1_0 (lin2 V0) (V0 (Proc.devRef .tc main_arg5)) (V0 (Proc.devRef .tc main_arg6))
/-- The third layer's linear stage. -/
def lin3 (V0 : Valuation τ sig (Elt F)) : FVec F S50000x128 .f32 :=
  RefRaw.linRaw 2 slices_S3x128x128_S1x128x128_2_0_0 slices_S3x128_S1x128_2_0 (RefRaw.aggRaw (V0 (Proc.devRef .tc main_arg1)) (h2 V0)) (h2 V0) (RefRaw.invDegRaw (V0 (Proc.devRef .tc main_arg1))) (V0 (Proc.devRef .tc main_arg2)) (V0 (Proc.devRef .tc main_arg3)) (V0 (Proc.devRef .tc main_arg4))
/-- The third layer's output. -/
def h3 (V0 : Valuation τ sig (Elt F)) : FVec F S50000x128 .f32 := RefRaw.normRaw 2 slices_S3x128_S1x128_2_0 (lin3 V0) (V0 (Proc.devRef .tc main_arg5)) (V0 (Proc.devRef .tc main_arg6))

/-- The buffers' contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl

/-- The buffers' contents after the first 1 stretch. -/
def val1 (V0 : Valuation τ sig (Elt F)) : Valuation τ sig (Elt F) := after opsP (val0 V0)
/-- The buffers that stretch `opsP` writes. -/
abbrev opsP_W : List (Ref sig .tc) := [main_v0, main_v1, main_v2, main_v3, main_cst, main_v4, main_cst_0, main_v5, main_v6, main_v7, main_cst_1, main_v8, main_v9, main_cst_2, main_v10, main_v11, main_cst_3, main_v12, main_v13, main_cst_4, main_call0_v0, main_call0_v1, main_v14, main_v15]
set_option maxRecDepth 8192 in
theorem opsP_writes : (opsP : List (HloOp τ sig (Elt F))).Forall fun op => op.writes ⊆ (opsP_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `opsP` does not write keeps its contents through it. -/
theorem val1_keep (V0 : Valuation τ sig (Elt F)) (r : Ref sig .tc) (h : r ∉ opsP_W) :
    val1 V0 (Proc.devRef .tc r) = val0 V0 (Proc.devRef .tc r) :=
  after_of_writes_sub opsP _ opsP_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
set_option maxRecDepth 8192 in
set_option maxHeartbeats 4000000 in
theorem val1_main_v1 (V0 : Valuation τ sig (Elt F)) : val1 V0 (no_index (Proc.devRef .tc main_v1)) = RefRaw.srcRaw (V0 (Proc.devRef .tc main_arg1)) := by
  unfold val1
  simp only [opsP]
  after_results_simp
  simp only [val0_main_arg1]
  rfl
set_option maxRecDepth 8192 in
set_option maxHeartbeats 4000000 in
theorem val1_main_v3 (V0 : Valuation τ sig (Elt F)) : val1 V0 (no_index (Proc.devRef .tc main_v3)) = RefRaw.dstRaw (V0 (Proc.devRef .tc main_arg1)) := by
  unfold val1
  simp only [opsP]
  after_results_simp
  simp only [val0_main_arg1]
  rfl
set_option maxRecDepth 8192 in
set_option maxHeartbeats 4000000 in
theorem val1_main_v15 (V0 : Valuation τ sig (Elt F)) : val1 V0 (no_index (Proc.devRef .tc main_v15)) = RefRaw.invDegRaw (V0 (Proc.devRef .tc main_arg1)) := by
  unfold val1
  simp only [opsP]
  after_results_simp
  simp only [val0_main_arg1]
  rfl

/-- The buffers' contents after the first 2 stretches. -/
def val2 (V0 : Valuation τ sig (Elt F)) : Valuation τ sig (Elt F) := after opsA1 (val1 V0)
/-- The buffers that stretch `opsA1` writes. -/
abbrev opsA1_W : List (Ref sig .tc) := [main_c, main_v16, main_v17, main_c_5, main_v18, main_v19, main_v20, main_v21, main_v22, main_cst_6, main_v23, main_v24, main_v25, main_v26, main_v27, main_v28, main_v29, main_v30, main_v31, main_v32, main_v33, main_v34, main_v35, main_v36, main_v37, main_v38, main_v39, main_v40, main_v41]
set_option maxRecDepth 8192 in
theorem opsA1_writes : (opsA1 : List (HloOp τ sig (Elt F))).Forall fun op => op.writes ⊆ (opsA1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `opsA1` does not write keeps its contents through it. -/
theorem val2_keep (V0 : Valuation τ sig (Elt F)) (r : Ref sig .tc) (h : r ∉ opsA1_W) :
    val2 V0 (Proc.devRef .tc r) = val1 V0 (Proc.devRef .tc r) :=
  after_of_writes_sub opsA1 _ opsA1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_v1 (V0 : Valuation τ sig (Elt F)) : val2 V0 (no_index (Proc.devRef .tc main_v1)) = RefRaw.srcRaw (V0 (Proc.devRef .tc main_arg1)) :=
  (val2_keep V0 main_v1 (by decide)).trans (val1_main_v1 V0)
theorem val2_main_v3 (V0 : Valuation τ sig (Elt F)) : val2 V0 (no_index (Proc.devRef .tc main_v3)) = RefRaw.dstRaw (V0 (Proc.devRef .tc main_arg1)) :=
  (val2_keep V0 main_v3 (by decide)).trans (val1_main_v3 V0)
theorem val2_main_v15 (V0 : Valuation τ sig (Elt F)) : val2 V0 (no_index (Proc.devRef .tc main_v15)) = RefRaw.invDegRaw (V0 (Proc.devRef .tc main_arg1)) :=
  (val2_keep V0 main_v15 (by decide)).trans (val1_main_v15 V0)
set_option maxRecDepth 8192 in
set_option maxHeartbeats 4000000 in
theorem val2_main_v41 (V0 : Valuation τ sig (Elt F)) : val2 V0 (no_index (Proc.devRef .tc main_v41)) = lin1 V0 := by
  unfold val2
  simp only [opsA1]
  after_results_simp
  simp only [val1_main_arg4, val1_main_arg0, val1_main_arg3, val1_main_arg2, val1_main_v15, val1_main_v1, val1_main_v3]
  rfl

/-- The buffers' contents after the first 3 stretches. -/
def val3 (V0 : Valuation τ sig (Elt F)) : Valuation τ sig (Elt F) := after opsB1a (val2 V0)
/-- The buffers that stretch `opsB1a` writes. -/
abbrev opsB1a_W : List (Ref sig .tc) := [main_cst_7, main_v42, main_cst_8, main_v43, main_v44, main_c_9, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v45, main_v46, main_v47]
set_option maxRecDepth 8192 in
theorem opsB1a_writes : (opsB1a : List (HloOp τ sig (Elt F))).Forall fun op => op.writes ⊆ (opsB1a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `opsB1a` does not write keeps its contents through it. -/
theorem val3_keep (V0 : Valuation τ sig (Elt F)) (r : Ref sig .tc) (h : r ∉ opsB1a_W) :
    val3 V0 (Proc.devRef .tc r) = val2 V0 (Proc.devRef .tc r) :=
  after_of_writes_sub opsB1a _ opsB1a_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_v1 (V0 : Valuation τ sig (Elt F)) : val3 V0 (no_index (Proc.devRef .tc main_v1)) = RefRaw.srcRaw (V0 (Proc.devRef .tc main_arg1)) :=
  (val3_keep V0 main_v1 (by decide)).trans (val2_main_v1 V0)
theorem val3_main_v3 (V0 : Valuation τ sig (Elt F)) : val3 V0 (no_index (Proc.devRef .tc main_v3)) = RefRaw.dstRaw (V0 (Proc.devRef .tc main_arg1)) :=
  (val3_keep V0 main_v3 (by decide)).trans (val2_main_v3 V0)
theorem val3_main_v15 (V0 : Valuation τ sig (Elt F)) : val3 V0 (no_index (Proc.devRef .tc main_v15)) = RefRaw.invDegRaw (V0 (Proc.devRef .tc main_arg1)) :=
  (val3_keep V0 main_v15 (by decide)).trans (val2_main_v15 V0)
theorem val3_main_v41 (V0 : Valuation τ sig (Elt F)) : val3 V0 (no_index (Proc.devRef .tc main_v41)) = lin1 V0 :=
  (val3_keep V0 main_v41 (by decide)).trans (val2_main_v41 V0)
set_option maxRecDepth 8192 in
set_option maxHeartbeats 4000000 in
theorem val3_main_v45 (V0 : Valuation τ sig (Elt F)) : val3 V0 (no_index (Proc.devRef .tc main_v45)) = RefRaw.varRaw (lin1 V0) := by
  unfold val3
  simp only [opsB1a]
  after_results_simp
  simp only [val2_main_v41]
  rfl
set_option maxRecDepth 8192 in
set_option maxHeartbeats 4000000 in
theorem val3_main_v47 (V0 : Valuation τ sig (Elt F)) : val3 V0 (no_index (Proc.devRef .tc main_v47)) = RefRaw.rowsOf (RefRaw.meanRaw (lin1 V0)) := by
  unfold val3
  simp only [opsB1a]
  after_results_simp
  simp only [val2_main_v41]
  rfl

/-- The buffers' contents after the first 4 stretches. -/
def val4 (V0 : Valuation τ sig (Elt F)) : Valuation τ sig (Elt F) := after opsB1b (val3 V0)
/-- The buffers that stretch `opsB1b` writes. -/
abbrev opsB1b_W : List (Ref sig .tc) := [main_v48, main_cst_10, main_v49, main_v50, main_v51, main_v52, main_v53, main_v54, main_v55, main_v56, main_v57, main_v58, main_v59, main_v60, main_v61, main_v62, main_v63, main_v64, main_call2_cst, main_call2_v0, main_v65]
set_option maxRecDepth 8192 in
theorem opsB1b_writes : (opsB1b : List (HloOp τ sig (Elt F))).Forall fun op => op.writes ⊆ (opsB1b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `opsB1b` does not write keeps its contents through it. -/
theorem val4_keep (V0 : Valuation τ sig (Elt F)) (r : Ref sig .tc) (h : r ∉ opsB1b_W) :
    val4 V0 (Proc.devRef .tc r) = val3 V0 (Proc.devRef .tc r) :=
  after_of_writes_sub opsB1b _ opsB1b_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_v1 (V0 : Valuation τ sig (Elt F)) : val4 V0 (no_index (Proc.devRef .tc main_v1)) = RefRaw.srcRaw (V0 (Proc.devRef .tc main_arg1)) :=
  (val4_keep V0 main_v1 (by decide)).trans (val3_main_v1 V0)
theorem val4_main_v3 (V0 : Valuation τ sig (Elt F)) : val4 V0 (no_index (Proc.devRef .tc main_v3)) = RefRaw.dstRaw (V0 (Proc.devRef .tc main_arg1)) :=
  (val4_keep V0 main_v3 (by decide)).trans (val3_main_v3 V0)
theorem val4_main_v15 (V0 : Valuation τ sig (Elt F)) : val4 V0 (no_index (Proc.devRef .tc main_v15)) = RefRaw.invDegRaw (V0 (Proc.devRef .tc main_arg1)) :=
  (val4_keep V0 main_v15 (by decide)).trans (val3_main_v15 V0)
set_option maxRecDepth 8192 in
set_option maxHeartbeats 4000000 in
theorem val4_main_v65 (V0 : Valuation τ sig (Elt F)) : val4 V0 (no_index (Proc.devRef .tc main_v65)) = h1 V0 := by
  unfold val4
  simp only [opsB1b]
  after_results_simp
  simp only [val3_main_arg6, val3_main_arg5, val3_main_v45, val3_main_v47, val3_main_v41]
  rfl

/-- The buffers' contents after the first 5 stretches. -/
def val5 (V0 : Valuation τ sig (Elt F)) : Valuation τ sig (Elt F) := after opsA2 (val4 V0)
/-- The buffers that stretch `opsA2` writes. -/
abbrev opsA2_W : List (Ref sig .tc) := [main_c_11, main_v66, main_v67, main_c_12, main_v68, main_v69, main_v70, main_v71, main_v72, main_cst_13, main_v73, main_v74, main_v75, main_v76, main_v77, main_v78, main_v79, main_v80, main_v81, main_v82, main_v83, main_v84, main_v85, main_v86, main_v87, main_v88, main_v89, main_v90, main_v91]
set_option maxRecDepth 8192 in
theorem opsA2_writes : (opsA2 : List (HloOp τ sig (Elt F))).Forall fun op => op.writes ⊆ (opsA2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `opsA2` does not write keeps its contents through it. -/
theorem val5_keep (V0 : Valuation τ sig (Elt F)) (r : Ref sig .tc) (h : r ∉ opsA2_W) :
    val5 V0 (Proc.devRef .tc r) = val4 V0 (Proc.devRef .tc r) :=
  after_of_writes_sub opsA2 _ opsA2_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_v1 (V0 : Valuation τ sig (Elt F)) : val5 V0 (no_index (Proc.devRef .tc main_v1)) = RefRaw.srcRaw (V0 (Proc.devRef .tc main_arg1)) :=
  (val5_keep V0 main_v1 (by decide)).trans (val4_main_v1 V0)
theorem val5_main_v3 (V0 : Valuation τ sig (Elt F)) : val5 V0 (no_index (Proc.devRef .tc main_v3)) = RefRaw.dstRaw (V0 (Proc.devRef .tc main_arg1)) :=
  (val5_keep V0 main_v3 (by decide)).trans (val4_main_v3 V0)
theorem val5_main_v15 (V0 : Valuation τ sig (Elt F)) : val5 V0 (no_index (Proc.devRef .tc main_v15)) = RefRaw.invDegRaw (V0 (Proc.devRef .tc main_arg1)) :=
  (val5_keep V0 main_v15 (by decide)).trans (val4_main_v15 V0)
set_option maxRecDepth 8192 in
set_option maxHeartbeats 4000000 in
theorem val5_main_v91 (V0 : Valuation τ sig (Elt F)) : val5 V0 (no_index (Proc.devRef .tc main_v91)) = lin2 V0 := by
  unfold val5
  simp only [opsA2]
  after_results_simp
  simp only [val4_main_arg4, val4_main_v65, val4_main_arg3, val4_main_arg2, val4_main_v15, val4_main_v1, val4_main_v3]
  rfl

/-- The buffers' contents after the first 6 stretches. -/
def val6 (V0 : Valuation τ sig (Elt F)) : Valuation τ sig (Elt F) := after opsB2a (val5 V0)
/-- The buffers that stretch `opsB2a` writes. -/
abbrev opsB2a_W : List (Ref sig .tc) := [main_cst_14, main_v92, main_cst_15, main_v93, main_v94, main_c_16, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v95, main_v96, main_v97, main_v98, main_cst_17, main_v99]
set_option maxRecDepth 8192 in
theorem opsB2a_writes : (opsB2a : List (HloOp τ sig (Elt F))).Forall fun op => op.writes ⊆ (opsB2a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `opsB2a` does not write keeps its contents through it. -/
theorem val6_keep (V0 : Valuation τ sig (Elt F)) (r : Ref sig .tc) (h : r ∉ opsB2a_W) :
    val6 V0 (Proc.devRef .tc r) = val5 V0 (Proc.devRef .tc r) :=
  after_of_writes_sub opsB2a _ opsB2a_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_v1 (V0 : Valuation τ sig (Elt F)) : val6 V0 (no_index (Proc.devRef .tc main_v1)) = RefRaw.srcRaw (V0 (Proc.devRef .tc main_arg1)) :=
  (val6_keep V0 main_v1 (by decide)).trans (val5_main_v1 V0)
theorem val6_main_v3 (V0 : Valuation τ sig (Elt F)) : val6 V0 (no_index (Proc.devRef .tc main_v3)) = RefRaw.dstRaw (V0 (Proc.devRef .tc main_arg1)) :=
  (val6_keep V0 main_v3 (by decide)).trans (val5_main_v3 V0)
theorem val6_main_v15 (V0 : Valuation τ sig (Elt F)) : val6 V0 (no_index (Proc.devRef .tc main_v15)) = RefRaw.invDegRaw (V0 (Proc.devRef .tc main_arg1)) :=
  (val6_keep V0 main_v15 (by decide)).trans (val5_main_v15 V0)
set_option maxRecDepth 8192 in
set_option maxHeartbeats 4000000 in
theorem val6_main_v95 (V0 : Valuation τ sig (Elt F)) : val6 V0 (no_index (Proc.devRef .tc main_v95)) = RefRaw.varRaw (lin2 V0) := by
  unfold val6
  simp only [opsB2a]
  after_results_simp
  simp only [val5_main_v91]
  rfl
set_option maxRecDepth 8192 in
set_option maxHeartbeats 4000000 in
theorem val6_main_v98 (V0 : Valuation τ sig (Elt F)) : val6 V0 (no_index (Proc.devRef .tc main_v98)) = subf (lin2 V0) (RefRaw.rowsOf (RefRaw.meanRaw (lin2 V0))) := by
  unfold val6
  simp only [opsB2a]
  after_results_simp
  simp only [val5_main_v91]
  rfl
set_option maxRecDepth 8192 in
set_option maxHeartbeats 4000000 in
theorem val6_main_v99 (V0 : Valuation τ sig (Elt F)) : val6 V0 (no_index (Proc.devRef .tc main_v99)) = broadcastInDim S128 ![] bcast_S_S128 (constant S_ .f32 0x3727C5AC#32) := by
  unfold val6
  simp only [opsB2a]
  after_results_simp

/-- The buffers' contents after the first 7 stretches. -/
def val7 (V0 : Valuation τ sig (Elt F)) : Valuation τ sig (Elt F) := after opsB2b (val6 V0)
/-- The buffers that stretch `opsB2b` writes. -/
abbrev opsB2b_W : List (Ref sig .tc) := [main_v100, main_v101, main_v102, main_v103, main_v104, main_v105, main_v106, main_v107, main_v108, main_v109, main_v110, main_v111, main_v112, main_v113, main_v114, main_call4_cst, main_call4_v0, main_v115]
set_option maxRecDepth 8192 in
theorem opsB2b_writes : (opsB2b : List (HloOp τ sig (Elt F))).Forall fun op => op.writes ⊆ (opsB2b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `opsB2b` does not write keeps its contents through it. -/
theorem val7_keep (V0 : Valuation τ sig (Elt F)) (r : Ref sig .tc) (h : r ∉ opsB2b_W) :
    val7 V0 (Proc.devRef .tc r) = val6 V0 (Proc.devRef .tc r) :=
  after_of_writes_sub opsB2b _ opsB2b_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_v1 (V0 : Valuation τ sig (Elt F)) : val7 V0 (no_index (Proc.devRef .tc main_v1)) = RefRaw.srcRaw (V0 (Proc.devRef .tc main_arg1)) :=
  (val7_keep V0 main_v1 (by decide)).trans (val6_main_v1 V0)
theorem val7_main_v3 (V0 : Valuation τ sig (Elt F)) : val7 V0 (no_index (Proc.devRef .tc main_v3)) = RefRaw.dstRaw (V0 (Proc.devRef .tc main_arg1)) :=
  (val7_keep V0 main_v3 (by decide)).trans (val6_main_v3 V0)
theorem val7_main_v15 (V0 : Valuation τ sig (Elt F)) : val7 V0 (no_index (Proc.devRef .tc main_v15)) = RefRaw.invDegRaw (V0 (Proc.devRef .tc main_arg1)) :=
  (val7_keep V0 main_v15 (by decide)).trans (val6_main_v15 V0)
set_option maxRecDepth 8192 in
set_option maxHeartbeats 3600000 in
theorem val7_main_v115 (V0 : Valuation τ sig (Elt F)) : val7 V0 (no_index (Proc.devRef .tc main_v115)) = h2 V0 := by
  unfold val7
  simp only [opsB2b]
  after_results_simp
  simp only [val6_main_arg6, val6_main_arg5, val6_main_v99, val6_main_v95, val6_main_v98]
  rfl

/-- The buffers' contents after the first 8 stretches. -/
def val8 (V0 : Valuation τ sig (Elt F)) : Valuation τ sig (Elt F) := after opsA3 (val7 V0)
/-- The buffers that stretch `opsA3` writes. -/
abbrev opsA3_W : List (Ref sig .tc) := [main_c_18, main_v116, main_v117, main_c_19, main_v118, main_v119, main_v120, main_v121, main_v122, main_cst_20, main_v123, main_v124, main_v125, main_v126, main_v127, main_v128, main_v129, main_v130, main_v131, main_v132, main_v133, main_v134, main_v135, main_v136, main_v137, main_v138, main_v139, main_v140, main_v141]
set_option maxRecDepth 8192 in
theorem opsA3_writes : (opsA3 : List (HloOp τ sig (Elt F))).Forall fun op => op.writes ⊆ (opsA3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `opsA3` does not write keeps its contents through it. -/
theorem val8_keep (V0 : Valuation τ sig (Elt F)) (r : Ref sig .tc) (h : r ∉ opsA3_W) :
    val8 V0 (Proc.devRef .tc r) = val7 V0 (Proc.devRef .tc r) :=
  after_of_writes_sub opsA3 _ opsA3_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
set_option maxRecDepth 8192 in
set_option maxHeartbeats 4000000 in
theorem val8_main_v141 (V0 : Valuation τ sig (Elt F)) : val8 V0 (no_index (Proc.devRef .tc main_v141)) = lin3 V0 := by
  unfold val8
  simp only [opsA3]
  after_results_simp
  simp only [val7_main_arg4, val7_main_v115, val7_main_arg3, val7_main_arg2, val7_main_v15, val7_main_v1, val7_main_v3]
  rfl

/-- The buffers' contents after the first 9 stretches. -/
def val9 (V0 : Valuation τ sig (Elt F)) : Valuation τ sig (Elt F) := after opsB3a (val8 V0)
/-- The buffers that stretch `opsB3a` writes. -/
abbrev opsB3a_W : List (Ref sig .tc) := [main_cst_21, main_v142, main_cst_22, main_v143, main_v144, main_c_23, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v145, main_v146, main_v147, main_v148, main_cst_24, main_v149, main_v150, main_v151, main_v152]
set_option maxRecDepth 8192 in
theorem opsB3a_writes : (opsB3a : List (HloOp τ sig (Elt F))).Forall fun op => op.writes ⊆ (opsB3a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `opsB3a` does not write keeps its contents through it. -/
theorem val9_keep (V0 : Valuation τ sig (Elt F)) (r : Ref sig .tc) (h : r ∉ opsB3a_W) :
    val9 V0 (Proc.devRef .tc r) = val8 V0 (Proc.devRef .tc r) :=
  after_of_writes_sub opsB3a _ opsB3a_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
set_option maxRecDepth 8192 in
set_option maxHeartbeats 4000000 in
theorem val9_main_v148 (V0 : Valuation τ sig (Elt F)) : val9 V0 (no_index (Proc.devRef .tc main_v148)) = subf (lin3 V0) (RefRaw.rowsOf (RefRaw.meanRaw (lin3 V0))) := by
  unfold val9
  simp only [opsB3a]
  after_results_simp
  simp only [val8_main_v141]
  rfl
set_option maxRecDepth 8192 in
set_option maxHeartbeats 4000000 in
theorem val9_main_v152 (V0 : Valuation τ sig (Elt F)) : val9 V0 (no_index (Proc.devRef .tc main_v152)) = broadcastInDim S1x128 ![1] bcast_S128_S1x128_1 (RefRaw.istdRaw (lin3 V0)) := by
  unfold val9
  simp only [opsB3a]
  after_results_simp
  simp only [val8_main_v141]
  rfl

/-- The buffers' contents after the first 10 stretches. -/
def val10 (V0 : Valuation τ sig (Elt F)) : Valuation τ sig (Elt F) := after opsB3b (val9 V0)
/-- The buffers that stretch `opsB3b` writes. -/
abbrev opsB3b_W : List (Ref sig .tc) := [main_v153, main_v154, main_v155, main_v156, main_v157, main_v158, main_v159, main_v160, main_v161, main_v162, main_v163, main_v164, main_call6_cst, main_call6_v0, main_v165]
set_option maxRecDepth 8192 in
theorem opsB3b_writes : (opsB3b : List (HloOp τ sig (Elt F))).Forall fun op => op.writes ⊆ (opsB3b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch `opsB3b` does not write keeps its contents through it. -/
theorem val10_keep (V0 : Valuation τ sig (Elt F)) (r : Ref sig .tc) (h : r ∉ opsB3b_W) :
    val10 V0 (Proc.devRef .tc r) = val9 V0 (Proc.devRef .tc r) :=
  after_of_writes_sub opsB3b _ opsB3b_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
set_option maxRecDepth 8192 in
set_option maxHeartbeats 3000000 in
theorem val10_main_v165 (V0 : Valuation τ sig (Elt F)) : val10 V0 (no_index (Proc.devRef .tc main_v165)) = h3 V0 := by
  unfold val10
  simp only [opsB3b]
  after_results_simp
  simp only [val9_main_arg6, val9_main_arg5, val9_main_v152, val9_main_v148]
  rfl

/-- The contents after all of @main's operations are those after the ten stretches. -/
theorem after_ops (V0 : Valuation τ sig (Elt F)) : after ops V0 = val10 V0 := by
  simp only [ops, StableHlo.after_append]
  rfl

/-- On every device, for any float values, from any memory with zero counters: every weakly fair execution of @main
    terminates with the result buffer at the three raw layers composed over the launch contents of the arguments, and
    the arguments unchanged. -/
theorem run0 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v165) = h3 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v165).trans (by simp only [after_ops]; exact val10_main_v165 (launchContents m c)),
      (h c main_arg0).trans (by simp only [after_ops]; exact val10_main_arg0 (launchContents m c)),
      (h c main_arg1).trans (by simp only [after_ops]; exact val10_main_arg1 (launchContents m c)),
      (h c main_arg2).trans (by simp only [after_ops]; exact val10_main_arg2 (launchContents m c)),
      (h c main_arg3).trans (by simp only [after_ops]; exact val10_main_arg3 (launchContents m c)),
      (h c main_arg4).trans (by simp only [after_ops]; exact val10_main_arg4 (launchContents m c)),
      (h c main_arg5).trans (by simp only [after_ops]; exact val10_main_arg5 (launchContents m c)),
      (h c main_arg6).trans (by simp only [after_ops]; exact val10_main_arg6 (launchContents m c))⟩)
    (run_seq scopedRefs_eq scopedSems_eq defs main (fun _ => ops) main_eq (fun _ => ops_sub) m ρ)

end

end Cert.ReferenceIdeal.RefRun

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibHostColumns.lean ====
/-
  Three readings of host operations over the extended reals.

  * The host's sum down the columns of a matrix (a `reduce` with an add body over axis 0 and a scalar
    initial value), at column `c`: the initial value plus `∑ k, v (k, c)`.
  * A `select` on the bit of an ordered comparison is the `if` on that comparison.
  * The integer zero converted to a float is zero.
-/
import proofs.«179303_j4578435137604_2_alg».proof.Proof.LibAxisZero
import Idealize.ShloMosaic.PureOps.Ideal.Laws
import Idealize.ShloMosaic.Lib.ValueIdx

noncomputable section

open scoped BigOperators

open Idealize.ShloMosaic Idealize.ShloMosaic.ValueIdx

namespace Cert.LibHostColumns

/-- The host's sum down the columns at `c`: the initial value plus the sum over the column. -/
theorem hostColSum_apply {m n : ℕ} (v : FVec Ideal (⟨2, ![m, n]⟩ : Shape) .f32) (init : (⟨0, ![]⟩ : Shape).Idx → EReal)
    (h' : (⟨2, ![m, n]⟩ : Shape).ReducesTo [0] (⟨1, ![n]⟩ : Shape))
    (hu : 0 < (⟨0, ![]⟩ : Shape).numel) (c : Fin n) :
    Host.reduceAdd (F := Ideal) (φ := .f32) v init h' hu (ix1 c) = init (Shape.Idx.first hu) + ∑ k : Fin m, v (ix2 k c) := by
  have h : (⟨2, ![m, n]⟩ : Shape).Reduces [0] (⟨1, ![n]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.LibAxisZero.lift_col h c k)

/-- A `select` on "`z ≤ y`" is the `if`. -/
theorem select_oge {α : Type} (y z : EReal) (a b : α) :
    Scalar.select (FloatOps.cmpf (F := Ideal) (φ := .f32) .oge y z) a b = if z ≤ y then a else b := by
  show (if Ideal.cmp .oge y z = 1 then a else b) = _
  unfold Ideal.cmp
  by_cases h : z ≤ y <;> simp [h]

/-- A `select` on "`z < y`" is the `if`. -/
theorem select_ogt {α : Type} (y z : EReal) (a b : α) :
    Scalar.select (FloatOps.cmpf (F := Ideal) (φ := .f32) .ogt y z) a b = if z < y then a else b := by
  show (if Ideal.cmp .ogt y z = 1 then a else b) = _
  unfold Ideal.cmp
  by_cases h : z < y <;> simp [h]

/-- The 32-bit integer zero, converted, is the real zero. -/
theorem sitofp_zero : FloatOps.sitofp (F := Ideal) .f32 (0#32 : BitVec 32) = (0 : EReal) := by
  show (((0#32 : BitVec 32).toInt : ℝ) : EReal) = 0
  simp

end Cert.LibHostColumns

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«179303_j4578435137604_2_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.LibRowBroadcast.lean ====
/-
  A vector laid out as a row and repeated down the rows, read at an entry.

  A length-`N` vector `v` made a `[1, N]` row — by a reshape, or by a broadcast along a new leading axis — has
  `v c` at `(0, c)`; the row repeated down `M` rows has `v c` at `(r, c)`. (For `N = 1` the repeated axis and
  the kept axis could not be told apart by their extents, hence the side condition.)
-/
import Idealize.ShloMosaic.Lib.ValueIdx
import Idealize.ShloMosaic.Lib.Pipeline.Value

noncomputable section

namespace Cert.LibRowBroadcast

open Idealize.ShloMosaic Idealize.ShloMosaic.ValueIdx

variable {α : Type}

/-- A vector reshaped to a `[1, N]` row, at `(0, c)`. -/
theorem row_cast {N : Nat} (v : (⟨1, ![N]⟩ : Shape).Idx → α) (h : (⟨1, ![N]⟩ : Shape).ShapeCasts ⟨2, ![1, N]⟩) (c : Fin N) :
    shapeCast ⟨2, ![1, N]⟩ v h (ix2 0 c) = v (ix1 c) :=
  shapeCast_apply v h (ix2 0 c) (ix1 c) (by
    rw [Shape.rowMajor_val_one, Shape.rowMajor_val_two]; show c.val = 0 * N + c.val; omega)

/-- A vector broadcast to a `[1, N]` row along a new leading axis, at `(0, c)`. -/
theorem row_bcast {N : Nat} (v : (⟨1, ![N]⟩ : Shape).Idx → α)
    (h : (⟨1, ![N]⟩ : Shape).BroadcastsInDim ⟨2, ![1, N]⟩ ![1]) (c : Fin N) :
    broadcastInDim ⟨2, ![1, N]⟩ ![1] h v (ix2 0 c) = v (ix1 c) :=
  broadcastInDim_apply ![1] h v (ix2 0 c) (ix1 c) (fun a => match a with
    | ⟨0, _⟩ => by
      show c.val = (if N = 1 then 0 else c.val)
      split
      · have := c.isLt; omega
      · rfl)

/-- A `[1, N]` row repeated down `M` rows, at `(r, c)`. -/
theorem rows_bcast {M N : Nat} (hN : N ≠ 1) (w : (⟨2, ![1, N]⟩ : Shape).Idx → α)
    (h : (⟨2, ![1, N]⟩ : Shape).BroadcastsInDim ⟨2, ![M, N]⟩ ![0, 1]) (r : Fin M) (c : Fin N) :
    broadcastInDim ⟨2, ![M, N]⟩ ![0, 1] h w (ix2 r c) = w (ix2 0 c) :=
  broadcastInDim_apply ![0, 1] h w (ix2 r c) (ix2 0 c) (fun a => match a with
    | ⟨0, _⟩ => by show 0 = (if (1 : ℕ) = 1 then 0 else r.val); rw [if_pos rfl]
    | ⟨1, _⟩ => by show c.val = (if N = 1 then 0 else c.val); rw [if_neg hN])

end Cert.LibRowBroadcast

end
-- ==== Proof.RValue.lean ====
/-
  The reference program's raw stages are the specification's, entry by entry, over the extended reals.

  Read at an index: the product of a matrix with a transposed weight slice is the sum over the contracted index;
  a stacked parameter's slice, recast and repeated down the rows, is the parameter's row; the host's sum down a
  column from a zero initial value is the column sum; the quotient by the broadcast node count is the mean; the
  variance function's divisor (the node count less zero) is positive, so its select takes the mean of the squared
  deviations. Hence one raw layer is one layer of the specification in its second form, and the three raw layers
  composed are the specification's network over the raw aggregation and the raw inverse-degree column.
-/
import proofs.«179303_j4578435137604_2_alg».proof.Proof.RRunVal
import proofs.«179303_j4578435137604_2_alg».proof.Proof.Spec
import proofs.«179303_j4578435137604_2_alg».proof.Proof.LibStackedParams
import proofs.«179303_j4578435137604_2_alg».proof.Proof.LibHostColumns
import proofs.«179303_j4578435137604_2_alg».proof.Proof.LibPlainDot
import proofs.«179303_j4578435137604_2_alg».proof.Proof.LibRowBroadcast

noncomputable section

open scoped BigOperators

namespace Cert.ReferenceIdeal.RefValue

open Cert.ReferenceIdeal Cert.ReferenceIdeal.Gen Cert.ReferenceIdeal.RefRaw Idealize.ShloMosaic Idealize.ShloMosaic.ValueIdx
open Idealize.ShloMosaic.TcCoe Idealize.SL.Sem Idealize.ShloMosaic.StableHlo

/-- The word `0x47435000` is the number 50000. -/
theorem nodes_eq : Ideal.ofBits .f32 0x47435000#32 = ((50000 : ℝ) : EReal) := by
  simp [Ideal.ofBits, Ideal.ieee]
  have h : ((12800000 : ℝ) * ((2 : ℝ) ^ 8)⁻¹) = 50000 := by norm_num
  exact_mod_cast h

theorem nodes_pos : (0 : EReal) < Ideal.ofBits .f32 0x47435000#32 := by
  rw [nodes_eq]; exact_mod_cast (by norm_num : (0 : ℝ) < 50000)

/-- A scalar broadcast anywhere reads the scalar. -/
theorem scalar_bcast {α : Type} {t : Shape} (h : S_.BroadcastsInDim t (![] : Fin 0 → Fin t.rank)) (x : S_.Idx → α) (j : t.Idx) :
    broadcastInDim t ![] h x j = x ix0 :=
  broadcastInDim_apply ![] h x j ix0 (fun a => a.elim0)

/-- A vector laid out as a row and repeated down the rows, at `(r, c)`. -/
theorem rowsOf_apply (v : FVec Ideal S128 .f32) (r : Fin 50000) (c : Fin 128) : rowsOf v (ix2 r c) = v (ix1 c) := by
  unfold rowsOf
  exact (Cert.LibRowBroadcast.rows_bcast (by decide) _ _ r c).trans (Cert.LibRowBroadcast.row_bcast _ _ c)

/-- Layer `l`'s row of a stacked array, repeated down the rows, at `(r, c)`. -/
theorem rowBc_apply (l : Nat) (hl : l < 3) (hv : S3x128.Slices ![l, 0] S1x128) (v : FVec Ideal S3x128 .f32)
    (r : Fin 50000) (c : Fin 128) : rowBc l hv v (ix2 r c) = v (ix2 ⟨l, hl⟩ c) := by
  unfold rowBc
  rw [rowsOf_apply]
  exact Cert.LibStackedParams.vector_apply l hl v hv _ c

/-- Layer `l`'s weight matrix, transposed, at `(k, c)`. -/
theorem wMat_apply (l : Nat) (hl : l < 3) (hW : S3x128x128.Slices ![l, 0, 0] S1x128x128) (W : FVec Ideal S3x128x128 .f32)
    (k c : Fin 128) : wMat l hW W (ix2 k c) = W (ix3 ⟨l, hl⟩ c k) := by
  unfold wMat
  refine (transpose_apply [1, 0] _ _ (ix2 k c) (ix2 c k) fun b => ?_).trans
    (Cert.LibStackedParams.matrix_apply l hl W hW _ c k)
  match b with
  | ⟨0, _⟩ => rfl
  | ⟨1, _⟩ => rfl

/-- The inverse-degree column spread along the rows, at `(r, k)`. -/
theorem colBc_apply (d : FVec Ideal S50000x1 .f32) (r : Fin 50000) (k : Fin 128) :
    broadcastInDim S50000x128 ![0, 1] bcast_S50000x1_S50000x128_0_1 d (ix2 r k) = d (ix2 r 0) :=
  broadcastInDim_apply ![0, 1] _ d (ix2 r k) (ix2 r 0) (fun a => match a with
    | ⟨0, _⟩ => by show r.val = (if (50000 : ℕ) = 1 then 0 else r.val); rw [if_neg (by decide)]
    | ⟨1, _⟩ => by show 0 = (if (1 : ℕ) = 1 then 0 else k.val); rw [if_pos rfl])

/-- The linear stage, at `(r, c)`. -/
theorem linRaw_apply (l : Nat) (hl : l < 3) (hW : S3x128x128.Slices ![l, 0, 0] S1x128x128) (hv : S3x128.Slices ![l, 0] S1x128)
    (agg h : FVec Ideal S50000x128 .f32) (d : FVec Ideal S50000x1 .f32)
    (Wl : FVec Ideal S3x128x128 .f32) (bl : FVec Ideal S3x128 .f32) (Wr : FVec Ideal S3x128x128 .f32) :
    linRaw l hW hv agg h d Wl bl Wr
      = Cert.Sage.linR agg h d (Cert.Sage.wOf Wl ⟨l, hl⟩) (Cert.Sage.rowOf bl ⟨l, hl⟩) (Cert.Sage.wOf Wr ⟨l, hl⟩) := by
  funext i
  obtain ⟨r, c, rfl⟩ : ∃ (r : Fin 50000) (c : Fin 128), i = ix2 r c := ⟨i 0, i 1, eq_ix2 i⟩
  show (FloatOps.dotGeneral (F := Ideal) dot_S50000x128_S128x128_S50000x128_1_0_0_1_n_n none .single
          (mulf agg (broadcastInDim S50000x128 ![0, 1] bcast_S50000x1_S50000x128_0_1 d)) (wMat l hW Wl) (ix2 r c)
        + rowBc l hv bl (ix2 r c))
      + FloatOps.dotGeneral (F := Ideal) dot_S50000x128_S128x128_S50000x128_1_0_0_1_n_n none .single h (wMat l hW Wr) (ix2 r c)
    = ((∑ k : Fin 128, (agg (ix2 r k) * d (ix2 r 0)) * Wl (ix3 ⟨l, hl⟩ c k)) + bl (ix2 ⟨l, hl⟩ c))
      + ∑ k : Fin 128, h (ix2 r k) * Wr (ix3 ⟨l, hl⟩ c k)
  rw [Cert.LibPlainDot.dotGeneral_plain_apply _ rfl rfl rfl rfl rfl rfl,
    Cert.LibPlainDot.dotGeneral_plain_apply _ rfl rfl rfl rfl rfl rfl, rowBc_apply l hl]
  refine congrArg₂ (· + ·) (congrArg (· + _) (Finset.sum_congr rfl fun k _ => ?_)) (Finset.sum_congr rfl fun k _ => ?_)
  · rw [wMat_apply l hl]
    show (agg (ix2 r k) * broadcastInDim S50000x128 ![0, 1] bcast_S50000x1_S50000x128_0_1 d (ix2 r k)) * _ = _
    rw [colBc_apply]
  · rw [wMat_apply l hl]

/-- The host's column sum from the zero word, at `c`. -/
theorem colSum_apply (o : FVec Ideal S50000x128 .f32) (c : Fin 128) :
    Host.reduceAdd o (constant S_ .f32 0x00000000#32) reducesTo_S50000x128_S128_d0 h_S_ (ix1 c) = ∑ r : Fin 50000, o (ix2 r c) := by
  rw [Cert.LibHostColumns.hostColSum_apply]
  show Ideal.ofBits .f32 0x00000000#32 + _ = _
  rw [Ideal.ofBits_zero_f32, zero_add]

/-- The raw mean, at `c`. -/
theorem meanRaw_apply (o : FVec Ideal S50000x128 .f32) (c : Fin 128) : meanRaw o (ix1 c) = Cert.Sage.mean o (ix2 0 c) := by
  show Ideal.div (Host.reduceAdd o (constant S_ .f32 0x00000000#32) reducesTo_S50000x128_S128_d0 h_S_ (ix1 c))
      (broadcastInDim S128 ![] bcast_S_S128 (constant (F := Ideal) S_ .f32 0x47435000#32) (ix1 c)) = _
  rw [colSum_apply, scalar_bcast]
  rfl

/-- The deviations from the mean, at `(r, c)`. -/
theorem devRaw_apply (o : FVec Ideal S50000x128 .f32) (r : Fin 50000) (c : Fin 128) :
    devRaw o (ix2 r c) = o (ix2 r c) - Cert.Sage.mean o (ix2 0 c) := by
  show o (ix2 r c) - broadcastInDim S50000x128 ![0, 1] bcast_S1x128_S50000x128_0_1
      (Host.divf (broadcastInDim S1x128 ![1] bcast_S128_S1x128_1
          (Host.reduceAdd o (constant S_ .f32 0x00000000#32) reducesTo_S50000x128_S128_d0 h_S_))
        (broadcastInDim S1x128 ![] bcast_S_S1x128 (constant (F := Ideal) S_ .f32 0x47435000#32))) (ix2 r c) = _
  rw [Cert.LibRowBroadcast.rows_bcast (by decide)]
  show _ - Ideal.div (broadcastInDim S1x128 ![1] bcast_S128_S1x128_1
          (Host.reduceAdd o (constant S_ .f32 0x00000000#32) reducesTo_S50000x128_S128_d0 h_S_) (ix2 0 c))
        (broadcastInDim S1x128 ![] bcast_S_S1x128 (constant (F := Ideal) S_ .f32 0x47435000#32) (ix2 0 c)) = _
  rw [Cert.LibRowBroadcast.row_bcast, colSum_apply, scalar_bcast]
  rfl

/-- The variance function's divisor is the node count. -/
theorem divisorRaw_apply (i : S_.Idx) : divisorRaw (F := Ideal) i = Ideal.ofBits .f32 0x47435000#32 := by
  show Ideal.ofBits .f32 0x47435000#32 - FloatOps.sitofp (F := Ideal) .f32 (0#32 : BitVec 32) = _
  rw [Cert.LibHostColumns.sitofp_zero, sub_zero]

set_option maxRecDepth 8192 in
/-- The raw variance, at `c`: the mean of the squared deviations. -/
theorem varRaw_apply (o : FVec Ideal S50000x128 .f32) (c : Fin 128) :
    varRaw o (ix1 c)
      = Ideal.div (∑ r : Fin 50000, (o (ix2 r c) - Cert.Sage.mean o (ix2 0 c)) * (o (ix2 r c) - Cert.Sage.mean o (ix2 0 c)))
          Cert.Sage.cN := by
  show Scalar.select (broadcastInDim S128 ![] bcast_S_S128
        (cmpf .ogt (divisorRaw (F := Ideal)) (constant S_ .f32 0x00000000#32)) (ix1 c))
      (Ideal.div (Host.reduceAdd (mulf (devRaw o) (devRaw o)) (constant S_ .f32 0x00000000#32) reducesTo_S50000x128_S128_d0 h_S_ (ix1 c))
        (broadcastInDim S128 ![] bcast_S_S128 (divisorRaw (F := Ideal)) (ix1 c)))
      (broadcastInDim S128 ![] bcast_S_S128 (constant (F := Ideal) S_ .f32 0x7FC00000#32) (ix1 c)) = _
  rw [scalar_bcast, scalar_bcast, divisorRaw_apply, colSum_apply]
  show Scalar.select (FloatOps.cmpf (F := Ideal) (φ := .f32) .ogt (divisorRaw (F := Ideal) ix0) (Ideal.ofBits .f32 0x00000000#32)) _ _ = _
  rw [Cert.LibHostColumns.select_ogt, divisorRaw_apply, Ideal.ofBits_zero_f32, if_pos nodes_pos]
  have hs : ∀ r : Fin 50000, mulf (devRaw o) (devRaw o) (ix2 r c)
      = (o (ix2 r c) - Cert.Sage.mean o (ix2 0 c)) * (o (ix2 r c) - Cert.Sage.mean o (ix2 0 c)) := fun r => by
    show devRaw o (ix2 r c) * devRaw o (ix2 r c) = _
    rw [devRaw_apply]
  rw [Finset.sum_congr rfl fun r _ => hs r]

/-- The raw reciprocal standard deviation, at `c`. -/
theorem istdRaw_apply (o : FVec Ideal S50000x128 .f32) (c : Fin 128) : istdRaw o (ix1 c) = Cert.Sage.invstdR o (ix2 0 c) := by
  show Ideal.rsqrt (varRaw o (ix1 c) + broadcastInDim S128 ![] bcast_S_S128 (constant (F := Ideal) S_ .f32 0x3727C5AC#32) (ix1 c)) = _
  rw [varRaw_apply, scalar_bcast]
  rfl

/-- The normalisation, as the specification's. -/
theorem normRaw_eq (l : Nat) (hl : l < 3) (hv : S3x128.Slices ![l, 0] S1x128) (o : FVec Ideal S50000x128 .f32)
    (g be : FVec Ideal S3x128 .f32) :
    normRaw l hv o g be
      = Cert.Sage.norm o (Cert.Sage.mean o) (Cert.Sage.invstdR o) (Cert.Sage.rowOf g ⟨l, hl⟩) (Cert.Sage.rowOf be ⟨l, hl⟩) := by
  funext i
  obtain ⟨r, c, rfl⟩ : ∃ (r : Fin 50000) (c : Fin 128), i = ix2 r c := ⟨i 0, i 1, eq_ix2 i⟩
  show max ((((o (ix2 r c) - rowsOf (meanRaw o) (ix2 r c)) * rowsOf (istdRaw o) (ix2 r c)) * rowBc l hv g (ix2 r c))
        + rowBc l hv be (ix2 r c))
      (broadcastInDim S50000x128 ![] bcast_S_S50000x128 (constant (F := Ideal) S_ .f32 0x00000000#32) (ix2 r c)) = _
  rw [rowsOf_apply, rowsOf_apply, rowBc_apply l hl, rowBc_apply l hl, meanRaw_apply, istdRaw_apply, scalar_bcast]
  rfl

/-- One raw layer is one layer of the specification in its second form. -/
theorem layerRaw_eq (l : Nat) (hl : l < 3) (hW : S3x128x128.Slices ![l, 0, 0] S1x128x128) (hv : S3x128.Slices ![l, 0] S1x128)
    (ei : IVec S2x1600000 32) (Wl : FVec Ideal S3x128x128 .f32) (bl : FVec Ideal S3x128 .f32) (Wr : FVec Ideal S3x128x128 .f32)
    (g be : FVec Ideal S3x128 .f32) (h : FVec Ideal S50000x128 .f32) :
    layerRaw l hW hv ei Wl bl Wr g be h
      = Cert.Sage.layerR (aggRaw ei h) h (invDegRaw (F := Ideal) ei) (Cert.Sage.wOf Wl ⟨l, hl⟩) (Cert.Sage.rowOf bl ⟨l, hl⟩)
          (Cert.Sage.wOf Wr ⟨l, hl⟩) (Cert.Sage.rowOf g ⟨l, hl⟩) (Cert.Sage.rowOf be ⟨l, hl⟩) := by
  unfold layerRaw Cert.Sage.layerR
  rw [linRaw_apply l hl, normRaw_eq l hl]

/-! ### The run, at the specification -/

/-- The neighbour aggregation as the reference's host operations compute it from the edge array and the features:
    the rows of `h` gathered at the (sign-wrapped) source row's entries, scatter-added into zeros along the target row. -/
def aggR (ei : IVec S2x1600000 32) (h : FVec Ideal S50000x128 .f32) : FVec Ideal S50000x128 .f32 :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 (shapeCast S1600000 (extractStridedSlice S1x1600000 ![1, 0] ei slices_S2x1600000_S1x1600000_1_0) shapeCasts_S1x1600000_S1600000))
    (Host.gather gather_S50000x128_S1600000x1_S1600000x128_1_0_n_n_0_1_1128 h
      (broadcastInDim S1600000x1 ![0] bcast_S1600000_S1600000x1_0
        (select (cmpi .slt (shapeCast S1600000 (extractStridedSlice S1x1600000 ![0, 0] ei slices_S2x1600000_S1x1600000_0_0) shapeCasts_S1x1600000_S1600000) (broadcastInDim S1600000 ![] bcast_S_S1600000 (constantI S_ 32 0#32)))
          (addi (shapeCast S1600000 (extractStridedSlice S1x1600000 ![0, 0] ei slices_S2x1600000_S1x1600000_0_0) shapeCasts_S1x1600000_S1600000) (broadcastInDim S1600000 ![] bcast_S_S1600000 (constantI S_ 32 50000#32)))
          (shapeCast S1600000 (extractStridedSlice S1x1600000 ![0, 0] ei slices_S2x1600000_S1x1600000_0_0) shapeCasts_S1x1600000_S1600000))))

/-- The inverse in-degree column `[50000, 1]`, as the reference's host operations compute it from the edge array: ones
    scatter-added into zeros along the target row give the degree; where it is positive, one over the degree clamped
    below at one, elsewhere zero; laid out as a column. -/
def invDegR (ei : IVec S2x1600000 32) : FVec Ideal S50000x1 .f32 :=
  broadcastInDim S50000x1 ![0] bcast_S50000_S50000x1_0
    (select
      (cmpf .ogt
        (Host.scatterAdd scatter_S50000_S1600000x1_S1600000_n_0_0_1
          (broadcastInDim S50000 ![] bcast_S_S50000 (constant (F := Ideal) S_ .f32 0x00000000#32))
          (broadcastInDim S1600000x1 ![0] bcast_S1600000_S1600000x1_0 (shapeCast S1600000 (extractStridedSlice S1x1600000 ![1, 0] ei slices_S2x1600000_S1x1600000_1_0) shapeCasts_S1x1600000_S1600000))
          (broadcastInDim S1600000 ![] bcast_S_S1600000 (constant (F := Ideal) S_ .f32 0x3F800000#32)))
        (broadcastInDim S50000 ![] bcast_S_S50000 (constant (F := Ideal) S_ .f32 0x00000000#32)))
      (Host.divf (broadcastInDim S50000 ![] bcast_S_S50000 (constant (F := Ideal) S_ .f32 0x3F800000#32))
        (maximumf
          (Host.scatterAdd scatter_S50000_S1600000x1_S1600000_n_0_0_1
          (broadcastInDim S50000 ![] bcast_S_S50000 (constant (F := Ideal) S_ .f32 0x00000000#32))
          (broadcastInDim S1600000x1 ![0] bcast_S1600000_S1600000x1_0 (shapeCast S1600000 (extractStridedSlice S1x1600000 ![1, 0] ei slices_S2x1600000_S1x1600000_1_0) shapeCasts_S1x1600000_S1600000))
          (broadcastInDim S1600000 ![] bcast_S_S1600000 (constant (F := Ideal) S_ .f32 0x3F800000#32)))
          (broadcastInDim S50000 ![] bcast_S_S50000 (constant (F := Ideal) S_ .f32 0x3F800000#32))))
      (broadcastInDim S50000 ![] bcast_S_S50000 (constant (F := Ideal) S_ .f32 0x00000000#32)))

theorem aggR_eq (ei : IVec S2x1600000 32) (h : FVec Ideal S50000x128 .f32) : aggRaw (F := Ideal) ei h = aggR ei h := rfl
theorem invDegR_eq (ei : IVec S2x1600000 32) : invDegRaw (F := Ideal) ei = invDegR ei := rfl

/-- The three raw layers composed are the specification's network in its second form, over the raw aggregation and the
    raw inverse-degree column. -/
theorem h3_eq (V0 : Valuation τ sig (Elt Ideal)) :
    RefRun.h3 V0
      = Cert.Sage.net Cert.Sage.layerR (aggR (V0 (Proc.devRef .tc main_arg1))) (invDegR (V0 (Proc.devRef .tc main_arg1)))
          (V0 (Proc.devRef .tc main_arg2)) (V0 (Proc.devRef .tc main_arg3)) (V0 (Proc.devRef .tc main_arg4))
          (V0 (Proc.devRef .tc main_arg5)) (V0 (Proc.devRef .tc main_arg6)) (V0 (Proc.devRef .tc main_arg0)) := by
  have e1 : RefRun.h1 V0 = layerRaw 0 slices_S3x128x128_S1x128x128_0_0_0 slices_S3x128_S1x128_0_0 (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg0)) := rfl
  have e2 : RefRun.h2 V0 = layerRaw 1 slices_S3x128x128_S1x128x128_1_0_0 slices_S3x128_S1x128_1_0 (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (RefRun.h1 V0) := rfl
  have e3 : RefRun.h3 V0 = layerRaw 2 slices_S3x128x128_S1x128x128_2_0_0 slices_S3x128_S1x128_2_0 (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (RefRun.h2 V0) := rfl
  rw [e3, e2, e1, layerRaw_eq 2 (by decide), layerRaw_eq 1 (by decide), layerRaw_eq 0 (by decide)]
  simp only [aggR_eq, invDegR_eq]
  rfl

/-- On every device, from any memory with zero counters: every weakly fair execution of the reference's @main terminates
    with the result buffer at the specification's network in its second form — over the aggregation and the
    inverse-degree column that the host operations compute from the edge array — of the launch contents of the
    arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v165)
        = Cert.Sage.net Cert.Sage.layerR (aggR (m ((c.tc : Thread nD τ).loc main_arg1))) (invDegR (m ((c.tc : Thread nD τ).loc main_arg1)))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (h3_eq (launchContents m c)), (h c).2⟩) (RefRun.run0 m ρ)

end Cert.ReferenceIdeal.RefValue

end
-- ==== Proof.LibVarianceForms.lean ====
/-
  The two ways of forming a variance, over the real numbers and over real numbers read inside the
  extended reals.

  For finitely many reals `f i` (`i ∈ s`, `N` of them, `N ≠ 0`) with mean `m = (Σ f) / N`,

      (Σ (f i − m) · (f i − m)) / N  =  (Σ f i · f i) / N − m · m ,

  and the left side is not negative, so it is also `max ((Σ f i · f i) / N − m · m) 0`. The same is then said
  of extended reals each of which is the coercion of a real, with the quotient by `N` taken by the
  extended-real division: every partial sum is finite, so no infinity is ever met.
-/
import Idealize.ShloMosaic.PureOps.Ideal
import Mathlib.Data.EReal.Operations
import Mathlib.Algebra.BigOperators.Field
import Mathlib.Tactic.Ring
import Mathlib.Tactic.FieldSimp
import Mathlib.Tactic.Linarith

noncomputable section

open scoped BigOperators

open Idealize.ShloMosaic

namespace Cert.LibVarianceForms

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is the coercion of a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- The sum of the squared deviations from `m`, expanded. -/
theorem sum_dev_sq {ι : Type*} (s : Finset ι) (f : ι → ℝ) (m : ℝ) :
    ∑ i ∈ s, (f i - m) * (f i - m)
      = ∑ i ∈ s, f i * f i - 2 * m * ∑ i ∈ s, f i + (s.card : ℝ) * (m * m) := by
  have h : ∀ i, (f i - m) * (f i - m) = f i * f i - 2 * m * f i + m * m := fun i => by ring
  rw [Finset.sum_congr rfl fun i _ => h i, Finset.sum_add_distrib, Finset.sum_sub_distrib, ← Finset.mul_sum,
    Finset.sum_const, nsmul_eq_mul]

/-- Mean of the squared deviations from the mean = mean of the squares minus the squared mean. -/
theorem variance_forms {ι : Type*} (s : Finset ι) (f : ι → ℝ) (N : ℝ) (hN : (s.card : ℝ) = N) (hN0 : N ≠ 0) :
    (∑ i ∈ s, (f i - (∑ i ∈ s, f i) / N) * (f i - (∑ i ∈ s, f i) / N)) / N
      = (∑ i ∈ s, f i * f i) / N - ((∑ i ∈ s, f i) / N) * ((∑ i ∈ s, f i) / N) := by
  rw [sum_dev_sq, hN]
  field_simp
  ring

/-- The mean of squared deviations is not negative. -/
theorem variance_nonneg {ι : Type*} (s : Finset ι) (f : ι → ℝ) (m N : ℝ) (hN : 0 ≤ N) :
    0 ≤ (∑ i ∈ s, (f i - m) * (f i - m)) / N :=
  div_nonneg (Finset.sum_nonneg fun i _ => mul_self_nonneg _) hN

/-- The two variance forms agree on extended reals that are coercions of reals: with
    `mean = (Σ g) / N` (extended-real division by the real `N > 0`, the number of terms),
    `(Σ (g − mean)·(g − mean)) / N = max ((Σ g·g) / N − mean·mean) 0`. -/
theorem ereal_variance_forms {ι : Type*} (s : Finset ι) (g : ι → EReal) (f : ι → ℝ)
    (hg : ∀ i ∈ s, g i = (f i : EReal)) (N : ℝ) (hN : (s.card : ℝ) = N) (hpos : 0 < N) :
    Ideal.div (∑ i ∈ s, (g i - Ideal.div (∑ i ∈ s, g i) (N : EReal)) * (g i - Ideal.div (∑ i ∈ s, g i) (N : EReal))) (N : EReal)
      = max (Ideal.div (∑ i ∈ s, g i * g i) (N : EReal)
              - Ideal.div (∑ i ∈ s, g i) (N : EReal) * Ideal.div (∑ i ∈ s, g i) (N : EReal)) 0 := by
  have hN0 : N ≠ 0 := hpos.ne'
  have hsum : ∑ i ∈ s, g i = ((∑ i ∈ s, f i : ℝ) : EReal) := sum_eq_coe s g f hg
  have hmean : Ideal.div (∑ i ∈ s, g i) (N : EReal) = (((∑ i ∈ s, f i) / N : ℝ) : EReal) := by
    rw [hsum, div_coe_coe hN0]
  have hsq : ∑ i ∈ s, g i * g i = ((∑ i ∈ s, f i * f i : ℝ) : EReal) :=
    sum_eq_coe s _ _ fun i hi => by rw [hg i hi, EReal.coe_mul]
  rw [hmean]
  have hdev : ∑ i ∈ s, (g i - (((∑ i ∈ s, f i) / N : ℝ) : EReal)) * (g i - (((∑ i ∈ s, f i) / N : ℝ) : EReal))
      = ((∑ i ∈ s, (f i - (∑ i ∈ s, f i) / N) * (f i - (∑ i ∈ s, f i) / N) : ℝ) : EReal) :=
    sum_eq_coe s _ _ fun i hi => by rw [hg i hi, ← EReal.coe_sub, ← EReal.coe_mul]
  rw [hdev, hsq, div_coe_coe hN0, div_coe_coe hN0, ← EReal.coe_mul, ← EReal.coe_sub, ← variance_forms s f N hN hN0]
  exact (max_eq_left (EReal.coe_nonneg.mpr (variance_nonneg s f _ N hpos.le))).symm

end Cert.LibVarianceForms

end
-- ==== Proof.Algebra.lean ====
/-
  The two forms of the three-layer network agree on arrays of real numbers.

  The linear stage's two associations agree on all extended reals (addition is commutative and associative
  there). The two variance forms agree once every entry of the stage's output is a real number: then the
  column sums, the mean and both variances are real, the mean of squared deviations is not negative and equals
  the mean of squares minus the squared mean. Realness is carried from layer to layer: the variance plus the
  positive ε is a positive real, its reciprocal square root is a real, and sums, products, differences and
  maxima of reals are real.
-/
import proofs.«179303_j4578435137604_2_alg».proof.Proof.Spec
import proofs.«179303_j4578435137604_2_alg».proof.Proof.LibRealArrays
import proofs.«179303_j4578435137604_2_alg».proof.Proof.LibVarianceForms

noncomputable section

open scoped BigOperators

open Idealize.ShloMosaic Idealize.ShloMosaic.ValueIdx

open Cert.RealArr Cert.LibVarianceForms

namespace Cert.Sage

/-! ### The three constants -/

/-- The word `0x47435000` is the number 50000: `(2^23 + 4411392) · 2^(142 − 127 − 23)`. -/
theorem cN_eq : cN = ((50000 : ℝ) : EReal) := by
  simp [cN, Ideal.ofBits, Ideal.ieee]
  have h : ((12800000 : ℝ) * ((2 : ℝ) ^ 8)⁻¹) = 50000 := by norm_num
  exact_mod_cast h

/-- The word `0x3727C5AC` denotes a positive real. -/
theorem cEps_pos : ∃ e : ℝ, 0 < e ∧ cEps = (e : EReal) := by
  refine ⟨_, ?_, by simp [cEps, Ideal.ofBits, Ideal.ieee, -EReal.coe_mul]; rfl⟩
  positivity

theorem cZero_eq : cZero = 0 := Ideal.ofBits_zero_f32

/-- The coercion of a maximum of reals is the maximum of the coercions (the coercion is monotone). -/
theorem coe_real_max (a b : ℝ) : ((max a b : ℝ) : EReal) = max (a : EReal) (b : EReal) :=
  EReal.coe_strictMono.monotone.map_max

/-- There are 50000 rows. -/
theorem card_rows : ((Finset.univ : Finset (Fin 50000)).card : ℝ) = 50000 := by
  rw [Finset.card_univ, Fintype.card_fin]
  norm_num

/-! ### The linear stage -/

theorem linR_eq_lin (agg h : SN.Idx → EReal) (d : SC.Idx → EReal) (wl : SW.Idx → EReal) (b : SR.Idx → EReal) (wr : SW.Idx → EReal) :
    linR agg h d wl b wr = lin agg h d wl b wr := by
  funext i
  unfold linR lin
  exact add_right_comm _ _ _

theorem isReal_lin {agg h : SN.Idx → EReal} {d : SC.Idx → EReal} {wl : SW.Idx → EReal} {b : SR.Idx → EReal} {wr : SW.Idx → EReal}
    (hagg : IsReal agg) (hh : IsReal h) (hd : IsReal d) (hwl : IsReal wl) (hb : IsReal b) (hwr : IsReal wr) : IsReal (lin agg h d wl b wr) := by
  intro i
  obtain ⟨s1, e1⟩ := sum_real Finset.univ (fun k : Fin 128 => (agg (ix2 (i 0) k) * d (ix2 (i 0) 0)) * wl (ix2 (i 1) k)) fun k _ => by
    obtain ⟨a, ea⟩ := hagg (ix2 (i 0) k)
    obtain ⟨c, ec⟩ := hd (ix2 (i 0) 0)
    obtain ⟨w, ew⟩ := hwl (ix2 (i 1) k)
    exact ⟨a * c * w, by rw [ea, ec, ew, EReal.coe_mul, EReal.coe_mul]⟩
  obtain ⟨s2, e2⟩ := sum_real Finset.univ (fun k : Fin 128 => h (ix2 (i 0) k) * wr (ix2 (i 1) k)) fun k _ => by
    obtain ⟨a, ea⟩ := hh (ix2 (i 0) k)
    obtain ⟨w, ew⟩ := hwr (ix2 (i 1) k)
    exact ⟨a * w, by rw [ea, ew, EReal.coe_mul]⟩
  obtain ⟨c, ec⟩ := hb (ix2 0 (i 1))
  refine ⟨s1 + s2 + c, ?_⟩
  unfold lin
  rw [e1, e2, ec, EReal.coe_add, EReal.coe_add]

/-! ### The column statistics of a real array -/

/-- The column mean of a real array is real. -/
theorem isReal_mean {o : SN.Idx → EReal} (ho : IsReal o) : IsReal (mean o) := by
  intro j
  obtain ⟨s, es⟩ := sum_real Finset.univ (fun r : Fin 50000 => o (ix2 r (j 1))) fun r _ => ho _
  refine ⟨s / 50000, ?_⟩
  unfold mean colSum
  rw [es, cN_eq, div_coe_coe (by norm_num)]

/-- The two variance forms agree on a real array, column by column. -/
theorem var_forms {o : SN.Idx → EReal} (ho : IsReal o) (j : SR.Idx) :
    Ideal.div (∑ r : Fin 50000, (o (ix2 r (j 1)) - mean o j) * (o (ix2 r (j 1)) - mean o j)) cN
      = max (Ideal.div (colSumSq o j) cN - mean o j * mean o j) cZero := by
  choose f hf using fun r : Fin 50000 => ho (ix2 r (j 1))
  unfold mean colSum colSumSq
  rw [cN_eq, cZero_eq]
  exact ereal_variance_forms Finset.univ (fun r : Fin 50000 => o (ix2 r (j 1))) f (fun r _ => hf r) 50000 card_rows
    (by norm_num)

theorem invstdR_eq_invstdK {o : SN.Idx → EReal} (ho : IsReal o) : invstdR o = invstdK o := by
  funext j
  unfold invstdR invstdK
  rw [var_forms ho j]

/-- The clamped variance of a real array is a nonnegative real. -/
theorem var_nonneg_real {o : SN.Idx → EReal} (ho : IsReal o) (j : SR.Idx) :
    ∃ v : ℝ, 0 ≤ v ∧ max (Ideal.div (colSumSq o j) cN - mean o j * mean o j) cZero = (v : EReal) := by
  obtain ⟨q, eq⟩ := sum_real Finset.univ (fun r : Fin 50000 => o (ix2 r (j 1)) * o (ix2 r (j 1))) fun r _ => by
    obtain ⟨a, ea⟩ := ho (ix2 r (j 1))
    exact ⟨a * a, by rw [ea, EReal.coe_mul]⟩
  obtain ⟨m, em⟩ := isReal_mean ho j
  refine ⟨max (q / 50000 - m * m) 0, le_max_right _ _, ?_⟩
  unfold colSumSq
  rw [eq, em, cN_eq, cZero_eq, div_coe_coe (by norm_num), ← EReal.coe_mul, ← EReal.coe_sub, ← EReal.coe_zero]
  exact (coe_real_max _ _).symm

/-- `1 / √(var + ε)` of a real array is real. -/
theorem isReal_invstdK {o : SN.Idx → EReal} (ho : IsReal o) : IsReal (invstdK o) := by
  intro j
  obtain ⟨v, hv, ev⟩ := var_nonneg_real ho j
  obtain ⟨e, he, ee⟩ := cEps_pos
  have hp : 0 < v + e := by linarith
  refine ⟨(Real.sqrt (v + e))⁻¹, ?_⟩
  unfold invstdK
  rw [ev, ee, ← EReal.coe_add, Ideal.rsqrt_coe, if_neg (not_lt.mpr hp.le), if_neg hp.ne']

/-- Normalising, scaling, shifting and clamping real arrays gives a real array. -/
theorem isReal_norm {o : SN.Idx → EReal} {mu istd g be : SR.Idx → EReal}
    (ho : IsReal o) (hmu : IsReal mu) (hi : IsReal istd) (hg : IsReal g) (hbe : IsReal be) :
    IsReal (norm o mu istd g be) := by
  intro i
  obtain ⟨a, ea⟩ := ho i
  obtain ⟨m, em⟩ := hmu (ix2 0 (i 1))
  obtain ⟨s, es⟩ := hi (ix2 0 (i 1))
  obtain ⟨c, ec⟩ := hg (ix2 0 (i 1))
  obtain ⟨t, et⟩ := hbe (ix2 0 (i 1))
  refine ⟨max ((a - m) * s * c + t) 0, ?_⟩
  unfold norm
  rw [ea, em, es, ec, et, cZero_eq, ← EReal.coe_sub, ← EReal.coe_mul, ← EReal.coe_mul, ← EReal.coe_add,
    ← EReal.coe_zero]
  exact (coe_real_max _ _).symm

/-! ### One layer, three layers -/

theorem isReal_layerK {agg h : SN.Idx → EReal} {d : SC.Idx → EReal} {wl : SW.Idx → EReal} {b : SR.Idx → EReal} {wr : SW.Idx → EReal} {g be : SR.Idx → EReal}
    (hagg : IsReal agg) (hh : IsReal h) (hd : IsReal d) (hwl : IsReal wl) (hb : IsReal b) (hwr : IsReal wr) (hg : IsReal g) (hbe : IsReal be) :
    IsReal (layerK agg h d wl b wr g be) := by
  have ho := isReal_lin hagg hh hd hwl hb hwr
  exact isReal_norm ho (isReal_mean ho) (isReal_invstdK ho) hg hbe

theorem layerR_eq_layerK {agg h : SN.Idx → EReal} {d : SC.Idx → EReal} {wl : SW.Idx → EReal} {b : SR.Idx → EReal} {wr : SW.Idx → EReal} (g be : SR.Idx → EReal)
    (hagg : IsReal agg) (hh : IsReal h) (hd : IsReal d) (hwl : IsReal wl) (hb : IsReal b) (hwr : IsReal wr) :
    layerR agg h d wl b wr g be = layerK agg h d wl b wr g be := by
  unfold layerR layerK
  rw [linR_eq_lin, invstdR_eq_invstdK (isReal_lin hagg hh hd hwl hb hwr)]

theorem netR_eq_netK (A : (SN.Idx → EReal) → SN.Idx → EReal) (hA : ∀ h, IsReal h → IsReal (A h)) {d : SC.Idx → EReal} (hd : IsReal d)
    {Wl Wr : (⟨3, ![3, 128, 128]⟩ : Shape).Idx → EReal} {bl g be : (⟨2, ![3, 128]⟩ : Shape).Idx → EReal} {x : SN.Idx → EReal}
    (hWl : IsReal Wl) (hbl : IsReal bl) (hWr : IsReal Wr) (hg : IsReal g) (hbe : IsReal be) (hx : IsReal x) :
    net layerR A d Wl bl Wr g be x = net layerK A d Wl bl Wr g be x := by
  have hwl : ∀ l, IsReal (wOf Wl l) := fun l j => hWl _
  have hwr : ∀ l, IsReal (wOf Wr l) := fun l j => hWr _
  have hb : ∀ l, IsReal (rowOf bl l) := fun l j => hbl _
  have hgl : ∀ l, IsReal (rowOf g l) := fun l j => hg _
  have hbel : ∀ l, IsReal (rowOf be l) := fun l j => hbe _
  have eqL : ∀ (l : Fin 3) (h : SN.Idx → EReal), IsReal h →
      layerR (A h) h d (wOf Wl l) (rowOf bl l) (wOf Wr l) (rowOf g l) (rowOf be l)
        = layerK (A h) h d (wOf Wl l) (rowOf bl l) (wOf Wr l) (rowOf g l) (rowOf be l) :=
    fun l h hh => layerR_eq_layerK _ _ (hA h hh) hh hd (hwl l) (hb l) (hwr l)
  have realL : ∀ (l : Fin 3) (h : SN.Idx → EReal), IsReal h →
      IsReal (layerK (A h) h d (wOf Wl l) (rowOf bl l) (wOf Wr l) (rowOf g l) (rowOf be l)) :=
    fun l h hh => isReal_layerK (hA h hh) hh hd (hwl l) (hb l) (hwr l) (hgl l) (hbel l)
  unfold net
  dsimp only
  rw [eqL 0 x hx, eqL 1 _ (realL 0 x hx), eqL 2 _ (realL 1 _ (realL 0 x hx))]

end Cert.Sage

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.Finite.lean ====
/-
  The precondition, decoded: when the printed test "every entry of every float input has absolute value
  below +∞" evaluates to the bit 1 over the extended reals, each of the six float inputs is an array of
  real numbers.

  The test is the conjunction, by "and" on single bits, of six all-reductions, one per float input (the
  integer input is not tested). A conjunction of bits that is 1 has both bits 1, so each all-reduction
  is 1, and an all-reduction of the comparisons |x| < +∞ that is 1 says every entry is a real number.
-/
import proofs.«179303_j4578435137604_2_alg».proof.Pre_finite_inputs
import proofs.«179303_j4578435137604_2_alg».proof.Proof.LibFiniteAll
import proofs.«179303_j4578435137604_2_alg».proof.Proof.LibRealArrays

noncomputable section

open Idealize.ShloMosaic

open Cert.RealArr Cert.Pre_finite_inputs Cert.Pre_finite_inputs.Facts

namespace Cert.Finite

theorem real_of_pre [Cert.Pre_finite_inputs.Facts] (x : FVec Ideal S50000x128 .f32) (ei : IVec S2x1600000 32)
    (Wl : FVec Ideal S3x128x128 .f32) (bl : FVec Ideal S3x128 .f32) (Wr : FVec Ideal S3x128x128 .f32)
    (g : FVec Ideal S3x128 .f32) (be : FVec Ideal S3x128 .f32)
    (h : Cert.Pre_finite_inputs.fn (F := Ideal) x ei Wl bl Wr g be = fun _ => 1#1) :
    IsReal x ∧ IsReal Wl ∧ IsReal bl ∧ IsReal Wr ∧ IsReal g ∧ IsReal be := by
  have h0 : Cert.Pre_finite_inputs.fn (F := Ideal) x ei Wl bl Wr g be ValueIdx.ix0 = 1#1 := congrFun h ValueIdx.ix0
  unfold Cert.Pre_finite_inputs.fn Cert.Pre_finite_inputs.fn_part1 at h0
  dsimp only at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨e1, e2⟩ := IntOp.andi_eq_one.1 h2
  exact ⟨Cert.FiniteAll.all_real x bcast_S_S50000x128 reducesTo_S50000x128_S_d0_1 h_S_ ValueIdx.ix0 e1,
    Cert.FiniteAll.all_real Wl bcast_S_S3x128x128 reducesTo_S3x128x128_S_d0_1_2 h_S_ ValueIdx.ix0 e2,
    Cert.FiniteAll.all_real bl bcast_S_S3x128 reducesTo_S3x128_S_d0_1 h_S_ ValueIdx.ix0 e3,
    Cert.FiniteAll.all_real Wr bcast_S_S3x128x128 reducesTo_S3x128x128_S_d0_1_2 h_S_ ValueIdx.ix0 e4,
    Cert.FiniteAll.all_real g bcast_S_S3x128 reducesTo_S3x128_S_d0_1 h_S_ ValueIdx.ix0 e5,
    Cert.FiniteAll.all_real be bcast_S_S3x128 reducesTo_S3x128_S_d0_1 h_S_ ValueIdx.ix0 e6⟩

end Cert.Finite

end
-- ==== Proof.lean ====
/-
  Three layers of mean-aggregating graph convolution with batch normalisation: a kernel program of six launches
  against a plain array program, equal over the extended reals.

  One layer sends node features `h` to `max (((out − mean) · invstd) · scale + shift) 0`, where
  `out = (agg · d) Wlᵀ + h Wrᵀ + bias`, `agg` the neighbour sums of `h`, `d` the inverse in-degrees, `mean` the column
  means of `out` and `invstd = 1 / √(var + ε)`. The kernel program forms `out`, `Σ out` and `Σ out²` tile by tile in one
  launch per layer, takes `var = max (Σ out² / N − mean², 0)` on the host and normalises in a second launch; the
  reference takes `var = Σ (out − mean)² / N`. Under the precondition every float input is an array of real numbers,
  so is every intermediate array, and on real arrays the two variances are one number and the clamp does nothing:
  the two programs' results are the same function of the arguments. The neighbour aggregation and the inverse
  degrees are the same host operations in both programs and are never opened; a change of float format is the
  identity over the extended reals.

  The frames of the two kernel programs are the generated ones; the reference's frame is its run with the result
  dropped; nothing was rewritten by the idealization, so `preserves` is trivial.
-/
import proofs.«179303_j4578435137604_2_alg».proof.Defs
import proofs.«179303_j4578435137604_2_alg».proof.Proof.Gen.Kernel
import proofs.«179303_j4578435137604_2_alg».proof.Proof.Gen.Kernel.Frame
import proofs.«179303_j4578435137604_2_alg».proof.Proof.Gen.KernelIdeal
import proofs.«179303_j4578435137604_2_alg».proof.Proof.Gen.KernelIdeal.Frame
import proofs.«179303_j4578435137604_2_alg».proof.Proof.Gen.ReferenceIdeal
import proofs.«179303_j4578435137604_2_alg».proof.Proof.Gen.Pre_finite_inputs
import proofs.«179303_j4578435137604_2_alg».proof.Proof.KRunNamed
import proofs.«179303_j4578435137604_2_alg».proof.Proof.KValue
import proofs.«179303_j4578435137604_2_alg».proof.Proof.KReal
import proofs.«179303_j4578435137604_2_alg».proof.Proof.RValue
import proofs.«179303_j4578435137604_2_alg».proof.Proof.Algebra
import proofs.«179303_j4578435137604_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run (Cert.ReferenceIdeal.defs (F := Ideal)) _ _).mono (fun _ h c => (h c).2) (Cert.ReferenceIdeal.RefValue.run m ρ)

/-- The two programs aggregate neighbours by the same host operations. -/
theorem agg_eq (ei : IVec Cert.KernelIdeal.S2x1600000 32) :
    Cert.ReferenceIdeal.RefValue.aggR ei
      = fun h => Cert.KernelIdeal.KValue.aggOf (Cert.KernelIdeal.KValue.v1Of ei) (Cert.KernelIdeal.KValue.v3Of ei) h :=
  funext fun _ => rfl

/-- The two programs form the inverse-degree column by the same host operations. -/
theorem invDeg_eq (ei : IVec Cert.KernelIdeal.S2x1600000 32) :
    Cert.ReferenceIdeal.RefValue.invDegR ei = Cert.KernelIdeal.KValue.invDegOf (Cert.KernelIdeal.KValue.v3Of ei) := rfl

set_option maxHeartbeats 1000000 in
/-- Both programs end with the three-layer composition of their arguments: the kernel program in the
    mean-of-squares form, the reference in the squared-deviations form, equal on the real arrays the precondition
    grants. -/
theorem algebraic : Cert.algebraic_KernelIdeal_ReferenceIdeal := by
  intro m ρ m' ρ' hpre hagree
  refine ⟨fun c => Cert.KernelIdeal.KValue.netOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run (Cert.KernelIdeal.defs (F := Ideal)) _ _).mono
      (fun r h c => ⟨(h c).1.trans (Cert.KernelIdeal.KValue.result_eq m ρ c), (h c).2⟩) (Cert.KernelIdeal.RunNamed.run m ρ)
  · refine (θ_run (Cert.ReferenceIdeal.defs (F := Ideal)) _ _).mono (fun r h c => ⟨(h c).1.trans ?_, (h c).2⟩)
      (Cert.ReferenceIdeal.RefValue.run m' ρ')
    obtain ⟨e0, e1, e2, e3, e4, e5, e6⟩ := hagree c
    obtain ⟨rx, rWl, rbl, rWr, rg, rbe⟩ := Cert.Finite.real_of_pre _ _ _ _ _ _ _ (hpre c)
    rw [e0, e1, e2, e3, e4, e5, e6, agg_eq, invDeg_eq]
    exact Cert.Sage.netR_eq_netK _ (fun h hh => Cert.KernelIdeal.KValue.isReal_aggOf _ _ h hh)
      (Cert.KernelIdeal.KValue.isReal_invDegOf _) rWl rbl rWr rg rbe rx

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
